-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_28" .f32 0x3D124925#32 ((1 / 28 : ℝ) : EReal)
  ∧ IdealRules.named_const.Statement Cert.KernelIdeal.κ "inv_28" .f32 0x3D124925#32 ((1 / 28 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg8 : FVec F S768x768 .f32) (main_arg9 : FVec F S768 .f32) (main_v33 : IVec S_ 1) : IVec S_ 1 :=
  let main_v34 : FVec F S768x768 .f32 := Host.absf main_arg8
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg9
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg5 : FVec F S768 .f32) (main_arg6 : FVec F S768x768 .f32) (main_arg7 : FVec F S768 .f32) (main_arg8 : FVec F S768x768 .f32) (main_arg9 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg6
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg7
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg8 main_arg9 main_v33

def fn {F : FTy → Type} [FloatOps F] (main_arg0 : FVec F S8x2048x768 .f32) (main_arg1 : IVec S8x2048x2048 32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S768x768 .f32) (main_arg9 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S768x768 .f32 := Host.absf main_arg2
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg5 main_arg6 main_arg7 main_arg8 main_arg9 main_v13 main_v16
-- ==== Kernel.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S8x768x768 : Shape := ⟨3, ![8, 768, 768]⟩
abbrev S1x512x768 : Shape := ⟨3, ![1, 512, 768]⟩
abbrev S1x768x768 : Shape := ⟨3, ![1, 768, 768]⟩
abbrev S512x768 : Shape := ⟨2, ![512, 768]⟩
abbrev S1x768 : Shape := ⟨2, ![1, 768]⟩
abbrev S1x1024x768 : Shape := ⟨3, ![1, 1024, 768]⟩
abbrev S1x1024x512 : Shape := ⟨3, ![1, 1024, 512]⟩
abbrev S1024x1 : Shape := ⟨2, ![1024, 1]⟩
abbrev S1024x768 : Shape := ⟨2, ![1024, 768]⟩
abbrev S1024x512 : Shape := ⟨2, ![1024, 512]⟩
abbrev S1024 : Shape := ⟨1, ![1024]⟩

abbrev nBuf : Space → Nat
  | .hbm => 16
  | .vmem => 40
  | .smem => 0
  | _ => 0

abbrev bufTy : (tb : Table) → Fin (tcTables nBuf tb) → BufTy
  | .hbm, ⟨0, _⟩ => ⟨S8x2048x768, .f32⟩
  | .hbm, ⟨1, _⟩ => ⟨S8x2048x2048, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S8x2048x768, .bf16⟩
  | .hbm, ⟨11, _⟩ => ⟨S8x2048x768, .bf16⟩
  | .hbm, ⟨12, _⟩ => ⟨S8x768x768, .f32⟩
  | .hbm, ⟨13, _⟩ => ⟨S8x2048x768, .f32⟩
  | .hbm, ⟨14, _⟩ => ⟨S8x2048x768, .bf16⟩
  | .hbm, ⟨15, _⟩ => ⟨S8x2048x768, .f32⟩
  | .local _ .vmem, ⟨0, _⟩ => ⟨S1x512x768, .f32⟩
  | .local _ .vmem, ⟨1, _⟩ => ⟨S1x512x768, .f32⟩
  | .local _ .vmem, ⟨2, _⟩ => ⟨S768x768, .f32⟩
  | .local _ .vmem, ⟨3, _⟩ => ⟨S768, .f32⟩
  | .local _ .vmem, ⟨4, _⟩ => ⟨S768x768, .f32⟩
  | .local _ .vmem, ⟨5, _⟩ => ⟨S768, .f32⟩
  | .local _ .vmem, ⟨6, _⟩ => ⟨S1x512x768, .bf16⟩
  | .local _ .vmem, ⟨7, _⟩ => ⟨S1x512x768, .bf16⟩
  | .local _ .vmem, ⟨8, _⟩ => ⟨S1x512x768, .bf16⟩
  | .local _ .vmem, ⟨9, _⟩ => ⟨S1x512x768, .bf16⟩
  | .local _ .vmem, ⟨10, _⟩ => ⟨S1x768x768, .f32⟩
  | .local _ .vmem, ⟨11, _⟩ => ⟨S1x768x768, .f32⟩
  | .local _ .vmem, ⟨12, _⟩ => ⟨S768x768, .f32⟩
  | .local _ .vmem, ⟨13, _⟩ => ⟨S1x512x768, .bf16⟩
  | .local _ .vmem, ⟨14, _⟩ => ⟨S1x512x768, .bf16⟩
  | .local _ .vmem, ⟨15, _⟩ => ⟨S1x768x768, .f32⟩
  | .local _ .vmem, ⟨16, _⟩ => ⟨S1x768x768, .f32⟩
  | .local _ .vmem, ⟨17, _⟩ => ⟨S768x768, .f32⟩
  | .local _ .vmem, ⟨18, _⟩ => ⟨S768, .f32⟩
  | .local _ .vmem, ⟨19, _⟩ => ⟨S1x512x768, .f32⟩
  | .local _ .vmem, ⟨20, _⟩ => ⟨S1x512x768, .f32⟩
  | .local _ .vmem, ⟨21, _⟩ => ⟨S1x512x768, .bf16⟩
  | .local _ .vmem, ⟨22, _⟩ => ⟨S1x512x768, .bf16⟩
  | .local _ .vmem, ⟨23, _⟩ => ⟨S1x1024x768, .bf16⟩
  | .local _ .vmem, ⟨24, _⟩ => ⟨S1x1024x768, .bf16⟩
  | .local _ .vmem, ⟨25, _⟩ => ⟨S1x512x768, .bf16⟩
  | .local _ .vmem, ⟨26, _⟩ => ⟨S1x512x768, .bf16⟩
  | .local _ .vmem, ⟨27, _⟩ => ⟨S1x512x768, .bf16⟩
  | .local _ .vmem, ⟨28, _⟩ => ⟨S1x512x768, .bf16⟩
  | .local _ .vmem, ⟨29, _⟩ => ⟨S1x1024x768, .f32⟩
  | .local _ .vmem, ⟨30, _⟩ => ⟨S1x1024x768, .f32⟩
  | .local _ .vmem, ⟨31, _⟩ => ⟨S1x1024x512, .i32⟩
  | .local _ .vmem, ⟨32, _⟩ => ⟨S1x1024x512, .i32⟩
  | .local _ .vmem, ⟨33, _⟩ => ⟨S768x768, .f32⟩
  | .local _ .vmem, ⟨34, _⟩ => ⟨S768, .f32⟩
  | .local _ .vmem, ⟨35, _⟩ => ⟨S1x1024x768, .f32⟩
  | .local _ .vmem, ⟨36, _⟩ => ⟨S1x1024x768, .f32⟩
  | .local _ .vmem, ⟨37, _⟩ => ⟨S1024x1, .f32⟩
  | .local _ .vmem, ⟨38, _⟩ => ⟨S1024x1, .f32⟩
  | .local _ .vmem, ⟨39, _⟩ => ⟨S1024x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0_0 : Ref sig .tc := ⟨.hbm, 10, rfl⟩
abbrev main_call0_v0_1 : Ref sig .tc := ⟨.hbm, 11, rfl⟩
abbrev main_call0_v0_2 : Ref sig .tc := ⟨.hbm, 12, rfl⟩
abbrev main_call0_v1_0 : Ref sig .tc := ⟨.hbm, 13, rfl⟩
abbrev main_call0_v1_1 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc2_scratch0 : Ref sig .tc := ⟨.vmem, 37, rfl⟩
abbrev cc2_scratch1 : Ref sig .tc := ⟨.vmem, 38, rfl⟩
abbrev cc2_scratch2 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_21 : BitVec 32 := 0#32
  let v36 : BitVec 1 := Scalar.cmpi .ne v35 c0_i32_21
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x768x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S768x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x768 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![8, 2, 4], ![false, false, false]⟩

def k2_cond2 (i : grid2.Coords) : BitVec 1 :=
  let arg2 : BitVec 32 := BitVec.ofNat 32 (i 2).val
  let c3_i32 : BitVec 32 := 3#32
  let v48 : BitVec 1 := Scalar.cmpi .eq arg2 c3_i32
  let v49 : BitVec 32 := Scalar.extui v48
  let c0_i32_31 : BitVec 32 := 0#32
  let v50 : BitVec 1 := Scalar.cmpi .ne v49 c0_i32_31
  v50

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1024x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x1024x512 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 1 → Memref sig .tc .vmem S768x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 2 → Memref sig .tc .vmem S1x1024x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

class Facts₀ : Prop where
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  shapeCasts_S768x768_S768x768 : S768x768.ShapeCasts S768x768
  shapeCasts_S512x768_S1x512x768 : S512x768.ShapeCasts S1x512x768
  packedbf16_S1x512x768_S1x512x768_0_0_0 : (Rect.unit (s := S1x512x768) ![0, 0, 0] S1x512x768.size inb_S1x512x768_S1x512x768_0_0_0).PackedRows (EltTy.packing .bf16)
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  shapeCasts_S768x768_S1x768x768 : S768x768.ShapeCasts S1x768x768
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x768 : S1024x1.Broadcasts S1024x768
  broadcasts_S1x768_S1024x768 : S1x768.Broadcasts S1024x768
  shapeCasts_S1024x768_S1x1024x768 : S1024x768.ShapeCasts S1x1024x768
  dot_S512x768_S768x768_S512x768_1_1_0_0_n_n_wf : DotDims.WF S512x768 S768x768 S512x768 [1] [1] [0] [0] [] []
  dot_S512x768_S512x768_S768x768_0_0_1_1_n_n_wf : DotDims.WF S512x768 S512x768 S768x768 [0] [0] [1] [1] [] []
  dot_S512x768_S768x768_S512x768_1_0_0_1_n_n_wf : DotDims.WF S512x768 S768x768 S512x768 [1] [0] [0] [1] [] []
  dot_S1024x768_S512x768_S1024x512_1_1_0_0_n_n_wf : DotDims.WF S1024x768 S512x768 S1024x512 [1] [1] [0] [0] [] []
  dot_S1024x512_S512x768_S1024x768_1_0_0_1_n_n_wf : DotDims.WF S1024x512 S512x768 S1024x768 [1] [0] [0] [1] [] []
  dot_S1024x768_S768x768_S1024x768_1_1_0_0_n_n_wf : DotDims.WF S1024x768 S768x768 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x2048x768.size a
  hwx0_0 : ∀ i : grid0.Coords, EltTy.bits .f32 = 32 ∨ (Rect.block (s := S8x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x768.size a ≤ S8x2048x768.size a
  hwx0_5 : ∀ i : grid0.Coords, EltTy.bits .bf16 = 32 ∨ (Rect.block (s := S8x2048x768) S1x512x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x768.size a ≤ S8x2048x768.size a
  hwx0_6 : ∀ i : grid0.Coords, EltTy.bits .bf16 = 32 ∨ (Rect.block (s := S8x2048x768) S1x512x768.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x768x768.size a ≤ S8x768x768.size a
  hwx0_7 : ∀ i : grid0.Coords, EltTy.bits .f32 = 32 ∨ (Rect.block (s := S8x768x768) S1x768x768.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x768.size a ≤ S8x2048x768.size a
  hwx1_0 : ∀ i : grid1.Coords, EltTy.bits .bf16 = 32 ∨ (Rect.block (s := S8x2048x768) S1x512x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x768x768.size a ≤ S8x768x768.size a
  hwx1_1 : ∀ i : grid1.Coords, EltTy.bits .f32 = 32 ∨ (Rect.block (s := S8x768x768) S1x768x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S768x768.size a
  hwx1_2 : ∀ i : grid1.Coords, EltTy.bits .f32 = 32 ∨ (Rect.block (s := S768x768) S768x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768.size a ≤ S768.size a
  hwx1_3 : ∀ i : grid1.Coords, EltTy.bits .f32 = 32 ∨ (Rect.block (s := S768) S768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x768.size a ≤ S8x2048x768.size a
  hwx1_4 : ∀ i : grid1.Coords, EltTy.bits .f32 = 32 ∨ (Rect.block (s := S8x2048x768) S1x512x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x768.size a ≤ S8x2048x768.size a
  hwx1_5 : ∀ i : grid1.Coords, EltTy.bits .bf16 = 32 ∨ (Rect.block (s := S8x2048x768) S1x512x768.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x768.size a ≤ S8x2048x768.size a
  hwx2_0 : ∀ i : grid2.Coords, EltTy.bits .bf16 = 32 ∨ (Rect.block (s := S8x2048x768) S1x1024x768.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x768.size a ≤ S8x2048x768.size a
  hwx2_1 : ∀ i : grid2.Coords, EltTy.bits .bf16 = 32 ∨ (Rect.block (s := S8x2048x768) S1x512x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x768.size a ≤ S8x2048x768.size a
  hwx2_2 : ∀ i : grid2.Coords, EltTy.bits .bf16 = 32 ∨ (Rect.block (s := S8x2048x768) S1x512x768.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x768.size a ≤ S8x2048x768.size a
  hwx2_3 : ∀ i : grid2.Coords, EltTy.bits .f32 = 32 ∨ (Rect.block (s := S8x2048x768) S1x1024x768.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x512.size a ≤ S8x2048x2048.size a
  hwx2_4 : ∀ i : grid2.Coords, EltTy.bits .i32 = 32 ∨ (Rect.block (s := S8x2048x2048) S1x1024x512.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S768x768.size a ≤ S768x768.size a
  hwx2_5 : ∀ i : grid2.Coords, EltTy.bits .f32 = 32 ∨ (Rect.block (s := S768x768) S768x768.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S768.size a ≤ S768.size a
  hwx2_6 : ∀ i : grid2.Coords, EltTy.bits .f32 = 32 ∨ (Rect.block (s := S768) S768.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1024x768.size a ≤ S8x2048x768.size a
  hwx2_7 : ∀ i : grid2.Coords, EltTy.bits .f32 = 32 ∨ (Rect.block (s := S8x2048x768) S1x1024x768.size (cc2_transform_7 i) (hinb2_7 i)).WholeWords (EltTy.packing .f32)

variable [Facts₀]

def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf
def dot_S512x768_S512x768_S768x768_0_0_1_1_n_n : DotDims S512x768 S512x768 S768x768 where
  lhsContracting := [0]
  rhsContracting := [0]
  lhsNonContracting := [1]
  rhsNonContracting := [1]
  lhsBatch := []
  rhsBatch := []
  wf := dot_S512x768_S512x768_S768x768_0_0_1_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf
def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_0) S1x512x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0_1) S1x512x768.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v0_2) S1x768x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_call0_v0_0) S1x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0_2) S1x768x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S768x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1_0) S1x512x768.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v1_1) S1x512x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v0_0) S1x1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v0_1) S1x512x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1_1) S1x512x768.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v1_0) S1x1024x768.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S1x1024x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S768x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S768.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v0) S1x1024x768.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S8x2048x768 : Shape := ⟨3, ![8, 2048, 768]⟩
abbrev S8x2048x2048 : Shape := ⟨3, ![8, 2048, 2048]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x2048, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S8x2048x768, .f32⟩
  | .hbm, ⟨11, _⟩ => ⟨S1x1x768, .f32⟩
  | .hbm, ⟨12, _⟩ => ⟨S8x2048x768, .f32⟩
  | .hbm, ⟨13, _⟩ => ⟨S8x2048x768, .f32⟩
  | .hbm, ⟨14, _⟩ => ⟨S8x2048x768, .f32⟩
  | .hbm, ⟨15, _⟩ => ⟨S1x1x768, .f32⟩
  | .hbm, ⟨16, _⟩ => ⟨S8x2048x768, .f32⟩
  | .hbm, ⟨17, _⟩ => ⟨S8x2048x768, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x768, .f32⟩
  | .hbm, ⟨23, _⟩ => ⟨S8x2048x768, .f32⟩
  | .hbm, ⟨24, _⟩ => ⟨S1x1x768, .f32⟩
  | .hbm, ⟨25, _⟩ => ⟨S8x2048x768, .f32⟩
  | .hbm, ⟨26, _⟩ => ⟨S8x2048x768, .f32⟩
  | .hbm, ⟨27, _⟩ => ⟨S_, .i32⟩
  | .hbm, ⟨28, _⟩ => ⟨S8x2048x2048, .i32⟩
  | .hbm, ⟨29, _⟩ => ⟨S8x2048x2048, .i1⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S8x2048x768, .f32⟩
  | .hbm, ⟨48, _⟩ => ⟨S8x2048x768, .f32⟩
  | .hbm, ⟨49, _⟩ => ⟨S1x1x768, .f32⟩
  | .hbm, ⟨50, _⟩ => ⟨S8x2048x768, .f32⟩
  | .hbm, ⟨51, _⟩ => ⟨S8x2048x768, .f32⟩
  | .hbm, ⟨52, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_call0_v0 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S768x768_S8x2048x768_2_1_01_0_n_n_wf : DotDims.WF S8x2048x768 S768x768 S8x2048x768 [2] [1] [0, 1] [0] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_1_01_0_n_n : DotDims S8x2048x768 S768x768 S8x2048x768 where
  lhsContracting := [2]
  rhsContracting := [1]
  lhsNonContracting := [0, 1]
  rhsNonContracting := [0]
  lhsBatch := []
  rhsBatch := []
  wf := dot_S8x2048x768_S768x768_S8x2048x768_2_1_01_0_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.K.Reg0.Base.lean ====
import proofs.«152342_j15135464751210_2_alg».proof.Proof.Gen.Kernel.Launch
import proofs.«152342_j15135464751210_2_alg».proof.Proof.Gen.Kernel.Skeleton
import proofs.«152342_j15135464751210_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the TensorCore's buffer contents when the region is entered: everything of the region is stated at them
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place: unfetched, the block index
    has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place: unfetched, the block index
    has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place: unfetched, the block index
    has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place: unfetched, the block index
    has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the entry contents and whose body leaves the block in place: unfetched, the block index
    has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The body's two conditions, in closed form over the grid -/

/-- The first conditional's condition (the row-tile index is 0), from the grid coordinates. -/
abbrev cond0_0 (i : grid0.Coords) : Prop := (Scalar.cmpi .ne (Scalar.extui (Scalar.cmpi .eq (BitVec.ofNat 32 (i 1).val) 0#32)) 0#32) = 1#1
/-- It holds exactly at the first row tile of each batch. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the row-tile index is 3, the last). -/
abbrev cond0_1 (i : grid0.Coords) : Prop := k0_cond2 i = 1#1
/-- It holds exactly at the last row tile of each batch. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are live and where the accumulated product's window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Where the second condition fails nothing is stored into window 7: it is idle there and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- Where it holds the window is live. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1x512x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768x768 .f32 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0_0 : Memref sig .tc .vmem S768x768 .f32 := Memref.whole cc0_scratch0
/-- Views through which the outputs' and the accumulator's contents are stated (any whole buffer of the shape does). -/
abbrev VS0_0 : View sig .tc .vmem S768x768 .f32 := scM0_0.view
abbrev VO0_5 : View sig .tc .vmem S1x512x768 .bf16 := (Memref.whole cc0_stg5_0 : Memref sig .tc .vmem S1x512x768 .bf16).view
abbrev VO0_6 : View sig .tc .vmem S1x512x768 .bf16 := (Memref.whole cc0_stg6_0 : Memref sig .tc .vmem S1x512x768 .bf16).view
abbrev VO0_7 : View sig .tc .vmem S1x768x768 .f32 := (Memref.whole cc0_stg7_0 : Memref sig .tc .vmem S1x768x768 .f32).view

/-- The region invariant of the class with the accumulator split off: the accumulator owned at some contents, every
    other scoped buffer unopened, the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Rgn

end
-- ==== Proof.K.Reg0.RunA.lean ====
import proofs.«152342_j15135464751210_2_alg».proof.Proof.K.Reg0.Base

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The whole body at a point of the FIRST row tile of a batch (first conditional taken, second not): on whole memrefs — the five inputs at their contents, the two row-tile outputs at anything, the accumulated product's window (idle here) at contents handed back untouched, the accumulator at ANYTHING (it is zeroed before it is read) — the body runs to the continuation with the inputs as they were, each stored buffer with its pieces written. The pieces are the witnesses the run finds. -/
noncomputable def kernelRun0_A (c : Dev nD) (i : grid0.Coords) (arg2 : Memref sig .tc .vmem S1x512x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .f32) (harg9 : arg9.IsWhole) (arg10 : Memref sig .tc .vmem S768x768 .f32) (harg10 : arg10.IsWhole) (hc0 : cond0_0 i) (hc1 : ¬cond0_1 i)
    (x0 : Vec F S1x512x768 .f32) (x1 : Vec F S768x768 .f32) (x2 : Vec F S768 .f32) (x3 : Vec F S768x768 .f32) (x4 : Vec F S768 .f32) :
    Σ' (L5 : List (View.Piece (Elt F) S1x512x768 .bf16)) (L6 : List (View.Piece (Elt F) S1x512x768 .bf16)) (L7 : List (View.Piece (Elt F) S1x768x768 .f32)), { LS0 : List (View.Piece (Elt F) S768x768 .f32) //
      ∀ (xi7 : Vec F S1x768x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__stage1a_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    sl_unfold [cc0__stage1a_kernel, cc0__stage1a_kernel_skel]
    sl_unfold [k0_part1, k0_part1_skel]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.Kernel.Rgn

end
-- ==== Proof.K.Reg0.RunB.lean ====
import proofs.«152342_j15135464751210_2_alg».proof.Proof.K.Reg0.RunA

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The whole body at a point of a MIDDLE row tile (neither conditional taken): as at the first tile, except that the accumulator is read before it is stored, so it is taken at the contents `xs0` the point before left. -/
noncomputable def kernelRun0_B (c : Dev nD) (i : grid0.Coords) (arg2 : Memref sig .tc .vmem S1x512x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .f32) (harg9 : arg9.IsWhole) (arg10 : Memref sig .tc .vmem S768x768 .f32) (harg10 : arg10.IsWhole) (hc0 : ¬cond0_0 i) (hc1 : ¬cond0_1 i)
    (x0 : Vec F S1x512x768 .f32) (x1 : Vec F S768x768 .f32) (x2 : Vec F S768 .f32) (x3 : Vec F S768x768 .f32) (x4 : Vec F S768 .f32) (xs0 : Vec F S768x768 .f32) :
    Σ' (L5 : List (View.Piece (Elt F) S1x512x768 .bf16)) (L6 : List (View.Piece (Elt F) S1x512x768 .bf16)) (L7 : List (View.Piece (Elt F) S1x768x768 .f32)), { LS0 : List (View.Piece (Elt F) S768x768 .f32) //
      ∀ (xi7 : Vec F S1x768x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__stage1a_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    sl_unfold [cc0__stage1a_kernel, cc0__stage1a_kernel_skel]
    sl_unfold [k0_part1, k0_part1_skel]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.Kernel.Rgn

end
-- ==== Proof.K.Reg0.RunC.lean ====
import proofs.«152342_j15135464751210_2_alg».proof.Proof.K.Reg0.RunB

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The whole body at a point of the LAST row tile of a batch (first conditional not taken, second taken): the accumulator is taken at the contents `xs0` the point before left, and the accumulated product's window, live here, is taken at anything and left with its pieces written. -/
noncomputable def kernelRun0_C (c : Dev nD) (i : grid0.Coords) (arg2 : Memref sig .tc .vmem S1x512x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .f32) (harg9 : arg9.IsWhole) (arg10 : Memref sig .tc .vmem S768x768 .f32) (harg10 : arg10.IsWhole) (hc0 : ¬cond0_0 i) (hc1 : cond0_1 i)
    (x0 : Vec F S1x512x768 .f32) (x1 : Vec F S768x768 .f32) (x2 : Vec F S768 .f32) (x3 : Vec F S768x768 .f32) (x4 : Vec F S768 .f32) (xs0 : Vec F S768x768 .f32) :
    Σ' (L5 : List (View.Piece (Elt F) S1x512x768 .bf16)) (L6 : List (View.Piece (Elt F) S1x512x768 .bf16)) (L7 : List (View.Piece (Elt F) S1x768x768 .f32)), { LS0 : List (View.Piece (Elt F) S768x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__stage1a_kernel i arg2 harg2 arg3 harg3 arg4 harg4 arg5 harg5 arg6 harg6 arg7 harg7 arg8 harg8 arg9 harg9 arg10 harg10) K } := by
  refine ⟨?_, ?_, ?_, ?_, fun E K => ?run⟩
  case run =>
    sl_unfold [cc0__stage1a_kernel, cc0__stage1a_kernel_skel]
    sl_unfold [k0_part1, k0_part1_skel]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.Kernel.Rgn

end
-- ==== Proof.K.Reg0.lean ====
import proofs.«152342_j15135464751210_2_alg».proof.Proof.K.Reg0.RunC

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the TensorCore's buffer contents when the region is entered
variable (V : (c : Dev nD) → (b : Ref sig .tc) → Buf (Elt F) ((c : Thread nD τ).loc b))

/-! ## Case A: the first row tile of a batch -/

/-- The body's run at grid point `t`, a point of the first row tile of a batch: on the point's staging memrefs and the accumulator, at the point's input blocks. -/
def runAt0_A (c : Dev nD) (t : Fin cfg0.N) (h0 : t.val % 4 = 0) (h1 : ¬t.val % 4 = 3) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- Its stores into the q tile's buffer cover the buffer. -/
theorem cover0_A_5 (c : Dev nD) (t : Fin cfg0.N) (h0 : t.val % 4 = 0) (h1 : ¬t.val % 4 = 3) (y : S1x512x768.Idx) :
    ∃ pc ∈ (runAt0_A V c t h0 h1).1, y ∈ pc.1.set :=
  View.cover_of_tiledL (runAt0_A V c t h0 h1).1 S1x512x768.size (by sl_kernel_rfl) y
/-- Its stores into the k tile's buffer cover the buffer. -/
theorem cover0_A_6 (c : Dev nD) (t : Fin cfg0.N) (h0 : t.val % 4 = 0) (h1 : ¬t.val % 4 = 3) (y : S1x512x768.Idx) :
    ∃ pc ∈ (runAt0_A V c t h0 h1).2.1, y ∈ pc.1.set :=
  View.cover_of_tiledL (runAt0_A V c t h0 h1).2.1 S1x512x768.size (by sl_kernel_rfl) y
/-- Its stores into the accumulator cover it. -/
theorem scover0_A (c : Dev nD) (t : Fin cfg0.N) (h0 : t.val % 4 = 0) (h1 : ¬t.val % 4 = 3) (y : S768x768.Idx) :
    ∃ pc ∈ (runAt0_A V c t h0 h1).2.2.2.1, y ∈ pc.1.set :=
  View.cover_of_tiledL (runAt0_A V c t h0 h1).2.2.2.1 S768x768.size (by sl_kernel_rfl) y

/-- What the point leaves: in the q tile's and the k tile's buffers, in the accumulated product's buffer (nothing is stored there at such a point: a placeholder nothing consults, the window being idle and not written back), and in the accumulator — each buffer's pieces read back (over contents that do not matter, the pieces covering). -/
def outs0_A (c : Dev nD) (t : Fin cfg0.N) (h0 : t.val % 4 = 0) (h1 : ¬t.val % 4 = 3) : Vec F S1x512x768 .bf16 × Vec F S1x512x768 .bf16 × Vec F S1x768x768 .f32 × Vec F S768x768 .f32 :=
  (VO0_5.read (Elt F) (VO0_5.writes (Elt F) VO0_5.junk (runAt0_A V c t h0 h1).1),
   VO0_6.read (Elt F) (VO0_6.writes (Elt F) VO0_6.junk (runAt0_A V c t h0 h1).2.1),
   VO0_7.read (Elt F) (VO0_7.writes (Elt F) VO0_7.junk (runAt0_A V c t h0 h1).2.2.1),
   VS0_0.read (Elt F) (VS0_0.writes (Elt F) VS0_0.junk (runAt0_A V c t h0 h1).2.2.2.1))

/-! ## Case B: a middle row tile -/

/-- The body's run at grid point `t`, a point of a middle row tile: on the point's staging memrefs and the accumulator, at the point's input blocks and the accumulator's contents `xs` before the point. -/
def runAt0_B (c : Dev nD) (t : Fin cfg0.N) (h0 : ¬t.val % 4 = 0) (h1 : ¬t.val % 4 = 3) (xs : Vec F S768x768 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs

/-- Its stores into the q tile's buffer cover the buffer. -/
theorem cover0_B_5 (c : Dev nD) (t : Fin cfg0.N) (h0 : ¬t.val % 4 = 0) (h1 : ¬t.val % 4 = 3) (xs : Vec F S768x768 .f32) (y : S1x512x768.Idx) :
    ∃ pc ∈ (runAt0_B V c t h0 h1 xs).1, y ∈ pc.1.set :=
  View.cover_of_tiledL (runAt0_B V c t h0 h1 xs).1 S1x512x768.size (by sl_kernel_rfl) y
/-- Its stores into the k tile's buffer cover the buffer. -/
theorem cover0_B_6 (c : Dev nD) (t : Fin cfg0.N) (h0 : ¬t.val % 4 = 0) (h1 : ¬t.val % 4 = 3) (xs : Vec F S768x768 .f32) (y : S1x512x768.Idx) :
    ∃ pc ∈ (runAt0_B V c t h0 h1 xs).2.1, y ∈ pc.1.set :=
  View.cover_of_tiledL (runAt0_B V c t h0 h1 xs).2.1 S1x512x768.size (by sl_kernel_rfl) y
/-- Its stores into the accumulator cover it. -/
theorem scover0_B (c : Dev nD) (t : Fin cfg0.N) (h0 : ¬t.val % 4 = 0) (h1 : ¬t.val % 4 = 3) (xs : Vec F S768x768 .f32) (y : S768x768.Idx) :
    ∃ pc ∈ (runAt0_B V c t h0 h1 xs).2.2.2.1, y ∈ pc.1.set :=
  View.cover_of_tiledL (runAt0_B V c t h0 h1 xs).2.2.2.1 S768x768.size (by sl_kernel_rfl) y

/-- What the point leaves: in the q tile's and the k tile's buffers, in the accumulated product's buffer (nothing is stored there at such a point: a placeholder nothing consults, the window being idle and not written back), and in the accumulator — each buffer's pieces read back (over contents that do not matter, the pieces covering). -/
def outs0_B (c : Dev nD) (t : Fin cfg0.N) (h0 : ¬t.val % 4 = 0) (h1 : ¬t.val % 4 = 3) (xs : Vec F S768x768 .f32) : Vec F S1x512x768 .bf16 × Vec F S1x512x768 .bf16 × Vec F S1x768x768 .f32 × Vec F S768x768 .f32 :=
  (VO0_5.read (Elt F) (VO0_5.writes (Elt F) VO0_5.junk (runAt0_B V c t h0 h1 xs).1),
   VO0_6.read (Elt F) (VO0_6.writes (Elt F) VO0_6.junk (runAt0_B V c t h0 h1 xs).2.1),
   VO0_7.read (Elt F) (VO0_7.writes (Elt F) VO0_7.junk (runAt0_B V c t h0 h1 xs).2.2.1),
   VS0_0.read (Elt F) (VS0_0.writes (Elt F) VS0_0.junk (runAt0_B V c t h0 h1 xs).2.2.2.1))

/-! ## Case C: the last row tile of a batch -/

/-- The body's run at grid point `t`, a point of the last row tile of a batch: on the point's staging memrefs and the accumulator, at the point's input blocks and the accumulator's contents `xs` before the point. -/
def runAt0_C (c : Dev nD) (t : Fin cfg0.N) (h0 : ¬t.val % 4 = 0) (h1 : t.val % 4 = 3) (xs : Vec F S768x768 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs

/-- Its stores into the q tile's buffer cover the buffer. -/
theorem cover0_C_5 (c : Dev nD) (t : Fin cfg0.N) (h0 : ¬t.val % 4 = 0) (h1 : t.val % 4 = 3) (xs : Vec F S768x768 .f32) (y : S1x512x768.Idx) :
    ∃ pc ∈ (runAt0_C V c t h0 h1 xs).1, y ∈ pc.1.set :=
  View.cover_of_tiledL (runAt0_C V c t h0 h1 xs).1 S1x512x768.size (by sl_kernel_rfl) y
/-- Its stores into the k tile's buffer cover the buffer. -/
theorem cover0_C_6 (c : Dev nD) (t : Fin cfg0.N) (h0 : ¬t.val % 4 = 0) (h1 : t.val % 4 = 3) (xs : Vec F S768x768 .f32) (y : S1x512x768.Idx) :
    ∃ pc ∈ (runAt0_C V c t h0 h1 xs).2.1, y ∈ pc.1.set :=
  View.cover_of_tiledL (runAt0_C V c t h0 h1 xs).2.1 S1x512x768.size (by sl_kernel_rfl) y
/-- Its store into the accumulated product's buffer covers the buffer. -/
theorem cover0_C_7 (c : Dev nD) (t : Fin cfg0.N) (h0 : ¬t.val % 4 = 0) (h1 : t.val % 4 = 3) (xs : Vec F S768x768 .f32) (y : S1x768x768.Idx) :
    ∃ pc ∈ (runAt0_C V c t h0 h1 xs).2.2.1, y ∈ pc.1.set :=
  View.cover_of_tiledL (runAt0_C V c t h0 h1 xs).2.2.1 S1x768x768.size (by sl_kernel_rfl) y
/-- Its stores into the accumulator cover it. -/
theorem scover0_C (c : Dev nD) (t : Fin cfg0.N) (h0 : ¬t.val % 4 = 0) (h1 : t.val % 4 = 3) (xs : Vec F S768x768 .f32) (y : S768x768.Idx) :
    ∃ pc ∈ (runAt0_C V c t h0 h1 xs).2.2.2.1, y ∈ pc.1.set :=
  View.cover_of_tiledL (runAt0_C V c t h0 h1 xs).2.2.2.1 S768x768.size (by sl_kernel_rfl) y

/-- What the point leaves: in the q tile's and the k tile's buffers, in the accumulated product's buffer, and in the accumulator — each buffer's pieces read back (over contents that do not matter, the pieces covering). -/
def outs0_C (c : Dev nD) (t : Fin cfg0.N) (h0 : ¬t.val % 4 = 0) (h1 : t.val % 4 = 3) (xs : Vec F S768x768 .f32) : Vec F S1x512x768 .bf16 × Vec F S1x512x768 .bf16 × Vec F S1x768x768 .f32 × Vec F S768x768 .f32 :=
  (VO0_5.read (Elt F) (VO0_5.writes (Elt F) VO0_5.junk (runAt0_C V c t h0 h1 xs).1),
   VO0_6.read (Elt F) (VO0_6.writes (Elt F) VO0_6.junk (runAt0_C V c t h0 h1 xs).2.1),
   VO0_7.read (Elt F) (VO0_7.writes (Elt F) VO0_7.junk (runAt0_C V c t h0 h1 xs).2.2.1),
   VS0_0.read (Elt F) (VS0_0.writes (Elt F) VS0_0.junk (runAt0_C V c t h0 h1 xs).2.2.2.1))

/-! ## What the outputs and the accumulator hold after each point -/

/-- THE ACCUMULATION. What the q tile's, the k tile's and the accumulated product's staging buffers and the accumulator
    hold after the body at position `n`: the case the closed forms select there, run at the point's memrefs and input
    blocks; at a middle or last row tile over what the accumulator held after position `n - 1`; at a first row tile
    from nothing (the accumulator is zeroed before it is read). No point is both a first and a last row tile. -/
def outsAt0 (c : Dev nD) : (n : ℕ) → n < cfg0.N → Vec F S1x512x768 .bf16 × Vec F S1x512x768 .bf16 × Vec F S1x768x768 .f32 × Vec F S768x768 .f32
  | 0, hn => outs0_A V c ⟨0, hn⟩ (Nat.zero_mod _) (fun h => absurd h (by decide : ¬(0 % 4 = 3)))
  | n + 1, hn =>
    if h0 : (n + 1) % 4 = 0 then
      if h1 : (n + 1) % 4 = 3 then
        False.elim (by omega)
      else
        outs0_A V c ⟨n + 1, hn⟩ h0 h1
    else
      if h1 : (n + 1) % 4 = 3 then
        outs0_C V c ⟨n + 1, hn⟩ h0 h1 (outsAt0 c n (Nat.lt_of_succ_lt hn)).2.2.2
      else
        outs0_B V c ⟨n + 1, hn⟩ h0 h1 (outsAt0 c n (Nat.lt_of_succ_lt hn)).2.2.2

/-- At a first row tile: that case's contents. -/
theorem outsAt0_A (c : Dev nD) (t : Fin cfg0.N) (h0 : t.val % 4 = 0) (h1 : ¬t.val % 4 = 3) :
    outsAt0 V c t.val t.isLt = outs0_A V c t h0 h1 := by
  obtain ⟨n, hn⟩ := t
  cases n with
  | zero => exact rfl
  | succ n => exact (dif_pos h0).trans ((dif_neg h1).trans rfl)

/-- At a middle row tile: that case's contents, over what the accumulator held after the point before. -/
theorem outsAt0_B (c : Dev nD) (t : Fin cfg0.N) (h0 : ¬t.val % 4 = 0) (h1 : ¬t.val % 4 = 3) :
    outsAt0 V c t.val t.isLt = outs0_B V c t h0 h1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- At a last row tile: that case's contents, over what the accumulator held after the point before. -/
theorem outsAt0_C (c : Dev nD) (t : Fin cfg0.N) (h0 : ¬t.val % 4 = 0) (h1 : t.val % 4 = 3) :
    outsAt0 V c t.val t.isLt = outs0_C V c t h0 h1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point, what the launch hands the region (every scoped buffer at anything, the
    generator register at some state); afterwards the accumulator at what the point before left in it, every other
    scoped buffer unopened, the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2))
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0_0 fullShare ((outsAt0 V c n hn).2.2.2))
      ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.2.2))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the first kernel's pipeline on core `c`: the arrays as the region finds them; after the body at
    point `t` each input's buffer at its block and the three outputs' at `outsAt0`'s components; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; the closed forms say which case the point is in, and
    that case's run applies: the invariant hands it the accumulator (at what the point before left; at anything before
    the first point) and takes it back at this point's contents; where the accumulated product's window is idle its
    buffer goes through untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hN : t.val < 32 := lt_of_lt_of_eq t.isLt (show cfg0.N = 32 from N_0)
  by_cases h0 : t.val % 4 = 0
  · by_cases h1 : t.val % 4 = 3
    · exfalso; omega
    · rw [Dat.leavesExact_idle (dat0 V c) 7 t (idleAt0_7 t (fun h => h1 ((hcond0_1 t).mp h))) (noFlush0_7 t (fun h => h1 ((hcond0_1 t).mp h)))]
      rw [outsAt0_A V c t h0 h1]
      unfold outs0_A; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runAt0_A V c t h0 h1).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [HS0]; · iexact HS0
        iintro ⟨H0, H1, H2, H3, H4, ⟨%e5, H5⟩, ⟨%e6, H6⟩, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A V c t h0 h1)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 V c t h0 h1)
        isplitl [H6]
        · unfold owns; iexists _; isplitr
          swap; · iexact H6
          ipureintro; exact View.read_writes_of_cover _ _ _ _ _ (cover0_A_6 V c t h0 h1)
        iexists _; iexact H7
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runAt0_A V c t h0 h1).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [HS0]; · iexists _; iexact HS0
        iintro ⟨H0, H1, H2, H3, H4, ⟨%e5, H5⟩, ⟨%e6, H6⟩, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A V c t h0 h1)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 V c t h0 h1)
        isplitl [H6]
        · unfold owns; iexists _; isplitr
          swap; · iexact H6
          ipureintro; exact View.read_writes_of_cover _ _ _ _ _ (cover0_A_6 V c t h0 h1)
        iexists _; iexact H7
  · have hz : t.val ≠ 0 := fun e => h0 (by rw [e])
    by_cases h1 : t.val % 4 = 3
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold outs0_C; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt0_C V c t h0 h1 _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 V c t h0 h1 _)
      isplitl [H6]
      · unfold owns; iexists _; isplitr
        swap; · iexact H6
        ipureintro; exact View.read_writes_of_cover _ _ _ _ _ (cover0_C_6 V c t h0 h1 _)
      unfold owns; iexists _; isplitr
      swap; · iexact H7
      ipureintro; exact View.read_writes_of_cover _ _ _ _ _ (cover0_C_7 V c t h0 h1 _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold outs0_B; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt0_B V c t h0 h1 _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, ⟨%e5, H5⟩, ⟨%e6, H6⟩, H7, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 V c t h0 h1 _)
      isplitl [H6]
      · unfold owns; iexists _; isplitr
        swap; · iexact H6
        ipureintro; exact View.read_writes_of_cover _ _ _ _ _ (cover0_B_6 V c t h0 h1 _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Entry

end Cert.Kernel.Rgn

end
-- ==== Proof.K.Reg1.lean ====
/-
  The second kernel, one grid point at a time. At point (b, n) it is handed row tile n of batch b of q (512 × 768),
  batch b's 768 × 768 matrix M, the weight W3 and the bias b3, and it leaves in its two output blocks the tile
  (q · M) · W3ᵀ + b3 — once as it is and once cut to the narrow float format. Nothing is kept between points: what
  the two output buffers hold after the body is one whole-block store each, a function of the four input blocks.
  Stated at any contents `V` of the core's buffers at the moment the region is entered.
-/
import proofs.«152342_j15135464751210_2_alg».proof.Proof.Gen.Kernel.Launch
import proofs.«152342_j15135464751210_2_alg».proof.Proof.Gen.Kernel.Skeleton
import proofs.«152342_j15135464751210_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, whether or not the block was
    fetched there: where it was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, whether or not the block was
    fetched there: where it was not, the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, whether or not the block was
    fetched there: where it was not, the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, whether or not the block was
    fetched there: where it was not, the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store takes a whole buffer -/

abbrev rTile : Rect S1x512x768 := Rect.unit (s := S1x512x768) ![0, 0, 0] S1x512x768.size inb_S1x512x768_S1x512x768_0_0_0
abbrev rBatchMat : Rect S1x768x768 := Rect.unit (s := S1x768x768) ![0, 0, 0] S1x768x768.size inb_S1x768x768_S1x768x768_0_0_0
abbrev rMat : Rect S768x768 := Rect.unit (s := S768x768) ![0, 0] S768x768.size inb_S768x768_S768x768_0_0
abbrev rRow : Rect S768 := Rect.unit (s := S768) ![0] S768.size inb_S768_S768_0

/-! ## What the body leaves in each output block -/

/-- The wide output block after the body: (q · M) · W3ᵀ + b3 of the four input blocks, stored whole. -/
def tileWide (x0 : Vec F S1x512x768 .bf16) (x1 : Vec F S1x768x768 .f32) (x2 : Vec F S768x768 .f32) (x3 : Vec F S768 .f32) : Vec F S1x512x768 .f32 :=
  View.canon [⟨rTile, k1_pay2 (View.ld x0 rTile) (View.ld x1 rBatchMat) (View.ld x2 rMat) (View.ld x3 rRow)⟩]

/-- The narrow output block after the body: the same tile cut to the narrow float format, stored whole. -/
def tileNarrow (x0 : Vec F S1x512x768 .bf16) (x1 : Vec F S1x768x768 .f32) (x2 : Vec F S768x768 .f32) (x3 : Vec F S768 .f32) : Vec F S1x512x768 .bf16 :=
  View.canon [⟨rTile, k1_pay3 (View.ld x0 rTile) (View.ld x1 rBatchMat) (View.ld x2 rMat) (View.ld x3 rRow)⟩]

/-- One whole-block store covers the block. -/
theorem coverWide (p0 : Vec F S1x512x768 .f32) (y : S1x512x768.Idx) :
    ∃ pc ∈ ([⟨rTile, p0⟩] : List (View.Piece (Elt F) S1x512x768 .f32)), y ∈ pc.1.set :=
  View.cover_of_tiled [⟨rTile, p0⟩] S1x512x768.size (by rfl) y
theorem coverNarrow (p0 : Vec F S1x512x768 .bf16) (y : S1x512x768.Idx) :
    ∃ pc ∈ ([⟨rTile, p0⟩] : List (View.Piece (Elt F) S1x512x768 .bf16)), y ∈ pc.1.set :=
  View.cover_of_tiled [⟨rTile, p0⟩] S1x512x768.size (by rfl) y

/-! ## The body's triple -/

set_option maxHeartbeats 4000000 in
/-- On whole staging buffers, the four inputs' at contents `x0 … x3` and the two outputs' at anything, the body runs
    to the end holding the inputs' as they were and the outputs' at `tileWide` and `tileNarrow` of the inputs'. -/
theorem sound_kernel1 (c : Dev nD) (E : Set ℕ) (i : grid1.Coords)
    (arg2 : Memref sig .tc .vmem S1x512x768 .bf16) (harg2 : arg2.IsWhole) (arg3 : Memref sig .tc .vmem S1x768x768 .f32) (harg3 : arg3.IsWhole)
    (arg4 : Memref sig .tc .vmem S768x768 .f32) (harg4 : arg4.IsWhole) (arg5 : Memref sig .tc .vmem S768 .f32) (harg5 : arg5.IsWhole)
    (arg6 : Memref sig .tc .vmem S1x512x768 .f32) (harg6 : arg6.IsWhole) (arg7 : Memref sig .tc .vmem S1x512x768 .bf16) (harg7 : arg7.IsWhole)
    (x0 : Vec F S1x512x768 .bf16) (x1 : Vec F S1x768x768 .f32) (x2 : Vec F S768x768 .f32) (x3 : Vec F S768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (tileWide x0 x1 x2 x3)
            ∗ owns (c : Thread nD τ) arg7 fullShare (tileNarrow x0 x1 x2 x3)) -∗ K ⟨⟩))
      ⊢ wp frame (wpE (defs₀ (F := F)) Variants.none c none) E (cc1__stage1b_kernel i arg2 harg2 arg3 harg3 arg4 harg4 arg5 harg5 arg6 harg6 arg7 harg7) K := by
  simp only [cc1__stage1b_kernel_eq_skeleton]; unfold cc1__stage1b_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverWide _)
  iexists _; isplitr
  swap; · iexact H5
  ipureintro
  exact View.read_writes_eq_canon _ _ _ (coverNarrow _)

/-! ## The proof data -/

/-- Region 1's proof data on core `c`: the arrays as the region finds them; after the body at point `t` each input's
    buffer still at its block and the two outputs' at `tileWide` / `tileNarrow` of the point's input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => tileWide (iblk1 V c 0 t) (iblk1 V c 1 t) (iblk1 V c 2 t) (iblk1 V c 3 t)
    | ⟨5, _⟩ => tileNarrow (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = tileWide (iblk1 V c 0 t) (iblk1 V c 1 t) (iblk1 V c 2 t) (iblk1 V c 3 t) := by dsimp only [dat1]
theorem after1_5 (c : Dev nD) (t : Fin cfg1.N) :
    (dat1 V c).after 5 t = tileNarrow (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant is the class's at every point: what the launch hands the region is it, and it is given back. -/
theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.Kernel.Rgn

end
-- ==== Proof.K.Reg2.Base.lean ====
/- The third pallas_call (the blockwise masked softmax with its output projection), at the buffer contents `V` the
   core holds when the call is entered: what its case-by-case runs and its proof data share — each window's block at a
   grid point, the two branch conditions in closed form over the 8×2×4 grid, where the output window is idle, the
   staging and scratch memrefs, and the class invariant with the three carried scratch buffers singled out. -/
import proofs.«152342_j15135464751210_2_alg».proof.Proof.Gen.Kernel.Launch
import proofs.«152342_j15135464751210_2_alg».proof.Proof.Gen.Kernel.Skeleton
import proofs.«152342_j15135464751210_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the query block): its current staging buffer holds the point's block whether or not the point fetched
    it (where it was not fetched the block index has not moved), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the key block): its current staging buffer holds the point's block whether or not the point fetched
    it (where it was not fetched the block index has not moved), for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the value block): its current staging buffer holds the point's block whether or not the point fetched
    it (where it was not fetched the block index has not moved), for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the residual block): its current staging buffer holds the point's block whether or not the point fetched
    it (where it was not fetched the block index has not moved), for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the mask block): its current staging buffer holds the point's block whether or not the point fetched
    it (where it was not fetched the block index has not moved), for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the output projection's weight): its current staging buffer holds the point's block whether or not the point fetched
    it (where it was not fetched the block index has not moved), for any proof data whose array is `V`'s and whose
    body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 (the output projection's bias): its current staging buffer holds the point's block whether or not the point fetched
    it (where it was not fetched the block index has not moved), for any proof data whose array is `V`'s and whose
    body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions -/

/-- The first conditional's test (the reset of the three running quantities), from the grid coordinates: the kv-block
    coordinate is 0. -/
abbrev cond2_0 (i : grid2.Coords) : Prop := (Scalar.cmpi .ne (Scalar.extui (Scalar.cmpi .eq (BitVec.ofNat 32 (i 2).val) 0#32)) 0#32) = 1#1
/-- It holds exactly at the points ≡ 0 (mod 4): the first kv block of each (batch, query block) group. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test (the final quotient, projection and store of the output): the kv-block coordinate is 3. -/
abbrev cond2_1 (i : grid2.Coords) : Prop := k2_cond2 i = 1#1
/-- It holds exactly at the points ≡ 3 (mod 4): the last kv block of each group. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Window 0 is an input: idle nowhere. -/
theorem liveAt2_0 : ∀ t : Fin cfg2.N, cfg2.idle 0 (grid2.coords t) = false := by decide +kernel
/-- Window 1 is an input: idle nowhere. -/
theorem liveAt2_1 : ∀ t : Fin cfg2.N, cfg2.idle 1 (grid2.coords t) = false := by decide +kernel
/-- Window 2 is an input: idle nowhere. -/
theorem liveAt2_2 : ∀ t : Fin cfg2.N, cfg2.idle 2 (grid2.coords t) = false := by decide +kernel
/-- Window 3 is an input: idle nowhere. -/
theorem liveAt2_3 : ∀ t : Fin cfg2.N, cfg2.idle 3 (grid2.coords t) = false := by decide +kernel
/-- Window 4 is an input: idle nowhere. -/
theorem liveAt2_4 : ∀ t : Fin cfg2.N, cfg2.idle 4 (grid2.coords t) = false := by decide +kernel
/-- Window 5 is an input: idle nowhere. -/
theorem liveAt2_5 : ∀ t : Fin cfg2.N, cfg2.idle 5 (grid2.coords t) = false := by decide +kernel
/-- Window 6 is an input: idle nowhere. -/
theorem liveAt2_6 : ∀ t : Fin cfg2.N, cfg2.idle 6 (grid2.coords t) = false := by decide +kernel
/-- At a group's first kv block the body stores nothing into the output window: it is idle there, -/
theorem idleAt2_7_A : ∀ t : Fin cfg2.N, cond2_0 (grid2.coords t) → ¬cond2_1 (grid2.coords t) → cfg2.idle 7 (grid2.coords t) = true := by decide +kernel
/-- and the pipeline does not write its block back there. -/
theorem noFlush2_7_A : ∀ t : Fin cfg2.N, cond2_0 (grid2.coords t) → ¬cond2_1 (grid2.coords t) → (cfg2.win 7).flush t = false := by decide +kernel
/-- The same at a group's middle kv blocks. -/
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
/-- At a group's last kv block the body stores the output window whole: it is live there. -/
theorem liveAt2_7_C : ∀ t : Fin cfg2.N, ¬cond2_0 (grid2.coords t) → cond2_1 (grid2.coords t) → cfg2.idle 7 (grid2.coords t) = false := by decide +kernel

/-! ## The memrefs the body is called with -/

/-- One staging buffer of the output window, through which its contents are stated (which one does not matter). -/
abbrev VO2_7 : View sig .tc .vmem S1x1024x768 .f32 := (Memref.whole cc2_stg7_0 : Memref sig .tc .vmem S1x1024x768 .f32).view
/-- Window 0's current staging memref at point `t`, as the pipeline passes it, and its wholeness. -/
abbrev ms2_0 (t : Fin cfg2.N) : Memref sig .tc .vmem S1x1024x768 .bf16 := win2_0.stage (cfg2.slots t 0)
abbrev hs2_0 (t : Fin cfg2.N) : (ms2_0 t).IsWhole := hstage2_0 ((cfg2.slots t 0).cast nbuf2_0)
/-- Window 1's current staging memref at point `t`, as the pipeline passes it, and its wholeness. -/
abbrev ms2_1 (t : Fin cfg2.N) : Memref sig .tc .vmem S1x512x768 .bf16 := win2_1.stage (cfg2.slots t 1)
abbrev hs2_1 (t : Fin cfg2.N) : (ms2_1 t).IsWhole := hstage2_1 ((cfg2.slots t 1).cast nbuf2_1)
/-- Window 2's current staging memref at point `t`, as the pipeline passes it, and its wholeness. -/
abbrev ms2_2 (t : Fin cfg2.N) : Memref sig .tc .vmem S1x512x768 .bf16 := win2_2.stage (cfg2.slots t 2)
abbrev hs2_2 (t : Fin cfg2.N) : (ms2_2 t).IsWhole := hstage2_2 ((cfg2.slots t 2).cast nbuf2_2)
/-- Window 3's current staging memref at point `t`, as the pipeline passes it, and its wholeness. -/
abbrev ms2_3 (t : Fin cfg2.N) : Memref sig .tc .vmem S1x1024x768 .f32 := win2_3.stage (cfg2.slots t 3)
abbrev hs2_3 (t : Fin cfg2.N) : (ms2_3 t).IsWhole := hstage2_3 ((cfg2.slots t 3).cast nbuf2_3)
/-- Window 4's current staging memref at point `t`, as the pipeline passes it, and its wholeness. -/
abbrev ms2_4 (t : Fin cfg2.N) : Memref sig .tc .vmem S1x1024x512 .i32 := win2_4.stage (cfg2.slots t 4)
abbrev hs2_4 (t : Fin cfg2.N) : (ms2_4 t).IsWhole := hstage2_4 ((cfg2.slots t 4).cast nbuf2_4)
/-- Window 5's current staging memref at point `t`, as the pipeline passes it, and its wholeness. -/
abbrev ms2_5 (t : Fin cfg2.N) : Memref sig .tc .vmem S768x768 .f32 := win2_5.stage (cfg2.slots t 5)
abbrev hs2_5 (t : Fin cfg2.N) : (ms2_5 t).IsWhole := hstage2_5 ((cfg2.slots t 5).cast nbuf2_5)
/-- Window 6's current staging memref at point `t`, as the pipeline passes it, and its wholeness. -/
abbrev ms2_6 (t : Fin cfg2.N) : Memref sig .tc .vmem S768 .f32 := win2_6.stage (cfg2.slots t 6)
abbrev hs2_6 (t : Fin cfg2.N) : (ms2_6 t).IsWhole := hstage2_6 ((cfg2.slots t 6).cast nbuf2_6)
/-- Window 7's current staging memref at point `t`, as the pipeline passes it, and its wholeness. -/
abbrev ms2_7 (t : Fin cfg2.N) : Memref sig .tc .vmem S1x1024x768 .f32 := win2_7.stage (cfg2.slots t 7)
abbrev hs2_7 (t : Fin cfg2.N) : (ms2_7 t).IsWhole := hstage2_7 ((cfg2.slots t 7).cast nbuf2_7)
/-- Scratch operand 0 (the running row maximum), a whole scoped buffer of the call's own, and the view its contents are stated through. -/
abbrev scM2_0 : Memref sig .tc .vmem S1024x1 .f32 := Memref.whole cc2_scratch0
abbrev VS2_0 : View sig .tc .vmem S1024x1 .f32 := scM2_0.view
/-- Scratch operand 1 (the running row sum), a whole scoped buffer of the call's own, and the view its contents are stated through. -/
abbrev scM2_1 : Memref sig .tc .vmem S1024x1 .f32 := Memref.whole cc2_scratch1
abbrev VS2_1 : View sig .tc .vmem S1024x1 .f32 := scM2_1.view
/-- Scratch operand 2 (the running weighted sum), a whole scoped buffer of the call's own, and the view its contents are stated through. -/
abbrev scM2_2 : Memref sig .tc .vmem S1024x768 .f32 := Memref.whole cc2_scratch2
abbrev VS2_2 : View sig .tc .vmem S1024x768 .f32 := scM2_2.view

/-! ## The class invariant, the three carried scratch buffers singled out -/

/-- The core's scoped buffers that are neither a staging buffer of this call nor one of its three scratch operands,
    each at some contents: the part of the invariant the body never opens. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The class invariant as the body obligation uses it: each scratch operand owned whole at some contents, the unopened
    rest, and the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
            ∗ restBut2 c) ∗ (∃ r, prngReg c r)) := by
  unfold Pipeline.ΦA; rw [scopedRest2_split]; simp only [scM2_0, scM2_1, scM2_2, owns_whole]; try rfl

end Cert.Kernel.Rgn

end
-- ==== Proof.K.Reg2.RunA.lean ====
/- The softmax call's body run whole at a group's first kv block. -/
import proofs.«152342_j15135464751210_2_alg».proof.Proof.K.Reg2.Base

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a group's FIRST kv block (the reset taken, the final store not taken): on whole memrefs — the seven inputs' at
    their contents, the output's at contents `xi7` handed back untouched (nothing is stored into it), the three scratch at
    ANYTHING (each is read only after its reset store has covered it) — the body runs to the continuation holding the inputs'
    as they were and each scratch with the pieces its stores wrote (`LS·`, the last store first). -/
noncomputable def kernelRun2_A (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) :
    Σ' (L7 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi7 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc2__stage2_kernel i arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, Hs0⟩, ⟨%ds1, %fs1, -, Hs1⟩, ⟨%ds2, %fs2, -, Hs2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [Hs0]; · iexists _; iexact Hs0
    isplitl [Hs1]; · iexists _; iexact Hs1
    iexists _; iexact Hs2

end Cert.Kernel.Rgn

end
-- ==== Proof.K.Reg2.RunB.lean ====
/- The softmax call's body run whole at a group's middle kv blocks. -/
import proofs.«152342_j15135464751210_2_alg».proof.Proof.K.Reg2.RunA

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a group's MIDDLE kv blocks (neither the reset nor the final store taken): on whole memrefs — the seven inputs' at
    their contents, the output's at contents `xi7` handed back untouched, the three scratch at the contents `xs·` the point
    before left — the body runs to the continuation holding the inputs' as they were and each scratch with the pieces its
    store wrote (`LS·`). -/
noncomputable def kernelRun2_B (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    Σ' (L7 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi7 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc2__stage2_kernel i arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, Hs0⟩, ⟨%fs1, %hfs1, Hs1⟩, ⟨%fs2, %hfs2, Hs2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [Hs0]; · iexists _; iexact Hs0
    isplitl [Hs1]; · iexists _; iexact Hs1
    iexists _; iexact Hs2

end Cert.Kernel.Rgn

end
-- ==== Proof.K.Reg2.RunC.lean ====
/- The softmax call's body run whole at a group's last kv block. -/
import proofs.«152342_j15135464751210_2_alg».proof.Proof.K.Reg2.RunB

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a group's LAST kv block (the reset not taken, the final store taken): on whole memrefs — the seven inputs' at
    their contents, the output's at anything (it is loaded, the value unused, then stored whole), the three scratch at the
    contents `xs·` the point before left — the body runs to the continuation holding the inputs' as they were, each scratch
    with the pieces its store wrote (`LS·`) and the output's buffer with its one whole piece (`L7`). -/
noncomputable def kernelRun2_C (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    Σ' (L7 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc2__stage2_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, Hs0⟩, ⟨%fs1, %hfs1, Hs1⟩, ⟨%fs2, %hfs2, Hs2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [Hs0]; · iexists _; iexact Hs0
    isplitl [Hs1]; · iexists _; iexact Hs1
    iexists _; iexact Hs2

end Cert.Kernel.Rgn

end
-- ==== Proof.K.Reg2.lean ====
/- The third pallas_call's half of the frame, at the buffer contents `V` the core holds when the call is entered. The grid is
   8 × 2 × 4 (batch, query block, kv block); the body keeps a running row maximum, row sum and weighted sum in three
   scratch buffers across the four kv blocks of a group: reset at the first, updated at every one, and turned into the
   output block (quotient, projection, bias, residual) at the last — the only point of the group where the output
   window is stored and written back. Here: what each case leaves in the four buffers, their contents position by
   position, the invariant carrying the scratch between points, the proof data and the body obligation. -/
import proofs.«152342_j15135464751210_2_alg».proof.Proof.K.Reg2.RunC

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a group's first kv block leaves -/

/-- At a group's first kv block nothing is stored into the output window (it is idle there and not written back): no pieces — a
    placeholder, junk read back, that nothing consults. -/
def out2_A_7 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) : Vec F S1x1024x768 .f32 :=
  VO2_7.read (Elt F) (VO2_7.writes (Elt F) VO2_7.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).1)

/-- The pieces a group's first kv block writes into scratch 0 (the running row maximum) are whole-buffer stores: they cover it. -/
theorem scover2_A_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (y : S1024x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.1 S1024x1.size (by sl_kernel_rfl) y

/-- What a group's first kv block leaves in scratch 0 (the running row maximum): its pieces read back over junk. -/
def sout2_A_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) : Vec F S1024x1 .f32 :=
  VS2_0.read (Elt F) (VS2_0.writes (Elt F) VS2_0.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.1)

/-- The pieces a group's first kv block writes into scratch 1 (the running row sum) are whole-buffer stores: they cover it. -/
theorem scover2_A_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (y : S1024x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1024x1.size (by sl_kernel_rfl) y

/-- What a group's first kv block leaves in scratch 1 (the running row sum): its pieces read back over junk. -/
def sout2_A_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) : Vec F S1024x1 .f32 :=
  VS2_1.read (Elt F) (VS2_1.writes (Elt F) VS2_1.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-- The pieces a group's first kv block writes into scratch 2 (the running weighted sum) are whole-buffer stores: they cover it. -/
theorem scover2_A_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (y : S1024x768.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.2.1 S1024x768.size (by sl_kernel_rfl) y

/-- What a group's first kv block leaves in scratch 2 (the running weighted sum): its pieces read back over junk. -/
def sout2_A_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) : Vec F S1024x768 .f32 :=
  VS2_2.read (Elt F) (VS2_2.writes (Elt F) VS2_2.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.2.1)

/-! ## What a group's middle kv blocks leaves -/

/-- At a group's middle kv blocks nothing is stored into the output window (it is idle there and not written back): no pieces — a
    placeholder, junk read back, that nothing consults. -/
def out2_B_7 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1x1024x768 .f32 :=
  VO2_7.read (Elt F) (VO2_7.writes (Elt F) VO2_7.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

/-- The pieces a group's middle kv blocks writes into scratch 0 (the running row maximum) are whole-buffer stores: they cover it. -/
theorem scover2_B_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S1024x1.size (by sl_kernel_rfl) y

/-- What a group's middle kv blocks leaves in scratch 0 (the running row maximum): its pieces read back over junk. -/
def sout2_B_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x1 .f32 :=
  VS2_0.read (Elt F) (VS2_0.writes (Elt F) VS2_0.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)

/-- The pieces a group's middle kv blocks writes into scratch 1 (the running row sum) are whole-buffer stores: they cover it. -/
theorem scover2_B_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S1024x1.size (by sl_kernel_rfl) y

/-- What a group's middle kv blocks leaves in scratch 1 (the running row sum): its pieces read back over junk. -/
def sout2_B_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x1 .f32 :=
  VS2_1.read (Elt F) (VS2_1.writes (Elt F) VS2_1.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)

/-- The pieces a group's middle kv blocks writes into scratch 2 (the running weighted sum) are whole-buffer stores: they cover it. -/
theorem scover2_B_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x768.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1 S1024x768.size (by sl_kernel_rfl) y

/-- What a group's middle kv blocks leaves in scratch 2 (the running weighted sum): its pieces read back over junk. -/
def sout2_B_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x768 .f32 :=
  VS2_2.read (Elt F) (VS2_2.writes (Elt F) VS2_2.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1)

/-! ## What a group's last kv block leaves -/

/-- At a group's last kv block the one store into the output window is of the whole block, so its piece covers it. -/
theorem cover2_C_7 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1x1024x768.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1x1024x768.size (by sl_kernel_rfl) y

/-- What a group's last kv block leaves in the output window's staging buffer: its piece read back over junk. -/
def out2_C_7 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1x1024x768 .f32 :=
  VO2_7.read (Elt F) (VO2_7.writes (Elt F) VO2_7.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

/-- The pieces a group's last kv block writes into scratch 0 (the running row maximum) are whole-buffer stores: they cover it. -/
theorem scover2_C_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x1.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S1024x1.size (by sl_kernel_rfl) y

/-- What a group's last kv block leaves in scratch 0 (the running row maximum): its pieces read back over junk. -/
def sout2_C_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x1 .f32 :=
  VS2_0.read (Elt F) (VS2_0.writes (Elt F) VS2_0.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)

/-- The pieces a group's last kv block writes into scratch 1 (the running row sum) are whole-buffer stores: they cover it. -/
theorem scover2_C_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x1.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S1024x1.size (by sl_kernel_rfl) y

/-- What a group's last kv block leaves in scratch 1 (the running row sum): its pieces read back over junk. -/
def sout2_C_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x1 .f32 :=
  VS2_1.read (Elt F) (VS2_1.writes (Elt F) VS2_1.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)

/-- The pieces a group's last kv block writes into scratch 2 (the running weighted sum) are whole-buffer stores: they cover it. -/
theorem scover2_C_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x768.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1 S1024x768.size (by sl_kernel_rfl) y

/-- What a group's last kv block leaves in scratch 2 (the running weighted sum): its pieces read back over junk. -/
def sout2_C_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x768 .f32 :=
  VS2_2.read (Elt F) (VS2_2.writes (Elt F) VS2_2.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1)

/-! ## The four buffers after a point, case by case -/

/-- After the body at a point `t` that is a group's first kv block: the output window's buffer, then the three scratch buffers — the
    case's run at the point's memrefs and input blocks (what the scratch held before does not enter). -/
def at2_A (c : Dev nD) (t : Fin cfg2.N) (h0 : t.val % 4 = 0) (h1 : ¬t.val % 4 = 3) : Vec F S1x1024x768 .f32 × Vec F S1024x1 .f32 × Vec F S1024x1 .f32 × Vec F S1024x768 .f32 :=
  (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t),
   sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t),
   sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t),
   sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t))

/-- After the body at a point `t` that is a group's middle kv blocks: the output window's buffer, then the three scratch buffers — the
    case's run at the point's memrefs and input blocks, the scratch taken at what the point before left (`p`). -/
def at2_B (c : Dev nD) (t : Fin cfg2.N) (h0 : ¬t.val % 4 = 0) (h1 : ¬t.val % 4 = 3) (p : Vec F S1x1024x768 .f32 × Vec F S1024x1 .f32 × Vec F S1024x1 .f32 × Vec F S1024x768 .f32) : Vec F S1x1024x768 .f32 × Vec F S1024x1 .f32 × Vec F S1024x1 .f32 × Vec F S1024x768 .f32 :=
  (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) p.2.1 p.2.2.1 p.2.2.2,
   sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) p.2.1 p.2.2.1 p.2.2.2,
   sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) p.2.1 p.2.2.1 p.2.2.2,
   sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) p.2.1 p.2.2.1 p.2.2.2)

/-- After the body at a point `t` that is a group's last kv block: the output window's buffer, then the three scratch buffers — the
    case's run at the point's memrefs and input blocks, the scratch taken at what the point before left (`p`). -/
def at2_C (c : Dev nD) (t : Fin cfg2.N) (h0 : ¬t.val % 4 = 0) (h1 : t.val % 4 = 3) (p : Vec F S1x1024x768 .f32 × Vec F S1024x1 .f32 × Vec F S1024x1 .f32 × Vec F S1024x768 .f32) : Vec F S1x1024x768 .f32 × Vec F S1024x1 .f32 × Vec F S1024x1 .f32 × Vec F S1024x768 .f32 :=
  (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) p.2.1 p.2.2.1 p.2.2.2,
   sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) p.2.1 p.2.2.1 p.2.2.2,
   sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) p.2.1 p.2.2.1 p.2.2.2,
   sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) p.2.1 p.2.2.1 p.2.2.2)

/-! ## What the output buffer and the scratch hold after each point -/

/-- THE ACCUMULATION: the output window's staging buffer and the three scratch buffers after the body at position `n` of
    the grid's order. The kv-block coordinate is `n % 4`: at 0 the running quantities are reset and updated from the point's
    blocks alone; at 1, 2 they are updated from what position `n - 1` left; at 3 they are updated likewise and the output
    block is stored. No point is both first and last of its group. -/
def outsAt2 (c : Dev nD) : (n : ℕ) → n < cfg2.N → Vec F S1x1024x768 .f32 × Vec F S1024x1 .f32 × Vec F S1024x1 .f32 × Vec F S1024x768 .f32
  | 0, hn => at2_A V c ⟨0, hn⟩ (Nat.zero_mod _) (by (try dsimp only); omega)
  | n + 1, hn =>
    if h0 : (n + 1) % 4 = 0 then
      if h1 : (n + 1) % 4 = 3 then False.elim (by omega)
      else at2_A V c ⟨n + 1, hn⟩ h0 h1
    else
      if h1 : (n + 1) % 4 = 3 then at2_C V c ⟨n + 1, hn⟩ h0 h1 (outsAt2 c n (Nat.lt_of_succ_lt hn))
      else at2_B V c ⟨n + 1, hn⟩ h0 h1 (outsAt2 c n (Nat.lt_of_succ_lt hn))

/-- `outsAt2` at a group's first kv block: that case's contents, whatever came before. -/
theorem outsAt2_A (c : Dev nD) (t : Fin cfg2.N) (h0 : t.val % 4 = 0) (h1 : ¬t.val % 4 = 3) :
    outsAt2 V c t.val t.isLt = at2_A V c t h0 h1 := by
  obtain ⟨n, hn⟩ := t
  cases n with
  | zero => exact rfl
  | succ n => exact (dif_pos h0).trans ((dif_neg h1).trans rfl)

/-- `outsAt2` at a group's middle kv blocks: that case's contents over what the point before left. -/
theorem outsAt2_B (c : Dev nD) (t : Fin cfg2.N) (h0 : ¬t.val % 4 = 0) (h1 : ¬t.val % 4 = 3) :
    outsAt2 V c t.val t.isLt = at2_B V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- `outsAt2` at a group's last kv block: that case's contents over what the point before left. -/
theorem outsAt2_C (c : Dev nD) (t : Fin cfg2.N) (h0 : ¬t.val % 4 = 0) (h1 : t.val % 4 = 3) :
    outsAt2 V c t.val t.isLt = at2_C V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant -/

/-- The call's invariant before position `n`: before the first point the class's (every scratch at anything); afterwards
    each of the three scratch buffers owned whole at what position `n - 1` left in it, beside the unopened rest and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2)
        ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After position `n`: the scratch at that point's contents. -/
theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2)
        ∗ restBut2 c) ∗ (∃ r, prngReg c r)) := rfl

/-- Before a position that is not the first: the scratch at what the position before left. -/
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2.1 ∗ owns (c : Thread nD τ) scM2_2 fullShare (outsAt2 V c (n - 1) (by omega)).2.2.2)
        ∗ restBut2 c) ∗ (∃ r, prngReg c r)) := by
  cases n with
  | zero => exact absurd rfl hz
  | succ n => rfl

/-- At every position the invariant yields the class's: the scratch's named contents are forgotten. -/
theorem PhiS2_forget (c : Dev nD) (n : ℕ) (h : n ≤ cfg2.N) : PhiS2 V c n h ⊢ Pipeline.ΦA spec2 c := by
  cases n with
  | zero => exact Idealize.SL.BI.Entails.refl _
  | succ n =>
    rw [PhiS2_succ, PhiA2_eq]
    iintro ⟨⟨⟨HS0, HS1, HS2⟩, Hr⟩, Hg⟩
    isplitl [HS0 HS1 HS2 Hr]
    · isplitl [HS0 HS1 HS2]
      · isplitl [HS0]; · iexists _; iexact HS0
        isplitl [HS1]; · iexists _; iexact HS1
        iexists _; iexact HS2
      iexact Hr
    iexact Hg

/-! ## The proof data -/

/-- The call's proof data on core `c`: the arrays as the call finds them (`V`); after the body at point `t` each input's
    buffer still at its block and the output's at `outsAt2`'s first component; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

/-- The proof data's arrays are the contents the call is entered at . -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- An input window is live everywhere, so the body must leave its buffer at the block. -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]
theorem leaves2_5 (c : Dev nD) (t : Fin cfg2.N) :
    (dat2 V c).leavesExact 5 t = owns (c : Thread nD τ) (ms2_5 t) fullShare (iblk2 V c 5 t) := by
  unfold Dat.leavesExact; rw [liveAt2_5 t, after2_5]
theorem leaves2_6 (c : Dev nD) (t : Fin cfg2.N) :
    (dat2 V c).leavesExact 6 t = owns (c : Thread nD τ) (ms2_6 t) fullShare (iblk2 V c 6 t) := by
  unfold Dat.leavesExact; rw [liveAt2_6 t, after2_6]

/-! ## The body obligation, at a generic point -/

/-- What the body is called with at point `t`: the invariant, what the core owes, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at a point that is a group's first kv block: the inputs' memrefs hold their blocks, the invariant's scratch buffers are taken at whatever they hold, so the
    case's run applies; it gives the scratch back at this point's contents (its whole-buffer pieces cover each), the output's buffer untouched; what the core owes passes through. -/
theorem sound_body2_A (c : Dev nD) (t : Fin cfg2.N) (h0 : t.val % 4 = 0) (h1 : ¬t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
  rw [outsAt2_A V c t h0 h1]
  unfold at2_A sout2_A_0 sout2_A_1 sout2_A_2; (try dsimp only)
  rw [PhiS2_castSucc V c t]
  refine (sep_mono_left (PhiS2_forget V c _ _)).trans ?_
  rw [PhiA2_eq]
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, ⟨%es0, HS0⟩, ⟨%es1, HS1⟩, ⟨%es2, HS2⟩⟩
  isplitl [HS0 HS1 HS2 Hr Hg]
  · isplitl [HS0 HS1 HS2 Hr]
    · isplitl [HS0 HS1 HS2]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover2_A_2 c _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- The body at a point that is a group's middle kv blocks: the inputs' memrefs hold their blocks, the invariant hands over the three scratch buffers at what the point before left, so the
    case's run applies; it gives the scratch back at this point's contents (its whole-buffer pieces cover each), the output's buffer untouched; what the core owes passes through. -/
theorem sound_body2_B (c : Dev nD) (t : Fin cfg2.N) (h0 : ¬t.val % 4 = 0) (h1 : ¬t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
  rw [outsAt2_B V c t h0 h1]
  unfold at2_B sout2_B_0 sout2_B_1 sout2_B_2; (try dsimp only)
  rw [PhiS2_castSucc V c t]
  rw [PhiS2_pos V c _ _ (fun e => h0 (by rw [e]))]
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _ _ _).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, ⟨%es0, HS0⟩, ⟨%es1, HS1⟩, ⟨%es2, HS2⟩⟩
  isplitl [HS0 HS1 HS2 Hr Hg]
  · isplitl [HS0 HS1 HS2 Hr]
    · isplitl [HS0 HS1 HS2]
      · isplitl [HS0]
        · unfold owns; iexists _; isplitr
          swap; · iexact HS0
          ipureintro; exact View.read_writes_of_cover _ _ _ _ _ (scover2_B_0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover2_B_2 c _ _ _ _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- The body at a point that is a group's last kv block: the inputs' memrefs hold their blocks, the invariant hands over the three scratch buffers at what the point before left, so the
    case's run applies; it gives the scratch back at this point's contents (its whole-buffer pieces cover each), and the output's buffer at its one whole piece; what the core owes passes through. -/
theorem sound_body2_C (c : Dev nD) (t : Fin cfg2.N) (h0 : ¬t.val % 4 = 0) (h1 : t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  rw [show (dat2 V c).leavesExact 7 t = owns (c : Thread nD τ) (ms2_7 t) fullShare ((dat2 V c).after 7 t) from by
    unfold Dat.leavesExact; rw [liveAt2_7_C t (fun h => h0 ((hcond2_0 t).mp h)) ((hcond2_1 t).mpr h1)], after2_7]
  rw [outsAt2_C V c t h0 h1]
  unfold at2_C out2_C_7 sout2_C_0 sout2_C_1 sout2_C_2; (try dsimp only)
  rw [PhiS2_castSucc V c t]
  rw [PhiS2_pos V c _ _ (fun e => h0 (by rw [e]))]
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, ⟨%e7, H7⟩, ⟨%es0, HS0⟩, ⟨%es1, HS1⟩, ⟨%es2, HS2⟩⟩
  isplitl [HS0 HS1 HS2 Hr Hg]
  · isplitl [HS0 HS1 HS2 Hr]
    · isplitl [HS0 HS1 HS2]
      · isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover2_C_2 c _ _ _ _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_C_7 c _ _ _ _ _ _ _ _ _ _ _ _ _ _ _ _ _ _ _ _ _ _ _ _ _ _ _ _ _ _ _ _ _ _ _)

/-- The body at any point: the point's kv-block coordinate (its position mod 4) says which case it is. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 4 = 0
  · by_cases h1 : t.val % 4 = 3
    · exfalso; omega
    · exact sound_body2_A V c t h0 h1
  · by_cases h1 : t.val % 4 = 3
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact PhiS2_forget V c _ _

end Cert.Kernel.Rgn

end
-- ==== Proof.K.Run.lean ====
/-
  The whole program, launch to return. It is three kernel regions with nothing between them, so the contents of the
  core's unscoped buffers pass through four boundaries: the launch memory; then, after each region, the same contents
  with that region's arrays replaced by what its write-backs leave (an input array: unchanged; an output array: its
  blocks as the grid points wrote them back). Each region is entered from "every unscoped buffer at the boundary's
  contents, the generator register at some state, nothing owed" and left at the next boundary's. The library's
  several-regions launch composes the three and reads the last boundary against the final memory: every unscoped
  buffer ends at the last boundary's contents. The frame claim (the ten arguments end as launched) and the value of
  the result buffer are both read off that.
-/
import proofs.«152342_j15135464751210_2_alg».proof.Proof.K.Reg0
import proofs.«152342_j15135464751210_2_alg».proof.Proof.K.Reg1
import proofs.«152342_j15135464751210_2_alg».proof.Proof.K.Reg2

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- The same read at the core's own references: what the first region's proof data take. -/
abbrev E0 : (c : Dev nD) → (b : Ref sig .tc) → Buf (Elt F) ((c : Thread nD τ).loc b) := fun c b => B0 m c b

/-- After the first region: its arrays at what its write-backs leave, every other buffer as launched. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the second region. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev E2 : (c : Dev nD) → (b : Ref sig .tc) → Buf (Elt F) ((c : Thread nD τ).loc b) := fun c b => B2 m c b
theorem hF1 (c : Dev nD) (w : Fin cfg1.W) : (dat1 (E1 m) c).arrAt w cfg1.N = E2 m c (Pipeline.arrRef spec1 w) :=
  (B2_arr m c w).symm
theorem hrest1 (c : Dev nD) : ∀ b, b ∉ Finset.univ.image (Pipeline.arrRef spec1) → E2 m c b = E1 m c b :=
  fun b hb => B2_of_ne m c b fun w e => hb (Finset.mem_image.mpr ⟨w, Finset.mem_univ _, e⟩)

/-- After the third region: the contents the program returns with. -/
def B3 (c : Dev nD) : Valuation τ sig (Elt F) :=
  Pipeline.withArrays spec2 c (B2 m c) fun w => (dat2 (E2 m) c).arrAt w cfg2.N
theorem B3_arr (c : Dev nD) (w : Fin cfg2.W) :
    B3 m c (Proc.devRef .tc (Pipeline.arrRef spec2 w)) = (dat2 (E2 m) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m c (Proc.devRef .tc b) = B2 m c (Proc.devRef .tc b) := by
  unfold B3; exact Pipeline.withArrays_of_ne spec2 c _ _ b hb
abbrev E3 : (c : Dev nD) → (b : Ref sig .tc) → Buf (Elt F) ((c : Thread nD τ).loc b) := fun c b => B3 m c b
theorem hF2 (c : Dev nD) (w : Fin cfg2.W) : (dat2 (E2 m) c).arrAt w cfg2.N = E3 m c (Pipeline.arrRef spec2 w) :=
  (B3_arr m c w).symm
theorem hrest2 (c : Dev nD) : ∀ b, b ∉ Finset.univ.image (Pipeline.arrRef spec2) → E3 m c b = E2 m c b :=
  fun b hb => B3_of_ne m c b fun w e => hb (Finset.mem_image.mpr ⟨w, Finset.mem_univ _, e⟩)

/-! ## An input array passes through its region unchanged -/

theorem B1_in (c : Dev nD) (w : Fin cfg0.W) (hw : (cfg0.win w).isOut = false) :
    B1 m c (Proc.devRef .tc (Pipeline.arrRef spec0 w)) = B0 m c (Proc.devRef .tc (Pipeline.arrRef spec0 w)) :=
  (B1_arr m c w).trans (((dat0 (E0 m) c).arrAt_in w hw _).trans (A_eq0 (E0 m) c w))
theorem B2_in (c : Dev nD) (w : Fin cfg1.W) (hw : (cfg1.win w).isOut = false) :
    B2 m c (Proc.devRef .tc (Pipeline.arrRef spec1 w)) = B1 m c (Proc.devRef .tc (Pipeline.arrRef spec1 w)) :=
  (B2_arr m c w).trans (((dat1 (E1 m) c).arrAt_in w hw _).trans (A_eq1 (E1 m) c w))
theorem B3_in (c : Dev nD) (w : Fin cfg2.W) (hw : (cfg2.win w).isOut = false) :
    B3 m c (Proc.devRef .tc (Pipeline.arrRef spec2 w)) = B2 m c (Proc.devRef .tc (Pipeline.arrRef spec2 w)) :=
  (B3_arr m c w).trans (((dat2 (E2 m) c).arrAt_in w hw _).trans (A_eq2 (E2 m) c w))

/-! ## The ten arguments end as launched: each is an input window of one region and no array of the other two -/

theorem B3_main_arg0 (c : Dev nD) : B3 m c (Proc.devRef .tc main_arg0) = m ((c : Thread nD τ).loc main_arg0) :=
  (B3_of_ne m c main_arg0 (by decide)).trans <| (B2_of_ne m c main_arg0 (by decide)).trans <| (B1_in m c 0 rfl).trans rfl
theorem B3_main_arg1 (c : Dev nD) : B3 m c (Proc.devRef .tc main_arg1) = m ((c : Thread nD τ).loc main_arg1) :=
  (B3_in m c 4 rfl).trans <| (B2_of_ne m c main_arg1 (by decide)).trans <| (B1_of_ne m c main_arg1 (by decide)).trans rfl
theorem B3_main_arg2 (c : Dev nD) : B3 m c (Proc.devRef .tc main_arg2) = m ((c : Thread nD τ).loc main_arg2) :=
  (B3_of_ne m c main_arg2 (by decide)).trans <| (B2_of_ne m c main_arg2 (by decide)).trans <| (B1_in m c 1 rfl).trans rfl
theorem B3_main_arg3 (c : Dev nD) : B3 m c (Proc.devRef .tc main_arg3) = m ((c : Thread nD τ).loc main_arg3) :=
  (B3_of_ne m c main_arg3 (by decide)).trans <| (B2_of_ne m c main_arg3 (by decide)).trans <| (B1_in m c 2 rfl).trans rfl
theorem B3_main_arg4 (c : Dev nD) : B3 m c (Proc.devRef .tc main_arg4) = m ((c : Thread nD τ).loc main_arg4) :=
  (B3_of_ne m c main_arg4 (by decide)).trans <| (B2_of_ne m c main_arg4 (by decide)).trans <| (B1_in m c 3 rfl).trans rfl
theorem B3_main_arg5 (c : Dev nD) : B3 m c (Proc.devRef .tc main_arg5) = m ((c : Thread nD τ).loc main_arg5) :=
  (B3_of_ne m c main_arg5 (by decide)).trans <| (B2_of_ne m c main_arg5 (by decide)).trans <| (B1_in m c 4 rfl).trans rfl
theorem B3_main_arg6 (c : Dev nD) : B3 m c (Proc.devRef .tc main_arg6) = m ((c : Thread nD τ).loc main_arg6) :=
  (B3_of_ne m c main_arg6 (by decide)).trans <| (B2_in m c 2 rfl).trans <| (B1_of_ne m c main_arg6 (by decide)).trans rfl
theorem B3_main_arg7 (c : Dev nD) : B3 m c (Proc.devRef .tc main_arg7) = m ((c : Thread nD τ).loc main_arg7) :=
  (B3_of_ne m c main_arg7 (by decide)).trans <| (B2_in m c 3 rfl).trans <| (B1_of_ne m c main_arg7 (by decide)).trans rfl
theorem B3_main_arg8 (c : Dev nD) : B3 m c (Proc.devRef .tc main_arg8) = m ((c : Thread nD τ).loc main_arg8) :=
  (B3_in m c 5 rfl).trans <| (B2_of_ne m c main_arg8 (by decide)).trans <| (B1_of_ne m c main_arg8 (by decide)).trans rfl
theorem B3_main_arg9 (c : Dev nD) : B3 m c (Proc.devRef .tc main_arg9) = m ((c : Thread nD τ).loc main_arg9) :=
  (B3_in m c 6 rfl).trans <| (B2_of_ne m c main_arg9 (by decide)).trans <| (B1_of_ne m c main_arg9 (by decide)).trans rfl

/-! ## The proof data family and the thread state -/

/-- No region has a prefetched table. -/
abbrev noTables : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) noTables p) c
  | ⟨0, _⟩ => fun c => dat0 (E0 m) c
  | ⟨1, _⟩ => fun c => dat1 (E1 m) c
  | ⟨2, _⟩ => fun c => dat2 (E2 m) c
abbrev noVar : Variants := Variants.none
/-- No core owes another anything: no level is assigned. -/
abbrev noPairs : GSem nD τ sig → Finset Unit := fun _ => ∅
abbrev noLevel : GSem nD τ sig → Unit → ℕ := fun _ _ => 0
/-- What rides beside the buffers across every boundary: the generator register at some state, nothing owed. -/
abbrev Rides (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (B3 m c) ∗ ∃ r, prngReg c r)

/-! ## The regions as segments -/

/-- The region's class invariant from its parts (the generator register, the scoped buffers no window stages; no table is held), and back. -/
theorem PhiA_of_parts0 (c : Dev nD) (P : sProp 𝕄) :
    iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
theorem parts_of_PhiA0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-- The region's class invariant from its parts (the generator register, the scoped buffers no window stages; no table is held), and back. -/
theorem PhiA_of_parts1 (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
theorem parts_of_PhiA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The region's class invariant from its parts (the generator register, the scoped buffers no window stages; no table is held), and back. -/
theorem PhiA_of_parts2 (c : Dev nD) (P : sProp 𝕄) :
    iprop((∃ r, prngReg c r) ∗ P ∗ Pipeline.scopedRest spec2 c) ⊢ (Pipeline.ΦA spec2 c : sProp 𝕄) := by
  unfold Pipeline.ΦA
  iintro ⟨Hp, -, Hr⟩
  isplitl [Hr]; · iexact Hr
  iexact Hp
theorem parts_of_PhiA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at `B0`, left at `B1`. Its arrays are
    split out of the unscoped buffers and put back at the exit contents; the generator register goes into the region's
    invariant and comes back; nothing is owed; the kernel has no semaphore of its own. -/
def reg0 : Pipeline.RegionSeg (pcfgs (F := F)) noTables (pdats m) () defs₀ noVar noPairs noLevel 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevel 0 fun _ _ => rfl
  pre c := iprop(StableHlo.held (c : Thread nD τ) (Pipeline.ucRefs τ sig) (B0 m c) ∗ Rides c)
  post c := iprop(StableHlo.held (c : Thread nD τ) (Pipeline.ucRefs τ sig) (B1 m c) ∗ Rides c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_of_parts0 c _).trans (hin0 (E0 m) c)
  hout c := by
    rw [Pipeline.ownSems0_none]
    exact (hout0 (E0 m) c).trans (parts_of_PhiA0 c)
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B1`, left at `B2`. Its arrays are
    split out of the unscoped buffers and put back at the exit contents; the generator register goes into the region's
    invariant and comes back; nothing is owed; the kernel has no semaphore of its own. -/
def reg1 : Pipeline.RegionSeg (pcfgs (F := F)) noTables (pdats m) () defs₀ noVar noPairs noLevel 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevel 1 fun _ _ => rfl
  pre c := iprop(StableHlo.held (c : Thread nD τ) (Pipeline.ucRefs τ sig) (B1 m c) ∗ Rides c)
  post c := iprop(StableHlo.held (c : Thread nD τ) (Pipeline.ucRefs τ sig) (B2 m c) ∗ Rides c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_of_parts1 c _).trans (hin1 (E1 m) c)
  hout c := by
    rw [Pipeline.ownSems0_none]
    exact (hout1 (E1 m) c).trans (parts_of_PhiA1 c)
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B2`, left at `B3`. Its arrays are
    split out of the unscoped buffers and put back at the exit contents; the generator register goes into the region's
    invariant and comes back; nothing is owed; the kernel has no semaphore of its own. -/
def reg2 : Pipeline.RegionSeg (pcfgs (F := F)) noTables (pdats m) () defs₀ noVar noPairs noLevel 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ noPairs noLevel 2 fun _ _ => rfl
  pre c := iprop(StableHlo.held (c : Thread nD τ) (Pipeline.ucRefs τ sig) (B2 m c) ∗ Rides c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) noTables (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_of_parts2 c _).trans (hin2 (E2 m) c)
  hout c := by
    rw [Pipeline.ownSems0_none]
    exact (hout2 (E2 m) c).trans (parts_of_PhiA2 c)
  hexit c := by
    have hjoin := Pipeline.unscopedBufs_of_arrays (p := 2) (pcfgs (F := F)) noTables (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as three segments, and the launch -/

abbrev segs : List (Pipeline.Seg (pcfgs (F := F)) noTables (pdats m) () defs₀ noVar noPairs noLevel) :=
  [ .region (reg0 m), .region (reg1 m), .region (reg2 m) ]
/-- The printed program IS the run of the three segments. -/
theorem main_run (c : Dev nD) : main (F := F) c = Pipeline.Seg.run (segs m) := (main_chain c).trans (by chain_rfl)

set_option backward.isDefEq.respectTransparency.types false in
/-- THE RUN. From any memory with every counter at zero, every weakly fair execution of the program terminates,
    nothing faulting, and in every final memory each unscoped buffer of core `c` holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) noTables (pdats m) () cellOf_inj emb₁ defs₀ noVar noPairs noLevel m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rides c)) (Tₙ := Tend m)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME, at any float instance: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (B3_main_arg0 m c), (h c _ (mem_uc main_arg1 (by decide))).trans (B3_main_arg1 m c),
     (h c _ (mem_uc main_arg2 (by decide))).trans (B3_main_arg2 m c), (h c _ (mem_uc main_arg3 (by decide))).trans (B3_main_arg3 m c),
     (h c _ (mem_uc main_arg4 (by decide))).trans (B3_main_arg4 m c), (h c _ (mem_uc main_arg5 (by decide))).trans (B3_main_arg5 m c),
     (h c _ (mem_uc main_arg6 (by decide))).trans (B3_main_arg6 m c), (h c _ (mem_uc main_arg7 (by decide))).trans (B3_main_arg7 m c),
     (h c _ (mem_uc main_arg8 (by decide))).trans (B3_main_arg8 m c), (h c _ (mem_uc main_arg9 (by decide))).trans (B3_main_arg9 m c)⟩) (run_main m ρ)

/-- The result buffer ends at what the third region's write-backs leave in it. -/
theorem result_eq (c : Dev nD) : B3 m c (Proc.devRef .tc main_v0) = (dat2 (E2 m) c).arrAt 7 cfg2.N := B3_arr m c 7

end Cert.Kernel.Rgn

end
-- ==== Proof.KI.Reg0.Base.lean ====
import proofs.«152342_j15135464751210_2_alg».proof.Proof.Gen.KernelIdeal.Launch
import proofs.«152342_j15135464751210_2_alg».proof.Proof.Gen.KernelIdeal.Skeleton
import proofs.«152342_j15135464751210_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Entry
-- the TensorCore's buffer contents when the region is entered: everything of the region is stated at them
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place: unfetched, the block index
    has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place: unfetched, the block index
    has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place: unfetched, the block index
    has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place: unfetched, the block index
    has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the entry contents and whose body leaves the block in place: unfetched, the block index
    has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The body's two conditions, in closed form over the grid -/

/-- The first conditional's condition (the row-tile index is 0), from the grid coordinates. -/
abbrev cond0_0 (i : grid0.Coords) : Prop := (Scalar.cmpi .ne (Scalar.extui (Scalar.cmpi .eq (BitVec.ofNat 32 (i 1).val) 0#32)) 0#32) = 1#1
/-- It holds exactly at the first row tile of each batch. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the row-tile index is 3, the last). -/
abbrev cond0_1 (i : grid0.Coords) : Prop := k0_cond2 i = 1#1
/-- It holds exactly at the last row tile of each batch. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are live and where the accumulated product's window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Where the second condition fails nothing is stored into window 7: it is idle there and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- Where it holds the window is live. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1x512x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x768 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x768 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x768x768 .f32 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0_0 : Memref sig .tc .vmem S768x768 .f32 := Memref.whole cc0_scratch0
/-- Views through which the outputs' and the accumulator's contents are stated (any whole buffer of the shape does). -/
abbrev VS0_0 : View sig .tc .vmem S768x768 .f32 := scM0_0.view
abbrev VO0_5 : View sig .tc .vmem S1x512x768 .bf16 := (Memref.whole cc0_stg5_0 : Memref sig .tc .vmem S1x512x768 .bf16).view
abbrev VO0_6 : View sig .tc .vmem S1x512x768 .bf16 := (Memref.whole cc0_stg6_0 : Memref sig .tc .vmem S1x512x768 .bf16).view
abbrev VO0_7 : View sig .tc .vmem S1x768x768 .f32 := (Memref.whole cc0_stg7_0 : Memref sig .tc .vmem S1x768x768 .f32).view

/-- The region invariant of the class with the accumulator split off: the accumulator owned at some contents, every
    other scoped buffer unopened, the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Rgn

end
-- ==== Proof.KI.Reg0.RunA.lean ====
import proofs.«152342_j15135464751210_2_alg».proof.Proof.KI.Reg0.Base

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The whole body at a point of the FIRST row tile of a batch (first conditional taken, second not): on whole memrefs — the five inputs at their contents, the two row-tile outputs at anything, the accumulated product's window (idle here) at contents handed back untouched, the accumulator at ANYTHING (it is zeroed before it is read) — the body runs to the continuation with the inputs as they were, each stored buffer with its pieces written. The pieces are the witnesses the run finds. -/
noncomputable def kernelRun0_A (c : Dev nD) (i : grid0.Coords) (arg2 : Memref sig .tc .vmem S1x512x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .f32) (harg9 : arg9.IsWhole) (arg10 : Memref sig .tc .vmem S768x768 .f32) (harg10 : arg10.IsWhole) (hc0 : cond0_0 i) (hc1 : ¬cond0_1 i)
    (x0 : Vec F S1x512x768 .f32) (x1 : Vec F S768x768 .f32) (x2 : Vec F S768 .f32) (x3 : Vec F S768x768 .f32) (x4 : Vec F S768 .f32) :
    Σ' (L5 : List (View.Piece (Elt F) S1x512x768 .bf16)) (L6 : List (View.Piece (Elt F) S1x512x768 .bf16)) (L7 : List (View.Piece (Elt F) S1x768x768 .f32)), { LS0 : List (View.Piece (Elt F) S768x768 .f32) //
      ∀ (xi7 : Vec F S1x768x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__stage1a_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    sl_unfold [cc0__stage1a_kernel, cc0__stage1a_kernel_skel]
    sl_unfold [k0_part1, k0_part1_skel]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.KernelIdeal.Rgn

end
-- ==== Proof.KI.Reg0.RunB.lean ====
import proofs.«152342_j15135464751210_2_alg».proof.Proof.KI.Reg0.RunA

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The whole body at a point of a MIDDLE row tile (neither conditional taken): as at the first tile, except that the accumulator is read before it is stored, so it is taken at the contents `xs0` the point before left. -/
noncomputable def kernelRun0_B (c : Dev nD) (i : grid0.Coords) (arg2 : Memref sig .tc .vmem S1x512x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .f32) (harg9 : arg9.IsWhole) (arg10 : Memref sig .tc .vmem S768x768 .f32) (harg10 : arg10.IsWhole) (hc0 : ¬cond0_0 i) (hc1 : ¬cond0_1 i)
    (x0 : Vec F S1x512x768 .f32) (x1 : Vec F S768x768 .f32) (x2 : Vec F S768 .f32) (x3 : Vec F S768x768 .f32) (x4 : Vec F S768 .f32) (xs0 : Vec F S768x768 .f32) :
    Σ' (L5 : List (View.Piece (Elt F) S1x512x768 .bf16)) (L6 : List (View.Piece (Elt F) S1x512x768 .bf16)) (L7 : List (View.Piece (Elt F) S1x768x768 .f32)), { LS0 : List (View.Piece (Elt F) S768x768 .f32) //
      ∀ (xi7 : Vec F S1x768x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__stage1a_kernel i arg2 harg2 arg3 harg3 arg4 harg4 arg5 harg5 arg6 harg6 arg7 harg7 arg8 harg8 arg9 harg9 arg10 harg10) K } := by
  refine ⟨?_, ?_, [], ?_, fun xi7 E K => ?run⟩
  case run =>
    sl_unfold [cc0__stage1a_kernel, cc0__stage1a_kernel_skel]
    sl_unfold [k0_part1, k0_part1_skel]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.KernelIdeal.Rgn

end
-- ==== Proof.KI.Reg0.RunC.lean ====
import proofs.«152342_j15135464751210_2_alg».proof.Proof.KI.Reg0.RunB

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The whole body at a point of the LAST row tile of a batch (first conditional not taken, second taken): the accumulator is taken at the contents `xs0` the point before left, and the accumulated product's window, live here, is taken at anything and left with its pieces written. -/
noncomputable def kernelRun0_C (c : Dev nD) (i : grid0.Coords) (arg2 : Memref sig .tc .vmem S1x512x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .f32) (harg9 : arg9.IsWhole) (arg10 : Memref sig .tc .vmem S768x768 .f32) (harg10 : arg10.IsWhole) (hc0 : ¬cond0_0 i) (hc1 : cond0_1 i)
    (x0 : Vec F S1x512x768 .f32) (x1 : Vec F S768x768 .f32) (x2 : Vec F S768 .f32) (x3 : Vec F S768x768 .f32) (x4 : Vec F S768 .f32) (xs0 : Vec F S768x768 .f32) :
    Σ' (L5 : List (View.Piece (Elt F) S1x512x768 .bf16)) (L6 : List (View.Piece (Elt F) S1x512x768 .bf16)) (L7 : List (View.Piece (Elt F) S1x768x768 .f32)), { LS0 : List (View.Piece (Elt F) S768x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__stage1a_kernel i arg2 harg2 arg3 harg3 arg4 harg4 arg5 harg5 arg6 harg6 arg7 harg7 arg8 harg8 arg9 harg9 arg10 harg10) K } := by
  refine ⟨?_, ?_, ?_, ?_, fun E K => ?run⟩
  case run =>
    sl_unfold [cc0__stage1a_kernel, cc0__stage1a_kernel_skel]
    sl_unfold [k0_part1, k0_part1_skel]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.KernelIdeal.Rgn

end
-- ==== Proof.KI.Reg0.lean ====
import proofs.«152342_j15135464751210_2_alg».proof.Proof.KI.Reg0.RunC

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Entry
-- the TensorCore's buffer contents when the region is entered
variable (V : (c : Dev nD) → (b : Ref sig .tc) → Buf (Elt F) ((c : Thread nD τ).loc b))

/-! ## Case A: the first row tile of a batch -/

/-- The body's run at grid point `t`, a point of the first row tile of a batch: on the point's staging memrefs and the accumulator, at the point's input blocks. -/
def runAt0_A (c : Dev nD) (t : Fin cfg0.N) (h0 : t.val % 4 = 0) (h1 : ¬t.val % 4 = 3) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- Its stores into the q tile's buffer cover the buffer. -/
theorem cover0_A_5 (c : Dev nD) (t : Fin cfg0.N) (h0 : t.val % 4 = 0) (h1 : ¬t.val % 4 = 3) (y : S1x512x768.Idx) :
    ∃ pc ∈ (runAt0_A V c t h0 h1).1, y ∈ pc.1.set :=
  View.cover_of_tiledL (runAt0_A V c t h0 h1).1 S1x512x768.size (by sl_kernel_rfl) y
/-- Its stores into the k tile's buffer cover the buffer. -/
theorem cover0_A_6 (c : Dev nD) (t : Fin cfg0.N) (h0 : t.val % 4 = 0) (h1 : ¬t.val % 4 = 3) (y : S1x512x768.Idx) :
    ∃ pc ∈ (runAt0_A V c t h0 h1).2.1, y ∈ pc.1.set :=
  View.cover_of_tiledL (runAt0_A V c t h0 h1).2.1 S1x512x768.size (by sl_kernel_rfl) y
/-- Its stores into the accumulator cover it. -/
theorem scover0_A (c : Dev nD) (t : Fin cfg0.N) (h0 : t.val % 4 = 0) (h1 : ¬t.val % 4 = 3) (y : S768x768.Idx) :
    ∃ pc ∈ (runAt0_A V c t h0 h1).2.2.2.1, y ∈ pc.1.set :=
  View.cover_of_tiledL (runAt0_A V c t h0 h1).2.2.2.1 S768x768.size (by sl_kernel_rfl) y

/-- What the point leaves: in the q tile's and the k tile's buffers, in the accumulated product's buffer (nothing is stored there at such a point: a placeholder nothing consults, the window being idle and not written back), and in the accumulator — each buffer's pieces read back (over contents that do not matter, the pieces covering). -/
def outs0_A (c : Dev nD) (t : Fin cfg0.N) (h0 : t.val % 4 = 0) (h1 : ¬t.val % 4 = 3) : Vec F S1x512x768 .bf16 × Vec F S1x512x768 .bf16 × Vec F S1x768x768 .f32 × Vec F S768x768 .f32 :=
  (VO0_5.read (Elt F) (VO0_5.writes (Elt F) VO0_5.junk (runAt0_A V c t h0 h1).1),
   VO0_6.read (Elt F) (VO0_6.writes (Elt F) VO0_6.junk (runAt0_A V c t h0 h1).2.1),
   VO0_7.read (Elt F) (VO0_7.writes (Elt F) VO0_7.junk (runAt0_A V c t h0 h1).2.2.1),
   VS0_0.read (Elt F) (VS0_0.writes (Elt F) VS0_0.junk (runAt0_A V c t h0 h1).2.2.2.1))

/-! ## Case B: a middle row tile -/

/-- The body's run at grid point `t`, a point of a middle row tile: on the point's staging memrefs and the accumulator, at the point's input blocks and the accumulator's contents `xs` before the point. -/
def runAt0_B (c : Dev nD) (t : Fin cfg0.N) (h0 : ¬t.val % 4 = 0) (h1 : ¬t.val % 4 = 3) (xs : Vec F S768x768 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs

/-- Its stores into the q tile's buffer cover the buffer. -/
theorem cover0_B_5 (c : Dev nD) (t : Fin cfg0.N) (h0 : ¬t.val % 4 = 0) (h1 : ¬t.val % 4 = 3) (xs : Vec F S768x768 .f32) (y : S1x512x768.Idx) :
    ∃ pc ∈ (runAt0_B V c t h0 h1 xs).1, y ∈ pc.1.set :=
  View.cover_of_tiledL (runAt0_B V c t h0 h1 xs).1 S1x512x768.size (by sl_kernel_rfl) y
/-- Its stores into the k tile's buffer cover the buffer. -/
theorem cover0_B_6 (c : Dev nD) (t : Fin cfg0.N) (h0 : ¬t.val % 4 = 0) (h1 : ¬t.val % 4 = 3) (xs : Vec F S768x768 .f32) (y : S1x512x768.Idx) :
    ∃ pc ∈ (runAt0_B V c t h0 h1 xs).2.1, y ∈ pc.1.set :=
  View.cover_of_tiledL (runAt0_B V c t h0 h1 xs).2.1 S1x512x768.size (by sl_kernel_rfl) y
/-- Its stores into the accumulator cover it. -/
theorem scover0_B (c : Dev nD) (t : Fin cfg0.N) (h0 : ¬t.val % 4 = 0) (h1 : ¬t.val % 4 = 3) (xs : Vec F S768x768 .f32) (y : S768x768.Idx) :
    ∃ pc ∈ (runAt0_B V c t h0 h1 xs).2.2.2.1, y ∈ pc.1.set :=
  View.cover_of_tiledL (runAt0_B V c t h0 h1 xs).2.2.2.1 S768x768.size (by sl_kernel_rfl) y

/-- What the point leaves: in the q tile's and the k tile's buffers, in the accumulated product's buffer (nothing is stored there at such a point: a placeholder nothing consults, the window being idle and not written back), and in the accumulator — each buffer's pieces read back (over contents that do not matter, the pieces covering). -/
def outs0_B (c : Dev nD) (t : Fin cfg0.N) (h0 : ¬t.val % 4 = 0) (h1 : ¬t.val % 4 = 3) (xs : Vec F S768x768 .f32) : Vec F S1x512x768 .bf16 × Vec F S1x512x768 .bf16 × Vec F S1x768x768 .f32 × Vec F S768x768 .f32 :=
  (VO0_5.read (Elt F) (VO0_5.writes (Elt F) VO0_5.junk (runAt0_B V c t h0 h1 xs).1),
   VO0_6.read (Elt F) (VO0_6.writes (Elt F) VO0_6.junk (runAt0_B V c t h0 h1 xs).2.1),
   VO0_7.read (Elt F) (VO0_7.writes (Elt F) VO0_7.junk (runAt0_B V c t h0 h1 xs).2.2.1),
   VS0_0.read (Elt F) (VS0_0.writes (Elt F) VS0_0.junk (runAt0_B V c t h0 h1 xs).2.2.2.1))

/-! ## Case C: the last row tile of a batch -/

/-- The body's run at grid point `t`, a point of the last row tile of a batch: on the point's staging memrefs and the accumulator, at the point's input blocks and the accumulator's contents `xs` before the point. -/
def runAt0_C (c : Dev nD) (t : Fin cfg0.N) (h0 : ¬t.val % 4 = 0) (h1 : t.val % 4 = 3) (xs : Vec F S768x768 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs

/-- Its stores into the q tile's buffer cover the buffer. -/
theorem cover0_C_5 (c : Dev nD) (t : Fin cfg0.N) (h0 : ¬t.val % 4 = 0) (h1 : t.val % 4 = 3) (xs : Vec F S768x768 .f32) (y : S1x512x768.Idx) :
    ∃ pc ∈ (runAt0_C V c t h0 h1 xs).1, y ∈ pc.1.set :=
  View.cover_of_tiledL (runAt0_C V c t h0 h1 xs).1 S1x512x768.size (by sl_kernel_rfl) y
/-- Its stores into the k tile's buffer cover the buffer. -/
theorem cover0_C_6 (c : Dev nD) (t : Fin cfg0.N) (h0 : ¬t.val % 4 = 0) (h1 : t.val % 4 = 3) (xs : Vec F S768x768 .f32) (y : S1x512x768.Idx) :
    ∃ pc ∈ (runAt0_C V c t h0 h1 xs).2.1, y ∈ pc.1.set :=
  View.cover_of_tiledL (runAt0_C V c t h0 h1 xs).2.1 S1x512x768.size (by sl_kernel_rfl) y
/-- Its store into the accumulated product's buffer covers the buffer. -/
theorem cover0_C_7 (c : Dev nD) (t : Fin cfg0.N) (h0 : ¬t.val % 4 = 0) (h1 : t.val % 4 = 3) (xs : Vec F S768x768 .f32) (y : S1x768x768.Idx) :
    ∃ pc ∈ (runAt0_C V c t h0 h1 xs).2.2.1, y ∈ pc.1.set :=
  View.cover_of_tiledL (runAt0_C V c t h0 h1 xs).2.2.1 S1x768x768.size (by sl_kernel_rfl) y
/-- Its stores into the accumulator cover it. -/
theorem scover0_C (c : Dev nD) (t : Fin cfg0.N) (h0 : ¬t.val % 4 = 0) (h1 : t.val % 4 = 3) (xs : Vec F S768x768 .f32) (y : S768x768.Idx) :
    ∃ pc ∈ (runAt0_C V c t h0 h1 xs).2.2.2.1, y ∈ pc.1.set :=
  View.cover_of_tiledL (runAt0_C V c t h0 h1 xs).2.2.2.1 S768x768.size (by sl_kernel_rfl) y

/-- What the point leaves: in the q tile's and the k tile's buffers, in the accumulated product's buffer, and in the accumulator — each buffer's pieces read back (over contents that do not matter, the pieces covering). -/
def outs0_C (c : Dev nD) (t : Fin cfg0.N) (h0 : ¬t.val % 4 = 0) (h1 : t.val % 4 = 3) (xs : Vec F S768x768 .f32) : Vec F S1x512x768 .bf16 × Vec F S1x512x768 .bf16 × Vec F S1x768x768 .f32 × Vec F S768x768 .f32 :=
  (VO0_5.read (Elt F) (VO0_5.writes (Elt F) VO0_5.junk (runAt0_C V c t h0 h1 xs).1),
   VO0_6.read (Elt F) (VO0_6.writes (Elt F) VO0_6.junk (runAt0_C V c t h0 h1 xs).2.1),
   VO0_7.read (Elt F) (VO0_7.writes (Elt F) VO0_7.junk (runAt0_C V c t h0 h1 xs).2.2.1),
   VS0_0.read (Elt F) (VS0_0.writes (Elt F) VS0_0.junk (runAt0_C V c t h0 h1 xs).2.2.2.1))

/-! ## What the outputs and the accumulator hold after each point -/

/-- THE ACCUMULATION. What the q tile's, the k tile's and the accumulated product's staging buffers and the accumulator
    hold after the body at position `n`: the case the closed forms select there, run at the point's memrefs and input
    blocks; at a middle or last row tile over what the accumulator held after position `n - 1`; at a first row tile
    from nothing (the accumulator is zeroed before it is read). No point is both a first and a last row tile. -/
def outsAt0 (c : Dev nD) : (n : ℕ) → n < cfg0.N → Vec F S1x512x768 .bf16 × Vec F S1x512x768 .bf16 × Vec F S1x768x768 .f32 × Vec F S768x768 .f32
  | 0, hn => outs0_A V c ⟨0, hn⟩ (Nat.zero_mod _) (fun h => absurd h (by decide : ¬(0 % 4 = 3)))
  | n + 1, hn =>
    if h0 : (n + 1) % 4 = 0 then
      if h1 : (n + 1) % 4 = 3 then
        False.elim (by omega)
      else
        outs0_A V c ⟨n + 1, hn⟩ h0 h1
    else
      if h1 : (n + 1) % 4 = 3 then
        outs0_C V c ⟨n + 1, hn⟩ h0 h1 (outsAt0 c n (Nat.lt_of_succ_lt hn)).2.2.2
      else
        outs0_B V c ⟨n + 1, hn⟩ h0 h1 (outsAt0 c n (Nat.lt_of_succ_lt hn)).2.2.2

/-- At a first row tile: that case's contents. -/
theorem outsAt0_A (c : Dev nD) (t : Fin cfg0.N) (h0 : t.val % 4 = 0) (h1 : ¬t.val % 4 = 3) :
    outsAt0 V c t.val t.isLt = outs0_A V c t h0 h1 := by
  obtain ⟨n, hn⟩ := t
  cases n with
  | zero => exact rfl
  | succ n => exact (dif_pos h0).trans ((dif_neg h1).trans rfl)

/-- At a middle row tile: that case's contents, over what the accumulator held after the point before. -/
theorem outsAt0_B (c : Dev nD) (t : Fin cfg0.N) (h0 : ¬t.val % 4 = 0) (h1 : ¬t.val % 4 = 3) :
    outsAt0 V c t.val t.isLt = outs0_B V c t h0 h1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- At a last row tile: that case's contents, over what the accumulator held after the point before. -/
theorem outsAt0_C (c : Dev nD) (t : Fin cfg0.N) (h0 : ¬t.val % 4 = 0) (h1 : t.val % 4 = 3) :
    outsAt0 V c t.val t.isLt = outs0_C V c t h0 h1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point, what the launch hands the region (every scoped buffer at anything, the
    generator register at some state); afterwards the accumulator at what the point before left in it, every other
    scoped buffer unopened, the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2))
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0_0 fullShare ((outsAt0 V c n hn).2.2.2))
      ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.2.2))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the first kernel's pipeline on core `c`: the arrays as the region finds them; after the body at
    point `t` each input's buffer at its block and the three outputs' at `outsAt0`'s components; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; the closed forms say which case the point is in, and
    that case's run applies: the invariant hands it the accumulator (at what the point before left; at anything before
    the first point) and takes it back at this point's contents; where the accumulated product's window is idle its
    buffer goes through untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hN : t.val < 32 := lt_of_lt_of_eq t.isLt (show cfg0.N = 32 from N_0)
  by_cases h0 : t.val % 4 = 0
  · by_cases h1 : t.val % 4 = 3
    · exfalso; omega
    · rw [Dat.leavesExact_idle (dat0 V c) 7 t (idleAt0_7 t (fun h => h1 ((hcond0_1 t).mp h))) (noFlush0_7 t (fun h => h1 ((hcond0_1 t).mp h)))]
      rw [outsAt0_A V c t h0 h1]
      unfold outs0_A; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runAt0_A V c t h0 h1).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [HS0]; · iexact HS0
        iintro ⟨H0, H1, H2, H3, H4, ⟨%e5, H5⟩, ⟨%e6, H6⟩, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A V c t h0 h1)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 V c t h0 h1)
        isplitl [H6]
        · unfold owns; iexists _; isplitr
          swap; · iexact H6
          ipureintro; exact View.read_writes_of_cover _ _ _ _ _ (cover0_A_6 V c t h0 h1)
        iexists _; iexact H7
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runAt0_A V c t h0 h1).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [HS0]; · iexists _; iexact HS0
        iintro ⟨H0, H1, H2, H3, H4, ⟨%e5, H5⟩, ⟨%e6, H6⟩, H7, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A V c t h0 h1)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 V c t h0 h1)
        isplitl [H6]
        · unfold owns; iexists _; isplitr
          swap; · iexact H6
          ipureintro; exact View.read_writes_of_cover _ _ _ _ _ (cover0_A_6 V c t h0 h1)
        iexists _; iexact H7
  · have hz : t.val ≠ 0 := fun e => h0 (by rw [e])
    by_cases h1 : t.val % 4 = 3
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold outs0_C; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt0_C V c t h0 h1 _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 V c t h0 h1 _)
      isplitl [H6]
      · unfold owns; iexists _; isplitr
        swap; · iexact H6
        ipureintro; exact View.read_writes_of_cover _ _ _ _ _ (cover0_C_6 V c t h0 h1 _)
      unfold owns; iexists _; isplitr
      swap; · iexact H7
      ipureintro; exact View.read_writes_of_cover _ _ _ _ _ (cover0_C_7 V c t h0 h1 _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold outs0_B; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt0_B V c t h0 h1 _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, ⟨%e5, H5⟩, ⟨%e6, H6⟩, H7, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 V c t h0 h1 _)
      isplitl [H6]
      · unfold owns; iexists _; isplitr
        swap; · iexact H6
        ipureintro; exact View.read_writes_of_cover _ _ _ _ _ (cover0_B_6 V c t h0 h1 _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Entry

end Cert.KernelIdeal.Rgn

end
-- ==== Proof.KI.Reg1.lean ====
/-
  The second kernel, one grid point at a time. At point (b, n) it is handed row tile n of batch b of q (512 × 768),
  batch b's 768 × 768 matrix M, the weight W3 and the bias b3, and it leaves in its two output blocks the tile
  (q · M) · W3ᵀ + b3 — once as it is and once cut to the narrow float format. Nothing is kept between points: what
  the two output buffers hold after the body is one whole-block store each, a function of the four input blocks.
  Stated at any contents `V` of the core's buffers at the moment the region is entered.
-/
import proofs.«152342_j15135464751210_2_alg».proof.Proof.Gen.KernelIdeal.Launch
import proofs.«152342_j15135464751210_2_alg».proof.Proof.Gen.KernelIdeal.Skeleton
import proofs.«152342_j15135464751210_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, whether or not the block was
    fetched there: where it was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, whether or not the block was
    fetched there: where it was not, the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, whether or not the block was
    fetched there: where it was not, the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, whether or not the block was
    fetched there: where it was not, the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store takes a whole buffer -/

abbrev rTile : Rect S1x512x768 := Rect.unit (s := S1x512x768) ![0, 0, 0] S1x512x768.size inb_S1x512x768_S1x512x768_0_0_0
abbrev rBatchMat : Rect S1x768x768 := Rect.unit (s := S1x768x768) ![0, 0, 0] S1x768x768.size inb_S1x768x768_S1x768x768_0_0_0
abbrev rMat : Rect S768x768 := Rect.unit (s := S768x768) ![0, 0] S768x768.size inb_S768x768_S768x768_0_0
abbrev rRow : Rect S768 := Rect.unit (s := S768) ![0] S768.size inb_S768_S768_0

/-! ## What the body leaves in each output block -/

/-- The wide output block after the body: (q · M) · W3ᵀ + b3 of the four input blocks, stored whole. -/
def tileWide (x0 : Vec F S1x512x768 .bf16) (x1 : Vec F S1x768x768 .f32) (x2 : Vec F S768x768 .f32) (x3 : Vec F S768 .f32) : Vec F S1x512x768 .f32 :=
  View.canon [⟨rTile, k1_pay2 (View.ld x0 rTile) (View.ld x1 rBatchMat) (View.ld x2 rMat) (View.ld x3 rRow)⟩]

/-- The narrow output block after the body: the same tile cut to the narrow float format, stored whole. -/
def tileNarrow (x0 : Vec F S1x512x768 .bf16) (x1 : Vec F S1x768x768 .f32) (x2 : Vec F S768x768 .f32) (x3 : Vec F S768 .f32) : Vec F S1x512x768 .bf16 :=
  View.canon [⟨rTile, k1_pay3 (View.ld x0 rTile) (View.ld x1 rBatchMat) (View.ld x2 rMat) (View.ld x3 rRow)⟩]

/-- One whole-block store covers the block. -/
theorem coverWide (p0 : Vec F S1x512x768 .f32) (y : S1x512x768.Idx) :
    ∃ pc ∈ ([⟨rTile, p0⟩] : List (View.Piece (Elt F) S1x512x768 .f32)), y ∈ pc.1.set :=
  View.cover_of_tiled [⟨rTile, p0⟩] S1x512x768.size (by rfl) y
theorem coverNarrow (p0 : Vec F S1x512x768 .bf16) (y : S1x512x768.Idx) :
    ∃ pc ∈ ([⟨rTile, p0⟩] : List (View.Piece (Elt F) S1x512x768 .bf16)), y ∈ pc.1.set :=
  View.cover_of_tiled [⟨rTile, p0⟩] S1x512x768.size (by rfl) y

/-! ## The body's triple -/

set_option maxHeartbeats 4000000 in
/-- On whole staging buffers, the four inputs' at contents `x0 … x3` and the two outputs' at anything, the body runs
    to the end holding the inputs' as they were and the outputs' at `tileWide` and `tileNarrow` of the inputs'. -/
theorem sound_kernel1 (c : Dev nD) (E : Set ℕ) (i : grid1.Coords)
    (arg2 : Memref sig .tc .vmem S1x512x768 .bf16) (harg2 : arg2.IsWhole) (arg3 : Memref sig .tc .vmem S1x768x768 .f32) (harg3 : arg3.IsWhole)
    (arg4 : Memref sig .tc .vmem S768x768 .f32) (harg4 : arg4.IsWhole) (arg5 : Memref sig .tc .vmem S768 .f32) (harg5 : arg5.IsWhole)
    (arg6 : Memref sig .tc .vmem S1x512x768 .f32) (harg6 : arg6.IsWhole) (arg7 : Memref sig .tc .vmem S1x512x768 .bf16) (harg7 : arg7.IsWhole)
    (x0 : Vec F S1x512x768 .bf16) (x1 : Vec F S1x768x768 .f32) (x2 : Vec F S768x768 .f32) (x3 : Vec F S768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (tileWide x0 x1 x2 x3)
            ∗ owns (c : Thread nD τ) arg7 fullShare (tileNarrow x0 x1 x2 x3)) -∗ K ⟨⟩))
      ⊢ wp frame (wpE (defs₀ (F := F)) Variants.none c none) E (cc1__stage1b_kernel i arg2 harg2 arg3 harg3 arg4 harg4 arg5 harg5 arg6 harg6 arg7 harg7) K := by
  simp only [cc1__stage1b_kernel_eq_skeleton]; unfold cc1__stage1b_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverWide _)
  iexists _; isplitr
  swap; · iexact H5
  ipureintro
  exact View.read_writes_eq_canon _ _ _ (coverNarrow _)

/-! ## The proof data -/

/-- Region 1's proof data on core `c`: the arrays as the region finds them; after the body at point `t` each input's
    buffer still at its block and the two outputs' at `tileWide` / `tileNarrow` of the point's input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => tileWide (iblk1 V c 0 t) (iblk1 V c 1 t) (iblk1 V c 2 t) (iblk1 V c 3 t)
    | ⟨5, _⟩ => tileNarrow (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = tileWide (iblk1 V c 0 t) (iblk1 V c 1 t) (iblk1 V c 2 t) (iblk1 V c 3 t) := by dsimp only [dat1]
theorem after1_5 (c : Dev nD) (t : Fin cfg1.N) :
    (dat1 V c).after 5 t = tileNarrow (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant is the class's at every point: what the launch hands the region is it, and it is given back. -/
theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.KernelIdeal.Rgn

end
-- ==== Proof.KI.Reg2.Base.lean ====
/- The third pallas_call (the blockwise masked softmax with its output projection), at the buffer contents `V` the
   core holds when the call is entered: what its case-by-case runs and its proof data share — each window's block at a
   grid point, the two branch conditions in closed form over the 8×2×4 grid, where the output window is idle, the
   staging and scratch memrefs, and the class invariant with the three carried scratch buffers singled out. -/
import proofs.«152342_j15135464751210_2_alg».proof.Proof.Gen.KernelIdeal.Launch
import proofs.«152342_j15135464751210_2_alg».proof.Proof.Gen.KernelIdeal.Skeleton
import proofs.«152342_j15135464751210_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the query block): its current staging buffer holds the point's block whether or not the point fetched
    it (where it was not fetched the block index has not moved), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the key block): its current staging buffer holds the point's block whether or not the point fetched
    it (where it was not fetched the block index has not moved), for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the value block): its current staging buffer holds the point's block whether or not the point fetched
    it (where it was not fetched the block index has not moved), for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the residual block): its current staging buffer holds the point's block whether or not the point fetched
    it (where it was not fetched the block index has not moved), for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the mask block): its current staging buffer holds the point's block whether or not the point fetched
    it (where it was not fetched the block index has not moved), for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the output projection's weight): its current staging buffer holds the point's block whether or not the point fetched
    it (where it was not fetched the block index has not moved), for any proof data whose array is `V`'s and whose
    body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 (the output projection's bias): its current staging buffer holds the point's block whether or not the point fetched
    it (where it was not fetched the block index has not moved), for any proof data whose array is `V`'s and whose
    body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions -/

/-- The first conditional's test (the reset of the three running quantities), from the grid coordinates: the kv-block
    coordinate is 0. -/
abbrev cond2_0 (i : grid2.Coords) : Prop := (Scalar.cmpi .ne (Scalar.extui (Scalar.cmpi .eq (BitVec.ofNat 32 (i 2).val) 0#32)) 0#32) = 1#1
/-- It holds exactly at the points ≡ 0 (mod 4): the first kv block of each (batch, query block) group. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's test (the final quotient, projection and store of the output): the kv-block coordinate is 3. -/
abbrev cond2_1 (i : grid2.Coords) : Prop := k2_cond2 i = 1#1
/-- It holds exactly at the points ≡ 3 (mod 4): the last kv block of each group. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Window 0 is an input: idle nowhere. -/
theorem liveAt2_0 : ∀ t : Fin cfg2.N, cfg2.idle 0 (grid2.coords t) = false := by decide +kernel
/-- Window 1 is an input: idle nowhere. -/
theorem liveAt2_1 : ∀ t : Fin cfg2.N, cfg2.idle 1 (grid2.coords t) = false := by decide +kernel
/-- Window 2 is an input: idle nowhere. -/
theorem liveAt2_2 : ∀ t : Fin cfg2.N, cfg2.idle 2 (grid2.coords t) = false := by decide +kernel
/-- Window 3 is an input: idle nowhere. -/
theorem liveAt2_3 : ∀ t : Fin cfg2.N, cfg2.idle 3 (grid2.coords t) = false := by decide +kernel
/-- Window 4 is an input: idle nowhere. -/
theorem liveAt2_4 : ∀ t : Fin cfg2.N, cfg2.idle 4 (grid2.coords t) = false := by decide +kernel
/-- Window 5 is an input: idle nowhere. -/
theorem liveAt2_5 : ∀ t : Fin cfg2.N, cfg2.idle 5 (grid2.coords t) = false := by decide +kernel
/-- Window 6 is an input: idle nowhere. -/
theorem liveAt2_6 : ∀ t : Fin cfg2.N, cfg2.idle 6 (grid2.coords t) = false := by decide +kernel
/-- At a group's first kv block the body stores nothing into the output window: it is idle there, -/
theorem idleAt2_7_A : ∀ t : Fin cfg2.N, cond2_0 (grid2.coords t) → ¬cond2_1 (grid2.coords t) → cfg2.idle 7 (grid2.coords t) = true := by decide +kernel
/-- and the pipeline does not write its block back there. -/
theorem noFlush2_7_A : ∀ t : Fin cfg2.N, cond2_0 (grid2.coords t) → ¬cond2_1 (grid2.coords t) → (cfg2.win 7).flush t = false := by decide +kernel
/-- The same at a group's middle kv blocks. -/
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
/-- At a group's last kv block the body stores the output window whole: it is live there. -/
theorem liveAt2_7_C : ∀ t : Fin cfg2.N, ¬cond2_0 (grid2.coords t) → cond2_1 (grid2.coords t) → cfg2.idle 7 (grid2.coords t) = false := by decide +kernel

/-! ## The memrefs the body is called with -/

/-- One staging buffer of the output window, through which its contents are stated (which one does not matter). -/
abbrev VO2_7 : View sig .tc .vmem S1x1024x768 .f32 := (Memref.whole cc2_stg7_0 : Memref sig .tc .vmem S1x1024x768 .f32).view
/-- Window 0's current staging memref at point `t`, as the pipeline passes it, and its wholeness. -/
abbrev ms2_0 (t : Fin cfg2.N) : Memref sig .tc .vmem S1x1024x768 .bf16 := win2_0.stage (cfg2.slots t 0)
abbrev hs2_0 (t : Fin cfg2.N) : (ms2_0 t).IsWhole := hstage2_0 ((cfg2.slots t 0).cast nbuf2_0)
/-- Window 1's current staging memref at point `t`, as the pipeline passes it, and its wholeness. -/
abbrev ms2_1 (t : Fin cfg2.N) : Memref sig .tc .vmem S1x512x768 .bf16 := win2_1.stage (cfg2.slots t 1)
abbrev hs2_1 (t : Fin cfg2.N) : (ms2_1 t).IsWhole := hstage2_1 ((cfg2.slots t 1).cast nbuf2_1)
/-- Window 2's current staging memref at point `t`, as the pipeline passes it, and its wholeness. -/
abbrev ms2_2 (t : Fin cfg2.N) : Memref sig .tc .vmem S1x512x768 .bf16 := win2_2.stage (cfg2.slots t 2)
abbrev hs2_2 (t : Fin cfg2.N) : (ms2_2 t).IsWhole := hstage2_2 ((cfg2.slots t 2).cast nbuf2_2)
/-- Window 3's current staging memref at point `t`, as the pipeline passes it, and its wholeness. -/
abbrev ms2_3 (t : Fin cfg2.N) : Memref sig .tc .vmem S1x1024x768 .f32 := win2_3.stage (cfg2.slots t 3)
abbrev hs2_3 (t : Fin cfg2.N) : (ms2_3 t).IsWhole := hstage2_3 ((cfg2.slots t 3).cast nbuf2_3)
/-- Window 4's current staging memref at point `t`, as the pipeline passes it, and its wholeness. -/
abbrev ms2_4 (t : Fin cfg2.N) : Memref sig .tc .vmem S1x1024x512 .i32 := win2_4.stage (cfg2.slots t 4)
abbrev hs2_4 (t : Fin cfg2.N) : (ms2_4 t).IsWhole := hstage2_4 ((cfg2.slots t 4).cast nbuf2_4)
/-- Window 5's current staging memref at point `t`, as the pipeline passes it, and its wholeness. -/
abbrev ms2_5 (t : Fin cfg2.N) : Memref sig .tc .vmem S768x768 .f32 := win2_5.stage (cfg2.slots t 5)
abbrev hs2_5 (t : Fin cfg2.N) : (ms2_5 t).IsWhole := hstage2_5 ((cfg2.slots t 5).cast nbuf2_5)
/-- Window 6's current staging memref at point `t`, as the pipeline passes it, and its wholeness. -/
abbrev ms2_6 (t : Fin cfg2.N) : Memref sig .tc .vmem S768 .f32 := win2_6.stage (cfg2.slots t 6)
abbrev hs2_6 (t : Fin cfg2.N) : (ms2_6 t).IsWhole := hstage2_6 ((cfg2.slots t 6).cast nbuf2_6)
/-- Window 7's current staging memref at point `t`, as the pipeline passes it, and its wholeness. -/
abbrev ms2_7 (t : Fin cfg2.N) : Memref sig .tc .vmem S1x1024x768 .f32 := win2_7.stage (cfg2.slots t 7)
abbrev hs2_7 (t : Fin cfg2.N) : (ms2_7 t).IsWhole := hstage2_7 ((cfg2.slots t 7).cast nbuf2_7)
/-- Scratch operand 0 (the running row maximum), a whole scoped buffer of the call's own, and the view its contents are stated through. -/
abbrev scM2_0 : Memref sig .tc .vmem S1024x1 .f32 := Memref.whole cc2_scratch0
abbrev VS2_0 : View sig .tc .vmem S1024x1 .f32 := scM2_0.view
/-- Scratch operand 1 (the running row sum), a whole scoped buffer of the call's own, and the view its contents are stated through. -/
abbrev scM2_1 : Memref sig .tc .vmem S1024x1 .f32 := Memref.whole cc2_scratch1
abbrev VS2_1 : View sig .tc .vmem S1024x1 .f32 := scM2_1.view
/-- Scratch operand 2 (the running weighted sum), a whole scoped buffer of the call's own, and the view its contents are stated through. -/
abbrev scM2_2 : Memref sig .tc .vmem S1024x768 .f32 := Memref.whole cc2_scratch2
abbrev VS2_2 : View sig .tc .vmem S1024x768 .f32 := scM2_2.view

/-! ## The class invariant, the three carried scratch buffers singled out -/

/-- The core's scoped buffers that are neither a staging buffer of this call nor one of its three scratch operands,
    each at some contents: the part of the invariant the body never opens. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The class invariant as the body obligation uses it: each scratch operand owned whole at some contents, the unopened
    rest, and the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
            ∗ restBut2 c) ∗ (∃ r, prngReg c r)) := by
  unfold Pipeline.ΦA; rw [scopedRest2_split]; simp only [scM2_0, scM2_1, scM2_2, owns_whole]; try rfl

end Cert.KernelIdeal.Rgn

end
-- ==== Proof.KI.Reg2.RunA.lean ====
/- The softmax call's body run whole at a group's first kv block. -/
import proofs.«152342_j15135464751210_2_alg».proof.Proof.KI.Reg2.Base

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a group's FIRST kv block (the reset taken, the final store not taken): on whole memrefs — the seven inputs' at
    their contents, the output's at contents `xi7` handed back untouched (nothing is stored into it), the three scratch at
    ANYTHING (each is read only after its reset store has covered it) — the body runs to the continuation holding the inputs'
    as they were and each scratch with the pieces its stores wrote (`LS·`, the last store first). -/
noncomputable def kernelRun2_A (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) :
    Σ' (L7 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi7 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc2__stage2_kernel i arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, Hs0⟩, ⟨%ds1, %fs1, -, Hs1⟩, ⟨%ds2, %fs2, -, Hs2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [Hs0]; · iexists _; iexact Hs0
    isplitl [Hs1]; · iexists _; iexact Hs1
    iexists _; iexact Hs2

end Cert.KernelIdeal.Rgn

end
-- ==== Proof.KI.Reg2.RunB.lean ====
/- The softmax call's body run whole at a group's middle kv blocks. -/
import proofs.«152342_j15135464751210_2_alg».proof.Proof.KI.Reg2.RunA

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a group's MIDDLE kv blocks (neither the reset nor the final store taken): on whole memrefs — the seven inputs' at
    their contents, the output's at contents `xi7` handed back untouched, the three scratch at the contents `xs·` the point
    before left — the body runs to the continuation holding the inputs' as they were and each scratch with the pieces its
    store wrote (`LS·`). -/
noncomputable def kernelRun2_B (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    Σ' (L7 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi7 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc2__stage2_kernel i arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, Hs0⟩, ⟨%fs1, %hfs1, Hs1⟩, ⟨%fs2, %hfs2, Hs2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [Hs0]; · iexists _; iexact Hs0
    isplitl [Hs1]; · iexists _; iexact Hs1
    iexists _; iexact Hs2

end Cert.KernelIdeal.Rgn

end
-- ==== Proof.KI.Reg2.RunC.lean ====
/- The softmax call's body run whole at a group's last kv block. -/
import proofs.«152342_j15135464751210_2_alg».proof.Proof.KI.Reg2.RunB

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a group's LAST kv block (the reset not taken, the final store taken): on whole memrefs — the seven inputs' at
    their contents, the output's at anything (it is loaded, the value unused, then stored whole), the three scratch at the
    contents `xs·` the point before left — the body runs to the continuation holding the inputs' as they were, each scratch
    with the pieces its store wrote (`LS·`) and the output's buffer with its one whole piece (`L7`). -/
noncomputable def kernelRun2_C (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    Σ' (L7 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc2__stage2_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2__stage2_kernel_eq_skeleton]; unfold cc2__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, Hs0⟩, ⟨%fs1, %hfs1, Hs1⟩, ⟨%fs2, %hfs2, Hs2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [Hs0]; · iexists _; iexact Hs0
    isplitl [Hs1]; · iexists _; iexact Hs1
    iexists _; iexact Hs2

end Cert.KernelIdeal.Rgn

end
-- ==== Proof.KI.Reg2.lean ====
/- The third pallas_call's half of the frame, at the buffer contents `V` the core holds when the call is entered. The grid is
   8 × 2 × 4 (batch, query block, kv block); the body keeps a running row maximum, row sum and weighted sum in three
   scratch buffers across the four kv blocks of a group: reset at the first, updated at every one, and turned into the
   output block (quotient, projection, bias, residual) at the last — the only point of the group where the output
   window is stored and written back. Here: what each case leaves in the four buffers, their contents position by
   position, the invariant carrying the scratch between points, the proof data and the body obligation. -/
import proofs.«152342_j15135464751210_2_alg».proof.Proof.KI.Reg2.RunC

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What a group's first kv block leaves -/

/-- At a group's first kv block nothing is stored into the output window (it is idle there and not written back): no pieces — a
    placeholder, junk read back, that nothing consults. -/
def out2_A_7 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) : Vec F S1x1024x768 .f32 :=
  VO2_7.read (Elt F) (VO2_7.writes (Elt F) VO2_7.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).1)

/-- The pieces a group's first kv block writes into scratch 0 (the running row maximum) are whole-buffer stores: they cover it. -/
theorem scover2_A_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (y : S1024x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.1 S1024x1.size (by sl_kernel_rfl) y

/-- What a group's first kv block leaves in scratch 0 (the running row maximum): its pieces read back over junk. -/
def sout2_A_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) : Vec F S1024x1 .f32 :=
  VS2_0.read (Elt F) (VS2_0.writes (Elt F) VS2_0.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.1)

/-- The pieces a group's first kv block writes into scratch 1 (the running row sum) are whole-buffer stores: they cover it. -/
theorem scover2_A_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (y : S1024x1.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.1 S1024x1.size (by sl_kernel_rfl) y

/-- What a group's first kv block leaves in scratch 1 (the running row sum): its pieces read back over junk. -/
def sout2_A_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) : Vec F S1024x1 .f32 :=
  VS2_1.read (Elt F) (VS2_1.writes (Elt F) VS2_1.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-- The pieces a group's first kv block writes into scratch 2 (the running weighted sum) are whole-buffer stores: they cover it. -/
theorem scover2_A_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (y : S1024x768.Idx) :
    ∃ pc ∈ (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.2.1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.2.1 S1024x768.size (by sl_kernel_rfl) y

/-- What a group's first kv block leaves in scratch 2 (the running weighted sum): its pieces read back over junk. -/
def sout2_A_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) : Vec F S1024x768 .f32 :=
  VS2_2.read (Elt F) (VS2_2.writes (Elt F) VS2_2.junk (kernelRun2_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.2.1)

/-! ## What a group's middle kv blocks leaves -/

/-- At a group's middle kv blocks nothing is stored into the output window (it is idle there and not written back): no pieces — a
    placeholder, junk read back, that nothing consults. -/
def out2_B_7 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1x1024x768 .f32 :=
  VO2_7.read (Elt F) (VO2_7.writes (Elt F) VO2_7.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

/-- The pieces a group's middle kv blocks writes into scratch 0 (the running row maximum) are whole-buffer stores: they cover it. -/
theorem scover2_B_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S1024x1.size (by sl_kernel_rfl) y

/-- What a group's middle kv blocks leaves in scratch 0 (the running row maximum): its pieces read back over junk. -/
def sout2_B_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x1 .f32 :=
  VS2_0.read (Elt F) (VS2_0.writes (Elt F) VS2_0.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)

/-- The pieces a group's middle kv blocks writes into scratch 1 (the running row sum) are whole-buffer stores: they cover it. -/
theorem scover2_B_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x1.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S1024x1.size (by sl_kernel_rfl) y

/-- What a group's middle kv blocks leaves in scratch 1 (the running row sum): its pieces read back over junk. -/
def sout2_B_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x1 .f32 :=
  VS2_1.read (Elt F) (VS2_1.writes (Elt F) VS2_1.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)

/-- The pieces a group's middle kv blocks writes into scratch 2 (the running weighted sum) are whole-buffer stores: they cover it. -/
theorem scover2_B_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x768.Idx) :
    ∃ pc ∈ (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1, y ∈ pc.1.set :=
  View.cover_of_tiledL (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1 S1024x768.size (by sl_kernel_rfl) y

/-- What a group's middle kv blocks leaves in scratch 2 (the running weighted sum): its pieces read back over junk. -/
def sout2_B_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x768 .f32 :=
  VS2_2.read (Elt F) (VS2_2.writes (Elt F) VS2_2.junk (kernelRun2_B c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1)

/-! ## What a group's last kv block leaves -/

/-- At a group's last kv block the one store into the output window is of the whole block, so its piece covers it. -/
theorem cover2_C_7 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1x1024x768.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1 S1x1024x768.size (by sl_kernel_rfl) y

/-- What a group's last kv block leaves in the output window's staging buffer: its piece read back over junk. -/
def out2_C_7 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1x1024x768 .f32 :=
  VO2_7.read (Elt F) (VO2_7.writes (Elt F) VO2_7.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).1)

/-- The pieces a group's last kv block writes into scratch 0 (the running row maximum) are whole-buffer stores: they cover it. -/
theorem scover2_C_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x1.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1 S1024x1.size (by sl_kernel_rfl) y

/-- What a group's last kv block leaves in scratch 0 (the running row maximum): its pieces read back over junk. -/
def sout2_C_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x1 .f32 :=
  VS2_0.read (Elt F) (VS2_0.writes (Elt F) VS2_0.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.1)

/-- The pieces a group's last kv block writes into scratch 1 (the running row sum) are whole-buffer stores: they cover it. -/
theorem scover2_C_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x1.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1 S1024x1.size (by sl_kernel_rfl) y

/-- What a group's last kv block leaves in scratch 1 (the running row sum): its pieces read back over junk. -/
def sout2_C_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x1 .f32 :=
  VS2_1.read (Elt F) (VS2_1.writes (Elt F) VS2_1.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.1)

/-- The pieces a group's last kv block writes into scratch 2 (the running weighted sum) are whole-buffer stores: they cover it. -/
theorem scover2_C_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) (y : S1024x768.Idx) :
    ∃ pc ∈ (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1, y ∈ pc.1.set :=
  View.cover_of_tiledL (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1 S1024x768.size (by sl_kernel_rfl) y

/-- What a group's last kv block leaves in scratch 2 (the running weighted sum): its pieces read back over junk. -/
def sout2_C_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) : Vec F S1024x768 .f32 :=
  VS2_2.read (Elt F) (VS2_2.writes (Elt F) VS2_2.junk (kernelRun2_C c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2).2.2.2.1)

/-! ## The four buffers after a point, case by case -/

/-- After the body at a point `t` that is a group's first kv block: the output window's buffer, then the three scratch buffers — the
    case's run at the point's memrefs and input blocks (what the scratch held before does not enter). -/
def at2_A (c : Dev nD) (t : Fin cfg2.N) (h0 : t.val % 4 = 0) (h1 : ¬t.val % 4 = 3) : Vec F S1x1024x768 .f32 × Vec F S1024x1 .f32 × Vec F S1024x1 .f32 × Vec F S1024x768 .f32 :=
  (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t),
   sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t),
   sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t),
   sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t))

/-- After the body at a point `t` that is a group's middle kv blocks: the output window's buffer, then the three scratch buffers — the
    case's run at the point's memrefs and input blocks, the scratch taken at what the point before left (`p`). -/
def at2_B (c : Dev nD) (t : Fin cfg2.N) (h0 : ¬t.val % 4 = 0) (h1 : ¬t.val % 4 = 3) (p : Vec F S1x1024x768 .f32 × Vec F S1024x1 .f32 × Vec F S1024x1 .f32 × Vec F S1024x768 .f32) : Vec F S1x1024x768 .f32 × Vec F S1024x1 .f32 × Vec F S1024x1 .f32 × Vec F S1024x768 .f32 :=
  (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) p.2.1 p.2.2.1 p.2.2.2,
   sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) p.2.1 p.2.2.1 p.2.2.2,
   sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) p.2.1 p.2.2.1 p.2.2.2,
   sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) p.2.1 p.2.2.1 p.2.2.2)

/-- After the body at a point `t` that is a group's last kv block: the output window's buffer, then the three scratch buffers — the
    case's run at the point's memrefs and input blocks, the scratch taken at what the point before left (`p`). -/
def at2_C (c : Dev nD) (t : Fin cfg2.N) (h0 : ¬t.val % 4 = 0) (h1 : t.val % 4 = 3) (p : Vec F S1x1024x768 .f32 × Vec F S1024x1 .f32 × Vec F S1024x1 .f32 × Vec F S1024x768 .f32) : Vec F S1x1024x768 .f32 × Vec F S1024x1 .f32 × Vec F S1024x1 .f32 × Vec F S1024x768 .f32 :=
  (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) p.2.1 p.2.2.1 p.2.2.2,
   sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) p.2.1 p.2.2.1 p.2.2.2,
   sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) p.2.1 p.2.2.1 p.2.2.2,
   sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) p.2.1 p.2.2.1 p.2.2.2)

/-! ## What the output buffer and the scratch hold after each point -/

/-- THE ACCUMULATION: the output window's staging buffer and the three scratch buffers after the body at position `n` of
    the grid's order. The kv-block coordinate is `n % 4`: at 0 the running quantities are reset and updated from the point's
    blocks alone; at 1, 2 they are updated from what position `n - 1` left; at 3 they are updated likewise and the output
    block is stored. No point is both first and last of its group. -/
def outsAt2 (c : Dev nD) : (n : ℕ) → n < cfg2.N → Vec F S1x1024x768 .f32 × Vec F S1024x1 .f32 × Vec F S1024x1 .f32 × Vec F S1024x768 .f32
  | 0, hn => at2_A V c ⟨0, hn⟩ (Nat.zero_mod _) (by (try dsimp only); omega)
  | n + 1, hn =>
    if h0 : (n + 1) % 4 = 0 then
      if h1 : (n + 1) % 4 = 3 then False.elim (by omega)
      else at2_A V c ⟨n + 1, hn⟩ h0 h1
    else
      if h1 : (n + 1) % 4 = 3 then at2_C V c ⟨n + 1, hn⟩ h0 h1 (outsAt2 c n (Nat.lt_of_succ_lt hn))
      else at2_B V c ⟨n + 1, hn⟩ h0 h1 (outsAt2 c n (Nat.lt_of_succ_lt hn))

/-- `outsAt2` at a group's first kv block: that case's contents, whatever came before. -/
theorem outsAt2_A (c : Dev nD) (t : Fin cfg2.N) (h0 : t.val % 4 = 0) (h1 : ¬t.val % 4 = 3) :
    outsAt2 V c t.val t.isLt = at2_A V c t h0 h1 := by
  obtain ⟨n, hn⟩ := t
  cases n with
  | zero => exact rfl
  | succ n => exact (dif_pos h0).trans ((dif_neg h1).trans rfl)

/-- `outsAt2` at a group's middle kv blocks: that case's contents over what the point before left. -/
theorem outsAt2_B (c : Dev nD) (t : Fin cfg2.N) (h0 : ¬t.val % 4 = 0) (h1 : ¬t.val % 4 = 3) :
    outsAt2 V c t.val t.isLt = at2_B V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- `outsAt2` at a group's last kv block: that case's contents over what the point before left. -/
theorem outsAt2_C (c : Dev nD) (t : Fin cfg2.N) (h0 : ¬t.val % 4 = 0) (h1 : t.val % 4 = 3) :
    outsAt2 V c t.val t.isLt = at2_C V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant -/

/-- The call's invariant before position `n`: before the first point the class's (every scratch at anything); afterwards
    each of the three scratch buffers owned whole at what position `n - 1` left in it, beside the unopened rest and the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2)
        ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After position `n`: the scratch at that point's contents. -/
theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2)
        ∗ restBut2 c) ∗ (∃ r, prngReg c r)) := rfl

/-- Before a position that is not the first: the scratch at what the position before left. -/
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2.1 ∗ owns (c : Thread nD τ) scM2_2 fullShare (outsAt2 V c (n - 1) (by omega)).2.2.2)
        ∗ restBut2 c) ∗ (∃ r, prngReg c r)) := by
  cases n with
  | zero => exact absurd rfl hz
  | succ n => rfl

/-- At every position the invariant yields the class's: the scratch's named contents are forgotten. -/
theorem PhiS2_forget (c : Dev nD) (n : ℕ) (h : n ≤ cfg2.N) : PhiS2 V c n h ⊢ Pipeline.ΦA spec2 c := by
  cases n with
  | zero => exact Idealize.SL.BI.Entails.refl _
  | succ n =>
    rw [PhiS2_succ, PhiA2_eq]
    iintro ⟨⟨⟨HS0, HS1, HS2⟩, Hr⟩, Hg⟩
    isplitl [HS0 HS1 HS2 Hr]
    · isplitl [HS0 HS1 HS2]
      · isplitl [HS0]; · iexists _; iexact HS0
        isplitl [HS1]; · iexists _; iexact HS1
        iexists _; iexact HS2
      iexact Hr
    iexact Hg

/-! ## The proof data -/

/-- The call's proof data on core `c`: the arrays as the call finds them (`V`); after the body at point `t` each input's
    buffer still at its block and the output's at `outsAt2`'s first component; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

/-- The proof data's arrays are the contents the call is entered at . -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- An input window is live everywhere, so the body must leave its buffer at the block. -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]
theorem leaves2_5 (c : Dev nD) (t : Fin cfg2.N) :
    (dat2 V c).leavesExact 5 t = owns (c : Thread nD τ) (ms2_5 t) fullShare (iblk2 V c 5 t) := by
  unfold Dat.leavesExact; rw [liveAt2_5 t, after2_5]
theorem leaves2_6 (c : Dev nD) (t : Fin cfg2.N) :
    (dat2 V c).leavesExact 6 t = owns (c : Thread nD τ) (ms2_6 t) fullShare (iblk2 V c 6 t) := by
  unfold Dat.leavesExact; rw [liveAt2_6 t, after2_6]

/-! ## The body obligation, at a generic point -/

/-- What the body is called with at point `t`: the invariant, what the core owes, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4000000 in
/-- The body at a point that is a group's first kv block: the inputs' memrefs hold their blocks, the invariant's scratch buffers are taken at whatever they hold, so the
    case's run applies; it gives the scratch back at this point's contents (its whole-buffer pieces cover each), the output's buffer untouched; what the core owes passes through. -/
theorem sound_body2_A (c : Dev nD) (t : Fin cfg2.N) (h0 : t.val % 4 = 0) (h1 : ¬t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
  rw [outsAt2_A V c t h0 h1]
  unfold at2_A sout2_A_0 sout2_A_1 sout2_A_2; (try dsimp only)
  rw [PhiS2_castSucc V c t]
  refine (sep_mono_left (PhiS2_forget V c _ _)).trans ?_
  rw [PhiA2_eq]
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, ⟨%es0, HS0⟩, ⟨%es1, HS1⟩, ⟨%es2, HS2⟩⟩
  isplitl [HS0 HS1 HS2 Hr Hg]
  · isplitl [HS0 HS1 HS2 Hr]
    · isplitl [HS0 HS1 HS2]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover2_A_2 c _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- The body at a point that is a group's middle kv blocks: the inputs' memrefs hold their blocks, the invariant hands over the three scratch buffers at what the point before left, so the
    case's run applies; it gives the scratch back at this point's contents (its whole-buffer pieces cover each), the output's buffer untouched; what the core owes passes through. -/
theorem sound_body2_B (c : Dev nD) (t : Fin cfg2.N) (h0 : ¬t.val % 4 = 0) (h1 : ¬t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
  rw [outsAt2_B V c t h0 h1]
  unfold at2_B sout2_B_0 sout2_B_1 sout2_B_2; (try dsimp only)
  rw [PhiS2_castSucc V c t]
  rw [PhiS2_pos V c _ _ (fun e => h0 (by rw [e]))]
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _ _ _).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, ⟨%es0, HS0⟩, ⟨%es1, HS1⟩, ⟨%es2, HS2⟩⟩
  isplitl [HS0 HS1 HS2 Hr Hg]
  · isplitl [HS0 HS1 HS2 Hr]
    · isplitl [HS0 HS1 HS2]
      · isplitl [HS0]
        · unfold owns; iexists _; isplitr
          swap; · iexact HS0
          ipureintro; exact View.read_writes_of_cover _ _ _ _ _ (scover2_B_0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover2_B_2 c _ _ _ _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
/-- The body at a point that is a group's last kv block: the inputs' memrefs hold their blocks, the invariant hands over the three scratch buffers at what the point before left, so the
    case's run applies; it gives the scratch back at this point's contents (its whole-buffer pieces cover each), and the output's buffer at its one whole piece; what the core owes passes through. -/
theorem sound_body2_C (c : Dev nD) (t : Fin cfg2.N) (h0 : ¬t.val % 4 = 0) (h1 : t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  rw [show (dat2 V c).leavesExact 7 t = owns (c : Thread nD τ) (ms2_7 t) fullShare ((dat2 V c).after 7 t) from by
    unfold Dat.leavesExact; rw [liveAt2_7_C t (fun h => h0 ((hcond2_0 t).mp h)) ((hcond2_1 t).mpr h1)], after2_7]
  rw [outsAt2_C V c t h0 h1]
  unfold at2_C out2_C_7 sout2_C_0 sout2_C_1 sout2_C_2; (try dsimp only)
  rw [PhiS2_castSucc V c t]
  rw [PhiS2_pos V c _ _ (fun e => h0 (by rw [e]))]
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, ⟨%e7, H7⟩, ⟨%es0, HS0⟩, ⟨%es1, HS1⟩, ⟨%es2, HS2⟩⟩
  isplitl [HS0 HS1 HS2 Hr Hg]
  · isplitl [HS0 HS1 HS2 Hr]
    · isplitl [HS0 HS1 HS2]
      · isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover2_C_2 c _ _ _ _ _ _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_C_7 c _ _ _ _ _ _ _ _ _ _ _ _ _ _ _ _ _ _ _ _ _ _ _ _ _ _ _ _ _ _ _ _ _ _ _)

/-- The body at any point: the point's kv-block coordinate (its position mod 4) says which case it is. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 4 = 0
  · by_cases h1 : t.val % 4 = 3
    · exfalso; omega
    · exact sound_body2_A V c t h0 h1
  · by_cases h1 : t.val % 4 = 3
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact PhiS2_forget V c _ _

end Cert.KernelIdeal.Rgn

end
-- ==== Proof.KI.Run.lean ====
/-
  The whole program, launch to return. It is three kernel regions with nothing between them, so the contents of the
  core's unscoped buffers pass through four boundaries: the launch memory; then, after each region, the same contents
  with that region's arrays replaced by what its write-backs leave (an input array: unchanged; an output array: its
  blocks as the grid points wrote them back). Each region is entered from "every unscoped buffer at the boundary's
  contents, the generator register at some state, nothing owed" and left at the next boundary's. The library's
  several-regions launch composes the three and reads the last boundary against the final memory: every unscoped
  buffer ends at the last boundary's contents. The frame claim (the ten arguments end as launched) and the value of
  the result buffer are both read off that.
-/
import proofs.«152342_j15135464751210_2_alg».proof.Proof.KI.Reg0
import proofs.«152342_j15135464751210_2_alg».proof.Proof.KI.Reg1
import proofs.«152342_j15135464751210_2_alg».proof.Proof.KI.Reg2

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- The same read at the core's own references: what the first region's proof data take. -/
abbrev E0 : (c : Dev nD) → (b : Ref sig .tc) → Buf (Elt F) ((c : Thread nD τ).loc b) := fun c b => B0 m c b

/-- After the first region: its arrays at what its write-backs leave, every other buffer as launched. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the second region. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev E2 : (c : Dev nD) → (b : Ref sig .tc) → Buf (Elt F) ((c : Thread nD τ).loc b) := fun c b => B2 m c b
theorem hF1 (c : Dev nD) (w : Fin cfg1.W) : (dat1 (E1 m) c).arrAt w cfg1.N = E2 m c (Pipeline.arrRef spec1 w) :=
  (B2_arr m c w).symm
theorem hrest1 (c : Dev nD) : ∀ b, b ∉ Finset.univ.image (Pipeline.arrRef spec1) → E2 m c b = E1 m c b :=
  fun b hb => B2_of_ne m c b fun w e => hb (Finset.mem_image.mpr ⟨w, Finset.mem_univ _, e⟩)

/-- After the third region: the contents the program returns with. -/
def B3 (c : Dev nD) : Valuation τ sig (Elt F) :=
  Pipeline.withArrays spec2 c (B2 m c) fun w => (dat2 (E2 m) c).arrAt w cfg2.N
theorem B3_arr (c : Dev nD) (w : Fin cfg2.W) :
    B3 m c (Proc.devRef .tc (Pipeline.arrRef spec2 w)) = (dat2 (E2 m) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m c (Proc.devRef .tc b) = B2 m c (Proc.devRef .tc b) := by
  unfold B3; exact Pipeline.withArrays_of_ne spec2 c _ _ b hb
abbrev E3 : (c : Dev nD) → (b : Ref sig .tc) → Buf (Elt F) ((c : Thread nD τ).loc b) := fun c b => B3 m c b
theorem hF2 (c : Dev nD) (w : Fin cfg2.W) : (dat2 (E2 m) c).arrAt w cfg2.N = E3 m c (Pipeline.arrRef spec2 w) :=
  (B3_arr m c w).symm
theorem hrest2 (c : Dev nD) : ∀ b, b ∉ Finset.univ.image (Pipeline.arrRef spec2) → E3 m c b = E2 m c b :=
  fun b hb => B3_of_ne m c b fun w e => hb (Finset.mem_image.mpr ⟨w, Finset.mem_univ _, e⟩)

/-! ## An input array passes through its region unchanged -/

theorem B1_in (c : Dev nD) (w : Fin cfg0.W) (hw : (cfg0.win w).isOut = false) :
    B1 m c (Proc.devRef .tc (Pipeline.arrRef spec0 w)) = B0 m c (Proc.devRef .tc (Pipeline.arrRef spec0 w)) :=
  (B1_arr m c w).trans (((dat0 (E0 m) c).arrAt_in w hw _).trans (A_eq0 (E0 m) c w))
theorem B2_in (c : Dev nD) (w : Fin cfg1.W) (hw : (cfg1.win w).isOut = false) :
    B2 m c (Proc.devRef .tc (Pipeline.arrRef spec1 w)) = B1 m c (Proc.devRef .tc (Pipeline.arrRef spec1 w)) :=
  (B2_arr m c w).trans (((dat1 (E1 m) c).arrAt_in w hw _).trans (A_eq1 (E1 m) c w))
theorem B3_in (c : Dev nD) (w : Fin cfg2.W) (hw : (cfg2.win w).isOut = false) :
    B3 m c (Proc.devRef .tc (Pipeline.arrRef spec2 w)) = B2 m c (Proc.devRef .tc (Pipeline.arrRef spec2 w)) :=
  (B3_arr m c w).trans (((dat2 (E2 m) c).arrAt_in w hw _).trans (A_eq2 (E2 m) c w))

/-! ## The ten arguments end as launched: each is an input window of one region and no array of the other two -/

theorem B3_main_arg0 (c : Dev nD) : B3 m c (Proc.devRef .tc main_arg0) = m ((c : Thread nD τ).loc main_arg0) :=
  (B3_of_ne m c main_arg0 (by decide)).trans <| (B2_of_ne m c main_arg0 (by decide)).trans <| (B1_in m c 0 rfl).trans rfl
theorem B3_main_arg1 (c : Dev nD) : B3 m c (Proc.devRef .tc main_arg1) = m ((c : Thread nD τ).loc main_arg1) :=
  (B3_in m c 4 rfl).trans <| (B2_of_ne m c main_arg1 (by decide)).trans <| (B1_of_ne m c main_arg1 (by decide)).trans rfl
theorem B3_main_arg2 (c : Dev nD) : B3 m c (Proc.devRef .tc main_arg2) = m ((c : Thread nD τ).loc main_arg2) :=
  (B3_of_ne m c main_arg2 (by decide)).trans <| (B2_of_ne m c main_arg2 (by decide)).trans <| (B1_in m c 1 rfl).trans rfl
theorem B3_main_arg3 (c : Dev nD) : B3 m c (Proc.devRef .tc main_arg3) = m ((c : Thread nD τ).loc main_arg3) :=
  (B3_of_ne m c main_arg3 (by decide)).trans <| (B2_of_ne m c main_arg3 (by decide)).trans <| (B1_in m c 2 rfl).trans rfl
theorem B3_main_arg4 (c : Dev nD) : B3 m c (Proc.devRef .tc main_arg4) = m ((c : Thread nD τ).loc main_arg4) :=
  (B3_of_ne m c main_arg4 (by decide)).trans <| (B2_of_ne m c main_arg4 (by decide)).trans <| (B1_in m c 3 rfl).trans rfl
theorem B3_main_arg5 (c : Dev nD) : B3 m c (Proc.devRef .tc main_arg5) = m ((c : Thread nD τ).loc main_arg5) :=
  (B3_of_ne m c main_arg5 (by decide)).trans <| (B2_of_ne m c main_arg5 (by decide)).trans <| (B1_in m c 4 rfl).trans rfl
theorem B3_main_arg6 (c : Dev nD) : B3 m c (Proc.devRef .tc main_arg6) = m ((c : Thread nD τ).loc main_arg6) :=
  (B3_of_ne m c main_arg6 (by decide)).trans <| (B2_in m c 2 rfl).trans <| (B1_of_ne m c main_arg6 (by decide)).trans rfl
theorem B3_main_arg7 (c : Dev nD) : B3 m c (Proc.devRef .tc main_arg7) = m ((c : Thread nD τ).loc main_arg7) :=
  (B3_of_ne m c main_arg7 (by decide)).trans <| (B2_in m c 3 rfl).trans <| (B1_of_ne m c main_arg7 (by decide)).trans rfl
theorem B3_main_arg8 (c : Dev nD) : B3 m c (Proc.devRef .tc main_arg8) = m ((c : Thread nD τ).loc main_arg8) :=
  (B3_in m c 5 rfl).trans <| (B2_of_ne m c main_arg8 (by decide)).trans <| (B1_of_ne m c main_arg8 (by decide)).trans rfl
theorem B3_main_arg9 (c : Dev nD) : B3 m c (Proc.devRef .tc main_arg9) = m ((c : Thread nD τ).loc main_arg9) :=
  (B3_in m c 6 rfl).trans <| (B2_of_ne m c main_arg9 (by decide)).trans <| (B1_of_ne m c main_arg9 (by decide)).trans rfl

/-! ## The proof data family and the thread state -/

/-- No region has a prefetched table. -/
abbrev noTables : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) noTables p) c
  | ⟨0, _⟩ => fun c => dat0 (E0 m) c
  | ⟨1, _⟩ => fun c => dat1 (E1 m) c
  | ⟨2, _⟩ => fun c => dat2 (E2 m) c
abbrev noVar : Variants := Variants.none
/-- No core owes another anything: no level is assigned. -/
abbrev noPairs : GSem nD τ sig → Finset Unit := fun _ => ∅
abbrev noLevel : GSem nD τ sig → Unit → ℕ := fun _ _ => 0
/-- What rides beside the buffers across every boundary: the generator register at some state, nothing owed. -/
abbrev Rides (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (B3 m c) ∗ ∃ r, prngReg c r)

/-! ## The regions as segments -/

/-- The region's class invariant from its parts (the generator register, the scoped buffers no window stages; no table is held), and back. -/
theorem PhiA_of_parts0 (c : Dev nD) (P : sProp 𝕄) :
    iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
theorem parts_of_PhiA0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-- The region's class invariant from its parts (the generator register, the scoped buffers no window stages; no table is held), and back. -/
theorem PhiA_of_parts1 (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
theorem parts_of_PhiA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The region's class invariant from its parts (the generator register, the scoped buffers no window stages; no table is held), and back. -/
theorem PhiA_of_parts2 (c : Dev nD) (P : sProp 𝕄) :
    iprop((∃ r, prngReg c r) ∗ P ∗ Pipeline.scopedRest spec2 c) ⊢ (Pipeline.ΦA spec2 c : sProp 𝕄) := by
  unfold Pipeline.ΦA
  iintro ⟨Hp, -, Hr⟩
  isplitl [Hr]; · iexact Hr
  iexact Hp
theorem parts_of_PhiA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at `B0`, left at `B1`. Its arrays are
    split out of the unscoped buffers and put back at the exit contents; the generator register goes into the region's
    invariant and comes back; nothing is owed; the kernel has no semaphore of its own. -/
def reg0 : Pipeline.RegionSeg (pcfgs (F := F)) noTables (pdats m) () defs₀ noVar noPairs noLevel 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevel 0 fun _ _ => rfl
  pre c := iprop(StableHlo.held (c : Thread nD τ) (Pipeline.ucRefs τ sig) (B0 m c) ∗ Rides c)
  post c := iprop(StableHlo.held (c : Thread nD τ) (Pipeline.ucRefs τ sig) (B1 m c) ∗ Rides c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_of_parts0 c _).trans (hin0 (E0 m) c)
  hout c := by
    rw [Pipeline.ownSems0_none]
    exact (hout0 (E0 m) c).trans (parts_of_PhiA0 c)
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B1`, left at `B2`. Its arrays are
    split out of the unscoped buffers and put back at the exit contents; the generator register goes into the region's
    invariant and comes back; nothing is owed; the kernel has no semaphore of its own. -/
def reg1 : Pipeline.RegionSeg (pcfgs (F := F)) noTables (pdats m) () defs₀ noVar noPairs noLevel 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevel 1 fun _ _ => rfl
  pre c := iprop(StableHlo.held (c : Thread nD τ) (Pipeline.ucRefs τ sig) (B1 m c) ∗ Rides c)
  post c := iprop(StableHlo.held (c : Thread nD τ) (Pipeline.ucRefs τ sig) (B2 m c) ∗ Rides c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_of_parts1 c _).trans (hin1 (E1 m) c)
  hout c := by
    rw [Pipeline.ownSems0_none]
    exact (hout1 (E1 m) c).trans (parts_of_PhiA1 c)
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B2`, left at `B3`. Its arrays are
    split out of the unscoped buffers and put back at the exit contents; the generator register goes into the region's
    invariant and comes back; nothing is owed; the kernel has no semaphore of its own. -/
def reg2 : Pipeline.RegionSeg (pcfgs (F := F)) noTables (pdats m) () defs₀ noVar noPairs noLevel 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ noPairs noLevel 2 fun _ _ => rfl
  pre c := iprop(StableHlo.held (c : Thread nD τ) (Pipeline.ucRefs τ sig) (B2 m c) ∗ Rides c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) noTables (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_of_parts2 c _).trans (hin2 (E2 m) c)
  hout c := by
    rw [Pipeline.ownSems0_none]
    exact (hout2 (E2 m) c).trans (parts_of_PhiA2 c)
  hexit c := by
    have hjoin := Pipeline.unscopedBufs_of_arrays (p := 2) (pcfgs (F := F)) noTables (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as three segments, and the launch -/

abbrev segs : List (Pipeline.Seg (pcfgs (F := F)) noTables (pdats m) () defs₀ noVar noPairs noLevel) :=
  [ .region (reg0 m), .region (reg1 m), .region (reg2 m) ]
/-- The printed program IS the run of the three segments. -/
theorem main_run (c : Dev nD) : main (F := F) c = Pipeline.Seg.run (segs m) := (main_chain c).trans (by chain_rfl)

set_option backward.isDefEq.respectTransparency.types false in
/-- THE RUN. From any memory with every counter at zero, every weakly fair execution of the program terminates,
    nothing faulting, and in every final memory each unscoped buffer of core `c` holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) noTables (pdats m) () cellOf_inj emb₁ defs₀ noVar noPairs noLevel m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rides c)) (Tₙ := Tend m)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME, at any float instance: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (B3_main_arg0 m c), (h c _ (mem_uc main_arg1 (by decide))).trans (B3_main_arg1 m c),
     (h c _ (mem_uc main_arg2 (by decide))).trans (B3_main_arg2 m c), (h c _ (mem_uc main_arg3 (by decide))).trans (B3_main_arg3 m c),
     (h c _ (mem_uc main_arg4 (by decide))).trans (B3_main_arg4 m c), (h c _ (mem_uc main_arg5 (by decide))).trans (B3_main_arg5 m c),
     (h c _ (mem_uc main_arg6 (by decide))).trans (B3_main_arg6 m c), (h c _ (mem_uc main_arg7 (by decide))).trans (B3_main_arg7 m c),
     (h c _ (mem_uc main_arg8 (by decide))).trans (B3_main_arg8 m c), (h c _ (mem_uc main_arg9 (by decide))).trans (B3_main_arg9 m c)⟩) (run_main m ρ)

/-- The result buffer ends at what the third region's write-backs leave in it. -/
theorem result_eq (c : Dev nD) : B3 m c (Proc.devRef .tc main_v0) = (dat2 (E2 m) c).arrAt 7 cfg2.N := B3_arr m c 7

end Cert.KernelIdeal.Rgn

end
-- ==== Proof.LibWhole.lean ====
/-
  Loads and stores of a WHOLE rank-2 buffer, read back: a store through the rectangle at offsets zero of the buffer's
  own sizes leaves its payload whatever was stored before it; a load through that rectangle reads the contents — of a
  buffer as it stands, or of one whose last store was such a store.
-/
import Idealize.ShloMosaic.Lib.Pipeline.FrameBody
import Idealize.ShloMosaic.Lib.Pipeline.Value

namespace Cert.Lib.Whole

open Idealize.ShloMosaic

variable {Val : EltTy → Type} [∀ e, Nonempty (Val e)] {sg : RefSig} {κ : Kind} {sp : Space} {S : Shape} {e : EltTy}

/-- A store of the whole buffer, made last, leaves its payload, whatever was stored before. -/
theorem read_writes_whole (v : View sg κ sp S e) (f : v.ty.Contents Val) {off : Fin S.rank → Nat} (hoff : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hoff inb y⟩),
    View.canon_cons_unit_zero hoff]

/-- A load of the whole buffer after such a store reads the payload. -/
theorem readCov_whole (v : View sg κ sp S e) {off : Fin S.rank → Nat} (hoff : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero hoff inb y⟩),
    View.canon_cons_unit_zero hoff, View.ld_unit_zero hoff]

/-- A load of the whole buffer reads its contents. -/
theorem readAt_whole (v : View sg κ sp S e) (f : v.ty.Contents Val) {off : Fin S.rank → Nat} (hoff : off = fun _ => 0)
    (inb : ∀ a, off a + S.size a ≤ S.size a) :
    v.readAt Val (Rect.unit off S.size inb).toLoadRect f = v.read Val f := by
  rw [View.readAt_eq_ld, View.ld_unit_zero hoff]

/-- The offsets `![0, 0]` are zero on both axes. -/
theorem zero2 : (![0, 0] : Fin 2 → Nat) = fun _ => 0 := funext fun a => by fin_cases a <;> rfl

end Cert.Lib.Whole
-- ==== Proof.KI.Val0.Pieces.lean ====
import proofs.«152342_j15135464751210_2_alg».proof.Proof.KI.Reg0
import proofs.«152342_j15135464751210_2_alg».proof.Proof.LibWhole
import Idealize.ShloMosaic.Lib.Pipeline.Value
import Idealize.ShloMosaic.Lib.Tactic
import Idealize.ShloMosaic.Lib.ValueIdx

set_option maxRecDepth 16384

noncomputable section

namespace Cert.KernelIdeal.Val0

open Cert.KernelIdeal Cert.KernelIdeal.Gen Cert.KernelIdeal.Rgn
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F] [Named F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! # What each case's stores leave: the body's arithmetic of the blocks it was handed -/

section Pieces
variable (c : Dev nD) (i : grid0.Coords) (arg2 : Memref sig .tc .vmem S1x512x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .f32) (harg9 : arg9.IsWhole) (arg10 : Memref sig .tc .vmem S768x768 .f32) (harg10 : arg10.IsWhole)

/-! ## Case A -/

/-- The q tile's buffer after the body: the first linear map of the x tile. -/
theorem runA_q (hc0 : cond0_0 i) (hc1 : ¬cond0_1 i) (x0 : Vec F S1x512x768 .f32) (x1 : Vec F S768x768 .f32) (x2 : Vec F S768 .f32) (x3 : Vec F S768x768 .f32) (x4 : Vec F S768 .f32) :
    VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1) = k0_pay7 x0 x1 x2 := by
  unfold kernelRun0_A; dsimp only
  sl_unfold_words
  rw [Cert.Lib.Whole.read_writes_whole (S := S1x512x768) _ _ hz3]
  simp only [View.readAt_eq_ld, harg2.read_unread, harg3.read_unread, harg4.read_unread, View.ld_unit_zero (S := S1x512x768) hz3, View.ld_unit_zero (S := S768x768) hz2, View.ld_unit_zero (S := S768) hz1]
  rfl

/-- The k tile's buffer after the body: the second linear map of the x tile. -/
theorem runA_k (hc0 : cond0_0 i) (hc1 : ¬cond0_1 i) (x0 : Vec F S1x512x768 .f32) (x1 : Vec F S768x768 .f32) (x2 : Vec F S768 .f32) (x3 : Vec F S768x768 .f32) (x4 : Vec F S768 .f32) :
    VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1) = k0_pay1 (k0_pay5 x0 x3 x4) := by
  unfold kernelRun0_A; dsimp only
  sl_unfold_words
  rw [Cert.Lib.Whole.read_writes_whole (S := S1x512x768) _ _ hz3]
  simp only [View.readAt_eq_ld, harg2.read_unread, harg5.read_unread, harg6.read_unread, View.ld_unit_zero (S := S1x512x768) hz3, View.ld_unit_zero (S := S768x768) hz2, View.ld_unit_zero (S := S768) hz1]
  rfl

/-- The accumulator after the body: zero plus the tile's kᵀ·x. -/
theorem runA_s (hc0 : cond0_0 i) (hc1 : ¬cond0_1 i) (x0 : Vec F S1x512x768 .f32) (x1 : Vec F S768x768 .f32) (x2 : Vec F S768 .f32) (x3 : Vec F S768x768 .f32) (x4 : Vec F S768 .f32) :
    VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.2.1) = k0_pay6 x0 x3 x4 (k0_pay4 (F := F)) := by
  unfold kernelRun0_A; dsimp only
  sl_unfold_words
  rw [Cert.Lib.Whole.read_writes_whole (S := S768x768) _ _ hz2]
  rw [Cert.Lib.Whole.readCov_whole (S := S768x768) _ hz2]
  simp only [View.readAt_eq_ld, harg2.read_unread, harg5.read_unread, harg6.read_unread, View.ld_unit_zero (S := S1x512x768) hz3, View.ld_unit_zero (S := S768x768) hz2, View.ld_unit_zero (S := S768) hz1]
  rfl

/-! ## Case B -/

/-- The q tile's buffer after the body: the first linear map of the x tile. -/
theorem runB_q (hc0 : ¬cond0_0 i) (hc1 : ¬cond0_1 i) (x0 : Vec F S1x512x768 .f32) (x1 : Vec F S768x768 .f32) (x2 : Vec F S768 .f32) (x3 : Vec F S768x768 .f32) (x4 : Vec F S768 .f32) (xs0 : Vec F S768x768 .f32) :
    VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0).1) = k0_pay7 x0 x1 x2 := by
  unfold kernelRun0_B; dsimp only
  sl_unfold_words
  rw [Cert.Lib.Whole.read_writes_whole (S := S1x512x768) _ _ hz3]
  simp only [View.readAt_eq_ld, harg2.read_unread, harg3.read_unread, harg4.read_unread, View.ld_unit_zero (S := S1x512x768) hz3, View.ld_unit_zero (S := S768x768) hz2, View.ld_unit_zero (S := S768) hz1]
  rfl

/-- The k tile's buffer after the body: the second linear map of the x tile. -/
theorem runB_k (hc0 : ¬cond0_0 i) (hc1 : ¬cond0_1 i) (x0 : Vec F S1x512x768 .f32) (x1 : Vec F S768x768 .f32) (x2 : Vec F S768 .f32) (x3 : Vec F S768x768 .f32) (x4 : Vec F S768 .f32) (xs0 : Vec F S768x768 .f32) :
    VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs0).2.1) = k0_pay1 (k0_pay5 x0 x3 x4) := by
  unfold kernelRun0_B; dsimp only
  sl_unfold_words
  rw [Cert.Lib.Whole.read_writes_whole (S := S1x512x768) _ _ hz3]
  simp only [View.readAt_eq_ld, harg2.read_unread, harg5.read_unread, harg6.read_unread, View.ld_unit_zero (S := S1x512x768) hz3, View.ld_unit_zero (S := S768x768) hz2, View.ld_unit_zero (S := S768) hz1]
  rfl

/-- The accumulator after the body: what it held, plus the tile's kᵀ·x. -/
theorem runB_s (hc0 : ¬cond0_0 i) (hc1 : ¬cond0_1 i) (x0 : Vec F S1x512x768 .f32) (x1 : Vec F S768x768 .f32) (x2 : Vec F S768 .f32) (x3 : Vec F S768x768 .f32) (x4 : Vec F S768 .f32) (xs0 : Vec F S768x768 .f32) :
    VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 xs0).2.2.2.1) = k0_pay6 x0 x3 x4 xs0 := by
  unfold kernelRun0_B; dsimp only
  sl_unfold_words
  rw [Cert.Lib.Whole.read_writes_whole (S := S768x768) _ _ hz2]
  simp only [View.readAt_eq_ld, harg2.read_unread, harg5.read_unread, harg6.read_unread, harg10.read_unread, View.ld_unit_zero (S := S1x512x768) hz3, View.ld_unit_zero (S := S768x768) hz2, View.ld_unit_zero (S := S768) hz1]
  rfl

/-! ## Case C -/

/-- The q tile's buffer after the body: the first linear map of the x tile. -/
theorem runC_q (hc0 : ¬cond0_0 i) (hc1 : cond0_1 i) (x0 : Vec F S1x512x768 .f32) (x1 : Vec F S768x768 .f32) (x2 : Vec F S768 .f32) (x3 : Vec F S768x768 .f32) (x4 : Vec F S768 .f32) (xs0 : Vec F S768x768 .f32) :
    VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0).1) = k0_pay7 x0 x1 x2 := by
  unfold kernelRun0_C; dsimp only
  sl_unfold_words
  rw [Cert.Lib.Whole.read_writes_whole (S := S1x512x768) _ _ hz3]
  simp only [View.readAt_eq_ld, harg2.read_unread, harg3.read_unread, harg4.read_unread, View.ld_unit_zero (S := S1x512x768) hz3, View.ld_unit_zero (S := S768x768) hz2, View.ld_unit_zero (S := S768) hz1]
  rfl

/-- The k tile's buffer after the body: the second linear map of the x tile. -/
theorem runC_k (hc0 : ¬cond0_0 i) (hc1 : cond0_1 i) (x0 : Vec F S1x512x768 .f32) (x1 : Vec F S768x768 .f32) (x2 : Vec F S768 .f32) (x3 : Vec F S768x768 .f32) (x4 : Vec F S768 .f32) (xs0 : Vec F S768x768 .f32) :
    VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs0).2.1) = k0_pay1 (k0_pay5 x0 x3 x4) := by
  unfold kernelRun0_C; dsimp only
  sl_unfold_words
  rw [Cert.Lib.Whole.read_writes_whole (S := S1x512x768) _ _ hz3]
  simp only [View.readAt_eq_ld, harg2.read_unread, harg5.read_unread, harg6.read_unread, View.ld_unit_zero (S := S1x512x768) hz3, View.ld_unit_zero (S := S768x768) hz2, View.ld_unit_zero (S := S768) hz1]
  rfl

/-- The accumulator after the body: what it held, plus the tile's kᵀ·x. -/
theorem runC_s (hc0 : ¬cond0_0 i) (hc1 : cond0_1 i) (x0 : Vec F S1x512x768 .f32) (x1 : Vec F S768x768 .f32) (x2 : Vec F S768 .f32) (x3 : Vec F S768x768 .f32) (x4 : Vec F S768 .f32) (xs0 : Vec F S768x768 .f32) :
    VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 xs0).2.2.2.1) = k0_pay6 x0 x3 x4 xs0 := by
  unfold kernelRun0_C; dsimp only
  sl_unfold_words
  rw [Cert.Lib.Whole.read_writes_whole (S := S768x768) _ _ hz2]
  simp only [View.readAt_eq_ld, harg2.read_unread, harg5.read_unread, harg6.read_unread, harg10.read_unread, View.ld_unit_zero (S := S1x512x768) hz3, View.ld_unit_zero (S := S768x768) hz2, View.ld_unit_zero (S := S768) hz1]
  rfl

/-- The accumulated product's buffer after the body at a last row tile: the accumulator as just stored, scaled. -/
theorem runC_m (hc0 : ¬cond0_0 i) (hc1 : cond0_1 i) (x0 : Vec F S1x512x768 .f32) (x1 : Vec F S768x768 .f32) (x2 : Vec F S768 .f32) (x3 : Vec F S768x768 .f32) (x4 : Vec F S768 .f32) (xs0 : Vec F S768x768 .f32) :
    VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 xs0).2.2.1) = k0_pay2 (k0_pay6 x0 x3 x4 xs0) := by
  unfold kernelRun0_C; dsimp only
  sl_unfold_words
  rw [Cert.Lib.Whole.read_writes_whole (S := S1x768x768) _ _ hz3]
  rw [Cert.Lib.Whole.readCov_whole (S := S768x768) _ hz2]
  simp only [View.readAt_eq_ld, harg2.read_unread, harg5.read_unread, harg6.read_unread, harg10.read_unread, View.ld_unit_zero (S := S1x512x768) hz3, View.ld_unit_zero (S := S768x768) hz2, View.ld_unit_zero (S := S768) hz1]
  rfl

end Pieces

end Cert.KernelIdeal.Val0

end
-- ==== Proof.KI.Val0.Chain.lean ====
import proofs.«152342_j15135464751210_2_alg».proof.Proof.KI.Val0.Pieces

set_option maxRecDepth 16384

noncomputable section

namespace Cert.KernelIdeal.Val0

open Cert.KernelIdeal Cert.KernelIdeal.Gen Cert.KernelIdeal.Rgn
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F] [Named F]

section Entry
variable (V : (c : Dev nD) → (b : Ref sig .tc) → Buf (Elt F) ((c : Thread nD τ).loc b))

/-! # Each case at a grid point: the payloads of the point's blocks -/

theorem outs0_A_q (c : Dev nD) (t : Fin cfg0.N) (h0 : t.val % 4 = 0) (h1 : ¬t.val % 4 = 3) :
    (outs0_A V c t h0 h1).1 = k0_pay7 (iblk0 V c 0 t) (iblk0 V c 1 t) (iblk0 V c 2 t) := by
  unfold outs0_A runAt0_A; dsimp only
  exact runA_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)
theorem outs0_A_k (c : Dev nD) (t : Fin cfg0.N) (h0 : t.val % 4 = 0) (h1 : ¬t.val % 4 = 3) :
    (outs0_A V c t h0 h1).2.1 = k0_pay1 (k0_pay5 (iblk0 V c 0 t) (iblk0 V c 3 t) (iblk0 V c 4 t)) := by
  unfold outs0_A runAt0_A; dsimp only
  exact runA_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)
theorem outs0_A_s (c : Dev nD) (t : Fin cfg0.N) (h0 : t.val % 4 = 0) (h1 : ¬t.val % 4 = 3) :
    (outs0_A V c t h0 h1).2.2.2 = k0_pay6 (iblk0 V c 0 t) (iblk0 V c 3 t) (iblk0 V c 4 t) (k0_pay4 (F := F)) := by
  unfold outs0_A runAt0_A; dsimp only
  exact runA_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)

theorem outs0_B_q (c : Dev nD) (t : Fin cfg0.N) (h0 : ¬t.val % 4 = 0) (h1 : ¬t.val % 4 = 3) (xs : Vec F S768x768 .f32) :
    (outs0_B V c t h0 h1 xs).1 = k0_pay7 (iblk0 V c 0 t) (iblk0 V c 1 t) (iblk0 V c 2 t) := by
  unfold outs0_B runAt0_B; dsimp only
  exact runB_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs
theorem outs0_B_k (c : Dev nD) (t : Fin cfg0.N) (h0 : ¬t.val % 4 = 0) (h1 : ¬t.val % 4 = 3) (xs : Vec F S768x768 .f32) :
    (outs0_B V c t h0 h1 xs).2.1 = k0_pay1 (k0_pay5 (iblk0 V c 0 t) (iblk0 V c 3 t) (iblk0 V c 4 t)) := by
  unfold outs0_B runAt0_B; dsimp only
  exact runB_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs
theorem outs0_B_s (c : Dev nD) (t : Fin cfg0.N) (h0 : ¬t.val % 4 = 0) (h1 : ¬t.val % 4 = 3) (xs : Vec F S768x768 .f32) :
    (outs0_B V c t h0 h1 xs).2.2.2 = k0_pay6 (iblk0 V c 0 t) (iblk0 V c 3 t) (iblk0 V c 4 t) xs := by
  unfold outs0_B runAt0_B; dsimp only
  exact runB_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs

theorem outs0_C_q (c : Dev nD) (t : Fin cfg0.N) (h0 : ¬t.val % 4 = 0) (h1 : t.val % 4 = 3) (xs : Vec F S768x768 .f32) :
    (outs0_C V c t h0 h1 xs).1 = k0_pay7 (iblk0 V c 0 t) (iblk0 V c 1 t) (iblk0 V c 2 t) := by
  unfold outs0_C runAt0_C; dsimp only
  exact runC_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs
theorem outs0_C_k (c : Dev nD) (t : Fin cfg0.N) (h0 : ¬t.val % 4 = 0) (h1 : t.val % 4 = 3) (xs : Vec F S768x768 .f32) :
    (outs0_C V c t h0 h1 xs).2.1 = k0_pay1 (k0_pay5 (iblk0 V c 0 t) (iblk0 V c 3 t) (iblk0 V c 4 t)) := by
  unfold outs0_C runAt0_C; dsimp only
  exact runC_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs
theorem outs0_C_s (c : Dev nD) (t : Fin cfg0.N) (h0 : ¬t.val % 4 = 0) (h1 : t.val % 4 = 3) (xs : Vec F S768x768 .f32) :
    (outs0_C V c t h0 h1 xs).2.2.2 = k0_pay6 (iblk0 V c 0 t) (iblk0 V c 3 t) (iblk0 V c 4 t) xs := by
  unfold outs0_C runAt0_C; dsimp only
  exact runC_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs
theorem outs0_C_m (c : Dev nD) (t : Fin cfg0.N) (h0 : ¬t.val % 4 = 0) (h1 : t.val % 4 = 3) (xs : Vec F S768x768 .f32) :
    (outs0_C V c t h0 h1 xs).2.2.1 = k0_pay2 (k0_pay6 (iblk0 V c 0 t) (iblk0 V c 3 t) (iblk0 V c 4 t) xs) := by
  unfold outs0_C runAt0_C; dsimp only
  exact runC_m c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) xs

/-! # Point by point -/

/-- What the accumulator holds after position `n`: at a first row tile the zero array plus the tile's kᵀ·x, elsewhere
    what it held after the position before plus the tile's kᵀ·x. -/
def accAt (c : Dev nD) : (n : ℕ) → n < cfg0.N → Vec F S768x768 .f32
  | 0, hn => k0_pay6 (iblk0 V c 0 ⟨0, hn⟩) (iblk0 V c 3 ⟨0, hn⟩) (iblk0 V c 4 ⟨0, hn⟩) (k0_pay4 (F := F))
  | n + 1, hn =>
    if (n + 1) % 4 = 0 then k0_pay6 (iblk0 V c 0 ⟨n + 1, hn⟩) (iblk0 V c 3 ⟨n + 1, hn⟩) (iblk0 V c 4 ⟨n + 1, hn⟩) (k0_pay4 (F := F))
    else k0_pay6 (iblk0 V c 0 ⟨n + 1, hn⟩) (iblk0 V c 3 ⟨n + 1, hn⟩) (iblk0 V c 4 ⟨n + 1, hn⟩) (accAt c n (Nat.lt_of_succ_lt hn))

theorem accAt_first (c : Dev nD) (t : Fin cfg0.N) (h0 : t.val % 4 = 0) :
    accAt V c t.val t.isLt = k0_pay6 (iblk0 V c 0 t) (iblk0 V c 3 t) (iblk0 V c 4 t) (k0_pay4 (F := F)) := by
  obtain ⟨n, hn⟩ := t
  cases n with
  | zero => rfl
  | succ n => exact if_pos h0

theorem accAt_next (c : Dev nD) (t : Fin cfg0.N) (h0 : ¬t.val % 4 = 0) :
    accAt V c t.val t.isLt = k0_pay6 (iblk0 V c 0 t) (iblk0 V c 3 t) (iblk0 V c 4 t) (accAt V c (t.val - 1) (Nat.lt_of_le_of_lt (Nat.sub_le _ _) t.isLt)) := by
  obtain ⟨n, hn⟩ := t
  cases n with
  | zero => exact absurd (Nat.zero_mod _) h0
  | succ n => exact if_neg h0

/-- The accumulator's component of the frame's point-by-point contents is that chain. -/
theorem acc_at (c : Dev nD) : ∀ (n : ℕ) (h : n < cfg0.N), (outsAt0 V c n h).2.2.2 = accAt V c n h
  | 0, h => by
    rw [outsAt0_A V c ⟨0, h⟩ (Nat.zero_mod _) (fun e => absurd e (by decide : ¬(0 % 4 = 3)))]
    exact outs0_A_s V c ⟨0, h⟩ _ _
  | n + 1, h => by
    have ih := acc_at c n (Nat.lt_of_succ_lt h)
    by_cases h0 : (n + 1) % 4 = 0
    · have h1 : ¬(n + 1) % 4 = 3 := by omega
      rw [outsAt0_A V c ⟨n + 1, h⟩ h0 h1, outs0_A_s V c ⟨n + 1, h⟩ h0 h1]
      exact (accAt_first V c ⟨n + 1, h⟩ h0).symm
    · by_cases h1 : (n + 1) % 4 = 3
      · rw [outsAt0_C V c ⟨n + 1, h⟩ h0 h1, outs0_C_s V c ⟨n + 1, h⟩ h0 h1, accAt_next V c ⟨n + 1, h⟩ h0]
        exact congrArg (k0_pay6 (iblk0 V c 0 ⟨n + 1, h⟩) (iblk0 V c 3 ⟨n + 1, h⟩) (iblk0 V c 4 ⟨n + 1, h⟩)) ih
      · rw [outsAt0_B V c ⟨n + 1, h⟩ h0 h1, outs0_B_s V c ⟨n + 1, h⟩ h0 h1, accAt_next V c ⟨n + 1, h⟩ h0]
        exact congrArg (k0_pay6 (iblk0 V c 0 ⟨n + 1, h⟩) (iblk0 V c 3 ⟨n + 1, h⟩) (iblk0 V c 4 ⟨n + 1, h⟩)) ih

/-- The q tile's buffer after any point. -/
theorem q_at (c : Dev nD) (t : Fin cfg0.N) :
    (outsAt0 V c t.val t.isLt).1 = k0_pay7 (iblk0 V c 0 t) (iblk0 V c 1 t) (iblk0 V c 2 t) := by
  by_cases h0 : t.val % 4 = 0
  · have h1 : ¬t.val % 4 = 3 := by omega
    rw [outsAt0_A V c t h0 h1]; exact outs0_A_q V c t h0 h1
  · by_cases h1 : t.val % 4 = 3
    · rw [outsAt0_C V c t h0 h1]; exact outs0_C_q V c t h0 h1 _
    · rw [outsAt0_B V c t h0 h1]; exact outs0_B_q V c t h0 h1 _

/-- The k tile's buffer after any point. -/
theorem k_at (c : Dev nD) (t : Fin cfg0.N) :
    (outsAt0 V c t.val t.isLt).2.1 = k0_pay1 (k0_pay5 (iblk0 V c 0 t) (iblk0 V c 3 t) (iblk0 V c 4 t)) := by
  by_cases h0 : t.val % 4 = 0
  · have h1 : ¬t.val % 4 = 3 := by omega
    rw [outsAt0_A V c t h0 h1]; exact outs0_A_k V c t h0 h1
  · by_cases h1 : t.val % 4 = 3
    · rw [outsAt0_C V c t h0 h1]; exact outs0_C_k V c t h0 h1 _
    · rw [outsAt0_B V c t h0 h1]; exact outs0_B_k V c t h0 h1 _

/-- The accumulated product's buffer after a last row tile: the accumulator as the point leaves it, scaled. -/
theorem m_at (c : Dev nD) (t : Fin cfg0.N) (h1 : t.val % 4 = 3) :
    (outsAt0 V c t.val t.isLt).2.2.1 = k0_pay2 (accAt V c t.val t.isLt) := by
  have h0 : ¬t.val % 4 = 0 := by omega
  rw [outsAt0_C V c t h0 h1, outs0_C_m V c t h0 h1, accAt_next V c t h0]
  exact congrArg (fun a => k0_pay2 (k0_pay6 (iblk0 V c 0 t) (iblk0 V c 3 t) (iblk0 V c 4 t) a)) (acc_at V c _ _)

end Entry

end Cert.KernelIdeal.Val0

end
-- ==== Proof.Ref.Spec.lean ====
/-
  The reference computation, written index by index on the extended reals.

  With x : [8, 2048, 768], mask : [8, 2048, 2048] (32-bit integers), four weight matrices [768, 768] and four
  biases [768]:

    q   = x · W1ᵀ + b1,   k = x · W2ᵀ + b2                          (over the feature axis)
    att = (q · kᵀ) / 28                                             (per batch, [2048, 2048])
    g1  = ((att · x) · W3ᵀ) + b3
    msk = (mask = 1 ? -1e9 : att)
    p   = softmax of msk along its last axis, in the form shifted by the row maximum
    g2  = ((p · g1) · W4ᵀ) + b4
    out = g1 + g2

  Every stage is a function of the argument arrays and of the coordinates of one element; a sum is a sum over the
  contracted coordinate, the row maximum is the fold of max over the row starting from the pattern of -∞, and a
  quotient is the extended reals' total quotient. Float literals stay bit patterns.
-/
import Idealize.ShloMosaic.PureOps.Ideal
import Idealize.ShloMosaic.Lib.ValueIdx

noncomputable section

open scoped BigOperators

namespace Cert.ReferenceIdeal.RefValue

open Idealize.ShloMosaic Idealize.ShloMosaic.ValueIdx

/-- [8, 2048, 768]: x, q, k, g1, g2, the result. -/
abbrev SX : Shape := ⟨3, ![8, 2048, 768]⟩
/-- [8, 2048, 2048]: the mask, the logits, the probabilities. -/
abbrev SA : Shape := ⟨3, ![8, 2048, 2048]⟩
/-- [768, 768]: a weight matrix. -/
abbrev SW : Shape := ⟨2, ![768, 768]⟩
/-- [768]: a bias. -/
abbrev SB : Shape := ⟨1, ![768]⟩

/-- The divisor 28. -/
abbrev c28 : EReal := Ideal.ofBits .f32 0x41E00000#32
/-- The fill value -1e9 of a masked logit. -/
abbrev cNeg : EReal := Ideal.ofBits .f32 0xCE6E6B28#32
/-- -∞, from which a row maximum starts. -/
abbrev cNegInf : EReal := Ideal.ofBits .f32 0xFF800000#32

/-- A linear layer at (b, n, e): ∑ d, X (b, n, d) · W (e, d), plus the bias at e. -/
def linOf (X : SX.Idx → EReal) (W : SW.Idx → EReal) (c : SB.Idx → EReal) (b : Fin 8) (n : Fin 2048) (e : Fin 768) : EReal :=
  (∑ d : Fin 768, X (ix3 b n d) * W (ix2 e d)) + c (ix1 e)

/-- q = x · W1ᵀ + b1. -/
def qOf (x : SX.Idx → EReal) (W1 : SW.Idx → EReal) (b1 : SB.Idx → EReal) (b : Fin 8) (n : Fin 2048) (e : Fin 768) : EReal :=
  linOf x W1 b1 b n e

/-- k = x · W2ᵀ + b2. -/
def kOf (x : SX.Idx → EReal) (W2 : SW.Idx → EReal) (b2 : SB.Idx → EReal) (b : Fin 8) (n : Fin 2048) (e : Fin 768) : EReal :=
  linOf x W2 b2 b n e

/-- att (b, n, m) = (∑ d, q (b, n, d) · k (b, m, d)) / 28. -/
def attOf (x : SX.Idx → EReal) (W1 : SW.Idx → EReal) (b1 : SB.Idx → EReal) (W2 : SW.Idx → EReal) (b2 : SB.Idx → EReal)
    (b : Fin 8) (n m : Fin 2048) : EReal :=
  Ideal.div (∑ d : Fin 768, qOf x W1 b1 b n d * kOf x W2 b2 b m d) c28

/-- (att · x) (b, n, d) = ∑ m, att (b, n, m) · x (b, m, d). -/
def aggOf (x : SX.Idx → EReal) (W1 : SW.Idx → EReal) (b1 : SB.Idx → EReal) (W2 : SW.Idx → EReal) (b2 : SB.Idx → EReal)
    (b : Fin 8) (n : Fin 2048) (d : Fin 768) : EReal :=
  ∑ m : Fin 2048, attOf x W1 b1 W2 b2 b n m * x (ix3 b m d)

/-- g1 = (att · x) · W3ᵀ + b3. -/
def g1Of (x : SX.Idx → EReal) (W1 : SW.Idx → EReal) (b1 : SB.Idx → EReal) (W2 : SW.Idx → EReal) (b2 : SB.Idx → EReal)
    (W3 : SW.Idx → EReal) (b3 : SB.Idx → EReal) (b : Fin 8) (n : Fin 2048) (e : Fin 768) : EReal :=
  (∑ d : Fin 768, aggOf x W1 b1 W2 b2 b n d * W3 (ix2 e d)) + b3 (ix1 e)

/-- The masked logit: -1e9 where the mask word is 1, the logit elsewhere. -/
def maskedOf (x : SX.Idx → EReal) (mask : SA.Idx → BitVec 32) (W1 : SW.Idx → EReal) (b1 : SB.Idx → EReal) (W2 : SW.Idx → EReal)
    (b2 : SB.Idx → EReal) (b : Fin 8) (n m : Fin 2048) : EReal :=
  Scalar.select (IntOp.cmpi .eq (mask (ix3 b n m)) 1#32) cNeg (attOf x W1 b1 W2 b2 b n m)

/-- The largest masked logit of row (b, n): the fold of max over the row from -∞. -/
def rowMaxOf (x : SX.Idx → EReal) (mask : SA.Idx → BitVec 32) (W1 : SW.Idx → EReal) (b1 : SB.Idx → EReal) (W2 : SW.Idx → EReal)
    (b2 : SB.Idx → EReal) (b : Fin 8) (n : Fin 2048) : EReal :=
  (Finset.univ : Finset (Fin 2048)).fold max cNegInf (fun m => maskedOf x mask W1 b1 W2 b2 b n m)

/-- exp (masked logit - row maximum). -/
def expOf (x : SX.Idx → EReal) (mask : SA.Idx → BitVec 32) (W1 : SW.Idx → EReal) (b1 : SB.Idx → EReal) (W2 : SW.Idx → EReal)
    (b2 : SB.Idx → EReal) (b : Fin 8) (n m : Fin 2048) : EReal :=
  Ideal.exp (maskedOf x mask W1 b1 W2 b2 b n m - rowMaxOf x mask W1 b1 W2 b2 b n)

/-- The row's sum of exponentials. -/
def rowSumOf (x : SX.Idx → EReal) (mask : SA.Idx → BitVec 32) (W1 : SW.Idx → EReal) (b1 : SB.Idx → EReal) (W2 : SW.Idx → EReal)
    (b2 : SB.Idx → EReal) (b : Fin 8) (n : Fin 2048) : EReal :=
  ∑ m : Fin 2048, expOf x mask W1 b1 W2 b2 b n m

/-- The softmax probability: the exponential over the row's sum. -/
def probOf (x : SX.Idx → EReal) (mask : SA.Idx → BitVec 32) (W1 : SW.Idx → EReal) (b1 : SB.Idx → EReal) (W2 : SW.Idx → EReal)
    (b2 : SB.Idx → EReal) (b : Fin 8) (n m : Fin 2048) : EReal :=
  Ideal.div (expOf x mask W1 b1 W2 b2 b n m) (rowSumOf x mask W1 b1 W2 b2 b n)

/-- (p · g1) (b, n, e) = ∑ m, p (b, n, m) · g1 (b, m, e). -/
def ctxOf (x : SX.Idx → EReal) (mask : SA.Idx → BitVec 32) (W1 : SW.Idx → EReal) (b1 : SB.Idx → EReal) (W2 : SW.Idx → EReal)
    (b2 : SB.Idx → EReal) (W3 : SW.Idx → EReal) (b3 : SB.Idx → EReal) (b : Fin 8) (n : Fin 2048) (e : Fin 768) : EReal :=
  ∑ m : Fin 2048, probOf x mask W1 b1 W2 b2 b n m * g1Of x W1 b1 W2 b2 W3 b3 b m e

/-- g2 = (p · g1) · W4ᵀ + b4. -/
def g2Of (x : SX.Idx → EReal) (mask : SA.Idx → BitVec 32) (W1 : SW.Idx → EReal) (b1 : SB.Idx → EReal) (W2 : SW.Idx → EReal)
    (b2 : SB.Idx → EReal) (W3 : SW.Idx → EReal) (b3 : SB.Idx → EReal) (W4 : SW.Idx → EReal) (b4 : SB.Idx → EReal)
    (b : Fin 8) (n : Fin 2048) (e : Fin 768) : EReal :=
  (∑ d : Fin 768, ctxOf x mask W1 b1 W2 b2 W3 b3 b n d * W4 (ix2 e d)) + b4 (ix1 e)

/-- The result at coordinates: g1 + g2. -/
def outOf (x : SX.Idx → EReal) (mask : SA.Idx → BitVec 32) (W1 : SW.Idx → EReal) (b1 : SB.Idx → EReal) (W2 : SW.Idx → EReal)
    (b2 : SB.Idx → EReal) (W3 : SW.Idx → EReal) (b3 : SB.Idx → EReal) (W4 : SW.Idx → EReal) (b4 : SB.Idx → EReal)
    (b : Fin 8) (n : Fin 2048) (e : Fin 768) : EReal :=
  g1Of x W1 b1 W2 b2 W3 b3 b n e + g2Of x mask W1 b1 W2 b2 W3 b3 W4 b4 b n e

/-- The reference's result array as one function of the ten argument arrays. -/
def refOut (x : SX.Idx → EReal) (mask : SA.Idx → BitVec 32) (W1 : SW.Idx → EReal) (b1 : SB.Idx → EReal) (W2 : SW.Idx → EReal)
    (b2 : SB.Idx → EReal) (W3 : SW.Idx → EReal) (b3 : SB.Idx → EReal) (W4 : SW.Idx → EReal) (b4 : SB.Idx → EReal) :
    SX.Idx → EReal :=
  fun i => outOf x mask W1 b1 W2 b2 W3 b3 W4 b4 (i 0) (i 1) (i 2)

/-- The result read at an index given by coordinates. -/
theorem refOut_ix3 (x : SX.Idx → EReal) (mask : SA.Idx → BitVec 32) (W1 : SW.Idx → EReal) (b1 : SB.Idx → EReal) (W2 : SW.Idx → EReal)
    (b2 : SB.Idx → EReal) (W3 : SW.Idx → EReal) (b3 : SB.Idx → EReal) (W4 : SW.Idx → EReal) (b4 : SB.Idx → EReal)
    (b : Fin 8) (n : Fin 2048) (e : Fin 768) :
    refOut x mask W1 b1 W2 b2 W3 b3 W4 b4 (ix3 b n e)
      = g1Of x W1 b1 W2 b2 W3 b3 b n e + g2Of x mask W1 b1 W2 b2 W3 b3 W4 b4 b n e := rfl

end Cert.ReferenceIdeal.RefValue

end
-- ==== Proof.KI.KSpec.lean ====
/-
  What the kernel computes, in the kernel's own arrangement, as whole-array functions on the extended reals over the
  literal shapes — the counterpart of the reference's arrangement, with which it shares the two linear maps q and k.

  Stage 1 never forms the 2048 × 2048 matrix of logits: per batch it sums kᵀ·x over the four row tiles of 512 rows into
  a 768 × 768 matrix, scales that by 1/28, and multiplies q by it.  Stage 2 goes through the 2048 keys of a row in four
  tiles of 512, keeping a running shift (the maximum so far, from −∞), a running sum of exponentials and a running
  weighted sum of value rows, both rescaled by the exponential of the change of shift whenever the shift moves; the
  row's result is the weighted sum over the plain sum, pushed through the last linear map and added to the residual.
  Stage 2 is stated over ANY query, key, value and residual arrays (it is what the third kernel does with the arrays
  it is handed); the whole program feeds it q, k and stage 1's result twice.
-/
import proofs.«152342_j15135464751210_2_alg».proof.Proof.Ref.Spec

noncomputable section

namespace Cert.KernelIdeal.KSpec

open Idealize.ShloMosaic Idealize.ShloMosaic.ValueIdx Cert.ReferenceIdeal.RefValue

/-- The scale as the kernel's named constant denotes it. -/
abbrev inv28 : EReal := ((1 / 28 : ℝ) : EReal)

/-- Row (or key) `r` of tile `j`: the 2048 rows in four tiles of 512. -/
def rowOf (j : Fin 4) (r : Fin 512) : Fin 2048 := ⟨j.val * 512 + r.val, by have := j.isLt; have := r.isLt; omega⟩

/-- A [8, 2048, 768] array by coordinates. -/
abbrev Arr3 : Type := Fin 8 → Fin 2048 → Fin 768 → EReal

/-! ## Stage 2, over any arrays -/

section Stage2

variable (qA kA vA gA : Arr3) (mask : SA.Idx → BitVec 32) (W4 : SW.Idx → EReal) (b4 : SB.Idx → EReal)

/-- The scaled logit of query row `n` against key row `k`. -/
def attA (b : Fin 8) (n k : Fin 2048) : EReal := (∑ d : Fin 768, qA b n d * kA b k d) * inv28

/-- The logit, or the fill where the mask is one. -/
def maskedA (b : Fin 8) (n k : Fin 2048) : EReal :=
  Scalar.select (IntOp.cmpi .eq (mask (ix3 b n k)) 1#32) cNeg (attA qA kA b n k)

/-- The largest masked logit of row `n` within key tile `j`, from −∞. -/
def tileMaxA (b : Fin 8) (n : Fin 2048) (j : Fin 4) : EReal :=
  (Finset.univ : Finset (Fin 512)).fold max cNegInf (fun c => maskedA qA kA mask b n (rowOf j c))

/-- The running state of a row: the shift, the sum of exponentials, the weighted sum of value rows. -/
structure Row where
  shift : EReal
  total : EReal
  mix : Fin 768 → EReal

/-- Before any key tile. -/
def row0 : Row := ⟨cNegInf, 0, fun _ => 0⟩

/-- One key tile absorbed into the running state of row `n`. -/
def rowStep (b : Fin 8) (n : Fin 2048) (s : Row) (j : Fin 4) : Row :=
  let shift' := max s.shift (tileMaxA qA kA mask b n j)
  let scale := Ideal.exp (s.shift - shift')
  let p : Fin 512 → EReal := fun c => Ideal.exp (maskedA qA kA mask b n (rowOf j c) - shift')
  ⟨shift', scale * s.total + ∑ c : Fin 512, p c,
    fun e => scale * s.mix e + ∑ c : Fin 512, p c * vA b (rowOf j c) e⟩

/-- The state of row `n` after key tiles 0 … j−1. -/
def rowAfter (b : Fin 8) (n : Fin 2048) : ℕ → Row
  | 0 => row0
  | j + 1 => if h : j < 4 then rowStep qA kA vA mask b n (rowAfter b n j) ⟨j, h⟩ else rowAfter b n j

/-- The row's result: the residual plus the normalised mix pushed through the last linear map. -/
def outA (b : Fin 8) (n : Fin 2048) (e : Fin 768) : EReal :=
  gA b n e
    + ((∑ d : Fin 768, Ideal.div ((rowAfter qA kA vA mask b n 4).mix d) (rowAfter qA kA vA mask b n 4).total * W4 (ix2 e d))
        + b4 (ix1 e))

end Stage2

/-! ## Stage 1, and the whole program -/

variable (x : SX.Idx → EReal) (mask : SA.Idx → BitVec 32) (W1 : SW.Idx → EReal) (b1 : SB.Idx → EReal)
  (W2 : SW.Idx → EReal) (b2 : SB.Idx → EReal) (W3 : SW.Idx → EReal) (b3 : SB.Idx → EReal) (W4 : SW.Idx → EReal) (b4 : SB.Idx → EReal)

/-- Row tile `j`'s part of kᵀ·x at (d, e), for any key array. -/
def tileKX (kA : Arr3) (b : Fin 8) (j : Fin 4) (d e : Fin 768) : EReal :=
  ∑ r : Fin 512, kA b (rowOf j r) d * x (ix3 b (rowOf j r) e)

/-- The accumulated kᵀ·x: from zero, one row tile after the other. -/
def accKX (kA : Arr3) (b : Fin 8) (d e : Fin 768) : EReal :=
  (((0 + tileKX x kA b 0 d e) + tileKX x kA b 1 d e) + tileKX x kA b 2 d e) + tileKX x kA b 3 d e

/-- The 768 × 768 matrix of batch `b`: the accumulated kᵀ·x scaled by 1/28. -/
def mA (kA : Arr3) (b : Fin 8) (d e : Fin 768) : EReal := accKX x kA b d e * inv28

/-- (q · M) · W3ᵀ + b3 for any query array and any batch of 768 × 768 matrices. -/
def g1A (qA : Arr3) (M : Fin 8 → Fin 768 → Fin 768 → EReal) (b : Fin 8) (n : Fin 2048) (e : Fin 768) : EReal :=
  (∑ e' : Fin 768, (∑ d : Fin 768, qA b n d * M b d e') * W3 (ix2 e e')) + b3 (ix1 e)

/-- The kernel's q, k, M and stage-1 result as functions of the program's arguments. -/
def qK : Arr3 := fun b n e => qOf x W1 b1 b n e
def kK : Arr3 := fun b n e => kOf x W2 b2 b n e
def mK (b : Fin 8) (d e : Fin 768) : EReal := mA x (kK x W2 b2) b d e
def g1K : Arr3 := g1A W3 b3 (qK x W1 b1) (mK x W2 b2)

/-- The whole result. -/
def outK (b : Fin 8) (n : Fin 2048) (e : Fin 768) : EReal :=
  outA (qK x W1 b1) (kK x W2 b2) (g1K x W1 b1 W2 b2 W3 b3) (g1K x W1 b1 W2 b2 W3 b3) mask W4 b4 b n e

/-- The result array. -/
def kerOut : SX.Idx → EReal := fun i => outK x mask W1 b1 W2 b2 W3 b3 W4 b4 (i 0) (i 1) (i 2)

end Cert.KernelIdeal.KSpec

end
-- ==== Proof.LibMatmulTIx.lean ====
/-
  A matrix product of an `[a, K]` array with a `[b, K]` array that contracts the columns of both, read at the entry
  `(p, q)`, at the ideal values: the sum over `k` of the left operand's `(p, k)` entry times the right operand's
  `(q, k)` entry — a row of the left operand against a ROW of the right one, which is the product with the right
  operand transposed. Stated for a kernel's product accumulated into the zero splat (`matmulT_zero_ix2`) and for the
  host's product (`dotGeneralT_ix2`), for any dimension numbers with the four coordinate facts `hl0 … hr1`, which a
  literal record proves by evaluation.
-/
import Idealize.ShloMosaic.Lib.ValueIdx
import Idealize.ShloMosaic.PureOps.Ideal.Laws

namespace MatmulTIx

open Idealize.ShloMosaic Idealize.ShloMosaic.ValueIdx

variable {a K b : ℕ} {φ₁ φ₂ : FTy}

/-- The contraction's sum re-indexed by the one contracted coordinate, which is the column of both operands. -/
theorem sum_contr (D : DotDims ⟨2, ![a, K]⟩ ⟨2, ![b, K]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (x : (⟨2, ![a, K]⟩ : Shape).Idx → EReal) (w : (⟨2, ![b, K]⟩ : Shape).Idx → EReal) (p : Fin a) (q : Fin b) :
    ∑ k : D.contr.Idx, x (D.lhsIdx (ix2 p q) k) * w (D.rhsIdx (ix2 p q) k) = ∑ k : Fin K, x (ix2 p k) * w (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 q k := funext fun c => Fin.ext (by
    match c with
    | ⟨0, _⟩ => exact hr0 _ _
    | ⟨1, _⟩ => exact (hr1 _ _).trans hk)
  rw [el, er]

/-- A kernel's product with the transposed right operand, into the zero splat, at `(p, q)`: row `p` of the left operand
    against row `q` of the right one. -/
theorem matmulT_zero_ix2 (D : DotDims ⟨2, ![a, K]⟩ ⟨2, ![b, K]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision)
    (x : FVec Ideal ⟨2, ![a, K]⟩ φ₁) (w : FVec Ideal ⟨2, ![b, K]⟩ φ₂) (p : Fin a) (q : Fin b) :
    matmul D prec x w (constant (F := Ideal) ⟨2, ![a, b]⟩ .f32 0x00000000#32) (ix2 p q)
      = ∑ k : Fin K, x (ix2 p k) * w (ix2 q k) :=
  (Ideal.matmul_constant_zero_apply D prec x w (ix2 p q)).trans (sum_contr D hr hs hl0 hl1 hr0 hr1 x w p q)

/-- The host's product with the transposed right operand at `(p, q)`: the same sum. -/
theorem dotGeneralT_ix2 (D : DotDims ⟨2, ![a, K]⟩ ⟨2, ![b, K]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision)
    (x : FVec Ideal ⟨2, ![a, K]⟩ φ₁) (w : FVec Ideal ⟨2, ![b, K]⟩ φ₂) (p : Fin a) (q : Fin b) :
    Host.dotGeneral D prec x w (ix2 p q) = ∑ k : Fin K, x (ix2 p k) * w (ix2 q k) :=
  (Ideal.dotGeneral_apply D prec .single x w (ix2 p q)).trans (sum_contr D hr hs hl0 hl1 hr0 hr1 x w p q)

end MatmulTIx
-- ==== Proof.LibMatmulRRIx.lean ====
/-
  A matrix product of a `[K, a]` array with a `[K, b]` array that contracts the ROWS of both, read at the entry
  `(p, q)`, at the ideal values: the sum over `k` of the left operand's `(k, p)` entry times the right operand's
  `(k, q)` entry — a column of the left operand against a column of the right one, which is the product with the left
  operand transposed. Stated for a kernel's product accumulated into the zero splat (`matmulRR_zero_ix2`) and for the
  host's product (`dotGeneralRR_ix2`), for any dimension numbers with the four coordinate facts `hl0 … hr1`, which a
  literal record proves by evaluation.
-/
import Idealize.ShloMosaic.Lib.ValueIdx
import Idealize.ShloMosaic.PureOps.Ideal.Laws

namespace MatmulRRIx

open Idealize.ShloMosaic Idealize.ShloMosaic.ValueIdx

variable {a K b : ℕ} {φ₁ φ₂ : FTy}

/-- The contraction's sum re-indexed by the one contracted coordinate, which is the row of both operands. -/
theorem sum_contr (D : DotDims ⟨2, ![K, a]⟩ ⟨2, ![K, b]⟩ ⟨2, ![a, b]⟩) (hr : D.contr.rank = 1)
    (hs : D.contr.size ⟨0, by omega⟩ = K)
    (hl0 : ∀ i q, (D.lhsIdx i q 0).val = (q ⟨0, by omega⟩).val) (hl1 : ∀ i q, (D.lhsIdx i q 1).val = (i 0).val)
    (hr0 : ∀ i q, (D.rhsIdx i q 0).val = (q ⟨0, by omega⟩).val) (hr1 : ∀ i q, (D.rhsIdx i q 1).val = (i 1).val)
    (x : (⟨2, ![K, a]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 k p) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p := funext fun c => Fin.ext (by
    match c with
    | ⟨0, _⟩ => exact (hl0 _ _).trans hk
    | ⟨1, _⟩ => exact hl1 _ _)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's product with the transposed left operand, into the zero splat, at `(p, q)`: column `p` of the left
    operand against column `q` of the right one. -/
theorem matmulRR_zero_ix2 (D : DotDims ⟨2, ![K, a]⟩ ⟨2, ![K, b]⟩ ⟨2, ![a, b]⟩) (hr : D.contr.rank = 1)
    (hs : D.contr.size ⟨0, by omega⟩ = K)
    (hl0 : ∀ i q, (D.lhsIdx i q 0).val = (q ⟨0, by omega⟩).val) (hl1 : ∀ i q, (D.lhsIdx i q 1).val = (i 0).val)
    (hr0 : ∀ i q, (D.rhsIdx i q 0).val = (q ⟨0, by omega⟩).val) (hr1 : ∀ i q, (D.rhsIdx i q 1).val = (i 1).val)
    (prec : Option ContractPrecision)
    (x : FVec Ideal ⟨2, ![K, a]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 k p) * w (ix2 k q) :=
  (Ideal.matmul_constant_zero_apply D prec x w (ix2 p q)).trans (sum_contr D hr hs hl0 hl1 hr0 hr1 x w p q)

/-- The host's product with the transposed left operand at `(p, q)`: the same sum. -/
theorem dotGeneralRR_ix2 (D : DotDims ⟨2, ![K, a]⟩ ⟨2, ![K, b]⟩ ⟨2, ![a, b]⟩) (hr : D.contr.rank = 1)
    (hs : D.contr.size ⟨0, by omega⟩ = K)
    (hl0 : ∀ i q, (D.lhsIdx i q 0).val = (q ⟨0, by omega⟩).val) (hl1 : ∀ i q, (D.lhsIdx i q 1).val = (i 0).val)
    (hr0 : ∀ i q, (D.rhsIdx i q 0).val = (q ⟨0, by omega⟩).val) (hr1 : ∀ i q, (D.rhsIdx i q 1).val = (i 1).val)
    (prec : Option ContractPrecision)
    (x : FVec Ideal ⟨2, ![K, a]⟩ φ₁) (w : FVec Ideal ⟨2, ![K, b]⟩ φ₂) (p : Fin a) (q : Fin b) :
    Host.dotGeneral D prec x w (ix2 p q) = ∑ k : Fin K, x (ix2 k p) * w (ix2 k q) :=
  (Ideal.dotGeneral_apply D prec .single x w (ix2 p q)).trans (sum_contr D hr hs hl0 hl1 hr0 hr1 x w p q)

end MatmulRRIx
-- ==== Proof.KI.Val0.Pay.lean ====
/-
  The first kernel's payloads, read at an index, at the ideal values.

  From a tile `x` of the input (512 × 768, under a leading unit axis), two weights and two biases, the body forms the two
  linear maps q = x · W1ᵀ + b1 and k = x · W2ᵀ + b2 (each product contracts the columns of the tile with the COLUMNS of
  the weight, and the bias is spread over the rows), adds kᵀ · x — the ROWS of k against the rows of the tile, a
  768 × 768 matrix — to the running matrix, and at the last row tile scales the running matrix by the named 1/28. A
  change of float format is the identity on the extended reals, and a regrouping under a leading unit axis only renames
  the entries. So at the ideal values

      q (r, e)   = (Σ d, x (0, r, d) · W1 (e, d)) + b1 e,        k likewise,
      the running matrix at (d, e) becomes   old (d, e) + Σ r, k (r, d) · x (0, r, e),
      and the scaled matrix at (d, e) is     running (d, e) · (1/28).
-/
import proofs.«152342_j15135464751210_2_alg».proof.Proof.Gen.KernelIdeal.Skeleton
import proofs.«152342_j15135464751210_2_alg».proof.Proof.KI.KSpec
import proofs.«152342_j15135464751210_2_alg».proof.Proof.LibMatmulTIx
import proofs.«152342_j15135464751210_2_alg».proof.Proof.LibMatmulRRIx
import Idealize.ShloMosaic.Lib.ValueLayout
import Idealize.ShloMosaic.Lib.Pipeline.Value

noncomputable section

namespace Cert.KernelIdeal.Val0

open Cert.KernelIdeal Cert.KernelIdeal.Gen Cert.KernelIdeal.KSpec
open Idealize.ShloMosaic Idealize.ShloMosaic.ValueIdx

/-! ## The two products' dimension numbers, by coordinates -/

/-- The product with the transposed weight keeps the left operand's row, -/
theorem xw_l0 (i : S512x768.Idx) (k : dot_S512x768_S768x768_S512x768_1_1_0_0_n_n.contr.Idx) :
    (dot_S512x768_S768x768_S512x768_1_1_0_0_n_n.lhsIdx i k 0).val = (i 0).val := by
  unfold DotDims.lhsIdx
  rw [dif_neg (show ¬(0 : Fin S512x768.rank) ∈ dot_S512x768_S768x768_S512x768_1_1_0_0_n_n.lhsBatch by decide),
    dif_pos (show (0 : Fin S512x768.rank) ∈ dot_S512x768_S768x768_S512x768_1_1_0_0_n_n.lhsNonContracting by decide)]
  rfl
/-- sums over the left operand's column, -/
theorem xw_l1 (i : S512x768.Idx) (k : dot_S512x768_S768x768_S512x768_1_1_0_0_n_n.contr.Idx) :
    (dot_S512x768_S768x768_S512x768_1_1_0_0_n_n.lhsIdx i k 1).val = (k ⟨0, by decide⟩).val :=
  dot_S512x768_S768x768_S512x768_1_1_0_0_n_n.lhsIdx_val_of_single rfl i k
/-- keeps the right operand's ROW, -/
theorem xw_r0 (i : S512x768.Idx) (k : dot_S512x768_S768x768_S512x768_1_1_0_0_n_n.contr.Idx) :
    (dot_S512x768_S768x768_S512x768_1_1_0_0_n_n.rhsIdx i k 0).val = (i 1).val := by
  unfold DotDims.rhsIdx
  rw [dif_neg (show ¬(0 : Fin S768x768.rank) ∈ dot_S512x768_S768x768_S512x768_1_1_0_0_n_n.rhsBatch by decide),
    dif_pos (show (0 : Fin S768x768.rank) ∈ dot_S512x768_S768x768_S512x768_1_1_0_0_n_n.rhsNonContracting by decide)]
  rfl
/-- and sums over the right operand's column too. -/
theorem xw_r1 (i : S512x768.Idx) (k : dot_S512x768_S768x768_S512x768_1_1_0_0_n_n.contr.Idx) :
    (dot_S512x768_S768x768_S512x768_1_1_0_0_n_n.rhsIdx i k 1).val = (k ⟨0, by decide⟩).val :=
  dot_S512x768_S768x768_S512x768_1_1_0_0_n_n.rhsIdx_val_of_single rfl i k

/-- The product kᵀ · x sums over the left operand's ROW, -/
theorem kx_l0 (i : S768x768.Idx) (k : dot_S512x768_S512x768_S768x768_0_0_1_1_n_n.contr.Idx) :
    (dot_S512x768_S512x768_S768x768_0_0_1_1_n_n.lhsIdx i k 0).val = (k ⟨0, by decide⟩).val :=
  dot_S512x768_S512x768_S768x768_0_0_1_1_n_n.lhsIdx_val_of_single rfl i k
/-- keeps the left operand's column as the result's row, -/
theorem kx_l1 (i : S768x768.Idx) (k : dot_S512x768_S512x768_S768x768_0_0_1_1_n_n.contr.Idx) :
    (dot_S512x768_S512x768_S768x768_0_0_1_1_n_n.lhsIdx i k 1).val = (i 0).val := by
  unfold DotDims.lhsIdx
  rw [dif_neg (show ¬(1 : Fin S512x768.rank) ∈ dot_S512x768_S512x768_S768x768_0_0_1_1_n_n.lhsBatch by decide),
    dif_pos (show (1 : Fin S512x768.rank) ∈ dot_S512x768_S512x768_S768x768_0_0_1_1_n_n.lhsNonContracting by decide)]
  rfl
/-- sums over the right operand's row too, -/
theorem kx_r0 (i : S768x768.Idx) (k : dot_S512x768_S512x768_S768x768_0_0_1_1_n_n.contr.Idx) :
    (dot_S512x768_S512x768_S768x768_0_0_1_1_n_n.rhsIdx i k 0).val = (k ⟨0, by decide⟩).val :=
  dot_S512x768_S512x768_S768x768_0_0_1_1_n_n.rhsIdx_val_of_single rfl i k
/-- and keeps the right operand's column. -/
theorem kx_r1 (i : S768x768.Idx) (k : dot_S512x768_S512x768_S768x768_0_0_1_1_n_n.contr.Idx) :
    (dot_S512x768_S512x768_S768x768_0_0_1_1_n_n.rhsIdx i k 1).val = (i 1).val := by
  unfold DotDims.rhsIdx
  rw [dif_neg (show ¬(1 : Fin S512x768.rank) ∈ dot_S512x768_S512x768_S768x768_0_0_1_1_n_n.rhsBatch by decide),
    dif_pos (show (1 : Fin S512x768.rank) ∈ dot_S512x768_S512x768_S768x768_0_0_1_1_n_n.rhsNonContracting by decide)]
  rfl

/-! ## The named scale -/

/-- The kernel's named constant denotes the rational 1/28 at the ideal values. -/
theorem inv28_named :
    Named.named (F := Ideal) Cert.KernelIdeal.κ "inv_28" (φ := .f32) 0x3D124925#32 = inv28 :=
  IdealRules.named_const.ideal_named_scalar _ _ _ _ rfl

/-! ## The payloads at an index -/

/-- The tile without its leading unit axis, cut to the narrow format: entry (r, d) is the tile's entry (0, r, d). -/
theorem pay3 (v0 : Vec Ideal S1x512x768 .f32) (r : Fin 512) (d : Fin 768) :
    k0_pay3 (F := Ideal) v0 (ix2 r d) = v0 (ix3 (0 : Fin 1) r d) := by
  unfold k0_pay3
  rw [truncf_apply, shapeCast_1ab_ab_apply]

/-- The linear map k: entry (r, e) is (Σ d, x (0, r, d) · W (e, d)) + b e. -/
theorem pay5 (v0 : Vec Ideal S1x512x768 .f32) (v5 : Vec Ideal S768x768 .f32) (v13 : Vec Ideal S768 .f32)
    (r : Fin 512) (e : Fin 768) :
    k0_pay5 (F := Ideal) v0 v5 v13 (ix2 r e)
      = (∑ d : Fin 768, v0 (ix3 (0 : Fin 1) r d) * v5 (ix2 e d)) + v13 (ix1 e) := by
  unfold k0_pay5
  rw [truncf_apply, addf_apply]
  refine congrArg₂ (· + ·) ?_ ?_
  · refine (MatmulTIx.matmulT_zero_ix2 dot_S512x768_S768x768_S512x768_1_1_0_0_n_n rfl rfl xw_l0 xw_l1 xw_r0 xw_r1 none _ _ r e).trans ?_
    refine Finset.sum_congr rfl fun d _ => ?_
    rw [truncf_apply, pay3]
  · rw [broadcastTo_1b_ab_apply, shapeCast_a_1a_apply]

/-- The linear map q under a leading unit axis: entry (0, r, e) is (Σ d, x (0, r, d) · W (e, d)) + b e. -/
theorem pay7 (v0 : Vec Ideal S1x512x768 .f32) (v3 : Vec Ideal S768x768 .f32) (v8 : Vec Ideal S768 .f32)
    (r : Fin 512) (e : Fin 768) :
    k0_pay7 (F := Ideal) v0 v3 v8 (ix3 (0 : Fin 1) r e)
      = (∑ d : Fin 768, v0 (ix3 (0 : Fin 1) r d) * v3 (ix2 e d)) + v8 (ix1 e) := by
  unfold k0_pay7
  rw [shapeCast_ab_1ab_apply, truncf_apply, addf_apply]
  refine congrArg₂ (· + ·) ?_ ?_
  · refine (MatmulTIx.matmulT_zero_ix2 dot_S512x768_S768x768_S512x768_1_1_0_0_n_n rfl rfl xw_l0 xw_l1 xw_r0 xw_r1 none _ _ r e).trans ?_
    refine Finset.sum_congr rfl fun d _ => ?_
    rw [truncf_apply, pay3]
  · rw [broadcastTo_1b_ab_apply, shapeCast_a_1a_apply]

/-- A matrix of 512 rows put under a leading unit axis: entry (0, r, e) is entry (r, e). -/
theorem pay1 (v20 : FVec Ideal S512x768 .bf16) (r : Fin 512) (e : Fin 768) :
    k0_pay1 (F := Ideal) v20 (ix3 (0 : Fin 1) r e) = v20 (ix2 r e) := by
  unfold k0_pay1
  rw [shapeCast_ab_1ab_apply]

/-- The running matrix's first value: zero everywhere. -/
theorem pay4 : k0_pay4 (F := Ideal) = fun _ => 0 := by
  funext i
  unfold k0_pay4
  rw [shapeCast_self, broadcast_apply]
  exact Ideal.ofBits_zero_f32

/-- The running matrix after a row tile: entry (d, e) is the old entry plus Σ r, k (r, d) · x (0, r, e). -/
theorem pay6 (v0 : Vec Ideal S1x512x768 .f32) (v5 : Vec Ideal S768x768 .f32) (v13 : Vec Ideal S768 .f32)
    (v21 : Vec Ideal S768x768 .f32) (d e : Fin 768) :
    k0_pay6 (F := Ideal) v0 v5 v13 v21 (ix2 d e)
      = v21 (ix2 d e) + ∑ r : Fin 512, k0_pay5 (F := Ideal) v0 v5 v13 (ix2 r d) * v0 (ix3 (0 : Fin 1) r e) := by
  unfold k0_pay6
  rw [shapeCast_self, addf_apply]
  refine congrArg (v21 (ix2 d e) + ·) ?_
  refine (MatmulRRIx.matmulRR_zero_ix2 dot_S512x768_S512x768_S768x768_0_0_1_1_n_n rfl rfl kx_l0 kx_l1 kx_r0 kx_r1 none _ _ d e).trans ?_
  refine Finset.sum_congr rfl fun r _ => ?_
  rw [pay3]

/-- The scaled matrix under a leading unit axis: entry (0, d, e) is the running entry (d, e) times 1/28. -/
theorem pay2 (v37 : Vec Ideal S768x768 .f32) (d e : Fin 768) :
    k0_pay2 (F := Ideal) v37 (ix3 (0 : Fin 1) d e) = v37 (ix2 d e) * inv28 := by
  unfold k0_pay2
  rw [shapeCast_ab_1ab_apply, mulf_apply, broadcast_apply, inv28_named]

end Cert.KernelIdeal.Val0

end
-- ==== Proof.KI.Val0.lean ====
import proofs.«152342_j15135464751210_2_alg».proof.Proof.KI.Val0.Chain
import proofs.«152342_j15135464751210_2_alg».proof.Proof.KI.Val0.Pay

set_option maxRecDepth 16384

noncomputable section

namespace Cert.KernelIdeal.Val0

open Cert.KernelIdeal Cert.KernelIdeal.Gen Cert.KernelIdeal.Rgn
open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal.KSpec Cert.ReferenceIdeal.RefValue
open scoped BigOperators

/-! # The first kernel's three result arrays, at the ideal values

  For any contents `V` of the core's buffers when the region is entered: with x, W1, b1, W2, b2 the five argument
  arrays the kernel reads, the q array ends at x · W1ᵀ + b1, the k array at x · W2ᵀ + b2, and batch `b` of the third
  array at the sum over the four row tiles (in that order, from zero) of kᵀ · x, scaled by 1/28. -/

variable (V : (c : Dev nD) → (b : Ref sig .tc) → Buf (Elt Ideal) ((c : Thread nD τ).loc b)) (c : Dev nD)

/-- The key array as a function of coordinates. -/
abbrev kArr : Arr3 := fun b n e => kOf (V c main_arg0) (V c main_arg4) (V c main_arg5) b n e

/-! ## Where the windows' blocks sit in their arrays -/

/-- The printed index maps over the grid: the x tile and the q and k tiles are tile (t / 4, t % 4, 0), the accumulated
    product's block is (t / 4, 0, 0), the weights' and biases' blocks are the whole arrays. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = 0 ∧ win0_7.index t (2 : Fin 3) = 0) :=
  (by decide +kernel : ∀ t : Fin grid0.N, _)

section Blocks

/-- The x tile at point `t` of batch `b`, row tile `j`: entry (0, r, d) is x (b, 512 j + r, d). -/
theorem blk0_apply (t : Fin cfg0.N) (b : Fin 8) (j : Fin 4) (hb : t.val / 4 = b.val) (hj : t.val % 4 = j.val) (r : Fin 512) (d : Fin 768) :
    (iblk0 V c 0 t : Vec Ideal S1x512x768 .f32) (ix3 (0 : Fin 1) r d) = V c main_arg0 (ix3 b (rowOf j r) d) := by
  obtain ⟨⟨e0, e1, e2⟩, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 512 + 1 * r.val = j.val * 512 + r.val; omega
  | ⟨2, _⟩ => show win0_0.index t (2 : Fin 3) * 768 + 1 * d.val = d.val; omega

/-- The first weight's block is the weight. -/
theorem blk1_apply (t : Fin cfg0.N) (e d : Fin 768) :
    (iblk0 V c 1 t : Vec Ideal S768x768 .f32) (ix2 e d) = V c main_arg2 (ix2 e d) := by
  obtain ⟨-, ⟨e0, e1⟩, -⟩ := idx_facts t
  unfold iblk0
  rw [View.read_apply]
  show V c main_arg2 _ = V c main_arg2 _
  congr 1
  funext a
  apply Fin.ext
  match a with
  | ⟨0, _⟩ => show win0_1.index t (0 : Fin 2) * 768 + 1 * e.val = e.val; omega
  | ⟨1, _⟩ => show win0_1.index t (1 : Fin 2) * 768 + 1 * d.val = d.val; omega

/-- The first bias's block is the bias. -/
theorem blk2_apply (t : Fin cfg0.N) (e : Fin 768) :
    (iblk0 V c 2 t : Vec Ideal S768 .f32) (ix1 e) = V c main_arg3 (ix1 e) := by
  obtain ⟨-, -, e0, -⟩ := idx_facts t
  unfold iblk0
  rw [View.read_apply]
  show V c main_arg3 _ = V c main_arg3 _
  congr 1
  funext a
  apply Fin.ext
  match a with
  | ⟨0, _⟩ => show win0_2.index t (0 : Fin 1) * 768 + 1 * e.val = e.val; omega

/-- The second weight's block is the weight. -/
theorem blk3_apply (t : Fin cfg0.N) (e d : Fin 768) :
    (iblk0 V c 3 t : Vec Ideal S768x768 .f32) (ix2 e d) = V c main_arg4 (ix2 e d) := by
  obtain ⟨-, -, -, ⟨e0, e1⟩, -⟩ := idx_facts t
  unfold iblk0
  rw [View.read_apply]
  show V c main_arg4 _ = V c main_arg4 _
  congr 1
  funext a
  apply Fin.ext
  match a with
  | ⟨0, _⟩ => show win0_3.index t (0 : Fin 2) * 768 + 1 * e.val = e.val; omega
  | ⟨1, _⟩ => show win0_3.index t (1 : Fin 2) * 768 + 1 * d.val = d.val; omega

/-- The second bias's block is the bias. -/
theorem blk4_apply (t : Fin cfg0.N) (e : Fin 768) :
    (iblk0 V c 4 t : Vec Ideal S768 .f32) (ix1 e) = V c main_arg5 (ix1 e) := by
  obtain ⟨-, -, -, -, e0, -⟩ := idx_facts t
  unfold iblk0
  rw [View.read_apply]
  show V c main_arg5 _ = V c main_arg5 _
  congr 1
  funext a
  apply Fin.ext
  match a with
  | ⟨0, _⟩ => show win0_4.index t (0 : Fin 1) * 768 + 1 * e.val = e.val; omega

/-- Where the q tile's entry (0, r, e) goes in the q array: (b, 512 j + r, e). -/
theorem emb5 (t : Fin cfg0.N) (b : Fin 8) (j : Fin 4) (hb : t.val / 4 = b.val) (hj : t.val % 4 = j.val) (r : Fin 512) (e : Fin 768) :
    ((cfg0.win 5).blk t).view.emb (ix3 (0 : Fin 1) r e) = (ix3 b (rowOf j r) e : S8x2048x768.Idx) := by
  obtain ⟨-, -, -, -, -, ⟨e0, e1, e2⟩, -⟩ := idx_facts t
  funext a
  apply Fin.ext
  match a with
  | ⟨0, _⟩ => show win0_5.index t (0 : Fin 3) * 1 + 1 * 0 = b.val; omega
  | ⟨1, _⟩ => show win0_5.index t (1 : Fin 3) * 512 + 1 * r.val = j.val * 512 + r.val; omega
  | ⟨2, _⟩ => show win0_5.index t (2 : Fin 3) * 768 + 1 * e.val = e.val; omega

/-- The same for the k tile. -/
theorem emb6 (t : Fin cfg0.N) (b : Fin 8) (j : Fin 4) (hb : t.val / 4 = b.val) (hj : t.val % 4 = j.val) (r : Fin 512) (e : Fin 768) :
    ((cfg0.win 6).blk t).view.emb (ix3 (0 : Fin 1) r e) = (ix3 b (rowOf j r) e : S8x2048x768.Idx) := by
  obtain ⟨-, -, -, -, -, -, ⟨e0, e1, e2⟩, -⟩ := idx_facts t
  funext a
  apply Fin.ext
  match a with
  | ⟨0, _⟩ => show win0_6.index t (0 : Fin 3) * 1 + 1 * 0 = b.val; omega
  | ⟨1, _⟩ => show win0_6.index t (1 : Fin 3) * 512 + 1 * r.val = j.val * 512 + r.val; omega
  | ⟨2, _⟩ => show win0_6.index t (2 : Fin 3) * 768 + 1 * e.val = e.val; omega

/-- Where the accumulated product's entry (0, d, e) goes in the third array: (b, d, e). -/
theorem emb7 (t : Fin cfg0.N) (b : Fin 8) (hb : t.val / 4 = b.val) (d e : Fin 768) :
    ((cfg0.win 7).blk t).view.emb (ix3 (0 : Fin 1) d e) = (ix3 b d e : S8x768x768.Idx) := by
  obtain ⟨-, -, -, -, -, -, -, ⟨e0, e1, e2⟩⟩ := idx_facts t
  funext a
  apply Fin.ext
  match a with
  | ⟨0, _⟩ => show win0_7.index t (0 : Fin 3) * 1 + 1 * 0 = b.val; omega
  | ⟨1, _⟩ => show win0_7.index t (1 : Fin 3) * 768 + 1 * d.val = d.val; omega
  | ⟨2, _⟩ => show win0_7.index t (2 : Fin 3) * 768 + 1 * e.val = e.val; omega

/-- The q tile's payload at (0, r, e): q of the whole arrays at (b, 512 j + r, e). -/
theorem qTile_apply (t : Fin cfg0.N) (b : Fin 8) (j : Fin 4) (hb : t.val / 4 = b.val) (hj : t.val % 4 = j.val) (r : Fin 512) (e : Fin 768) :
    k0_pay7 (F := Ideal) (iblk0 V c 0 t) (iblk0 V c 1 t) (iblk0 V c 2 t) (ix3 (0 : Fin 1) r e)
      = qOf (V c main_arg0) (V c main_arg2) (V c main_arg3) b (rowOf j r) e := by
  refine (pay7 (iblk0 V c 0 t) (iblk0 V c 1 t) (iblk0 V c 2 t) r e).trans ?_
  unfold qOf linOf
  refine congrArg₂ (· + ·) (Finset.sum_congr rfl fun d _ => ?_) (blk2_apply V c t e)
  exact congrArg₂ (· * ·) (blk0_apply V c t b j hb hj r d) (blk1_apply V c t e d)

/-- The k linear map of the tile at (r, e): k of the whole arrays at (b, 512 j + r, e). -/
theorem kLin_apply (t : Fin cfg0.N) (b : Fin 8) (j : Fin 4) (hb : t.val / 4 = b.val) (hj : t.val % 4 = j.val) (r : Fin 512) (e : Fin 768) :
    k0_pay5 (F := Ideal) (iblk0 V c 0 t) (iblk0 V c 3 t) (iblk0 V c 4 t) (ix2 r e)
      = kArr V c b (rowOf j r) e := by
  refine (pay5 (iblk0 V c 0 t) (iblk0 V c 3 t) (iblk0 V c 4 t) r e).trans ?_
  show _ = kOf (V c main_arg0) (V c main_arg4) (V c main_arg5) b (rowOf j r) e
  unfold kOf linOf
  refine congrArg₂ (· + ·) (Finset.sum_congr rfl fun d _ => ?_) (blk4_apply V c t e)
  exact congrArg₂ (· * ·) (blk0_apply V c t b j hb hj r d) (blk3_apply V c t e d)

/-- The k tile's payload at (0, r, e): the same. -/
theorem kTile_apply (t : Fin cfg0.N) (b : Fin 8) (j : Fin 4) (hb : t.val / 4 = b.val) (hj : t.val % 4 = j.val) (r : Fin 512) (e : Fin 768) :
    k0_pay1 (F := Ideal) (k0_pay5 (F := Ideal) (iblk0 V c 0 t) (iblk0 V c 3 t) (iblk0 V c 4 t)) (ix3 (0 : Fin 1) r e)
      = kOf (V c main_arg0) (V c main_arg4) (V c main_arg5) b (rowOf j r) e :=
  (pay1 (k0_pay5 (F := Ideal) (iblk0 V c 0 t) (iblk0 V c 3 t) (iblk0 V c 4 t)) r e).trans (kLin_apply V c t b j hb hj r e)

/-- What one point adds to the accumulator at (d, e): row tile `j`'s part of kᵀ · x. -/
theorem step_apply (t : Fin cfg0.N) (b : Fin 8) (j : Fin 4) (hb : t.val / 4 = b.val) (hj : t.val % 4 = j.val) (acc : Vec Ideal S768x768 .f32) (d e : Fin 768) :
    k0_pay6 (F := Ideal) (iblk0 V c 0 t) (iblk0 V c 3 t) (iblk0 V c 4 t) acc (ix2 d e)
      = acc (ix2 d e) + tileKX (V c main_arg0) (kArr V c) b j d e := by
  refine (pay6 (iblk0 V c 0 t) (iblk0 V c 3 t) (iblk0 V c 4 t) acc d e).trans ?_
  refine congrArg (acc (ix2 d e) + ·) ?_
  unfold tileKX
  refine Finset.sum_congr rfl fun r _ => ?_
  exact congrArg₂ (· * ·) (kLin_apply V c t b j hb hj r d) (blk0_apply V c t b j hb hj r e)

end Blocks

/-! ## The accumulator, row tile by row tile -/

theorem acc0 (t : Fin cfg0.N) (b : Fin 8) (hb : t.val / 4 = b.val) (h : t.val % 4 = 0) (d e : Fin 768) :
    accAt V c t.val t.isLt (ix2 d e) = 0 + tileKX (V c main_arg0) (kArr V c) b 0 d e := by
  rw [accAt_first V c t h]
  refine (step_apply V c t b 0 hb h _ d e).trans ?_
  rw [pay4]

theorem acc1 (t : Fin cfg0.N) (b : Fin 8) (hb : t.val / 4 = b.val) (h : t.val % 4 = 1) (d e : Fin 768) :
    accAt V c t.val t.isLt (ix2 d e)
      = (0 + tileKX (V c main_arg0) (kArr V c) b 0 d e) + tileKX (V c main_arg0) (kArr V c) b 1 d e := by
  have hN : t.val < 32 := lt_of_lt_of_eq t.isLt (show cfg0.N = 32 from N_0)
  rw [accAt_next V c t (by omega)]
  refine (step_apply V c t b 1 hb h _ d e).trans ?_
  exact congrArg (· + tileKX (V c main_arg0) (kArr V c) b 1 d e)
    (acc0 V c ⟨t.val - 1, Nat.lt_of_le_of_lt (Nat.sub_le _ _) t.isLt⟩ b (by show (t.val - 1) / 4 = b.val; omega) (by show (t.val - 1) % 4 = 0; omega) d e)

theorem acc2 (t : Fin cfg0.N) (b : Fin 8) (hb : t.val / 4 = b.val) (h : t.val % 4 = 2) (d e : Fin 768) :
    accAt V c t.val t.isLt (ix2 d e)
      = ((0 + tileKX (V c main_arg0) (kArr V c) b 0 d e) + tileKX (V c main_arg0) (kArr V c) b 1 d e)
          + tileKX (V c main_arg0) (kArr V c) b 2 d e := by
  have hN : t.val < 32 := lt_of_lt_of_eq t.isLt (show cfg0.N = 32 from N_0)
  rw [accAt_next V c t (by omega)]
  refine (step_apply V c t b 2 hb h _ d e).trans ?_
  exact congrArg (· + tileKX (V c main_arg0) (kArr V c) b 2 d e)
    (acc1 V c ⟨t.val - 1, Nat.lt_of_le_of_lt (Nat.sub_le _ _) t.isLt⟩ b (by show (t.val - 1) / 4 = b.val; omega) (by show (t.val - 1) % 4 = 1; omega) d e)

/-- After a batch's last row tile the accumulator holds the four tiles' sum, in order, from zero. -/
theorem acc3 (t : Fin cfg0.N) (b : Fin 8) (hb : t.val / 4 = b.val) (h : t.val % 4 = 3) (d e : Fin 768) :
    accAt V c t.val t.isLt (ix2 d e) = accKX (V c main_arg0) (kArr V c) b d e := by
  have hN : t.val < 32 := lt_of_lt_of_eq t.isLt (show cfg0.N = 32 from N_0)
  rw [accAt_next V c t (by omega)]
  refine (step_apply V c t b 3 hb h _ d e).trans ?_
  unfold accKX
  exact congrArg (· + tileKX (V c main_arg0) (kArr V c) b 3 d e)
    (acc2 V c ⟨t.val - 1, Nat.lt_of_le_of_lt (Nat.sub_le _ _) t.isLt⟩ b (by show (t.val - 1) / 4 = b.val; omega) (by show (t.val - 1) % 4 = 2; omega) d e)

/-! ## The q array -/

/-- x · W1ᵀ + b1 as contents of the q array. -/
abbrev Gq : Buf (Elt Ideal) ((c : Thread nD τ).loc main_call0_v0_0) :=
  fun i => qOf (V c main_arg0) (V c main_arg2) (V c main_arg3) (i 0) (i 1) (i 2)

theorem tb_lt (t : Fin cfg0.N) : t.val / 4 < 8 := by
  have hN : t.val < 32 := lt_of_lt_of_eq t.isLt (show cfg0.N = 32 from N_0); omega

/-- What every point writes back into the q array is its block of x · W1ᵀ + b1. -/
theorem flushed5_eq (t : Fin cfg0.N) :
    (dat0 V c).flushed 5 t = ((cfg0.win 5).blk t).view.read (Elt Ideal) (Gq V c) := by
  show (cfg0.win 5).cut (grid0.coords t) ((dat0 V c).after 5 t) = _
  rw [after0_5, q_at]
  funext y
  obtain ⟨u, r, e, rfl⟩ : ∃ (u : Fin 1) (r : Fin 512) (e : Fin 768), y = ix3 u r e := ⟨y 0, y 1, y 2, eq_ix3 y⟩
  obtain rfl : u = 0 := Subsingleton.elim _ _
  show k0_pay7 (F := Ideal) (iblk0 V c 0 t) (iblk0 V c 1 t) (iblk0 V c 2 t) (ix3 (0 : Fin 1) r e)
    = Gq V c (((cfg0.win 5).blk t).view.emb (ix3 (0 : Fin 1) r e))
  rw [emb5 t ⟨t.val / 4, tb_lt t⟩ ⟨t.val % 4, Nat.mod_lt _ (by decide)⟩ rfl rfl r e]
  exact qTile_apply V c t ⟨t.val / 4, tb_lt t⟩ ⟨t.val % 4, Nat.mod_lt _ (by decide)⟩ rfl rfl r e

/-- An index of the q array is in point `t`'s block iff each coordinate is in the block's range. -/
theorem mem_blk5 (t : Fin cfg0.N) (i : S8x2048x768.Idx) :
    i ∈ ((cfg0.win 5).blk t).view.set ↔ ∀ a : Fin 3, win0_5.index t a * S1x512x768.size a ≤ (i a).val ∧ (i a).val < win0_5.index t a * S1x512x768.size a + S1x512x768.size a := by
  show i ∈ ((View.whole main_call0_v0_0).slice (win0_5.rect t)).set ↔ _
  rw [View.set_slice_whole, Rect.mem_set_unit]
  exact Iff.rfl

/-- The point of batch `b`, row tile `n / 512`. -/
theorem point_of (i : S8x2048x768.Idx) : ∃ t : Fin cfg0.N, t.val / 4 = (i 0).val ∧ t.val % 4 = (i 1).val / 512 := by
  have h0 : (i 0).val < 8 := (i 0).isLt
  have h1 : (i 1).val < 2048 := (i 1).isLt
  refine ⟨⟨(i 0).val * 4 + (i 1).val / 512, by rw [show cfg0.N = 32 from N_0]; omega⟩, ?_, ?_⟩
  · show ((i 0).val * 4 + (i 1).val / 512) / 4 = (i 0).val; omega
  · show ((i 0).val * 4 + (i 1).val / 512) % 4 = (i 1).val / 512; omega

/-- The last point of batch `b`. -/
theorem last_point_of (i : S8x768x768.Idx) : ∃ t : Fin cfg0.N, t.val / 4 = (i 0).val ∧ t.val % 4 = 3 := by
  have h0 : (i 0).val < 8 := (i 0).isLt
  refine ⟨⟨(i 0).val * 4 + 3, by rw [show cfg0.N = 32 from N_0]; omega⟩, ?_, ?_⟩
  · show ((i 0).val * 4 + 3) / 4 = (i 0).val; omega
  · show ((i 0).val * 4 + 3) % 4 = 3; omega

/-- Every index of the q array is in some point's block. -/
theorem cover5 (i : S8x2048x768.Idx) : ∃ t : Fin cfg0.N, (cfg0.win 5).flush t = true ∧ i ∈ ((cfg0.win 5).blk t).view.set := by
  have h1 : (i 1).val < 2048 := (i 1).isLt
  have h2 : (i 2).val < 768 := (i 2).isLt
  obtain ⟨t, tb, tn⟩ := point_of i
  obtain ⟨-, -, -, -, -, ⟨e0, e1, e2⟩, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 768 ≤ (i 2).val ∧ (i 2).val < win0_5.index t (2 : Fin 3) * 768 + 768; omega

/-- THE q ARRAY after the region: x · W1ᵀ + b1. -/
theorem final0_q : (dat0 V c).arrAt 5 cfg0.N
    = fun i => qOf (V c main_arg0) (V c main_arg2) (V c main_arg3) (i 0) (i 1) (i 2) :=
  (dat0 V c).arrAt_eq_of_cover 5 (Gq V c) (fun t _ => flushed5_eq V c t) (cover5)

/-! ## The k array -/

abbrev Gk : Buf (Elt Ideal) ((c : Thread nD τ).loc main_call0_v0_1) :=
  fun i => kOf (V c main_arg0) (V c main_arg4) (V c main_arg5) (i 0) (i 1) (i 2)

theorem flushed6_eq (t : Fin cfg0.N) :
    (dat0 V c).flushed 6 t = ((cfg0.win 6).blk t).view.read (Elt Ideal) (Gk V c) := by
  show (cfg0.win 6).cut (grid0.coords t) ((dat0 V c).after 6 t) = _
  rw [after0_6, k_at]
  funext y
  obtain ⟨u, r, e, rfl⟩ : ∃ (u : Fin 1) (r : Fin 512) (e : Fin 768), y = ix3 u r e := ⟨y 0, y 1, y 2, eq_ix3 y⟩
  obtain rfl : u = 0 := Subsingleton.elim _ _
  show k0_pay1 (F := Ideal) (k0_pay5 (F := Ideal) (iblk0 V c 0 t) (iblk0 V c 3 t) (iblk0 V c 4 t)) (ix3 (0 : Fin 1) r e)
    = Gk V c (((cfg0.win 6).blk t).view.emb (ix3 (0 : Fin 1) r e))
  rw [emb6 t ⟨t.val / 4, tb_lt t⟩ ⟨t.val % 4, Nat.mod_lt _ (by decide)⟩ rfl rfl r e]
  exact kTile_apply V c t ⟨t.val / 4, tb_lt t⟩ ⟨t.val % 4, Nat.mod_lt _ (by decide)⟩ rfl rfl r e

theorem mem_blk6 (t : Fin cfg0.N) (i : S8x2048x768.Idx) :
    i ∈ ((cfg0.win 6).blk t).view.set ↔ ∀ a : Fin 3, win0_6.index t a * S1x512x768.size a ≤ (i a).val ∧ (i a).val < win0_6.index t a * S1x512x768.size a + S1x512x768.size a := by
  show i ∈ ((View.whole main_call0_v0_1).slice (win0_6.rect t)).set ↔ _
  rw [View.set_slice_whole, Rect.mem_set_unit]
  exact Iff.rfl

theorem cover6 (i : S8x2048x768.Idx) : ∃ t : Fin cfg0.N, (cfg0.win 6).flush t = true ∧ i ∈ ((cfg0.win 6).blk t).view.set := by
  have h1 : (i 1).val < 2048 := (i 1).isLt
  have h2 : (i 2).val < 768 := (i 2).isLt
  obtain ⟨t, tb, tn⟩ := point_of i
  obtain ⟨-, -, -, -, -, -, ⟨e0, e1, e2⟩, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 768 ≤ (i 2).val ∧ (i 2).val < win0_6.index t (2 : Fin 3) * 768 + 768; omega

/-- THE k ARRAY after the region: x · W2ᵀ + b2. -/
theorem final0_k : (dat0 V c).arrAt 6 cfg0.N
    = fun i => kOf (V c main_arg0) (V c main_arg4) (V c main_arg5) (i 0) (i 1) (i 2) :=
  (dat0 V c).arrAt_eq_of_cover 6 (Gk V c) (fun t _ => flushed6_eq V c t) (cover6)

/-! ## The third array -/

abbrev Gm : Buf (Elt Ideal) ((c : Thread nD τ).loc main_call0_v0_2) :=
  fun i => mA (V c main_arg0) (fun b n e => kOf (V c main_arg0) (V c main_arg4) (V c main_arg5) b n e) (i 0) (i 1) (i 2)

/-- What a batch's last point writes back into the third array is the batch's scaled sum. -/
theorem flushed7_eq (t : Fin cfg0.N) (hf : (cfg0.win 7).flush t = true) :
    (dat0 V c).flushed 7 t = ((cfg0.win 7).blk t).view.read (Elt Ideal) (Gm V c) := by
  have h3 : t.val % 4 = 3 := (flush0_7 t).mp hf
  show (cfg0.win 7).cut (grid0.coords t) ((dat0 V c).after 7 t) = _
  rw [after0_7, m_at V c t h3]
  funext y
  obtain ⟨u, d, e, rfl⟩ : ∃ (u : Fin 1) (d : Fin 768) (e : Fin 768), y = ix3 u d e := ⟨y 0, y 1, y 2, eq_ix3 y⟩
  obtain rfl : u = 0 := Subsingleton.elim _ _
  show k0_pay2 (F := Ideal) (accAt V c t.val t.isLt) (ix3 (0 : Fin 1) d e)
    = Gm V c (((cfg0.win 7).blk t).view.emb (ix3 (0 : Fin 1) d e))
  rw [emb7 t ⟨t.val / 4, tb_lt t⟩ rfl d e]
  refine (pay2 (accAt V c t.val t.isLt) d e).trans ?_
  show _ = accKX (V c main_arg0) (kArr V c) ⟨t.val / 4, tb_lt t⟩ d e * inv28
  exact congrArg (· * inv28) (acc3 V c t ⟨t.val / 4, tb_lt t⟩ rfl h3 d e)

theorem mem_blk7 (t : Fin cfg0.N) (i : S8x768x768.Idx) :
    i ∈ ((cfg0.win 7).blk t).view.set ↔ ∀ a : Fin 3, win0_7.index t a * S1x768x768.size a ≤ (i a).val ∧ (i a).val < win0_7.index t a * S1x768x768.size a + S1x768x768.size a := by
  show i ∈ ((View.whole main_call0_v0_2).slice (win0_7.rect t)).set ↔ _
  rw [View.set_slice_whole, Rect.mem_set_unit]
  exact Iff.rfl

theorem cover7 (i : S8x768x768.Idx) : ∃ t : Fin cfg0.N, (cfg0.win 7).flush t = true ∧ i ∈ ((cfg0.win 7).blk t).view.set := by
  have h1 : (i 1).val < 768 := (i 1).isLt
  have h2 : (i 2).val < 768 := (i 2).isLt
  obtain ⟨t, tb, tn⟩ := last_point_of i
  obtain ⟨-, -, -, -, -, -, -, ⟨e0, e1, e2⟩⟩ := idx_facts t
  refine ⟨t, (flush0_7 t).mpr tn, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 768 ≤ (i 1).val ∧ (i 1).val < win0_7.index t (1 : Fin 3) * 768 + 768; omega
  | ⟨2, _⟩ => show win0_7.index t (2 : Fin 3) * 768 ≤ (i 2).val ∧ (i 2).val < win0_7.index t (2 : Fin 3) * 768 + 768; omega

/-- THE THIRD ARRAY after the region: per batch, the four row tiles' kᵀ · x summed in order from zero, times 1/28. -/
theorem final0_m : (dat0 V c).arrAt 7 cfg0.N
    = fun i => mA (V c main_arg0) (fun b n e => kOf (V c main_arg0) (V c main_arg4) (V c main_arg5) b n e) (i 0) (i 1) (i 2) :=
  (dat0 V c).arrAt_eq_of_cover 7 (Gm V c) (flushed7_eq V c) (cover7)

end Cert.KernelIdeal.Val0

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.KI.Val1.Pay.lean ====
/-
  The second kernel's payload, read at an index, at the ideal values.

  From a tile `x0` of q (512 × 768, under a leading unit axis), a 768 × 768 matrix `x1` (under a leading unit axis),
  the weight `x2` and the bias `x3`, the body forms (x0 · x1) · x2ᵀ + x3: the first product contracts the columns of
  the tile with the rows of the matrix, the second contracts the columns of that product with the COLUMNS of the
  weight, and the bias is spread over the rows. A change of float format is the identity on the extended reals. So
  entry (p, e') of the result is

      (Σ e, (Σ d, x0 (0, p, d) · x1 (0, d, e)) · x2 (e', e)) + x3 e'.

  `g1Arr` is the same expression over whole arrays, and `tile_apply` says the payload at (p, e') is `g1Arr` at
  (b, r, e') whenever the four blocks read their arrays at batch b and row r.
-/
import proofs.«152342_j15135464751210_2_alg».proof.Proof.Gen.KernelIdeal.Skeleton
import proofs.«152342_j15135464751210_2_alg».proof.Proof.LibMatmulIx
import proofs.«152342_j15135464751210_2_alg».proof.Proof.LibMatmulTIx
import Idealize.ShloMosaic.Lib.ValueLayout
import Idealize.ShloMosaic.Lib.Pipeline.Value

noncomputable section

namespace Cert.KernelIdeal.Val1

open Cert.KernelIdeal Cert.KernelIdeal.Gen
open Idealize.ShloMosaic Idealize.ShloMosaic.ValueIdx

/-! ## The two products' dimension numbers, by coordinates -/

/-- The product q · M keeps the left operand's row, -/
theorem qm_l0 (i : S512x768.Idx) (k : dot_S512x768_S768x768_S512x768_1_0_0_1_n_n.contr.Idx) :
    (dot_S512x768_S768x768_S512x768_1_0_0_1_n_n.lhsIdx i k 0).val = (i 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl
/-- sums over the left operand's column, -/
theorem qm_l1 (i : S512x768.Idx) (k : dot_S512x768_S768x768_S512x768_1_0_0_1_n_n.contr.Idx) :
    (dot_S512x768_S768x768_S512x768_1_0_0_1_n_n.lhsIdx i k 1).val = (k ⟨0, by decide⟩).val :=
  dot_S512x768_S768x768_S512x768_1_0_0_1_n_n.lhsIdx_val_of_single rfl i k
/-- which is the right operand's row, -/
theorem qm_r0 (i : S512x768.Idx) (k : dot_S512x768_S768x768_S512x768_1_0_0_1_n_n.contr.Idx) :
    (dot_S512x768_S768x768_S512x768_1_0_0_1_n_n.rhsIdx i k 0).val = (k ⟨0, by decide⟩).val :=
  dot_S512x768_S768x768_S512x768_1_0_0_1_n_n.rhsIdx_val_of_single rfl i k
/-- and keeps the right operand's column. -/
theorem qm_r1 (i : S512x768.Idx) (k : dot_S512x768_S768x768_S512x768_1_0_0_1_n_n.contr.Idx) :
    (dot_S512x768_S768x768_S512x768_1_0_0_1_n_n.rhsIdx i k 1).val = (i 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

/-- The product with the transposed weight keeps the left operand's row, -/
theorem xw_l0 (i : S512x768.Idx) (k : dot_S512x768_S768x768_S512x768_1_1_0_0_n_n.contr.Idx) :
    (dot_S512x768_S768x768_S512x768_1_1_0_0_n_n.lhsIdx i k 0).val = (i 0).val := by
  unfold DotDims.lhsIdx
  rw [dif_neg (show ¬(0 : Fin S512x768.rank) ∈ dot_S512x768_S768x768_S512x768_1_1_0_0_n_n.lhsBatch by decide),
    dif_pos (show (0 : Fin S512x768.rank) ∈ dot_S512x768_S768x768_S512x768_1_1_0_0_n_n.lhsNonContracting by decide)]
  rfl
/-- sums over the left operand's column, -/
theorem xw_l1 (i : S512x768.Idx) (k : dot_S512x768_S768x768_S512x768_1_1_0_0_n_n.contr.Idx) :
    (dot_S512x768_S768x768_S512x768_1_1_0_0_n_n.lhsIdx i k 1).val = (k ⟨0, by decide⟩).val :=
  dot_S512x768_S768x768_S512x768_1_1_0_0_n_n.lhsIdx_val_of_single rfl i k
/-- keeps the right operand's ROW, -/
theorem xw_r0 (i : S512x768.Idx) (k : dot_S512x768_S768x768_S512x768_1_1_0_0_n_n.contr.Idx) :
    (dot_S512x768_S768x768_S512x768_1_1_0_0_n_n.rhsIdx i k 0).val = (i 1).val := by
  unfold DotDims.rhsIdx
  rw [dif_neg (show ¬(0 : Fin S768x768.rank) ∈ dot_S512x768_S768x768_S512x768_1_1_0_0_n_n.rhsBatch by decide),
    dif_pos (show (0 : Fin S768x768.rank) ∈ dot_S512x768_S768x768_S512x768_1_1_0_0_n_n.rhsNonContracting by decide)]
  rfl
/-- and sums over the right operand's column too. -/
theorem xw_r1 (i : S512x768.Idx) (k : dot_S512x768_S768x768_S512x768_1_1_0_0_n_n.contr.Idx) :
    (dot_S512x768_S768x768_S512x768_1_1_0_0_n_n.rhsIdx i k 1).val = (k ⟨0, by decide⟩).val :=
  dot_S512x768_S768x768_S512x768_1_1_0_0_n_n.rhsIdx_val_of_single rfl i k

/-! ## The payload at an index -/

/-- Entry (p, e') of (x0 · x1) · x2ᵀ + x3. -/
theorem pay1_apply (x0 : Vec Ideal S1x512x768 .bf16) (x1 : Vec Ideal S1x768x768 .f32) (x2 : Vec Ideal S768x768 .f32)
    (x3 : Vec Ideal S768 .f32) (p : Fin 512) (e' : Fin 768) :
    k1_pay1 (F := Ideal) x0 x1 x2 x3 (ix2 p e')
      = (∑ e : Fin 768, (∑ d : Fin 768, x0 (ix3 (0 : Fin 1) p d) * x1 (ix3 (0 : Fin 1) d e)) * x2 (ix2 e' e)) + x3 (ix1 e') := by
  unfold k1_pay1
  rw [addf_apply]
  refine congrArg₂ (· + ·) ?_ ?_
  · refine (MatmulTIx.matmulT_zero_ix2 dot_S512x768_S768x768_S512x768_1_1_0_0_n_n rfl rfl xw_l0 xw_l1 xw_r0 xw_r1 none _ _ p e').trans ?_
    refine Finset.sum_congr rfl fun e _ => ?_
    rw [truncf_apply, truncf_apply]
    refine congrArg (· * x2 (ix2 e' e)) ?_
    refine (MatmulIx.matmul_zero_ix2 dot_S512x768_S768x768_S512x768_1_0_0_1_n_n rfl rfl qm_l0 qm_l1 qm_r0 qm_r1 none _ _ p e).trans ?_
    refine Finset.sum_congr rfl fun d _ => ?_
    rw [truncf_apply, shapeCast_1ab_ab_apply, shapeCast_1ab_ab_apply]
  · rw [broadcastTo_1b_ab_apply, shapeCast_a_1a_apply]

/-- The wide output block's payload: the same entry under a leading unit axis. -/
theorem pay2_apply (x0 : Vec Ideal S1x512x768 .bf16) (x1 : Vec Ideal S1x768x768 .f32) (x2 : Vec Ideal S768x768 .f32)
    (x3 : Vec Ideal S768 .f32) (u : Fin 1) (p : Fin 512) (e' : Fin 768) :
    k1_pay2 (F := Ideal) x0 x1 x2 x3 (ix3 u p e')
      = (∑ e : Fin 768, (∑ d : Fin 768, x0 (ix3 (0 : Fin 1) p d) * x1 (ix3 (0 : Fin 1) d e)) * x2 (ix2 e' e)) + x3 (ix1 e') := by
  unfold k1_pay2
  rw [shapeCast_ab_1ab_apply]
  exact pay1_apply x0 x1 x2 x3 p e'

/-- The narrow output block's payload: the same entry, the cut to the narrow format being the identity. -/
theorem pay3_apply (x0 : Vec Ideal S1x512x768 .bf16) (x1 : Vec Ideal S1x768x768 .f32) (x2 : Vec Ideal S768x768 .f32)
    (x3 : Vec Ideal S768 .f32) (u : Fin 1) (p : Fin 512) (e' : Fin 768) :
    k1_pay3 (F := Ideal) x0 x1 x2 x3 (ix3 u p e')
      = (∑ e : Fin 768, (∑ d : Fin 768, x0 (ix3 (0 : Fin 1) p d) * x1 (ix3 (0 : Fin 1) d e)) * x2 (ix2 e' e)) + x3 (ix1 e') := by
  unfold k1_pay3
  rw [shapeCast_ab_1ab_apply, truncf_apply]
  exact pay1_apply x0 x1 x2 x3 p e'

/-! ## The same expression over whole arrays -/

/-- (q · M) · W3ᵀ + b3, batch by batch: entry (b, r, e') is Σ e, (Σ d, q (b, r, d) · M (b, d, e)) · W3 (e', e), plus b3 e'. -/
def g1Arr (q : S8x2048x768.Idx → EReal) (M : S8x768x768.Idx → EReal) (W3 : S768x768.Idx → EReal) (b3 : S768.Idx → EReal) :
    S8x2048x768.Idx → EReal :=
  fun i => (∑ e : Fin 768, (∑ d : Fin 768, q (ix3 (i 0) (i 1) d) * M (ix3 (i 0) d e)) * W3 (ix2 (i 2) e)) + b3 (ix1 (i 2))

theorem g1Arr_apply (q : S8x2048x768.Idx → EReal) (M : S8x768x768.Idx → EReal) (W3 : S768x768.Idx → EReal) (b3 : S768.Idx → EReal)
    (b : Fin 8) (r : Fin 2048) (e' : Fin 768) :
    g1Arr q M W3 b3 (ix3 b r e')
      = (∑ e : Fin 768, (∑ d : Fin 768, q (ix3 b r d) * M (ix3 b d e)) * W3 (ix2 e' e)) + b3 (ix1 e') := rfl

/-- The expression of four blocks that read their arrays at batch `b` and row `r` is the arrays' expression at (b, r, e'). -/
theorem tile_eq (x0 : Vec Ideal S1x512x768 .bf16) (x1 : Vec Ideal S1x768x768 .f32) (x2 : Vec Ideal S768x768 .f32)
    (x3 : Vec Ideal S768 .f32)
    (q : S8x2048x768.Idx → EReal) (M : S8x768x768.Idx → EReal) (W3 : S768x768.Idx → EReal) (b3 : S768.Idx → EReal)
    (b : Fin 8) (r : Fin 2048) (p : Fin 512) (e' : Fin 768)
    (h0 : ∀ d : Fin 768, x0 (ix3 (0 : Fin 1) p d) = q (ix3 b r d))
    (h1 : ∀ d e : Fin 768, x1 (ix3 (0 : Fin 1) d e) = M (ix3 b d e))
    (h2 : ∀ e : Fin 768, x2 (ix2 e' e) = W3 (ix2 e' e))
    (h3 : x3 (ix1 e') = b3 (ix1 e')) :
    (∑ e : Fin 768, (∑ d : Fin 768, x0 (ix3 (0 : Fin 1) p d) * x1 (ix3 (0 : Fin 1) d e)) * x2 (ix2 e' e)) + x3 (ix1 e')
      = g1Arr q M W3 b3 (ix3 b r e') := by
  rw [g1Arr_apply, h3]
  refine congrArg (· + b3 (ix1 e')) ?_
  refine Finset.sum_congr rfl fun e _ => ?_
  rw [h2 e]
  refine congrArg (· * W3 (ix2 e' e)) ?_
  exact Finset.sum_congr rfl fun d _ => by rw [h0 d, h1 d e]

end Cert.KernelIdeal.Val1

end
-- ==== Proof.KI.Val1.lean ====
/-
  The second kernel's two output arrays after its region, each as one function of the arrays the region finds.

  At grid point (b, n) the body leaves in both output blocks the tile (q · M) · W3ᵀ + b3 of the point's input blocks:
  row tile n of batch b of q, batch b's matrix M, the weight and the bias. Read at an index, each input block is its
  array at the place the output block's rectangle names — the block index of every window is a fixed function of the
  point, decided once over the grid — so what point (b, n) writes back is block (b, n, 0) of the whole-array
  expression `g1Arr`. Every index (b, r, e') of an output array lies in the block of the point (b, r / 512), and every
  point writes back; so each output array ends holding `g1Arr` of the four arrays.
-/
import proofs.«152342_j15135464751210_2_alg».proof.Proof.KI.Reg1
import proofs.«152342_j15135464751210_2_alg».proof.Proof.KI.Val1.Pay
import Idealize.ShloMosaic.Lib.Pipeline.Value

noncomputable section

namespace Cert.KernelIdeal.Val1

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when the region is entered
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The block indices, decided over the grid -/

/-- Point t is (b, n) = (t / 4, t % 4). The tile of q and both output blocks sit at block (b, n, 0), the matrix at
    block (b, 0, 0), the weight and the bias at block 0. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 3) = t.val / 4 ∧ win1_4.index t (1 : Fin 3) = t.val % 4 ∧ win1_4.index t (2 : Fin 3) = 0
    ∧ win1_5.index t (0 : Fin 3) = t.val / 4 ∧ win1_5.index t (1 : Fin 3) = t.val % 4 ∧ win1_5.index t (2 : Fin 3) = 0 :=
  (by decide +kernel : ∀ t : Fin grid1.N, _)

/-! ## Each input block, read at an index, is its array at batch t / 4 and row tile t % 4 -/

/-- The tile of q at (0, p, d) is q at (t / 4, (t % 4) · 512 + p, d). -/
theorem read_q (c : Dev nD) (t : Fin cfg1.N) (p : Fin 512) (d : Fin 768) (b : Fin 8) (r : Fin 2048)
    (hb : b.val = t.val / 4) (hr : r.val = t.val % 4 * 512 + p.val) :
    (Rgn.iblk1 (F := Ideal) V c 0 t : Vec Ideal S1x512x768 .bf16) (ix3 (0 : Fin 1) p d)
      = (V c main_call0_v0_0 : S8x2048x768.Idx → EReal) (ix3 b r d) := by
  obtain ⟨e0, e1, e2, -⟩ := idx_facts t
  show V c main_call0_v0_0 (((cfg1.win 0).blk t).view.emb (ix3 (0 : Fin 1) p d)) = V c main_call0_v0_0 (ix3 b r d)
  refine congrArg _ (funext fun a => Fin.ext ?_)
  match a with
  | ⟨0, _⟩ => show win1_0.index t (0 : Fin 3) * 1 + 1 * 0 = b.val; omega
  | ⟨1, _⟩ => show win1_0.index t (1 : Fin 3) * 512 + 1 * p.val = r.val; omega
  | ⟨2, _⟩ => show win1_0.index t (2 : Fin 3) * 768 + 1 * d.val = d.val; omega

/-- The matrix block at (0, d, e) is M at (t / 4, d, e). -/
theorem read_M (c : Dev nD) (t : Fin cfg1.N) (d e : Fin 768) (b : Fin 8) (hb : b.val = t.val / 4) :
    (Rgn.iblk1 (F := Ideal) V c 1 t : Vec Ideal S1x768x768 .f32) (ix3 (0 : Fin 1) d e)
      = (V c main_call0_v0_2 : S8x768x768.Idx → EReal) (ix3 b d e) := by
  obtain ⟨-, -, -, e0, e1, e2, -⟩ := idx_facts t
  show V c main_call0_v0_2 (((cfg1.win 1).blk t).view.emb (ix3 (0 : Fin 1) d e)) = V c main_call0_v0_2 (ix3 b d e)
  refine congrArg _ (funext fun a => Fin.ext ?_)
  match a with
  | ⟨0, _⟩ => show win1_1.index t (0 : Fin 3) * 1 + 1 * 0 = b.val; omega
  | ⟨1, _⟩ => show win1_1.index t (1 : Fin 3) * 768 + 1 * d.val = d.val; omega
  | ⟨2, _⟩ => show win1_1.index t (2 : Fin 3) * 768 + 1 * e.val = e.val; omega

/-- The weight's block is the weight. -/
theorem read_W (c : Dev nD) (t : Fin cfg1.N) (e' e : Fin 768) :
    (Rgn.iblk1 (F := Ideal) V c 2 t : Vec Ideal S768x768 .f32) (ix2 e' e)
      = (V c main_arg6 : S768x768.Idx → EReal) (ix2 e' e) := by
  obtain ⟨-, -, -, -, -, -, e0, e1, -⟩ := idx_facts t
  show V c main_arg6 (((cfg1.win 2).blk t).view.emb (ix2 e' e)) = V c main_arg6 (ix2 e' e)
  refine congrArg _ (funext fun a => Fin.ext ?_)
  match a with
  | ⟨0, _⟩ => show win1_2.index t (0 : Fin 2) * 768 + 1 * e'.val = e'.val; omega
  | ⟨1, _⟩ => show win1_2.index t (1 : Fin 2) * 768 + 1 * e.val = e.val; omega

/-- The bias's block is the bias. -/
theorem read_b (c : Dev nD) (t : Fin cfg1.N) (e' : Fin 768) :
    (Rgn.iblk1 (F := Ideal) V c 3 t : Vec Ideal S768 .f32) (ix1 e')
      = (V c main_arg7 : S768.Idx → EReal) (ix1 e') := by
  obtain ⟨-, -, -, -, -, -, -, -, e0, -⟩ := idx_facts t
  show V c main_arg7 (((cfg1.win 3).blk t).view.emb (ix1 e')) = V c main_arg7 (ix1 e')
  refine congrArg _ (funext fun a => Fin.ext ?_)
  match a with
  | ⟨0, _⟩ => show win1_3.index t (0 : Fin 1) * 768 + 1 * e'.val = e'.val; omega

/-! ## What a point writes back is its block of `g1Arr` -/

/-- The wide output block's rectangle at point t, at (u, p, e'), names the array's index (t / 4, (t % 4) · 512 + p, e'). -/
theorem emb_wide (t : Fin cfg1.N) (u : Fin 1) (p : Fin 512) (e' : Fin 768) (b : Fin 8) (r : Fin 2048)
    (hb : b.val = t.val / 4) (hr : r.val = t.val % 4 * 512 + p.val) :
    ((cfg1.win 4).blk t).view.emb (ix3 u p e') = (ix3 b r e' : S8x2048x768.Idx) := by
  obtain ⟨-, -, -, -, -, -, -, -, -, e0, e1, e2, -⟩ := idx_facts t
  have hu : u.val = 0 := by omega
  refine funext fun a => Fin.ext ?_
  match a with
  | ⟨0, _⟩ => show win1_4.index t (0 : Fin 3) * 1 + 1 * u.val = b.val; omega
  | ⟨1, _⟩ => show win1_4.index t (1 : Fin 3) * 512 + 1 * p.val = r.val; omega
  | ⟨2, _⟩ => show win1_4.index t (2 : Fin 3) * 768 + 1 * e'.val = e'.val; omega

/-- The narrow output block's rectangle names the same index. -/
theorem emb_narrow (t : Fin cfg1.N) (u : Fin 1) (p : Fin 512) (e' : Fin 768) (b : Fin 8) (r : Fin 2048)
    (hb : b.val = t.val / 4) (hr : r.val = t.val % 4 * 512 + p.val) :
    ((cfg1.win 5).blk t).view.emb (ix3 u p e') = (ix3 b r e' : S8x2048x768.Idx) := by
  obtain ⟨-, -, -, -, -, -, -, -, -, -, -, -, e0, e1, e2⟩ := idx_facts t
  have hu : u.val = 0 := by omega
  refine funext fun a => Fin.ext ?_
  match a with
  | ⟨0, _⟩ => show win1_5.index t (0 : Fin 3) * 1 + 1 * u.val = b.val; omega
  | ⟨1, _⟩ => show win1_5.index t (1 : Fin 3) * 512 + 1 * p.val = r.val; omega
  | ⟨2, _⟩ => show win1_5.index t (2 : Fin 3) * 768 + 1 * e'.val = e'.val; omega

/-- What point t writes back to the wide output array is block t of `g1Arr` of the arrays the region finds. -/
theorem flushed_wide (c : Dev nD) (t : Fin cfg1.N) :
    (Rgn.dat1 (F := Ideal) V c).flushed 4 t
      = ((cfg1.win 4).blk t).view.read (Elt Ideal) (g1Arr (V c main_call0_v0_0) (V c main_call0_v0_2) (V c main_arg6) (V c main_arg7)) := by
  show (cfg1.win 4).cut (grid1.coords t) ((Rgn.dat1 V c).after 4 t) = _
  rw [Rgn.after1_4]
  unfold Rgn.tileWide
  rw [View.canon_unit_zero hz3]
  simp only [View.ld_unit_zero (S := S1x512x768) hz3, View.ld_unit_zero (S := S1x768x768) hz3,
    View.ld_unit_zero (S := S768x768) hz2, View.ld_unit_zero (S := S768) hz1]
  funext j
  obtain ⟨u, p, e', rfl⟩ : ∃ (u : Fin 1) (p : Fin 512) (e' : Fin 768), j = ix3 u p e' := ⟨j 0, j 1, j 2, eq_ix3 j⟩
  have ht : t.val < 32 := Nat.lt_of_lt_of_eq t.isLt N_1
  have hb : t.val / 4 < 8 := by omega
  have hr : t.val % 4 * 512 + p.val < 2048 := by omega
  show k1_pay2 (F := Ideal) (Rgn.iblk1 V c 0 t) (Rgn.iblk1 V c 1 t) (Rgn.iblk1 V c 2 t) (Rgn.iblk1 V c 3 t) (ix3 u p e')
    = g1Arr (V c main_call0_v0_0) (V c main_call0_v0_2) (V c main_arg6) (V c main_arg7) (((cfg1.win 4).blk t).view.emb (ix3 u p e'))
  rw [emb_wide t u p e' ⟨t.val / 4, hb⟩ ⟨t.val % 4 * 512 + p.val, hr⟩ rfl rfl]
  refine (pay2_apply _ _ _ _ u p e').trans ?_
  exact tile_eq _ _ _ _ _ _ _ _ ⟨t.val / 4, hb⟩ ⟨t.val % 4 * 512 + p.val, hr⟩ p e' (fun d => read_q V c t p d _ _ rfl rfl)
    (fun d e => read_M V c t d e _ rfl) (fun e => read_W V c t e' e) (read_b V c t e')

/-- What point t writes back to the narrow output array is block t of the same function. -/
theorem flushed_narrow (c : Dev nD) (t : Fin cfg1.N) :
    (Rgn.dat1 (F := Ideal) V c).flushed 5 t
      = ((cfg1.win 5).blk t).view.read (Elt Ideal) (g1Arr (V c main_call0_v0_0) (V c main_call0_v0_2) (V c main_arg6) (V c main_arg7)) := by
  show (cfg1.win 5).cut (grid1.coords t) ((Rgn.dat1 V c).after 5 t) = _
  rw [Rgn.after1_5]
  unfold Rgn.tileNarrow
  rw [View.canon_unit_zero hz3]
  simp only [View.ld_unit_zero (S := S1x512x768) hz3, View.ld_unit_zero (S := S1x768x768) hz3,
    View.ld_unit_zero (S := S768x768) hz2, View.ld_unit_zero (S := S768) hz1]
  funext j
  obtain ⟨u, p, e', rfl⟩ : ∃ (u : Fin 1) (p : Fin 512) (e' : Fin 768), j = ix3 u p e' := ⟨j 0, j 1, j 2, eq_ix3 j⟩
  have ht : t.val < 32 := Nat.lt_of_lt_of_eq t.isLt N_1
  have hb : t.val / 4 < 8 := by omega
  have hr : t.val % 4 * 512 + p.val < 2048 := by omega
  show k1_pay3 (F := Ideal) (Rgn.iblk1 V c 0 t) (Rgn.iblk1 V c 1 t) (Rgn.iblk1 V c 2 t) (Rgn.iblk1 V c 3 t) (ix3 u p e')
    = g1Arr (V c main_call0_v0_0) (V c main_call0_v0_2) (V c main_arg6) (V c main_arg7) (((cfg1.win 5).blk t).view.emb (ix3 u p e'))
  rw [emb_narrow t u p e' ⟨t.val / 4, hb⟩ ⟨t.val % 4 * 512 + p.val, hr⟩ rfl rfl]
  refine (pay3_apply _ _ _ _ u p e').trans ?_
  exact tile_eq _ _ _ _ _ _ _ _ ⟨t.val / 4, hb⟩ ⟨t.val % 4 * 512 + p.val, hr⟩ p e' (fun d => read_q V c t p d _ _ rfl rfl)
    (fun d e => read_M V c t d e _ rfl) (fun e => read_W V c t e' e) (read_b V c t e')

/-! ## The blocks cover the arrays -/

/-- An index of the wide output array is in point t's block iff each coordinate is in the block's range on its axis. -/
theorem mem_blk_wide (t : Fin cfg1.N) (i : S8x2048x768.Idx) :
    i ∈ ((cfg1.win 4).blk t).view.set
      ↔ ∀ a : Fin 3, win1_4.index t a * S1x512x768.size a ≤ (i a).val ∧ (i a).val < win1_4.index t a * S1x512x768.size a + S1x512x768.size a := by
  show i ∈ ((View.whole main_call0_v1_0).slice (win1_4.rect t)).set ↔ _
  rw [View.set_slice_whole, Rect.mem_set_unit]
  exact Iff.rfl

/-- The same for the narrow output array. -/
theorem mem_blk_narrow (t : Fin cfg1.N) (i : S8x2048x768.Idx) :
    i ∈ ((cfg1.win 5).blk t).view.set
      ↔ ∀ a : Fin 3, win1_5.index t a * S1x512x768.size a ≤ (i a).val ∧ (i a).val < win1_5.index t a * S1x512x768.size a + S1x512x768.size a := by
  show i ∈ ((View.whole main_call0_v1_1).slice (win1_5.rect t)).set ↔ _
  rw [View.set_slice_whole, Rect.mem_set_unit]
  exact Iff.rfl

/-- The point that covers index (b, r, e'): batch b, row tile r / 512. -/
theorem point_of (i : S8x2048x768.Idx) : ∃ t : Fin cfg1.N, t.val / 4 = (i 0).val ∧ t.val % 4 = (i 1).val / 512 := by
  have h0 : (i 0).val < 8 := (i 0).isLt
  have h1 : (i 1).val < 2048 := (i 1).isLt
  refine ⟨⟨(i 0).val * 4 + (i 1).val / 512, by rw [show cfg1.N = 32 from N_1]; omega⟩, ?_, ?_⟩
  · show ((i 0).val * 4 + (i 1).val / 512) / 4 = (i 0).val; omega
  · show ((i 0).val * 4 + (i 1).val / 512) % 4 = (i 1).val / 512; omega

/-- Every index of the wide output array is in the block of a point that writes back. -/
theorem cover_wide (i : S8x2048x768.Idx) :
    ∃ t : Fin cfg1.N, (cfg1.win 4).flush t = true ∧ i ∈ ((cfg1.win 4).blk t).view.set := by
  have h1 : (i 1).val < 2048 := (i 1).isLt
  have h2 : (i 2).val < 768 := (i 2).isLt
  obtain ⟨t, tb, tn⟩ := point_of i
  obtain ⟨-, -, -, -, -, -, -, -, -, e0, e1, e2, -⟩ := idx_facts t
  refine ⟨t, flush1_4 t, ?_⟩
  rw [mem_blk_wide]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 768 ≤ (i 2).val ∧ (i 2).val < win1_4.index t (2 : Fin 3) * 768 + 768; omega

/-- Every index of the narrow output array is in the block of a point that writes back. -/
theorem cover_narrow (i : S8x2048x768.Idx) :
    ∃ t : Fin cfg1.N, (cfg1.win 5).flush t = true ∧ i ∈ ((cfg1.win 5).blk t).view.set := by
  have h1 : (i 1).val < 2048 := (i 1).isLt
  have h2 : (i 2).val < 768 := (i 2).isLt
  obtain ⟨t, tb, tn⟩ := point_of i
  obtain ⟨-, -, -, -, -, -, -, -, -, -, -, -, e0, e1, e2⟩ := idx_facts t
  refine ⟨t, flush1_5 t, ?_⟩
  rw [mem_blk_narrow]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 768 ≤ (i 2).val ∧ (i 2).val < win1_5.index t (2 : Fin 3) * 768 + 768; omega

/-! ## The two output arrays after the region -/

/-- The wide output array ends holding (q · M) · W3ᵀ + b3 of the arrays the region finds. -/
theorem final1_wide (c : Dev nD) :
    (Rgn.dat1 (F := Ideal) V c).arrAt 4 cfg1.N
      = g1Arr (V c main_call0_v0_0) (V c main_call0_v0_2) (V c main_arg6) (V c main_arg7) :=
  (Rgn.dat1 (F := Ideal) V c).arrAt_eq_of_cover 4 (g1Arr (V c main_call0_v0_0) (V c main_call0_v0_2) (V c main_arg6) (V c main_arg7))
    (fun t _ => flushed_wide V c t) cover_wide

/-- The narrow output array ends holding the same: the cut to the narrow format is the identity on the extended reals. -/
theorem final1_narrow (c : Dev nD) :
    (Rgn.dat1 (F := Ideal) V c).arrAt 5 cfg1.N
      = g1Arr (V c main_call0_v0_0) (V c main_call0_v0_2) (V c main_arg6) (V c main_arg7) :=
  (Rgn.dat1 (F := Ideal) V c).arrAt_eq_of_cover 5 (g1Arr (V c main_call0_v0_0) (V c main_call0_v0_2) (V c main_arg6) (V c main_arg7))
    (fun t _ => flushed_narrow V c t) cover_narrow

end Cert.KernelIdeal.Val1

end
-- ==== Proof.KI.Val2.Pieces.lean ====
/- The third pallas_call's value, first half: what each case of the body leaves in the three scratch buffers and in the
   output block, as the body's own arithmetic (the skeleton's payloads) of the point's input blocks and of the scratch
   contents the body's loads find. Generic in the float instance. -/
import proofs.«152342_j15135464751210_2_alg».proof.Proof.KI.Reg2
import Idealize.ShloMosaic.Lib.Pipeline.Value

set_option maxRecDepth 16384

noncomputable section

namespace Cert.KernelIdeal.Val2

open Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## One kv block absorbed, and the final block, over block variables -/

/-- The running row maximum after a kv block: the old one against the block's largest masked logit. -/
def stepM (q : Vec F S1x1024x768 .bf16) (k : Vec F S1x512x768 .bf16) (mk : Vec F S1x1024x512 .i32) (M : Vec F S1024x1 .f32) :
    Vec F S1024x1 .f32 := k2_pay3 (k2_pay10 q k mk M)

/-- The running row sum after a kv block: the old one rescaled by the exponential of the maximum's change, plus the
    block's exponentials summed. -/
def stepL (q : Vec F S1x1024x768 .bf16) (k : Vec F S1x512x768 .bf16) (mk : Vec F S1x1024x512 .i32) (M L : Vec F S1024x1 .f32) :
    Vec F S1024x1 .f32 := k2_pay1 (k2_pay12 q k mk M) (k2_pay13 q k mk M M L)

/-- The running weighted sum after a kv block: the old one rescaled likewise, plus the block's exponentials times its
    value rows. -/
def stepAcc (q : Vec F S1x1024x768 .bf16) (k v : Vec F S1x512x768 .bf16) (mk : Vec F S1x1024x512 .i32) (M : Vec F S1024x1 .f32)
    (A : Vec F S1024x768 .f32) : Vec F S1024x768 .f32 := k2_pay2 (k2_pay8 v) (k2_pay11 q k mk M M) (k2_pay12 q k mk M) A

/-- The output block: the weighted sum over the plain sum, through the last linear map, plus the residual. -/
def lastOut (A : Vec F S1024x768 .f32) (L : Vec F S1024x1 .f32) (W : Vec F S768x768 .f32) (bb : Vec F S768 .f32)
    (g : Vec F S1x1024x768 .f32) : Vec F S1x1024x768 .f32 := k2_pay4 A L W bb g

/-! ## What the stores leave in each buffer -/

/-- What a group's first kv block leaves in scratch 0 (the running row maximum): the reset value takes the place of what the buffer held. -/
theorem piece_A_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) :
    sout2_A_0 c i arg3 harg3 arg4 harg4 arg5 harg5 arg6 harg6 arg7 harg7 arg8 harg8 arg9 harg9 arg10 harg10 arg11 harg11 arg12 harg12 arg13 harg13 hc0 hc1 x0 x1 x2 x3 x4 x5 x6 = stepM x0 x1 x4 k2_pay5 := by
  unfold sout2_A_0 stepM
  rw [View.read_writes_eq_canon _ _ _ (scover2_A_0 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun2_A
  dsimp only
  sl_unfold_words
  rw [View.canon_cons_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

/-- What a group's first kv block leaves in scratch 1 (the running row sum): the reset value takes the place of what the buffer held. -/
theorem piece_A_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) :
    sout2_A_1 c i arg3 harg3 arg4 harg4 arg5 harg5 arg6 harg6 arg7 harg7 arg8 harg8 arg9 harg9 arg10 harg10 arg11 harg11 arg12 harg12 arg13 harg13 hc0 hc1 x0 x1 x2 x3 x4 x5 x6 = stepL x0 x1 x4 k2_pay5 k2_pay6 := by
  unfold sout2_A_1 stepL
  rw [View.read_writes_eq_canon _ _ _ (scover2_A_1 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun2_A
  dsimp only
  sl_unfold_words
  rw [View.canon_cons_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

/-- What a group's first kv block leaves in scratch 2 (the running weighted sum): the reset value takes the place of what the buffer held. -/
theorem piece_A_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) :
    sout2_A_2 c i arg3 harg3 arg4 harg4 arg5 harg5 arg6 harg6 arg7 harg7 arg8 harg8 arg9 harg9 arg10 harg10 arg11 harg11 arg12 harg12 arg13 harg13 hc0 hc1 x0 x1 x2 x3 x4 x5 x6 = stepAcc x0 x1 x2 x4 k2_pay5 k2_pay7 := by
  unfold sout2_A_2 stepAcc
  rw [View.read_writes_eq_canon _ _ _ (scover2_A_2 c i arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun2_A
  dsimp only
  sl_unfold_words
  rw [View.canon_cons_unit_zero (S := S1024x768) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

/-- What a group's middle kv blocks leaves in scratch 0 (the running row maximum). -/
theorem piece_B_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    sout2_B_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = stepM x0 x1 x4 xs0 := by
  unfold sout2_B_0 stepM
  rw [View.read_writes_eq_canon _ _ _ (scover2_B_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun2_B
  dsimp only
  sl_unfold_words
  rw [View.canon_cons_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

/-- What a group's middle kv blocks leaves in scratch 1 (the running row sum). -/
theorem piece_B_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    sout2_B_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = stepL x0 x1 x4 xs0 xs1 := by
  unfold sout2_B_1 stepL
  rw [View.read_writes_eq_canon _ _ _ (scover2_B_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun2_B
  dsimp only
  sl_unfold_words
  rw [View.canon_cons_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

/-- What a group's middle kv blocks leaves in scratch 2 (the running weighted sum). -/
theorem piece_B_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : ¬cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    sout2_B_2 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = stepAcc x0 x1 x2 x4 xs0 xs2 := by
  unfold sout2_B_2 stepAcc
  rw [View.read_writes_eq_canon _ _ _ (scover2_B_2 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun2_B
  dsimp only
  sl_unfold_words
  rw [View.canon_cons_unit_zero (S := S1024x768) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

/-- What a group's last kv block leaves in scratch 0 (the running row maximum). -/
theorem piece_C_0 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    sout2_C_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = stepM x0 x1 x4 xs0 := by
  unfold sout2_C_0 stepM
  rw [View.read_writes_eq_canon _ _ _ (scover2_C_0 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun2_C
  dsimp only
  sl_unfold_words
  rw [View.canon_cons_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

/-- What a group's last kv block leaves in scratch 1 (the running row sum). -/
theorem piece_C_1 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    sout2_C_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = stepL x0 x1 x4 xs0 xs1 := by
  unfold sout2_C_1 stepL
  rw [View.read_writes_eq_canon _ _ _ (scover2_C_1 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun2_C
  dsimp only
  sl_unfold_words
  rw [View.canon_cons_unit_zero (S := S1024x1) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

/-- What a group's last kv block leaves in scratch 2 (the running weighted sum). -/
theorem piece_C_2 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    sout2_C_2 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = stepAcc x0 x1 x2 x4 xs0 xs2 := by
  unfold sout2_C_2 stepAcc
  rw [View.read_writes_eq_canon _ _ _ (scover2_C_2 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun2_C
  dsimp only
  sl_unfold_words
  rw [View.canon_cons_unit_zero (S := S1024x768) hz2]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

/-- What a group's last kv block leaves in the output window's buffer: the final block of the scratch it has just updated. -/
theorem piece_C_7 (c : Dev nD) (i : grid2.Coords) (arg3 : Memref sig .tc .vmem S1x1024x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x1024x768 .f32) (harg6 : arg6.IsWhole) (arg7 : Memref sig .tc .vmem S1x1024x512 .i32) (harg7 : arg7.IsWhole) (arg8 : Memref sig .tc .vmem S768x768 .f32) (harg8 : arg8.IsWhole) (arg9 : Memref sig .tc .vmem S768 .f32) (harg9 : arg9.IsWhole) (arg10 : Memref sig .tc .vmem S1x1024x768 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x768 .f32) (harg13 : arg13.IsWhole) (hc0 : ¬cond2_0 i) (hc1 : cond2_1 i)
    (x0 : Vec F S1x1024x768 .bf16) (x1 : Vec F S1x512x768 .bf16) (x2 : Vec F S1x512x768 .bf16) (x3 : Vec F S1x1024x768 .f32) (x4 : Vec F S1x1024x512 .i32) (x5 : Vec F S768x768 .f32) (x6 : Vec F S768 .f32) (xs0 : Vec F S1024x1 .f32) (xs1 : Vec F S1024x1 .f32) (xs2 : Vec F S1024x768 .f32) :
    out2_C_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = lastOut (stepAcc x0 x1 x2 x4 xs0 xs2) (stepL x0 x1 x4 xs0 xs1) x5 x6 x3 := by
  unfold out2_C_7 lastOut stepAcc stepL
  rw [View.read_writes_eq_canon _ _ _ (cover2_C_7 c i arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun2_C
  dsimp only
  sl_unfold_words
  rw [View.canon_cons_unit_zero (S := S1x1024x768) hz3]
  simp only [View.readAt_eq_ld, harg3.read_unread, harg4.read_unread, harg5.read_unread, harg6.read_unread, harg7.read_unread, harg8.read_unread, harg9.read_unread, harg11.read_unread, harg12.read_unread, harg13.read_unread,
    View.ld_unit_zero (S := S1x1024x768) hz3, View.ld_unit_zero (S := S1x512x768) hz3, View.ld_unit_zero (S := S1x1024x512) hz3, View.ld_unit_zero (S := S768x768) hz2, View.ld_unit_zero (S := S768) hz1, View.ld_unit_zero (S := S1024x1) hz2, View.ld_unit_zero (S := S1024x768) hz2,
    View.readCov_unit_zero (S := S1024x1) arg11.view hz2, View.readCov_unit_zero (S := S1024x1) arg12.view hz2, View.readCov_unit_zero (S := S1024x768) arg13.view hz2]

end Cert.KernelIdeal.Val2

end
-- ==== Proof.KI.Val2.Steps.lean ====
/- The third pallas_call's value, second half of the reading: the three scratch buffers and the output buffer position by
   position, as the body's arithmetic of the point's blocks and of what the position before left. Generic in the float
   instance. -/
import proofs.«152342_j15135464751210_2_alg».proof.Proof.KI.Val2.Pieces

set_option maxRecDepth 16384

noncomputable section

namespace Cert.KernelIdeal.Val2

open Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- At a group's first kv block the three scratch buffers end at one absorption step from the reset values. -/
theorem scr_first (c : Dev nD) (t : Fin cfg2.N) (h0 : t.val % 4 = 0) :
    (outsAt2 V c t.val t.isLt).2
      = (stepM (iblk2 V c 0 t) (iblk2 V c 1 t) (iblk2 V c 4 t) k2_pay5,
         stepL (iblk2 V c 0 t) (iblk2 V c 1 t) (iblk2 V c 4 t) k2_pay5 k2_pay6,
         stepAcc (iblk2 V c 0 t) (iblk2 V c 1 t) (iblk2 V c 2 t) (iblk2 V c 4 t) k2_pay5 k2_pay7) := by
  have h1 : ¬t.val % 4 = 3 := by omega
  rw [outsAt2_A V c t h0 h1]
  exact congrArg₂ Prod.mk (piece_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t))
    (congrArg₂ Prod.mk (piece_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t))
      (piece_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)))

/-- At every other kv block they end at one absorption step from what the position before left. -/
theorem scr_next (c : Dev nD) (t : Fin cfg2.N) (h0 : ¬t.val % 4 = 0) :
    (outsAt2 V c t.val t.isLt).2
      = (stepM (iblk2 V c 0 t) (iblk2 V c 1 t) (iblk2 V c 4 t) (outsAt2 V c (t.val - 1) (Nat.lt_of_le_of_lt (Nat.sub_le _ _) t.isLt)).2.1,
         stepL (iblk2 V c 0 t) (iblk2 V c 1 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1,
         stepAcc (iblk2 V c 0 t) (iblk2 V c 1 t) (iblk2 V c 2 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.2) := by
  by_cases h1 : t.val % 4 = 3
  · rw [outsAt2_C V c t h0 h1]
    exact congrArg₂ Prod.mk (piece_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2)
      (congrArg₂ Prod.mk (piece_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2)
        (piece_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2))
  · rw [outsAt2_B V c t h0 h1]
    exact congrArg₂ Prod.mk (piece_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2)
      (congrArg₂ Prod.mk (piece_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2)
        (piece_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2))

/-- At a group's last kv block the output buffer ends at the final block of what one absorption step makes of the scratch
    the position before left. -/
theorem out_last' (c : Dev nD) (t : Fin cfg2.N) (h0 : ¬t.val % 4 = 0) (h1 : t.val % 4 = 3) :
    (outsAt2 V c t.val t.isLt).1
      = lastOut (stepAcc (iblk2 V c 0 t) (iblk2 V c 1 t) (iblk2 V c 2 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.2)
          (stepL (iblk2 V c 0 t) (iblk2 V c 1 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2.1) (iblk2 V c 5 t) (iblk2 V c 6 t) (iblk2 V c 3 t) := by
  rw [outsAt2_C V c t h0 h1]
  unfold at2_C
  dsimp only
  exact (piece_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2)

/-- The same, over the scratch the same point leaves. -/
theorem out_last (c : Dev nD) (t : Fin cfg2.N) (h1 : t.val % 4 = 3) :
    (outsAt2 V c t.val t.isLt).1
      = lastOut (outsAt2 V c t.val t.isLt).2.2.2 (outsAt2 V c t.val t.isLt).2.2.1 (iblk2 V c 5 t) (iblk2 V c 6 t) (iblk2 V c 3 t) := by
  have h0 : ¬t.val % 4 = 0 := by omega
  rw [out_last' V c t h0 h1, scr_next V c t h0]

end Cert.KernelIdeal.Val2

end
-- ==== Proof.KI.Val2.Blocks.lean ====
/- The third pallas_call's value: where each window's block sits in its array. The grid point at position `t` of the
   8 × 2 × 4 grid has batch `t / 8`, query block `t / 4 % 2` and kv block `t % 4`; the query, residual and output
   blocks are rows `1024 · (t / 4 % 2) + r` of the batch, the key and value blocks rows `512 · (t % 4) + c`, the mask
   block those rows against those columns, the last weight and bias whole. Generic in the float instance. -/
import proofs.«152342_j15135464751210_2_alg».proof.Proof.KI.Reg2
import proofs.«152342_j15135464751210_2_alg».proof.Proof.KI.KSpec
import Idealize.ShloMosaic.Lib.Pipeline.Value
import Idealize.ShloMosaic.Lib.ValueIdx

set_option maxRecDepth 16384

noncomputable section

namespace Cert.KernelIdeal.Val2

open Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx Cert.KernelIdeal.KSpec

variable (V : (c : Dev nD) → (b : Ref sig .tc) → Buf (Elt F) ((c : Thread nD τ).loc b))

/-- The printed index maps in closed form over the position, decided over the grid. -/
theorem idx2 : ∀ t : Fin cfg2.N,
    (win2_0.index t (0 : Fin 3) = t.val / 8 ∧ win2_0.index t (1 : Fin 3) = t.val / 4 % 2 ∧ win2_0.index t (2 : Fin 3) = 0)
    ∧ (win2_1.index t (0 : Fin 3) = t.val / 8 ∧ win2_1.index t (1 : Fin 3) = t.val % 4 ∧ win2_1.index t (2 : Fin 3) = 0)
    ∧ (win2_2.index t (0 : Fin 3) = t.val / 8 ∧ win2_2.index t (1 : Fin 3) = t.val % 4 ∧ win2_2.index t (2 : Fin 3) = 0)
    ∧ (win2_3.index t (0 : Fin 3) = t.val / 8 ∧ win2_3.index t (1 : Fin 3) = t.val / 4 % 2 ∧ win2_3.index t (2 : Fin 3) = 0)
    ∧ (win2_4.index t (0 : Fin 3) = t.val / 8 ∧ win2_4.index t (1 : Fin 3) = t.val / 4 % 2 ∧ win2_4.index t (2 : Fin 3) = t.val % 4)
    ∧ (win2_5.index t (0 : Fin 2) = 0 ∧ win2_5.index t (1 : Fin 2) = 0)
    ∧ win2_6.index t (0 : Fin 1) = 0
    ∧ (win2_7.index t (0 : Fin 3) = t.val / 8 ∧ win2_7.index t (1 : Fin 3) = t.val / 4 % 2 ∧ win2_7.index t (2 : Fin 3) = 0) :=
  (by decide +kernel : ∀ t : Fin grid2.N, _)

theorem lt64 (t : Fin cfg2.N) : t.val < 64 := lt_of_lt_of_eq t.isLt (show cfg2.N = 64 from N_2)

/-- The point's batch. -/
def bOf (t : Fin cfg2.N) : Fin 8 := ⟨t.val / 8, by have := lt64 t; omega⟩
/-- Row `r` of the point's query block, as a row of the batch. -/
def qRow (t : Fin cfg2.N) (r : Fin 1024) : Fin 2048 := ⟨t.val / 4 % 2 * 1024 + r.val, by have := r.isLt; omega⟩
/-- The point's kv block. -/
def kTile (t : Fin cfg2.N) : Fin 4 := ⟨t.val % 4, Nat.mod_lt _ (by decide)⟩

/-- The query block's entry. -/
theorem blk_q (c : Dev nD) (t : Fin cfg2.N) (r : Fin 1024) (d : Fin 768) :
    iblk2 V c 0 t (ix3 (0 : Fin 1) r d) = V c main_call0_v0_0 (ix3 (bOf t) (qRow t r) d) := by
  obtain ⟨⟨e0, e1, e2⟩, -⟩ := idx2 t
  show V c main_call0_v0_0 (((cfg2.win 0).blk t).view.emb (ix3 (0 : Fin 1) r d)) = _
  refine congrArg (V c main_call0_v0_0) ?_
  funext a; apply Fin.ext
  match a with
  | ⟨0, _⟩ => show win2_0.index t (0 : Fin 3) * 1 + 1 * 0 = t.val / 8; omega
  | ⟨1, _⟩ => show win2_0.index t (1 : Fin 3) * 1024 + 1 * r.val = t.val / 4 % 2 * 1024 + r.val; omega
  | ⟨2, _⟩ => show win2_0.index t (2 : Fin 3) * 768 + 1 * d.val = d.val; omega

/-- The key block's entry. -/
theorem blk_k (c : Dev nD) (t : Fin cfg2.N) (cc : Fin 512) (d : Fin 768) :
    iblk2 V c 1 t (ix3 (0 : Fin 1) cc d) = V c main_call0_v0_1 (ix3 (bOf t) (rowOf (kTile t) cc) d) := by
  obtain ⟨-, ⟨e0, e1, e2⟩, -⟩ := idx2 t
  show V c main_call0_v0_1 (((cfg2.win 1).blk t).view.emb (ix3 (0 : Fin 1) cc d)) = _
  refine congrArg (V c main_call0_v0_1) ?_
  funext a; apply Fin.ext
  match a with
  | ⟨0, _⟩ => show win2_1.index t (0 : Fin 3) * 1 + 1 * 0 = t.val / 8; omega
  | ⟨1, _⟩ => show win2_1.index t (1 : Fin 3) * 512 + 1 * cc.val = t.val % 4 * 512 + cc.val; omega
  | ⟨2, _⟩ => show win2_1.index t (2 : Fin 3) * 768 + 1 * d.val = d.val; omega

/-- The value block's entry. -/
theorem blk_v (c : Dev nD) (t : Fin cfg2.N) (cc : Fin 512) (e : Fin 768) :
    iblk2 V c 2 t (ix3 (0 : Fin 1) cc e) = V c main_call0_v1_1 (ix3 (bOf t) (rowOf (kTile t) cc) e) := by
  obtain ⟨-, -, ⟨e0, e1, e2⟩, -⟩ := idx2 t
  show V c main_call0_v1_1 (((cfg2.win 2).blk t).view.emb (ix3 (0 : Fin 1) cc e)) = _
  refine congrArg (V c main_call0_v1_1) ?_
  funext a; apply Fin.ext
  match a with
  | ⟨0, _⟩ => show win2_2.index t (0 : Fin 3) * 1 + 1 * 0 = t.val / 8; omega
  | ⟨1, _⟩ => show win2_2.index t (1 : Fin 3) * 512 + 1 * cc.val = t.val % 4 * 512 + cc.val; omega
  | ⟨2, _⟩ => show win2_2.index t (2 : Fin 3) * 768 + 1 * e.val = e.val; omega

/-- The residual block's entry. -/
theorem blk_g (c : Dev nD) (t : Fin cfg2.N) (r : Fin 1024) (e : Fin 768) :
    iblk2 V c 3 t (ix3 (0 : Fin 1) r e) = V c main_call0_v1_0 (ix3 (bOf t) (qRow t r) e) := by
  obtain ⟨-, -, -, ⟨e0, e1, e2⟩, -⟩ := idx2 t
  show V c main_call0_v1_0 (((cfg2.win 3).blk t).view.emb (ix3 (0 : Fin 1) r e)) = _
  refine congrArg (V c main_call0_v1_0) ?_
  funext a; apply Fin.ext
  match a with
  | ⟨0, _⟩ => show win2_3.index t (0 : Fin 3) * 1 + 1 * 0 = t.val / 8; omega
  | ⟨1, _⟩ => show win2_3.index t (1 : Fin 3) * 1024 + 1 * r.val = t.val / 4 % 2 * 1024 + r.val; omega
  | ⟨2, _⟩ => show win2_3.index t (2 : Fin 3) * 768 + 1 * e.val = e.val; omega

/-- The mask block's entry. -/
theorem blk_mask (c : Dev nD) (t : Fin cfg2.N) (r : Fin 1024) (cc : Fin 512) :
    iblk2 V c 4 t (ix3 (0 : Fin 1) r cc) = V c main_arg1 (ix3 (bOf t) (qRow t r) (rowOf (kTile t) cc)) := by
  obtain ⟨-, -, -, -, ⟨e0, e1, e2⟩, -⟩ := idx2 t
  show V c main_arg1 (((cfg2.win 4).blk t).view.emb (ix3 (0 : Fin 1) r cc)) = _
  refine congrArg (V c main_arg1) ?_
  funext a; apply Fin.ext
  match a with
  | ⟨0, _⟩ => show win2_4.index t (0 : Fin 3) * 1 + 1 * 0 = t.val / 8; omega
  | ⟨1, _⟩ => show win2_4.index t (1 : Fin 3) * 1024 + 1 * r.val = t.val / 4 % 2 * 1024 + r.val; omega
  | ⟨2, _⟩ => show win2_4.index t (2 : Fin 3) * 512 + 1 * cc.val = t.val % 4 * 512 + cc.val; omega

/-- The last weight matrix is staged whole. -/
theorem blk_W (c : Dev nD) (t : Fin cfg2.N) (e d : Fin 768) :
    iblk2 V c 5 t (ix2 e d) = V c main_arg8 (ix2 e d) := by
  obtain ⟨-, -, -, -, -, ⟨e0, e1⟩, -⟩ := idx2 t
  show V c main_arg8 (((cfg2.win 5).blk t).view.emb (ix2 e d)) = _
  refine congrArg (V c main_arg8) ?_
  funext a; apply Fin.ext
  match a with
  | ⟨0, _⟩ => show win2_5.index t (0 : Fin 2) * 768 + 1 * e.val = e.val; omega
  | ⟨1, _⟩ => show win2_5.index t (1 : Fin 2) * 768 + 1 * d.val = d.val; omega

/-- The last bias is staged whole. -/
theorem blk_b (c : Dev nD) (t : Fin cfg2.N) (e : Fin 768) :
    iblk2 V c 6 t (ix1 e) = V c main_arg9 (ix1 e) := by
  obtain ⟨-, -, -, -, -, -, e0, -⟩ := idx2 t
  show V c main_arg9 (((cfg2.win 6).blk t).view.emb (ix1 e)) = _
  refine congrArg (V c main_arg9) ?_
  funext a; apply Fin.ext
  match a with
  | ⟨0, _⟩ => show win2_6.index t (0 : Fin 1) * 768 + 1 * e.val = e.val; omega

/-- Where the output block's entry (row `p`, column `e`) sits in the result array. -/
theorem emb7 (t : Fin cfg2.N) (u : Fin 1) (p : Fin 1024) (e : Fin 768) :
    ((cfg2.win 7).blk t).view.emb (ix3 u p e) = ix3 (bOf t) (qRow t p) e := by
  obtain ⟨-, -, -, -, -, -, -, ⟨e0, e1, e2⟩⟩ := idx2 t
  funext a; apply Fin.ext
  match a with
  | ⟨0, _⟩ => show win2_7.index t (0 : Fin 3) * 1 + 1 * u.val = t.val / 8; have := u.isLt; omega
  | ⟨1, _⟩ => show win2_7.index t (1 : Fin 3) * 1024 + 1 * p.val = t.val / 4 % 2 * 1024 + p.val; omega
  | ⟨2, _⟩ => show win2_7.index t (2 : Fin 3) * 768 + 1 * e.val = e.val; omega

end Cert.KernelIdeal.Val2

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«152342_j15135464751210_2_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.KI.Val2.Pay.lean ====
/-
  The third kernel's payloads, read at an index, at the ideal values.

  One step of the blockwise softmax, for a block of 1024 query rows against a tile of 512 keys: the masked scaled
  logits s (p, c) = (mask (p, c) = 1 ? -1e9 : (Σ d, q (p, d) · k (c, d)) · (1/28)); the new shift max (old shift, the
  largest logit of the row in this tile, from -∞); the rescaling factor exp (old shift - new shift); the weights
  exp (s - new shift); the running sum and the running weighted sum of value rows, each rescaled and then increased
  by this tile's part; and, after the last tile, the weighted sum over the plain sum pushed through the last linear
  map, plus its bias and the residual. A change of float format is the identity on the extended reals, a cast that
  only adds or drops a unit axis reads the same entry, and a column [1024, 1] broadcast along a row reads the column.
-/
import proofs.«152342_j15135464751210_2_alg».proof.Proof.Gen.KernelIdeal.Skeleton
import proofs.«152342_j15135464751210_2_alg».proof.Proof.KI.KSpec
import proofs.«152342_j15135464751210_2_alg».proof.Proof.LibMatmulIx
import proofs.«152342_j15135464751210_2_alg».proof.Proof.LibMatmulTIx
import proofs.«152342_j15135464751210_2_alg».proof.Proof.LibLayout
import proofs.«152342_j15135464751210_2_alg».proof.Proof.LibLay3
import Idealize.ShloMosaic.Lib.ValueLayout
import Idealize.ShloMosaic.Lib.Pipeline.Value

noncomputable section

open scoped BigOperators

namespace Cert.KernelIdeal.Val2

open Cert.KernelIdeal Cert.KernelIdeal.Gen Cert.KernelIdeal.KSpec Cert.ReferenceIdeal.RefValue
open Idealize.ShloMosaic Idealize.ShloMosaic.ValueIdx Cert.Attn.Layout

/-! ## The three products' dimension numbers, by coordinates -/

theorem qk_l0 (i : S1024x512.Idx) (k : dot_S1024x768_S512x768_S1024x512_1_1_0_0_n_n.contr.Idx) :
    (dot_S1024x768_S512x768_S1024x512_1_1_0_0_n_n.lhsIdx i k 0).val = (i 0).val := by
  unfold DotDims.lhsIdx
  rw [dif_neg (show ¬(0 : Fin S1024x768.rank) ∈ dot_S1024x768_S512x768_S1024x512_1_1_0_0_n_n.lhsBatch by decide),
    dif_pos (show (0 : Fin S1024x768.rank) ∈ dot_S1024x768_S512x768_S1024x512_1_1_0_0_n_n.lhsNonContracting by decide)]
  rfl
theorem qk_l1 (i : S1024x512.Idx) (k : dot_S1024x768_S512x768_S1024x512_1_1_0_0_n_n.contr.Idx) :
    (dot_S1024x768_S512x768_S1024x512_1_1_0_0_n_n.lhsIdx i k 1).val = (k ⟨0, by decide⟩).val :=
  dot_S1024x768_S512x768_S1024x512_1_1_0_0_n_n.lhsIdx_val_of_single rfl i k
theorem qk_r0 (i : S1024x512.Idx) (k : dot_S1024x768_S512x768_S1024x512_1_1_0_0_n_n.contr.Idx) :
    (dot_S1024x768_S512x768_S1024x512_1_1_0_0_n_n.rhsIdx i k 0).val = (i 1).val := by
  unfold DotDims.rhsIdx
  rw [dif_neg (show ¬(0 : Fin S512x768.rank) ∈ dot_S1024x768_S512x768_S1024x512_1_1_0_0_n_n.rhsBatch by decide),
    dif_pos (show (0 : Fin S512x768.rank) ∈ dot_S1024x768_S512x768_S1024x512_1_1_0_0_n_n.rhsNonContracting by decide)]
  rfl
theorem qk_r1 (i : S1024x512.Idx) (k : dot_S1024x768_S512x768_S1024x512_1_1_0_0_n_n.contr.Idx) :
    (dot_S1024x768_S512x768_S1024x512_1_1_0_0_n_n.rhsIdx i k 1).val = (k ⟨0, by decide⟩).val :=
  dot_S1024x768_S512x768_S1024x512_1_1_0_0_n_n.rhsIdx_val_of_single rfl i k

theorem pv_l0 (i : S1024x768.Idx) (k : dot_S1024x512_S512x768_S1024x768_1_0_0_1_n_n.contr.Idx) :
    (dot_S1024x512_S512x768_S1024x768_1_0_0_1_n_n.lhsIdx i k 0).val = (i 0).val := by
  unfold DotDims.lhsIdx
  rw [dif_neg (show ¬(0 : Fin S1024x512.rank) ∈ dot_S1024x512_S512x768_S1024x768_1_0_0_1_n_n.lhsBatch by decide),
    dif_pos (show (0 : Fin S1024x512.rank) ∈ dot_S1024x512_S512x768_S1024x768_1_0_0_1_n_n.lhsNonContracting by decide)]
  rfl
theorem pv_l1 (i : S1024x768.Idx) (k : dot_S1024x512_S512x768_S1024x768_1_0_0_1_n_n.contr.Idx) :
    (dot_S1024x512_S512x768_S1024x768_1_0_0_1_n_n.lhsIdx i k 1).val = (k ⟨0, by decide⟩).val :=
  dot_S1024x512_S512x768_S1024x768_1_0_0_1_n_n.lhsIdx_val_of_single rfl i k
theorem pv_r0 (i : S1024x768.Idx) (k : dot_S1024x512_S512x768_S1024x768_1_0_0_1_n_n.contr.Idx) :
    (dot_S1024x512_S512x768_S1024x768_1_0_0_1_n_n.rhsIdx i k 0).val = (k ⟨0, by decide⟩).val :=
  dot_S1024x512_S512x768_S1024x768_1_0_0_1_n_n.rhsIdx_val_of_single rfl i k
theorem pv_r1 (i : S1024x768.Idx) (k : dot_S1024x512_S512x768_S1024x768_1_0_0_1_n_n.contr.Idx) :
    (dot_S1024x512_S512x768_S1024x768_1_0_0_1_n_n.rhsIdx i k 1).val = (i 1).val := by
  unfold DotDims.rhsIdx
  rw [dif_neg (show ¬(1 : Fin S512x768.rank) ∈ dot_S1024x512_S512x768_S1024x768_1_0_0_1_n_n.rhsBatch by decide),
    dif_pos (show (1 : Fin S512x768.rank) ∈ dot_S1024x512_S512x768_S1024x768_1_0_0_1_n_n.rhsNonContracting by decide)]
  rfl

theorem ow_l0 (i : S1024x768.Idx) (k : dot_S1024x768_S768x768_S1024x768_1_1_0_0_n_n.contr.Idx) :
    (dot_S1024x768_S768x768_S1024x768_1_1_0_0_n_n.lhsIdx i k 0).val = (i 0).val := by
  unfold DotDims.lhsIdx
  rw [dif_neg (show ¬(0 : Fin S1024x768.rank) ∈ dot_S1024x768_S768x768_S1024x768_1_1_0_0_n_n.lhsBatch by decide),
    dif_pos (show (0 : Fin S1024x768.rank) ∈ dot_S1024x768_S768x768_S1024x768_1_1_0_0_n_n.lhsNonContracting by decide)]
  rfl
theorem ow_l1 (i : S1024x768.Idx) (k : dot_S1024x768_S768x768_S1024x768_1_1_0_0_n_n.contr.Idx) :
    (dot_S1024x768_S768x768_S1024x768_1_1_0_0_n_n.lhsIdx i k 1).val = (k ⟨0, by decide⟩).val :=
  dot_S1024x768_S768x768_S1024x768_1_1_0_0_n_n.lhsIdx_val_of_single rfl i k
theorem ow_r0 (i : S1024x768.Idx) (k : dot_S1024x768_S768x768_S1024x768_1_1_0_0_n_n.contr.Idx) :
    (dot_S1024x768_S768x768_S1024x768_1_1_0_0_n_n.rhsIdx i k 0).val = (i 1).val := by
  unfold DotDims.rhsIdx
  rw [dif_neg (show ¬(0 : Fin S768x768.rank) ∈ dot_S1024x768_S768x768_S1024x768_1_1_0_0_n_n.rhsBatch by decide),
    dif_pos (show (0 : Fin S768x768.rank) ∈ dot_S1024x768_S768x768_S1024x768_1_1_0_0_n_n.rhsNonContracting by decide)]
  rfl
theorem ow_r1 (i : S1024x768.Idx) (k : dot_S1024x768_S768x768_S1024x768_1_1_0_0_n_n.contr.Idx) :
    (dot_S1024x768_S768x768_S1024x768_1_1_0_0_n_n.rhsIdx i k 1).val = (k ⟨0, by decide⟩).val :=
  dot_S1024x768_S768x768_S1024x768_1_1_0_0_n_n.rhsIdx_val_of_single rfl i k

/-! ## Small readings -/

/-- An integer comparison of vectors reads elementwise. -/
theorem cmpi_apply {s : Shape} {w : ℕ} (pr : CmpIPredicate) (a b : IVec s w) (i : s.Idx) :
    cmpi pr a b i = IntOp.cmpi pr (a i) (b i) := rfl

/-- The exponential of a vector reads elementwise. -/
theorem exp_apply {s : Shape} (a : FVec Ideal s .f32) (i : s.Idx) : exp a i = Ideal.exp (a i) := rfl

/-- The kernel's named scale denotes the rational 1/28. -/
theorem inv28_named : Named.named (F := Ideal) Cert.KernelIdeal.κ "inv_28" (φ := .f32) 0x3D124925#32 = inv28 :=
  IdealRules.named_const.ideal_named_scalar _ _ _ _ rfl

/-! ## The payloads -/

section Pay
variable (v3 : Vec Ideal S1x1024x768 .bf16) (v5 : Vec Ideal S1x512x768 .bf16) (v9 : Vec Ideal S1x1024x512 .i32)
variable (v20 v22 v28 : Vec Ideal S1024x1 .f32)
variable (p : Fin 1024) (c : Fin 512) (e : Fin 768) (u : Fin 1)

/-- The masked scaled logit of query row p against key c of the tile. -/
theorem pay9_apply :
    k2_pay9 (F := Ideal) v3 v5 v9 (ix2 p c)
      = Scalar.select (IntOp.cmpi .eq (v9 (ix3 (0 : Fin 1) p c)) 1#32) cNeg
          ((∑ d : Fin 768, v3 (ix3 (0 : Fin 1) p d) * v5 (ix3 (0 : Fin 1) c d)) * inv28) := by
  unfold k2_pay9
  rw [select_apply, cmpi_apply, broadcast_apply, broadcast_apply, mulf_apply, broadcast_apply, shapeCast_1ab_ab_apply,
    inv28_named]
  refine congrArg (Scalar.select _ _) ?_
  refine congrArg (· * inv28) ?_
  refine (MatmulTIx.matmulT_zero_ix2 dot_S1024x768_S512x768_S1024x512_1_1_0_0_n_n rfl rfl qk_l0 qk_l1 qk_r0 qk_r1 none _ _ p c).trans ?_
  refine Finset.sum_congr rfl fun d _ => ?_
  rw [shapeCast_1ab_ab_apply, shapeCast_1ab_ab_apply]

/-- The new shift of row p: the larger of the old shift and the row's largest logit in this tile, from -∞. -/
theorem pay10_apply :
    k2_pay10 (F := Ideal) v3 v5 v9 v20 (ix2 p u)
      = max (v20 (ix2 p u))
          ((Finset.univ : Finset (Fin 512)).fold max cNegInf (fun c => k2_pay9 (F := Ideal) v3 v5 v9 (ix2 p c))) := by
  unfold k2_pay10
  rw [maximumf_apply, shapeCast_a_a1_apply]
  refine congrArg (max (v20 (ix2 p u))) ?_
  exact Cert.GQA.Lay.rowMax_apply _ _ _ _ _ p

/-- The rescaling factor of row p: exp (old shift - new shift). -/
theorem pay11_apply :
    k2_pay11 (F := Ideal) v3 v5 v9 v20 v22 (ix2 p u)
      = Ideal.exp (v22 (ix2 p u) - k2_pay10 (F := Ideal) v3 v5 v9 v20 (ix2 p u)) := by
  unfold k2_pay11
  rw [exp_apply, subf_apply]

/-- The weight of key c for row p: exp (logit - new shift). -/
theorem pay12_apply :
    k2_pay12 (F := Ideal) v3 v5 v9 v20 (ix2 p c)
      = Ideal.exp (k2_pay9 (F := Ideal) v3 v5 v9 (ix2 p c) - k2_pay10 (F := Ideal) v3 v5 v9 v20 (ix2 p (0 : Fin 1))) := by
  unfold k2_pay12
  rw [exp_apply, subf_apply, broadcastTo_a1_ab_apply]

/-- The old running sum rescaled. -/
theorem pay13_apply :
    k2_pay13 (F := Ideal) v3 v5 v9 v20 v22 v28 (ix2 p u)
      = k2_pay11 (F := Ideal) v3 v5 v9 v20 v22 (ix2 p u) * v28 (ix2 p u) := by
  unfold k2_pay13
  rw [mulf_apply]

end Pay

section Acc
variable (p : Fin 1024) (c : Fin 512) (e : Fin 768) (u : Fin 1)

/-- The running sum increased by the tile's weights. -/
theorem pay1_apply (v27 : FVec Ideal S1024x512 .f32) (v29 : FVec Ideal S1024x1 .f32) :
    k2_pay1 (F := Ideal) v27 v29 (ix2 p u) = v29 (ix2 p u) + ∑ c : Fin 512, v27 (ix2 p c) := by
  unfold k2_pay1
  rw [shapeCast_self, addf_apply, shapeCast_a_a1_apply]
  refine congrArg (v29 (ix2 p u) + ·) ?_
  exact rowSum_apply _ _ _ _ p

/-- The running weighted sum of value rows, rescaled and increased by the tile's part. -/
theorem pay2_apply (v8 : FVec Ideal S512x768 .bf16) (v24 : FVec Ideal S1024x1 .f32) (v27 : FVec Ideal S1024x512 .f32)
    (v36 : Vec Ideal S1024x768 .f32) :
    k2_pay2 (F := Ideal) v8 v24 v27 v36 (ix2 p e)
      = v24 (ix2 p (0 : Fin 1)) * v36 (ix2 p e) + ∑ c : Fin 512, v27 (ix2 p c) * v8 (ix2 c e) := by
  unfold k2_pay2
  rw [shapeCast_self, addf_apply, mulf_apply, broadcastTo_a1_ab_apply]
  refine congrArg (v24 (ix2 p (0 : Fin 1)) * v36 (ix2 p e) + ·) ?_
  refine (MatmulIx.matmul_zero_ix2 dot_S1024x512_S512x768_S1024x768_1_0_0_1_n_n rfl rfl pv_l0 pv_l1 pv_r0 pv_r1 none _ _ p e).trans ?_
  refine Finset.sum_congr rfl fun c _ => ?_
  rw [truncf_apply]

/-- The shift is stored as it is. -/
theorem pay3_eq (v21 : FVec Ideal S1024x1 .f32) : k2_pay3 (F := Ideal) v21 = v21 := by
  unfold k2_pay3
  exact shapeCast_self _ _

/-- Before the first tile the shift is -∞, -/
theorem pay5_eq : k2_pay5 (F := Ideal) = fun _ => cNegInf := by
  unfold k2_pay5
  dsimp only
  rw [shapeCast_self]
  rfl

/-- the running sum is zero, -/
theorem pay6_eq : k2_pay6 (F := Ideal) = fun _ => (0 : EReal) := by
  unfold k2_pay6
  dsimp only
  rw [shapeCast_self]
  funext i
  exact Ideal.ofBits_zero_f32

/-- and the running weighted sum is zero. -/
theorem pay7_eq : k2_pay7 (F := Ideal) = fun _ => (0 : EReal) := by
  unfold k2_pay7
  dsimp only
  rw [shapeCast_self]
  funext i
  exact Ideal.ofBits_zero_f32

/-- The value tile without its leading unit axis. -/
theorem pay8_apply (v7 : Vec Ideal S1x512x768 .bf16) : k2_pay8 (F := Ideal) v7 (ix2 c e) = v7 (ix3 (0 : Fin 1) c e) := by
  unfold k2_pay8
  rw [shapeCast_1ab_ab_apply]

/-- The row's result: the residual plus the normalised weighted sum pushed through the last linear map and its bias. -/
theorem pay4_apply (v51 : Vec Ideal S1024x768 .f32) (v52 : Vec Ideal S1024x1 .f32) (v56 : Vec Ideal S768x768 .f32)
    (v59 : Vec Ideal S768 .f32) (v63 : Vec Ideal S1x1024x768 .f32) :
    k2_pay4 (F := Ideal) v51 v52 v56 v59 v63 (ix3 u p e)
      = v63 (ix3 (0 : Fin 1) p e)
        + ((∑ d : Fin 768, Ideal.div (v51 (ix2 p d)) (v52 (ix2 p (0 : Fin 1))) * v56 (ix2 e d)) + v59 (ix1 e)) := by
  unfold k2_pay4
  rw [shapeCast_ab_1ab_apply, addf_apply, shapeCast_1ab_ab_apply, addf_apply, broadcastTo_1b_ab_apply, shapeCast_a_1a_apply]
  refine congrArg (v63 (ix3 (0 : Fin 1) p e) + ·) ?_
  refine congrArg (· + v59 (ix1 e)) ?_
  refine (MatmulTIx.matmulT_zero_ix2 dot_S1024x768_S768x768_S1024x768_1_1_0_0_n_n rfl rfl ow_l0 ow_l1 ow_r0 ow_r1 none _ _ p e).trans ?_
  refine Finset.sum_congr rfl fun d _ => ?_
  rw [truncf_apply, truncf_apply, divf_apply, broadcastTo_a1_ab_apply]

end Acc

end Cert.KernelIdeal.Val2

end
-- ==== Proof.KI.Val2.RowStep.lean ====
/- One key tile absorbed, row by row: the body's update of the three running quantities, read at a row of the query
   block, is the specification's `rowStep` of that row's state — for ANY blocks that hold the arrays' entries where the
   row and the tile say. At the ideal values. -/
import proofs.«152342_j15135464751210_2_alg».proof.Proof.KI.Val2.Pay
import proofs.«152342_j15135464751210_2_alg».proof.Proof.KI.Val2.Pieces

noncomputable section

open scoped BigOperators

namespace Cert.KernelIdeal.Val2

open Cert.KernelIdeal Cert.KernelIdeal.Gen Cert.KernelIdeal.KSpec Cert.ReferenceIdeal.RefValue
open Idealize.ShloMosaic Idealize.ShloMosaic.ValueIdx

variable (qA kA vA : Arr3) (mask : SA.Idx → BitVec 32) (b : Fin 8) (n : Fin 2048) (j : Fin 4)
variable (q : Vec Ideal S1x1024x768 .bf16) (k v : Vec Ideal S1x512x768 .bf16) (mk : Vec Ideal S1x1024x512 .i32) (p : Fin 1024)

/-- The body's masked scaled logit of the row against key `cc` of the tile is the specification's. -/
theorem logit_eq (hq : ∀ d, q (ix3 (0 : Fin 1) p d) = qA b n d) (hk : ∀ cc d, k (ix3 (0 : Fin 1) cc d) = kA b (rowOf j cc) d)
    (hm : ∀ cc, mk (ix3 (0 : Fin 1) p cc) = mask (ix3 b n (rowOf j cc))) (cc : Fin 512) :
    k2_pay9 (F := Ideal) q k mk (ix2 p cc) = maskedA qA kA mask b n (rowOf j cc) := by
  rw [pay9_apply, hm cc]
  unfold maskedA attA
  refine congrArg (Scalar.select _ _) ?_
  refine congrArg (· * inv28) ?_
  exact Finset.sum_congr rfl fun d _ => by rw [hq d, hk cc d]

/-- The row's new shift is the old one against the tile's largest masked logit. -/
theorem shift_eq (hq : ∀ d, q (ix3 (0 : Fin 1) p d) = qA b n d) (hk : ∀ cc d, k (ix3 (0 : Fin 1) cc d) = kA b (rowOf j cc) d)
    (hm : ∀ cc, mk (ix3 (0 : Fin 1) p cc) = mask (ix3 b n (rowOf j cc))) (M : Vec Ideal S1024x1 .f32) (u : Fin 1) :
    k2_pay10 (F := Ideal) q k mk M (ix2 p u) = max (M (ix2 p u)) (tileMaxA qA kA mask b n j) := by
  rw [pay10_apply]
  unfold tileMaxA
  refine congrArg (max (M (ix2 p u))) ?_
  exact congrArg (fun f => (Finset.univ : Finset (Fin 512)).fold max cNegInf f)
    (funext fun cc => logit_eq qA kA mask b n j q k mk p hq hk hm cc)

/-- ONE TILE ABSORBED: if the three scratch buffers hold the row's state `s` at row `p`, the body's updates hold
    `rowStep … s j` there. -/
theorem step_row (hq : ∀ d, q (ix3 (0 : Fin 1) p d) = qA b n d) (hk : ∀ cc d, k (ix3 (0 : Fin 1) cc d) = kA b (rowOf j cc) d)
    (hv : ∀ cc e, v (ix3 (0 : Fin 1) cc e) = vA b (rowOf j cc) e)
    (hm : ∀ cc, mk (ix3 (0 : Fin 1) p cc) = mask (ix3 b n (rowOf j cc)))
    (M L : Vec Ideal S1024x1 .f32) (A : Vec Ideal S1024x768 .f32) (s : Row)
    (hM : M (ix2 p (0 : Fin 1)) = s.shift) (hL : L (ix2 p (0 : Fin 1)) = s.total) (hA : ∀ e, A (ix2 p e) = s.mix e) :
    stepM (F := Ideal) q k mk M (ix2 p (0 : Fin 1)) = (rowStep qA kA vA mask b n s j).shift
    ∧ stepL (F := Ideal) q k mk M L (ix2 p (0 : Fin 1)) = (rowStep qA kA vA mask b n s j).total
    ∧ ∀ e, stepAcc (F := Ideal) q k v mk M A (ix2 p e) = (rowStep qA kA vA mask b n s j).mix e := by
  have h10 : k2_pay10 (F := Ideal) q k mk M (ix2 p (0 : Fin 1)) = max s.shift (tileMaxA qA kA mask b n j) := by
    rw [shift_eq qA kA mask b n j q k mk p hq hk hm M 0, hM]
  have h12 : ∀ cc, k2_pay12 (F := Ideal) q k mk M (ix2 p cc)
      = Ideal.exp (maskedA qA kA mask b n (rowOf j cc) - max s.shift (tileMaxA qA kA mask b n j)) := fun cc => by
    rw [pay12_apply, logit_eq qA kA mask b n j q k mk p hq hk hm cc, h10]
  have h11 : k2_pay11 (F := Ideal) q k mk M M (ix2 p (0 : Fin 1))
      = Ideal.exp (s.shift - max s.shift (tileMaxA qA kA mask b n j)) := by
    rw [pay11_apply, h10, hM]
  refine ⟨?_, ?_, fun e => ?_⟩
  · unfold stepM
    rw [pay3_eq]
    exact h10
  · unfold stepL
    rw [pay1_apply, pay13_apply, h11, hL]
    show _ = Ideal.exp (s.shift - max s.shift (tileMaxA qA kA mask b n j)) * s.total
        + ∑ c : Fin 512, Ideal.exp (maskedA qA kA mask b n (rowOf j c) - max s.shift (tileMaxA qA kA mask b n j))
    refine congrArg (Ideal.exp (s.shift - max s.shift (tileMaxA qA kA mask b n j)) * s.total + ·) ?_
    exact Finset.sum_congr rfl fun cc _ => h12 cc
  · unfold stepAcc
    rw [pay2_apply, h11, hA e]
    show _ = Ideal.exp (s.shift - max s.shift (tileMaxA qA kA mask b n j)) * s.mix e
        + ∑ c : Fin 512, Ideal.exp (maskedA qA kA mask b n (rowOf j c) - max s.shift (tileMaxA qA kA mask b n j)) * vA b (rowOf j c) e
    refine congrArg (Ideal.exp (s.shift - max s.shift (tileMaxA qA kA mask b n j)) * s.mix e + ·) ?_
    exact Finset.sum_congr rfl fun cc _ => by rw [h12 cc, pay8_apply, hv cc e]

/-- The final block at a row: the residual plus the normalised mix through the last linear map and its bias. -/
theorem last_row (gA : Arr3) (W4 : SW.Idx → EReal) (b4 : SB.Idx → EReal)
    (A : Vec Ideal S1024x768 .f32) (L : Vec Ideal S1024x1 .f32) (W : Vec Ideal S768x768 .f32) (bb : Vec Ideal S768 .f32)
    (g : Vec Ideal S1x1024x768 .f32) (s : Row) (u : Fin 1) (e : Fin 768)
    (hL : L (ix2 p (0 : Fin 1)) = s.total) (hA : ∀ d, A (ix2 p d) = s.mix d)
    (hW : ∀ d, W (ix2 e d) = W4 (ix2 e d)) (hb : bb (ix1 e) = b4 (ix1 e)) (hg : g (ix3 (0 : Fin 1) p e) = gA b n e) :
    lastOut (F := Ideal) A L W bb g (ix3 u p e)
      = gA b n e + ((∑ d : Fin 768, Ideal.div (s.mix d) s.total * W4 (ix2 e d)) + b4 (ix1 e)) := by
  unfold lastOut
  rw [pay4_apply, hg, hb, hL]
  refine congrArg (gA b n e + ·) ?_
  refine congrArg (· + b4 (ix1 e)) ?_
  exact Finset.sum_congr rfl fun d _ => by rw [hA d, hW d]

end Cert.KernelIdeal.Val2

end
-- ==== Proof.KI.Val2.Geom.lean ====
/-
  The third call's output window, as a set of array indices. At the grid point in position `t` of the 8 × 2 × 4 grid
  the output block is rows `1024 · (t / 4 % 2) … + 1023` of batch `t / 8`, all 768 columns, and it is written back at
  the last key tile of the sweep, that is where `t % 4 = 3`. Every index (b, n, e) of the [8, 2048, 768] array is
  therefore in the block of a point that writes back: the point 8 · b + 4 · (n / 1024) + 3.
-/
import proofs.«152342_j15135464751210_2_alg».proof.Proof.Gen.KernelIdeal.Launch
import proofs.«152342_j15135464751210_2_alg».proof.Proof.Gen.KernelIdeal.Points
import Idealize.ShloMosaic.Lib.Pipeline.Value

noncomputable section

namespace Cert.KernelIdeal.Val2

open Cert.KernelIdeal Cert.KernelIdeal.Gen
open Idealize.ShloMosaic Idealize.ShloMosaic.TcCoe Idealize.SL.Sem

/-- The output window's index map in closed form over the position, decided over the grid. -/
theorem idx2_7 : ∀ t : Fin cfg2.N,
    win2_7.index t (0 : Fin 3) = t.val / 8 ∧ win2_7.index t (1 : Fin 3) = t.val / 4 % 2 ∧ win2_7.index t (2 : Fin 3) = 0 :=
  (by decide +kernel : ∀ t : Fin grid2.N, _)

/-- An index of the array is in point `t`'s output block iff each coordinate is in the block's range on its axis. -/
theorem mem_blk2_7 (t : Fin cfg2.N) (i : S8x2048x768.Idx) :
    i ∈ ((cfg2.win 7).blk t).view.set ↔ ∀ a : Fin 3, win2_7.index t a * S1x1024x768.size a ≤ (i a).val ∧ (i a).val < win2_7.index t a * S1x1024x768.size a + S1x1024x768.size a := by
  show i ∈ ((View.whole main_v0).slice (win2_7.rect t)).set ↔ _
  rw [View.set_slice_whole, Rect.mem_set_unit]
  exact Iff.rfl

/-- The same by coordinates: batch `t / 8`, rows from `1024 · (t / 4 % 2)`, every column. -/
theorem mem_blk2_7_iff (t : Fin cfg2.N) (i : S8x2048x768.Idx) :
    i ∈ ((cfg2.win 7).blk t).view.set
      ↔ (i 0).val = t.val / 8 ∧ t.val / 4 % 2 * 1024 ≤ (i 1).val ∧ (i 1).val < t.val / 4 % 2 * 1024 + 1024 := by
  obtain ⟨e0, e1, e2⟩ := idx2_7 t
  have hi2 : (i 2).val < 768 := (i 2).isLt
  rw [mem_blk2_7]
  constructor
  · intro h
    have b0 : win2_7.index t (0 : Fin 3) * 1 ≤ (i 0).val ∧ (i 0).val < win2_7.index t (0 : Fin 3) * 1 + 1 := h 0
    have b1 : win2_7.index t (1 : Fin 3) * 1024 ≤ (i 1).val ∧ (i 1).val < win2_7.index t (1 : Fin 3) * 1024 + 1024 := h 1
    omega
  · intro h a
    match a with
    | ⟨0, _⟩ => show win2_7.index t (0 : Fin 3) * 1 ≤ (i 0).val ∧ (i 0).val < win2_7.index t (0 : Fin 3) * 1 + 1; omega
    | ⟨1, _⟩ => show win2_7.index t (1 : Fin 3) * 1024 ≤ (i 1).val ∧ (i 1).val < win2_7.index t (1 : Fin 3) * 1024 + 1024; omega
    | ⟨2, _⟩ => show win2_7.index t (2 : Fin 3) * 768 ≤ (i 2).val ∧ (i 2).val < win2_7.index t (2 : Fin 3) * 768 + 768; omega

/-- The point that writes back the block holding row `n` of batch `b`: the last key tile of that query block's sweep. -/
def lastPt (b : Fin 8) (n : Fin 2048) : Fin cfg2.N :=
  ⟨8 * b.val + 4 * (n.val / 1024) + 3, by
    rw [show cfg2.N = 64 from N_2]
    have := b.isLt; have := n.isLt; omega⟩

theorem lastPt_val (b : Fin 8) (n : Fin 2048) : (lastPt b n).val = 8 * b.val + 4 * (n.val / 1024) + 3 := rfl

/-- That point writes its output block back. -/
theorem flush_lastPt (b : Fin 8) (n : Fin 2048) : (cfg2.win 7).flush (lastPt b n) = true :=
  (flush2_7 _).mpr (by rw [lastPt_val]; omega)

/-- EVERY index of the output array is in the block of a point that writes back. -/
theorem cover2_7 : ∀ i : S8x2048x768.Idx, ∃ t : Fin cfg2.N, (cfg2.win 7).flush t = true ∧ i ∈ ((cfg2.win 7).blk t).view.set := by
  intro i
  have hi0 : (i 0).val < 8 := (i 0).isLt
  have hi1 : (i 1).val < 2048 := (i 1).isLt
  refine ⟨lastPt ⟨(i 0).val, hi0⟩ ⟨(i 1).val, hi1⟩, flush_lastPt _ _, ?_⟩
  rw [mem_blk2_7_iff, lastPt_val]
  show (i 0).val = (8 * (i 0).val + 4 * ((i 1).val / 1024) + 3) / 8
    ∧ (8 * (i 0).val + 4 * ((i 1).val / 1024) + 3) / 4 % 2 * 1024 ≤ (i 1).val
    ∧ (i 1).val < (8 * (i 0).val + 4 * ((i 1).val / 1024) + 3) / 4 % 2 * 1024 + 1024
  omega

end Cert.KernelIdeal.Val2

end
-- ==== Proof.KI.Val2.Final.lean ====
/- The third pallas_call's value at the ideal values: position by position the three scratch buffers hold, at each row of the
   point's query block, the specification's running state of that row after the kv blocks absorbed so far; so the output
   block stored at a group's last point is the specification's result at its rows, and — the groups' output blocks tiling
   the result array, each written back exactly once — the array ends holding the specification's function. -/
import proofs.«152342_j15135464751210_2_alg».proof.Proof.KI.Val2.Steps
import proofs.«152342_j15135464751210_2_alg».proof.Proof.KI.Val2.Blocks
import proofs.«152342_j15135464751210_2_alg».proof.Proof.KI.Val2.RowStep
import proofs.«152342_j15135464751210_2_alg».proof.Proof.KI.Val2.Geom

set_option maxRecDepth 65536

noncomputable section

open scoped BigOperators

namespace Cert.KernelIdeal.Val2

open Cert.KernelIdeal Cert.KernelIdeal.Gen Cert.KernelIdeal.Rgn Cert.KernelIdeal.KSpec Cert.ReferenceIdeal.RefValue
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The query, key, value and residual arrays as the call finds them, by coordinates. -/
abbrev qArr (c : Dev nD) : Arr3 := fun b n d => V c main_call0_v0_0 (ix3 b n d)
abbrev kArr (c : Dev nD) : Arr3 := fun b n d => V c main_call0_v0_1 (ix3 b n d)
abbrev vArr (c : Dev nD) : Arr3 := fun b n d => V c main_call0_v1_1 (ix3 b n d)
abbrev gArr (c : Dev nD) : Arr3 := fun b n d => V c main_call0_v1_0 (ix3 b n d)

/-- The specification's state of row `p` of the query block of position `n`, after the kv blocks up to that position's. -/
def specRow (c : Dev nD) (n : ℕ) (hn : n < cfg2.N) (p : Fin 1024) : Row :=
  rowAfter (qArr V c) (kArr V c) (vArr V c) (V c main_arg1) (bOf ⟨n, hn⟩) (qRow ⟨n, hn⟩ p) (n % 4 + 1)

/-- At a group's first position it is one step from the initial state. -/
theorem specRow_first (c : Dev nD) (n : ℕ) (hn : n < cfg2.N) (p : Fin 1024) (h0 : n % 4 = 0) :
    specRow V c n hn p
      = rowStep (qArr V c) (kArr V c) (vArr V c) (V c main_arg1) (bOf ⟨n, hn⟩) (qRow ⟨n, hn⟩ p) row0 (kTile ⟨n, hn⟩) := by
  unfold specRow
  rw [show n % 4 + 1 = 0 + 1 from by omega, rowAfter, dif_pos (by decide : (0 : ℕ) < 4)]
  exact congrArg (rowStep (qArr V c) (kArr V c) (vArr V c) (V c main_arg1) (bOf ⟨n, hn⟩) (qRow ⟨n, hn⟩ p) _)
    (Fin.ext (by show 0 = n % 4; omega))

/-- At every other position it is one step from the position before's. -/
theorem specRow_next (c : Dev nD) (t : Fin cfg2.N) (p : Fin 1024) (h0 : ¬t.val % 4 = 0) :
    specRow V c t.val t.isLt p
      = rowStep (qArr V c) (kArr V c) (vArr V c) (V c main_arg1) (bOf t) (qRow t p)
          (specRow V c (t.val - 1) (Nat.lt_of_le_of_lt (Nat.sub_le _ _) t.isLt) p) (kTile t) := by
  obtain ⟨n, hn⟩ := t
  cases n with
  | zero => exact absurd (Nat.zero_mod _) h0
  | succ m =>
    show specRow V c (m + 1) hn p = rowStep _ _ _ _ (bOf ⟨m + 1, hn⟩) (qRow ⟨m + 1, hn⟩ p) (specRow V c m (Nat.lt_of_succ_lt hn) p) (kTile ⟨m + 1, hn⟩)
    have h0' : ¬(m + 1) % 4 = 0 := h0
    unfold specRow
    have hb : bOf ⟨m, Nat.lt_of_succ_lt hn⟩ = bOf ⟨m + 1, hn⟩ := Fin.ext (by show m / 8 = (m + 1) / 8; omega)
    have hr : qRow ⟨m, Nat.lt_of_succ_lt hn⟩ p = qRow ⟨m + 1, hn⟩ p :=
      Fin.ext (by show m / 4 % 2 * 1024 + p.val = (m + 1) / 4 % 2 * 1024 + p.val; omega)
    rw [hb, hr, show (m + 1) % 4 + 1 = (m % 4 + 1) + 1 from by omega, rowAfter, dif_pos (by omega : m % 4 + 1 < 4)]
    exact congrArg (rowStep (qArr V c) (kArr V c) (vArr V c) (V c main_arg1) (bOf ⟨m + 1, hn⟩) (qRow ⟨m + 1, hn⟩ p) _)
      (Fin.ext (by show m % 4 + 1 = (m + 1) % 4; omega))

/-- The scratch after a group's first point holds each row's state after one kv block. -/
theorem rows_first (c : Dev nD) (t : Fin cfg2.N) (p : Fin 1024) (h0 : t.val % 4 = 0) :
    (outsAt2 V c t.val t.isLt).2.1 (ix2 p (0 : Fin 1)) = (specRow V c t.val t.isLt p).shift
    ∧ (outsAt2 V c t.val t.isLt).2.2.1 (ix2 p (0 : Fin 1)) = (specRow V c t.val t.isLt p).total
    ∧ ∀ e, (outsAt2 V c t.val t.isLt).2.2.2 (ix2 p e) = (specRow V c t.val t.isLt p).mix e := by
  have hs := scr_first V c t h0
  rw [show (outsAt2 V c t.val t.isLt).2.1 = _ from congrArg (fun x => x.1) hs,
    show (outsAt2 V c t.val t.isLt).2.2.1 = _ from congrArg (fun x => x.2.1) hs,
    show (outsAt2 V c t.val t.isLt).2.2.2 = _ from congrArg (fun x => x.2.2) hs, specRow_first V c t.val t.isLt p h0]
  exact step_row (qArr V c) (kArr V c) (vArr V c) (V c main_arg1) (bOf t) (qRow t p) (kTile t)
      (iblk2 V c 0 t) (iblk2 V c 1 t) (iblk2 V c 2 t) (iblk2 V c 4 t) p
      (fun d => blk_q V c t p d) (fun cc d => blk_k V c t cc d) (fun cc e => blk_v V c t cc e)
      (fun cc => blk_mask V c t p cc) (k2_pay5 (F := Ideal)) (k2_pay6 (F := Ideal)) (k2_pay7 (F := Ideal)) row0
      (by rw [pay5_eq]; rfl) (by rw [pay6_eq]; rfl) (fun e => by rw [pay7_eq]; rfl)

/-- The scratch after any other point holds each row's state one kv block further than the position before left it. -/
theorem rows_next (c : Dev nD) (t : Fin cfg2.N) (p : Fin 1024) (h0 : ¬t.val % 4 = 0)
    (ih : (outsAt2 V c (t.val - 1) (Nat.lt_of_le_of_lt (Nat.sub_le _ _) t.isLt)).2.1 (ix2 p (0 : Fin 1)) = (specRow V c (t.val - 1) (Nat.lt_of_le_of_lt (Nat.sub_le _ _) t.isLt) p).shift
      ∧ (outsAt2 V c (t.val - 1) (Nat.lt_of_le_of_lt (Nat.sub_le _ _) t.isLt)).2.2.1 (ix2 p (0 : Fin 1)) = (specRow V c (t.val - 1) (Nat.lt_of_le_of_lt (Nat.sub_le _ _) t.isLt) p).total
      ∧ ∀ e, (outsAt2 V c (t.val - 1) (Nat.lt_of_le_of_lt (Nat.sub_le _ _) t.isLt)).2.2.2 (ix2 p e) = (specRow V c (t.val - 1) (Nat.lt_of_le_of_lt (Nat.sub_le _ _) t.isLt) p).mix e) :
    (outsAt2 V c t.val t.isLt).2.1 (ix2 p (0 : Fin 1)) = (specRow V c t.val t.isLt p).shift
    ∧ (outsAt2 V c t.val t.isLt).2.2.1 (ix2 p (0 : Fin 1)) = (specRow V c t.val t.isLt p).total
    ∧ ∀ e, (outsAt2 V c t.val t.isLt).2.2.2 (ix2 p e) = (specRow V c t.val t.isLt p).mix e := by
  obtain ⟨iM, iL, iA⟩ := ih
  have hs := scr_next V c t h0
  rw [show (outsAt2 V c t.val t.isLt).2.1 = _ from congrArg (fun x => x.1) hs,
    show (outsAt2 V c t.val t.isLt).2.2.1 = _ from congrArg (fun x => x.2.1) hs,
    show (outsAt2 V c t.val t.isLt).2.2.2 = _ from congrArg (fun x => x.2.2) hs, specRow_next V c t p h0]
  exact step_row (qArr V c) (kArr V c) (vArr V c) (V c main_arg1) (bOf t) (qRow t p) (kTile t)
      (iblk2 V c 0 t) (iblk2 V c 1 t) (iblk2 V c 2 t) (iblk2 V c 4 t) p
      (fun d => blk_q V c t p d) (fun cc d => blk_k V c t cc d) (fun cc e => blk_v V c t cc e)
      (fun cc => blk_mask V c t p cc) (outsAt2 V c (t.val - 1) (Nat.lt_of_le_of_lt (Nat.sub_le _ _) t.isLt)).2.1 (outsAt2 V c (t.val - 1) (Nat.lt_of_le_of_lt (Nat.sub_le _ _) t.isLt)).2.2.1 (outsAt2 V c (t.val - 1) (Nat.lt_of_le_of_lt (Nat.sub_le _ _) t.isLt)).2.2.2
      (specRow V c (t.val - 1) (Nat.lt_of_le_of_lt (Nat.sub_le _ _) t.isLt) p) iM iL iA

/-- THE INVARIANT: after position `n` the three scratch buffers hold, at row `p`, the specification's state of that row. -/
theorem rows (c : Dev nD) : ∀ (n : ℕ) (hn : n < cfg2.N) (p : Fin 1024),
    (outsAt2 V c n hn).2.1 (ix2 p (0 : Fin 1)) = (specRow V c n hn p).shift
    ∧ (outsAt2 V c n hn).2.2.1 (ix2 p (0 : Fin 1)) = (specRow V c n hn p).total
    ∧ ∀ e, (outsAt2 V c n hn).2.2.2 (ix2 p e) = (specRow V c n hn p).mix e := by
  intro n
  induction n with
  | zero => exact fun hn p => rows_first V c ⟨0, hn⟩ p (Nat.zero_mod _)
  | succ m ih =>
    intro hn p
    by_cases h0 : (m + 1) % 4 = 0
    · exact rows_first V c ⟨m + 1, hn⟩ p h0
    · exact rows_next V c ⟨m + 1, hn⟩ p h0 (ih (Nat.lt_of_succ_lt hn) p)

/-- The specification's function on the result array. -/
abbrev result2 (c : Dev nD) : Buf (Elt Ideal) ((c : Thread nD τ).loc main_v0) := fun i =>
  outA (fun b n d => V c main_call0_v0_0 (ix3 b n d)) (fun b n d => V c main_call0_v0_1 (ix3 b n d))
    (fun b n d => V c main_call0_v1_1 (ix3 b n d)) (fun b n d => V c main_call0_v1_0 (ix3 b n d))
    (V c main_arg1) (V c main_arg8) (V c main_arg9) (i 0) (i 1) (i 2)

/-- WHAT A GROUP'S LAST POINT WRITES BACK is its block of the specification's function. -/
theorem flushed2_eq (c : Dev nD) (t : Fin cfg2.N) (hf : (cfg2.win 7).flush t = true) :
    (dat2 V c).flushed 7 t = ((cfg2.win 7).blk t).view.read (Elt Ideal) (result2 V c) := by
  have h1 : t.val % 4 = 3 := (flush2_7 t).mp hf
  show (cfg2.win 7).cut (grid2.coords t) ((dat2 V c).after 7 t) = _
  rw [after2_7, out_last V c t h1]
  funext j
  obtain ⟨iM, iL, iA⟩ := rows V c t.val t.isLt (j 1)
  rw [ValueIdx.eq_ix3 j]
  show lastOut (F := Ideal) _ _ _ _ _ (ix3 (j 0) (j 1) (j 2)) = result2 V c (((cfg2.win 7).blk t).view.emb (ix3 (j 0) (j 1) (j 2)))
  rw [emb7 t (j 0) (j 1) (j 2)]
  refine (last_row (bOf t) (qRow t (j 1)) (j 1) (gArr V c) (V c main_arg8) (V c main_arg9)
    (outsAt2 V c t.val t.isLt).2.2.2 (outsAt2 V c t.val t.isLt).2.2.1 (iblk2 V c 5 t) (iblk2 V c 6 t) (iblk2 V c 3 t)
    (specRow V c t.val t.isLt (j 1)) (j 0) (j 2) iL iA (fun d => blk_W V c t (j 2) d) (blk_b V c t (j 2))
    (blk_g V c t (j 1) (j 2))).trans ?_
  unfold specRow
  rw [show t.val % 4 + 1 = 4 from by omega]
  rfl

/-- THE RESULT ARRAY after the call: the specification's function of the arrays the call was entered with. -/
theorem final2 (c : Dev nD) : (dat2 (F := Ideal) V c).arrAt 7 cfg2.N = fun i =>
    outA (fun b n d => V c main_call0_v0_0 (ix3 b n d)) (fun b n d => V c main_call0_v0_1 (ix3 b n d))
      (fun b n d => V c main_call0_v1_1 (ix3 b n d)) (fun b n d => V c main_call0_v1_0 (ix3 b n d))
      (V c main_arg1) (V c main_arg8) (V c main_arg9) (i 0) (i 1) (i 2) :=
  (dat2 V c).arrAt_eq_of_cover 7 (result2 V c) (flushed2_eq V c) cover2_7

end Cert.KernelIdeal.Val2

end
-- ==== Proof.KI.BrConsts.lean ====
/-
  The three float constants of the two arrangements, as the extended reals their patterns denote: the divisor 28,
  the fill value of a masked logit (a real number), and minus infinity.
-/
import proofs.«152342_j15135464751210_2_alg».proof.Proof.Ref.Spec

noncomputable section

namespace Cert.KernelIdeal.Bridge

open Idealize.ShloMosaic Cert.ReferenceIdeal.RefValue

/-- The pattern of 28.0 denotes the real number 28. -/
theorem c28_eq : c28 = ((28 : ℝ) : EReal) := by
  show Ideal.ofBits .f32 0x41E00000#32 = _
  simp [Ideal.ofBits, Ideal.ieee, -EReal.coe_mul]; norm_num

/-- The fill value of a masked logit, as a real number. -/
def negR : ℝ := -1000000000

/-- The pattern of the fill value denotes a real number. -/
theorem cNeg_eq : cNeg = ((negR : ℝ) : EReal) := by
  show Ideal.ofBits .f32 0xCE6E6B28#32 = _
  simp [Ideal.ofBits, Ideal.ieee, -EReal.coe_mul, negR]; norm_num

/-- The pattern of minus infinity denotes the bottom of the extended reals. -/
theorem cNegInf_eq : cNegInf = ⊥ := by
  show Ideal.ofBits .f32 0xFF800000#32 = _
  simp [Ideal.ofBits, Ideal.ieee]

end Cert.KernelIdeal.Bridge

end
-- ==== Proof.LibIdealReal.lean ====
/-
  Extended-real operations on real inputs.

  A float at the ideal reading is an extended real, and every operation is total; when its inputs are real numbers
  its result is the real result, read back in the extended reals.  This file records that for the operations a
  softmax meets: the exponential (with the conventions for minus infinity), the total quotient by a nonzero real,
  the larger of two numbers, the largest entry of a nonempty finite family folded from minus infinity, and finite
  sums and products.  Each statement is the bridge that lets an identity proved over the real numbers be used for
  the extended-real expressions.
-/
import Idealize.ShloMosaic.PureOps.Ideal
import Mathlib.Data.Finset.Fold
import Mathlib.Order.Interval.Finset.Basic

noncomputable section

open Idealize.ShloMosaic

namespace Cert.IdealReal

/-- A finite sum of real numbers, read in the extended reals, is the sum of their readings. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of products of real numbers. -/
theorem coe_sum_mul {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- The exponential of a real number. -/
theorem exp_coe (r : ℝ) : Ideal.exp (r : EReal) = (Real.exp r : EReal) := rfl

/-- The exponential of a difference of real numbers. -/
theorem exp_sub_coe (a b : ℝ) : Ideal.exp ((a : EReal) - (b : EReal)) = (Real.exp (a - b) : EReal) := by
  rw [← EReal.coe_sub]; rfl

/-- Minus infinity less a real number is minus infinity. -/
theorem bot_sub_coe (r : ℝ) : (⊥ : EReal) - (r : EReal) = ⊥ := by
  rw [sub_eq_add_neg, EReal.bot_add]

/-- The exponential of minus infinity less a real number is zero. -/
theorem exp_bot_sub_coe (r : ℝ) : Ideal.exp ((⊥ : EReal) - (r : EReal)) = 0 := by
  rw [bot_sub_coe]; rfl

/-- The exponential of minus infinity is zero. -/
theorem exp_bot : Ideal.exp (⊥ : EReal) = 0 := rfl

/-- The total quotient of a real number by a nonzero real number is the real quotient. -/
theorem div_coe_coe (a b : ℝ) (hb : b ≠ 0) : Ideal.div (a : EReal) (b : EReal) = ((a / b : ℝ) : EReal) := by
  rw [Ideal.div_coe hb, ← EReal.coe_mul]
  congr 1
  rw [mul_one_div]

/-- The total quotient by a nonzero real number is the product with its reciprocal, whatever the numerator. -/
theorem div_coe (x : EReal) (c : ℝ) (hc : c ≠ 0) : Ideal.div x (c : EReal) = x * ((1 / c : ℝ) : EReal) :=
  Ideal.div_coe hc x

/-- The larger of two real numbers. -/
theorem max_coe (a b : ℝ) : max (a : EReal) (b : EReal) = ((max a b : ℝ) : EReal) :=
  (EReal.coe_strictMono.monotone.map_max).symm

/-- Minus infinity is neutral for the larger of two. -/
theorem max_bot_coe (a : ℝ) : max (⊥ : EReal) (a : EReal) = (a : EReal) := max_eq_right bot_le

/-- The largest entry of a nonempty finite family of real numbers. -/
def rmax {C : Type*} [Fintype C] [Nonempty C] (z : C → ℝ) : ℝ := Finset.univ.sup' Finset.univ_nonempty z

theorem le_rmax {C : Type*} [Fintype C] [Nonempty C] (z : C → ℝ) (c : C) : z c ≤ rmax z :=
  Finset.le_sup' z (Finset.mem_univ c)

theorem rmax_attained {C : Type*} [Fintype C] [Nonempty C] (z : C → ℝ) : ∃ c, rmax z = z c := by
  obtain ⟨c, _, hc⟩ := Finset.exists_mem_eq_sup' Finset.univ_nonempty z
  exact ⟨c, hc⟩

/-- The largest entry is the only number that bounds every entry and is one of them. -/
theorem rmax_unique {C : Type*} [Fintype C] [Nonempty C] (z : C → ℝ) (R : ℝ) (hle : ∀ c, z c ≤ R)
    (hat : ∃ c, R = z c) : rmax z = R := by
  obtain ⟨c, hc⟩ := hat
  obtain ⟨c', hc'⟩ := rmax_attained z
  exact le_antisymm (hc' ▸ hle c') (hc ▸ le_rmax z c)

/-- Folding the larger-of-two from minus infinity over a nonempty finite family of real numbers gives the largest
    entry, a real number. -/
theorem fold_max_coe {C : Type*} [Fintype C] [Nonempty C] (z : C → ℝ) :
    (Finset.univ : Finset C).fold max ⊥ (fun c => (z c : EReal)) = ((rmax z : ℝ) : EReal) := by
  apply le_antisymm
  · exact (Finset.fold_max_le _).mpr ⟨bot_le, fun c _ => EReal.coe_le_coe_iff.mpr (le_rmax z c)⟩
  · obtain ⟨c, hc⟩ := rmax_attained z
    exact (Finset.le_fold_max _).mpr (Or.inr ⟨c, Finset.mem_univ c, by rw [hc]⟩)

/-- The same with a further larger-of-two against minus infinity in front. -/
theorem max_bot_fold_max_coe {C : Type*} [Fintype C] [Nonempty C] (z : C → ℝ) :
    max ⊥ ((Finset.univ : Finset C).fold max ⊥ (fun c => (z c : EReal))) = ((rmax z : ℝ) : EReal) := by
  rw [fold_max_coe]; exact max_bot_coe _

/-- A real number times zero, and zero times zero. -/
theorem coe_mul_zero (a : ℝ) : (a : EReal) * 0 = 0 := mul_zero _

theorem zero_add_coe (a : ℝ) : (0 : EReal) + (a : EReal) = (a : EReal) := zero_add _

end Cert.IdealReal

end
-- ==== Proof.LibTileSum.lean ====
/-
  A sum over rows taken tile by tile.

  When the rows are in one-to-one correspondence with the pairs (tile, place inside the tile), the sum over all rows
  is the sum over the tiles, in order, of each tile's sum.  The tiles are numbered by natural numbers below T so that a
  running total over the first T tiles meets the sum over all rows.
-/
import Mathlib.Algebra.BigOperators.Fin
import Mathlib.Algebra.BigOperators.Intervals
import Mathlib.Logic.Equiv.Fin.Basic

namespace Cert.TileSum

/-- The sum over the first T tiles of each tile's sum is the sum over all rows. -/
theorem sum_tiles {A : Type*} [AddCommMonoid A] {κ ι : Type*} [Fintype κ] [Fintype ι] {T : ℕ}
    (σ : Fin T × κ ≃ ι) (f : ι → A) (g : ℕ → κ → A) (hg : ∀ (t : Fin T) (i : κ), g t.val i = f (σ (t, i))) :
    ∑ t ∈ Finset.range T, ∑ i, g t i = ∑ m, f m := by
  rw [Finset.sum_range fun t => ∑ i, g t i, ← Equiv.sum_comp σ f, Fintype.sum_prod_type]
  exact Finset.sum_congr rfl fun t _ => Finset.sum_congr rfl fun i _ => hg t i

/-- Consecutive rows cut into T tiles of S: row S * t + i is place i of tile t. -/
def blocks (T S : ℕ) : Fin T × Fin S ≃ Fin (T * S) := finProdFinEquiv

theorem blocks_val (T S : ℕ) (t : Fin T) (i : Fin S) : (blocks T S (t, i)).val = S * t.val + i.val := by
  show (finProdFinEquiv (t, i)).val = _
  rw [finProdFinEquiv_apply_val, Nat.add_comm]

end Cert.TileSum
-- ==== Proof.LibAttnAssoc.lean ====
/-
  Reassociating a product of three real matrices, entry by entry, on the extended reals.

  With real data, the entry  Σ_d q d * ((Σ_m k m d * x m) * c)  of  q * ((kᵀ * x) * c)  is the entry
  Σ_m ((Σ_d q d * k m d) * c) * x m  of  ((q * kᵀ) * c) * x :  both are finite sums of products of real numbers, so the
  identity holds in the real numbers by exchanging the two sums, and is carried to the extended reals through the
  coercion (where multiplication does not distribute over addition in general, but does on real numbers).  A
  quotient by a nonzero real n is the product with 1 / n.  The inner contraction Σ_m k m d * x m may arrive as a running
  total over tiles of rows, each tile's contraction accumulated into zero and added to the total so far: after T tiles
  it is the contraction over all rows.
-/
import proofs.«152342_j15135464751210_2_alg».proof.Proof.LibIdealReal
import proofs.«152342_j15135464751210_2_alg».proof.Proof.LibTileSum

noncomputable section

open Idealize.ShloMosaic

namespace Cert.AttnAssoc

open Cert.IdealReal

variable {D M κ : Type*} [Fintype D] [Fintype M] [Fintype κ]

/-- The reassociation over the real numbers. -/
theorem assoc_real (q : D → ℝ) (k : M → D → ℝ) (x : M → ℝ) (c : ℝ) :
    ∑ d, q d * ((∑ m, k m d * x m) * c) = ∑ m, ((∑ d, q d * k m d) * c) * x m := by
  simp_rw [Finset.sum_mul, Finset.mul_sum]
  rw [Finset.sum_comm]
  exact Finset.sum_congr rfl fun m _ => Finset.sum_congr rfl fun d _ => by ring

/-- The side that contracts the rows first: with S d the real contraction over the rows, scaled by c. -/
theorem rows_first (q S : D → ℝ) (c : ℝ) :
    ∑ d, (q d : EReal) * ((S d : EReal) * (c : EReal)) = ((∑ d, q d * (S d * c) : ℝ) : EReal) := by
  rw [coe_sum]
  exact Finset.sum_congr rfl fun d _ => by rw [← EReal.coe_mul, ← EReal.coe_mul]

/-- The side that contracts the features first, scales by c, then contracts the rows. -/
theorem features_first (q : D → ℝ) (k : M → D → ℝ) (x : M → ℝ) (c : ℝ) :
    ∑ m, ((∑ d, (q d : EReal) * (k m d : EReal)) * (c : EReal)) * (x m : EReal)
      = ((∑ m, ((∑ d, q d * k m d) * c) * x m : ℝ) : EReal) := by
  rw [coe_sum]
  exact Finset.sum_congr rfl fun m _ => by rw [coe_sum_mul, ← EReal.coe_mul, ← EReal.coe_mul]

/-- The reassociation on the extended reals, the row contraction given as a real number. -/
theorem assoc (q : D → ℝ) (k : M → D → ℝ) (x : M → ℝ) (c : ℝ) (S : D → EReal)
    (hS : ∀ d, S d = ((∑ m, k m d * x m : ℝ) : EReal)) :
    ∑ d, (q d : EReal) * (S d * (c : EReal))
      = ∑ m, ((∑ d, (q d : EReal) * (k m d : EReal)) * (c : EReal)) * (x m : EReal) := by
  rw [features_first, ← assoc_real, ← rows_first]
  exact Finset.sum_congr rfl fun d _ => by rw [hS d]

/-- The same with the feature contraction divided by a nonzero real n where the row contraction is scaled by 1 / n. -/
theorem assoc_div (q : D → ℝ) (k : M → D → ℝ) (x : M → ℝ) (n : ℝ) (hn : n ≠ 0) (S : D → EReal)
    (hS : ∀ d, S d = ((∑ m, k m d * x m : ℝ) : EReal)) :
    ∑ d, (q d : EReal) * (S d * ((1 / n : ℝ) : EReal))
      = ∑ m, Ideal.div (∑ d, (q d : EReal) * (k m d : EReal)) (n : EReal) * (x m : EReal) := by
  rw [assoc q k x (1 / n) S hS]
  exact Finset.sum_congr rfl fun m _ => by rw [Ideal.div_coe hn]

/-- The same with every contraction accumulated into zero. -/
theorem assoc_div_zero (q : D → ℝ) (k : M → D → ℝ) (x : M → ℝ) (n : ℝ) (hn : n ≠ 0) (S : D → EReal)
    (hS : ∀ d, S d = ((∑ m, k m d * x m : ℝ) : EReal)) :
    0 + ∑ d, (q d : EReal) * (S d * ((1 / n : ℝ) : EReal))
      = 0 + ∑ m, Ideal.div (0 + ∑ d, (q d : EReal) * (k m d : EReal)) (n : EReal) * (x m : EReal) := by
  simp only [zero_add]
  exact assoc_div q k x n hn S hS

/-! ## The row contraction as a running total over tiles -/

/-- A running total of contractions: zero before the first tile; each tile adds its own contraction, itself
    accumulated into zero. -/
def runDot (a b : ℕ → κ → ℝ) : ℕ → EReal
  | 0 => 0
  | j + 1 => runDot a b j + (0 + ∑ i, (a j i : EReal) * (b j i : EReal))

theorem runDot_zero (a b : ℕ → κ → ℝ) : runDot a b 0 = 0 := rfl

theorem runDot_succ (a b : ℕ → κ → ℝ) (j : ℕ) :
    runDot a b (j + 1) = runDot a b j + (0 + ∑ i, (a j i : EReal) * (b j i : EReal)) := rfl

/-- After j tiles the running total is the real contraction over those tiles. -/
theorem runDot_eq (a b : ℕ → κ → ℝ) (j : ℕ) :
    runDot a b j = ((∑ t ∈ Finset.range j, ∑ i, a t i * b t i : ℝ) : EReal) := by
  induction j with
  | zero => simp [runDot]
  | succ j ih => rw [runDot, ih, zero_add, coe_sum_mul, ← EReal.coe_add, Finset.sum_range_succ]

/-- After all T tiles the running total is the real contraction over all rows. -/
theorem runDot_all {T : ℕ} (σ : Fin T × κ ≃ M) (k x : M → ℝ) (a b : ℕ → κ → ℝ)
    (ha : ∀ (t : Fin T) (i : κ), a t.val i = k (σ (t, i))) (hb : ∀ (t : Fin T) (i : κ), b t.val i = x (σ (t, i))) :
    runDot a b T = ((∑ m, k m * x m : ℝ) : EReal) := by
  rw [runDot_eq, Cert.TileSum.sum_tiles σ (fun m => k m * x m) (fun t i => a t i * b t i)
    fun t i => by rw [ha t i, hb t i]]

/-- The first stage, whole: the row contraction accumulated tile by tile and scaled by 1 / n, contracted with q,
    against the feature contraction divided by n and contracted with x over all rows. -/
theorem stage_one {T : ℕ} (σ : Fin T × κ ≃ M) (q : D → ℝ) (k : M → D → ℝ) (x : M → ℝ) (n : ℝ) (hn : n ≠ 0)
    (a : D → ℕ → κ → ℝ) (b : ℕ → κ → ℝ)
    (ha : ∀ d (t : Fin T) (i : κ), a d t.val i = k (σ (t, i)) d) (hb : ∀ (t : Fin T) (i : κ), b t.val i = x (σ (t, i))) :
    0 + ∑ d, (q d : EReal) * (runDot (a d) b T * ((1 / n : ℝ) : EReal))
      = 0 + ∑ m, Ideal.div (0 + ∑ d, (q d : EReal) * (k m d : EReal)) (n : EReal) * (x m : EReal) :=
  assoc_div_zero q k x n hn (fun d => runDot (a d) b T) fun d => runDot_all σ (fun m => k m d) x (a d) b (ha d) hb

end Cert.AttnAssoc

end
-- ==== Proof.KI.BrStage1.lean ====
/-
  The first stage of both arrangements over real data.

  When every float input is a real number, q and k, the scaled logits, the masked logits, and the first stage's
  result are real numbers; they are written here as real-valued functions of the real inputs, and each extended-real
  stage of either arrangement is shown to be the reading of the corresponding real function.  The kernel's first
  stage contracts the rows first (four tiles of 512 rows accumulated from zero), scales by 1/28 and then contracts
  with q; the reference contracts q with k, divides by 28 and then contracts the rows: the same real number, by
  exchanging two finite sums.
-/
import proofs.«152342_j15135464751210_2_alg».proof.Proof.KI.KSpec
import proofs.«152342_j15135464751210_2_alg».proof.Proof.KI.BrConsts
import proofs.«152342_j15135464751210_2_alg».proof.Proof.LibIdealReal
import proofs.«152342_j15135464751210_2_alg».proof.Proof.LibAttnAssoc

noncomputable section

namespace Cert.KernelIdeal.Bridge

open Idealize.ShloMosaic Idealize.ShloMosaic.ValueIdx Cert.ReferenceIdeal.RefValue Cert.KernelIdeal.KSpec Cert.IdealReal

/-- A real array read in the extended reals. -/
def up {ι : Type*} (f : ι → ℝ) : ι → EReal := fun i => (f i : EReal)

theorem up_apply {ι : Type*} (f : ι → ℝ) (i : ι) : up f i = (f i : EReal) := rfl

/-- A choice between two real numbers, read in the extended reals. -/
theorem select_coe (c : BitVec 1) (a b : ℝ) :
    Scalar.select c (a : EReal) (b : EReal) = ((Scalar.select c a b : ℝ) : EReal) := by
  unfold Scalar.select
  split <;> rfl

/-! ## The rows in four tiles -/

/-- The 2048 rows are the pairs (tile, row of the tile). -/
def rowEquiv : Fin (3 + 1) × Fin 512 ≃ Fin 2048 where
  toFun p := rowOf p.1 p.2
  invFun m := (⟨m.val / 512, by have := m.isLt; omega⟩, ⟨m.val % 512, Nat.mod_lt _ (by norm_num)⟩)
  left_inv p := by
    obtain ⟨j, r⟩ := p
    have hj := j.isLt
    have hr := r.isLt
    apply Prod.ext <;> apply Fin.ext <;> simp only [rowOf] <;> omega
  right_inv m := by
    apply Fin.ext
    simp only [rowOf]
    omega

theorem rowEquiv_apply (j : Fin 4) (r : Fin 512) : rowEquiv (j, r) = rowOf j r := rfl

/-- A sum over the 2048 rows is the four tiles' sums, added from zero in order. -/
theorem sum_rows {A : Type*} [AddCommMonoid A] (f : Fin 2048 → A) :
    ∑ m, f m = (((0 + ∑ r, f (rowOf 0 r)) + ∑ r, f (rowOf 1 r)) + ∑ r, f (rowOf 2 r)) + ∑ r, f (rowOf 3 r) := by
  rw [← Equiv.sum_comp rowEquiv f, Fintype.sum_prod_type, Fin.sum_univ_four, zero_add]
  rfl

/-! ## The real arrangement -/

variable (xr : SX.Idx → ℝ) (mask : SA.Idx → BitVec 32) (W1r : SW.Idx → ℝ) (b1r : SB.Idx → ℝ)
  (W2r : SW.Idx → ℝ) (b2r : SB.Idx → ℝ) (W3r : SW.Idx → ℝ) (b3r : SB.Idx → ℝ)

/-- A linear layer over real data. -/
def linR (X : SX.Idx → ℝ) (W : SW.Idx → ℝ) (c : SB.Idx → ℝ) (b : Fin 8) (n : Fin 2048) (e : Fin 768) : ℝ :=
  (∑ d : Fin 768, X (ix3 b n d) * W (ix2 e d)) + c (ix1 e)

theorem linOf_up (X : SX.Idx → ℝ) (W : SW.Idx → ℝ) (c : SB.Idx → ℝ) (b : Fin 8) (n : Fin 2048) (e : Fin 768) :
    linOf (up X) (up W) (up c) b n e = ((linR X W c b n e : ℝ) : EReal) := by
  unfold linOf linR
  simp only [up_apply]
  rw [coe_sum_mul, ← EReal.coe_add]

theorem qOf_up (b : Fin 8) (n : Fin 2048) (e : Fin 768) :
    qOf (up xr) (up W1r) (up b1r) b n e = ((linR xr W1r b1r b n e : ℝ) : EReal) := linOf_up xr W1r b1r b n e

theorem kOf_up (b : Fin 8) (n : Fin 2048) (e : Fin 768) :
    kOf (up xr) (up W2r) (up b2r) b n e = ((linR xr W2r b2r b n e : ℝ) : EReal) := linOf_up xr W2r b2r b n e

/-- The scaled logit over real data. -/
def attR (b : Fin 8) (n m : Fin 2048) : ℝ :=
  (∑ d : Fin 768, linR xr W1r b1r b n d * linR xr W2r b2r b m d) * (1 / 28)

theorem attOf_up (b : Fin 8) (n m : Fin 2048) :
    attOf (up xr) (up W1r) (up b1r) (up W2r) (up b2r) b n m = ((attR xr W1r b1r W2r b2r b n m : ℝ) : EReal) := by
  unfold attOf attR
  rw [c28_eq, Ideal.div_coe (by norm_num : (28 : ℝ) ≠ 0)]
  simp only [qOf_up, kOf_up]
  rw [coe_sum_mul, ← EReal.coe_mul]

theorem attA_up (b : Fin 8) (n m : Fin 2048) :
    attA (qK (up xr) (up W1r) (up b1r)) (kK (up xr) (up W2r) (up b2r)) b n m
      = ((attR xr W1r b1r W2r b2r b n m : ℝ) : EReal) := by
  unfold attA attR qK kK
  simp only [qOf_up, kOf_up]
  rw [coe_sum_mul, ← EReal.coe_mul]

/-- The masked logit over real data. -/
def maskedR (b : Fin 8) (n m : Fin 2048) : ℝ :=
  Scalar.select (IntOp.cmpi .eq (mask (ix3 b n m)) 1#32) negR (attR xr W1r b1r W2r b2r b n m)

theorem maskedOf_up (b : Fin 8) (n m : Fin 2048) :
    maskedOf (up xr) mask (up W1r) (up b1r) (up W2r) (up b2r) b n m
      = ((maskedR xr mask W1r b1r W2r b2r b n m : ℝ) : EReal) := by
  unfold maskedOf maskedR
  rw [cNeg_eq, attOf_up, select_coe]

theorem maskedA_up (b : Fin 8) (n m : Fin 2048) :
    maskedA (qK (up xr) (up W1r) (up b1r)) (kK (up xr) (up W2r) (up b2r)) mask b n m
      = ((maskedR xr mask W1r b1r W2r b2r b n m : ℝ) : EReal) := by
  unfold maskedA maskedR
  rw [cNeg_eq, attA_up, select_coe]

/-- The aggregation of the rows by the logits, over real data. -/
def aggR (b : Fin 8) (n : Fin 2048) (d : Fin 768) : ℝ :=
  ∑ m : Fin 2048, attR xr W1r b1r W2r b2r b n m * xr (ix3 b m d)

theorem aggOf_up (b : Fin 8) (n : Fin 2048) (d : Fin 768) :
    aggOf (up xr) (up W1r) (up b1r) (up W2r) (up b2r) b n d = ((aggR xr W1r b1r W2r b2r b n d : ℝ) : EReal) := by
  unfold aggOf aggR
  simp only [attOf_up, up_apply]
  rw [coe_sum_mul]

/-- The first stage's result over real data. -/
def g1R (b : Fin 8) (n : Fin 2048) (e : Fin 768) : ℝ :=
  (∑ d : Fin 768, aggR xr W1r b1r W2r b2r b n d * W3r (ix2 e d)) + b3r (ix1 e)

theorem g1Of_up (b : Fin 8) (n : Fin 2048) (e : Fin 768) :
    g1Of (up xr) (up W1r) (up b1r) (up W2r) (up b2r) (up W3r) (up b3r) b n e
      = ((g1R xr W1r b1r W2r b2r W3r b3r b n e : ℝ) : EReal) := by
  unfold g1Of g1R
  simp only [aggOf_up, up_apply]
  rw [coe_sum_mul, ← EReal.coe_add]

/-! ## The kernel's first stage -/

/-- The accumulated contraction of the rows is the real contraction over all 2048 rows. -/
theorem accKX_up (b : Fin 8) (d e : Fin 768) :
    accKX (up xr) (kK (up xr) (up W2r) (up b2r)) b d e
      = ((∑ m : Fin 2048, linR xr W2r b2r b m d * xr (ix3 b m e) : ℝ) : EReal) := by
  rw [sum_rows fun m => linR xr W2r b2r b m d * xr (ix3 b m e)]
  unfold accKX tileKX kK
  simp only [kOf_up, up_apply, coe_sum_mul, EReal.coe_add, EReal.coe_zero]

/-- q contracted with the scaled matrix is the aggregation of the rows by the logits. -/
theorem preK_up (b : Fin 8) (n : Fin 2048) (e : Fin 768) :
    ∑ d : Fin 768, qK (up xr) (up W1r) (up b1r) b n d * mK (up xr) (up W2r) (up b2r) b d e
      = ((aggR xr W1r b1r W2r b2r b n e : ℝ) : EReal) := by
  unfold mK mA qK
  simp only [qOf_up, accKX_up]
  rw [Cert.AttnAssoc.rows_first (fun d => linR xr W1r b1r b n d)
    (fun d => ∑ m : Fin 2048, linR xr W2r b2r b m d * xr (ix3 b m e)) (1 / 28),
    Cert.AttnAssoc.assoc_real (fun d => linR xr W1r b1r b n d) (fun m d => linR xr W2r b2r b m d)
      (fun m => xr (ix3 b m e)) (1 / 28)]
  rfl

theorem g1K_up (b : Fin 8) (n : Fin 2048) (e : Fin 768) :
    g1K (up xr) (up W1r) (up b1r) (up W2r) (up b2r) (up W3r) (up b3r) b n e
      = ((g1R xr W1r b1r W2r b2r W3r b3r b n e : ℝ) : EReal) := by
  unfold g1K g1A g1R
  simp only [preK_up, up_apply]
  rw [coe_sum_mul, ← EReal.coe_add]

/-- The two arrangements' first stages agree. -/
theorem g1K_eq_g1Of (b : Fin 8) (n : Fin 2048) (e : Fin 768) :
    g1K (up xr) (up W1r) (up b1r) (up W2r) (up b2r) (up W3r) (up b3r) b n e
      = g1Of (up xr) (up W1r) (up b1r) (up W2r) (up b2r) (up W3r) (up b3r) b n e := by
  rw [g1K_up, g1Of_up]

end Cert.KernelIdeal.Bridge

end
-- ==== Proof.LibOnlineSoftmax.lean ====
/-
  The online softmax recurrence, on the extended reals.

  A row of finite logits `x t k` arrives tile by tile (`t` the tile, `k` the place inside the tile), each with a real
  weight `w t k` (a mask, usually).  A running shift `μ` starts at `−∞` and after tile `t` is `max μ (a t)` for a
  finite `a t` of the tile's choosing (the tile's maximum, usually; the identities below hold for any finite choice);
  a running sum `s` starts at `0` and after tile `t` is

      exp (μ_before − μ_after) · s  +  Σ_k exp (x t k − μ_after) · w t k.

  Then after `j + 1` tiles `μ` is the real number `max (a 0) … (a j)` and `s` is the real number
  `Σ_{t ≤ j} Σ_k exp (x t k − μ) · w t k`: the sum one would have formed had the final shift been known from the
  start.  The first tile meets `μ_before = −∞`: the factor is `exp (−∞) = 0` against `s = 0`.
  Also here: a plain running sum of tile sums, and the running maximum as the greatest of the shifts.
-/
import Idealize.ShloMosaic.PureOps.Ideal

noncomputable section

open Idealize.ShloMosaic

namespace OnlineSoftmax

/-- A finite sum of real numbers, read in the extended reals, is the sum of their readings. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

variable {κ : Type*} [Fintype κ]

/-- The running shift: `−∞` before the first tile, then the greatest shift met so far. -/
def runMax (a : ℕ → ℝ) : ℕ → EReal
  | 0 => ⊥
  | j + 1 => max (runMax a j) (a j : EReal)

/-- The greatest of the shifts `a 0, …, a j`, as a real number. -/
def realMax (a : ℕ → ℝ) : ℕ → ℝ
  | 0 => a 0
  | j + 1 => max (realMax a j) (a (j + 1))

/-- Once a tile has been seen the running shift is finite: the greatest shift so far. -/
theorem runMax_succ (a : ℕ → ℝ) (j : ℕ) : runMax a (j + 1) = (realMax a j : EReal) := by
  induction j with
  | zero => simp [runMax, realMax]
  | succ j ih =>
    rw [runMax, ih, realMax]
    exact (EReal.coe_strictMono.monotone.map_max).symm

theorem le_realMax (a : ℕ → ℝ) (j t : ℕ) (h : t ≤ j) : a t ≤ realMax a j := by
  induction j with
  | zero => obtain rfl : t = 0 := Nat.le_zero.mp h; exact le_refl _
  | succ j ih =>
    rcases Nat.lt_or_ge t (j + 1) with h' | h'
    · exact (ih (Nat.lt_succ_iff.mp h')).trans (le_max_left _ _)
    · obtain rfl : t = j + 1 := le_antisymm h h'
      exact le_max_right _ _

theorem realMax_attained (a : ℕ → ℝ) (j : ℕ) : ∃ t, t ≤ j ∧ realMax a j = a t := by
  induction j with
  | zero => exact ⟨0, le_refl _, rfl⟩
  | succ j ih =>
    obtain ⟨t, ht, e⟩ := ih
    rcases le_total (realMax a j) (a (j + 1)) with h | h
    · exact ⟨j + 1, le_refl _, by rw [realMax, max_eq_right h]⟩
    · exact ⟨t, ht.trans (Nat.le_succ _), by rw [realMax, max_eq_left h, e]⟩

/-- The running sum: `0` before the first tile; each tile rescales what was kept by the exponential of the change of
    the shift and adds its own terms at the new shift. -/
def runSum (a : ℕ → ℝ) (x w : ℕ → κ → ℝ) : ℕ → EReal
  | 0 => 0
  | j + 1 => Ideal.exp (runMax a j - runMax a (j + 1)) * runSum a x w j
      + ∑ k, Ideal.exp ((x j k : EReal) - runMax a (j + 1)) * (w j k : EReal)

/-- One tile's terms at a finite shift are real numbers. -/
theorem tile_terms (x w : κ → ℝ) (r : ℝ) :
    ∑ k, Ideal.exp ((x k : EReal) - (r : EReal)) * (w k : EReal)
      = ((∑ k, Real.exp (x k - r) * w k : ℝ) : EReal) := by
  rw [coe_sum]
  refine Finset.sum_congr rfl fun k _ => ?_
  rw [← EReal.coe_sub, Ideal.exp_coe, ← EReal.coe_mul]

/-- After `j + 1` tiles the running sum is the whole sum taken at the final shift. -/
theorem runSum_succ (a : ℕ → ℝ) (x w : ℕ → κ → ℝ) (j : ℕ) :
    runSum a x w (j + 1)
      = ((∑ t ∈ Finset.range (j + 1), ∑ k, Real.exp (x t k - realMax a j) * w t k : ℝ) : EReal) := by
  induction j with
  | zero =>
    rw [runSum, runMax_succ, tile_terms]
    simp [runSum, runMax]
  | succ j ih =>
    rw [runSum, ih, runMax_succ, runMax_succ, tile_terms, ← EReal.coe_sub, Ideal.exp_coe, ← EReal.coe_mul,
      ← EReal.coe_add]
    congr 1
    rw [Finset.sum_range_succ _ (j + 1), Finset.mul_sum]
    congr 1
    refine Finset.sum_congr rfl fun t _ => ?_
    rw [Finset.mul_sum]
    refine Finset.sum_congr rfl fun k _ => ?_
    rw [← mul_assoc, ← Real.exp_add]
    congr 2
    ring

/-- A running sum of tile sums, each tile's sum started from `0`: after `j` tiles it is the whole sum. -/
def runAdd (v : ℕ → κ → ℝ) : ℕ → EReal
  | 0 => 0
  | j + 1 => runAdd v j + (0 + ∑ k, (v j k : EReal))

theorem runAdd_eq (v : ℕ → κ → ℝ) (j : ℕ) :
    runAdd v j = ((∑ t ∈ Finset.range j, ∑ k, v t k : ℝ) : EReal) := by
  induction j with
  | zero => simp [runAdd]
  | succ j ih => rw [runAdd, ih, zero_add, ← coe_sum, ← EReal.coe_add, Finset.sum_range_succ]

/-! ## The masked sum of log-probabilities

A row's mean log-probability over its positives, `Σ_j p j · ((ℓ j − M) − L)`, with `M` the row's shift and `L` the
logarithm of its denominator, is `Σ_j p j · ℓpos j − (Σ_j p j) · (M + L)` as soon as `p j · ℓ j = p j · ℓpos j` for
every `j` — which holds when `ℓ` is the masks' combination of two logits and the masks are 0/1 and exclusive. -/

theorem masked_logprob_sum {ι : Type*} [Fintype ι] (p l lpos : ι → ℝ) (M L : ℝ)
    (h : ∀ j, p j * l j = p j * lpos j) :
    ∑ j, p j * ((l j - M) - L) = (∑ j, p j * lpos j) - (∑ j, p j) * (M + L) := by
  have e : ∀ j, p j * ((l j - M) - L) = p j * lpos j - p j * (M + L) := fun j => by
    rw [← h j]; ring
  rw [Finset.sum_congr rfl fun j _ => e j, Finset.sum_sub_distrib, ← Finset.sum_mul]

/-- With `a` the same-label indicator and `d` the off-diagonal indicator (each 0 or 1), the positive mask `a · d`
    times the combined logit `(a · d) · ℓpos + (d − a · d) · ℓneg` is the positive mask times `ℓpos`. -/
theorem pos_mask_mul_combined (a d lpos lneg : ℝ) (ha : a = 0 ∨ a = 1) (hd : d = 0 ∨ d = 1) :
    (a * d) * ((a * d) * lpos + (d - a * d) * lneg) = (a * d) * lpos := by
  rcases ha with rfl | rfl <;> rcases hd with rfl | rfl <;> ring

end OnlineSoftmax

end
-- ==== Proof.LibFlashRow.lean ====
/-
  The blockwise softmax with a weighted accumulator, on the extended reals.

  A row of logits arrives tile by tile (t the tile, c the place inside it), each place with a weight.  Three running
  quantities are kept.  The shift mu starts at minus infinity and after a tile is the larger of itself and the tile's
  largest logit (a fold of the larger-of-two from minus infinity).  The denominator starts at 0 and after a tile is

      exp (mu_before - mu_after) * denominator  +  (0 + Σ_c exp (z t c - mu_after)),

  and the weighted accumulator starts at 0 and after a tile is

      exp (mu_before - mu_after) * accumulator  +  (0 + Σ_c exp (z t c - mu_after) * v t c).

  When the logits and the weights are real numbers, then after T tiles (T at least 1) the shift is the largest logit
  R of the whole row, the denominator is Σ exp (z - R) over the whole row, and the accumulator is Σ exp (z - R) * v
  over the whole row: what one would have formed had R been known from the start.  The first tile meets the shift
  minus infinity: its factor is exp (minus infinity) = 0 against a zero total.  The denominator is positive (every
  term is, and the row is not empty), so the total quotient accumulator / denominator is the real quotient, which is
  Σ_m (exp (z m - R) / Σ_m' exp (z m' - R)) * v m : the softmax of the row, shifted by its largest entry, contracted
  with the weights.
-/
import proofs.«152342_j15135464751210_2_alg».proof.Proof.LibIdealReal
import proofs.«152342_j15135464751210_2_alg».proof.Proof.LibTileSum
import proofs.«152342_j15135464751210_2_alg».proof.Proof.LibOnlineSoftmax

noncomputable section

open Idealize.ShloMosaic

namespace Cert.FlashRow

open Cert.IdealReal OnlineSoftmax

variable {C ι : Type*} [Fintype C] [Fintype ι]

/-- The largest logit of a tile, folded from minus infinity. -/
def tileMax (z : C → EReal) : EReal := (Finset.univ : Finset C).fold max ⊥ z

/-- The running shift. -/
def mu (z : ℕ → C → EReal) : ℕ → EReal
  | 0 => ⊥
  | j + 1 => max (mu z j) (tileMax (z j))

/-- The running denominator. -/
def den (z : ℕ → C → EReal) : ℕ → EReal
  | 0 => 0
  | j + 1 => Ideal.exp (mu z j - mu z (j + 1)) * den z j + (0 + ∑ c, Ideal.exp (z j c - mu z (j + 1)))

/-- The running weighted accumulator. -/
def acc (z v : ℕ → C → EReal) : ℕ → EReal
  | 0 => 0
  | j + 1 => Ideal.exp (mu z j - mu z (j + 1)) * acc z v j
      + (0 + ∑ c, Ideal.exp (z j c - mu z (j + 1)) * v j c)

theorem mu_zero (z : ℕ → C → EReal) : mu z 0 = ⊥ := rfl
theorem mu_succ (z : ℕ → C → EReal) (j : ℕ) : mu z (j + 1) = max (mu z j) (tileMax (z j)) := rfl
theorem den_zero (z : ℕ → C → EReal) : den z 0 = 0 := rfl
theorem den_succ (z : ℕ → C → EReal) (j : ℕ) :
    den z (j + 1) = Ideal.exp (mu z j - mu z (j + 1)) * den z j + (0 + ∑ c, Ideal.exp (z j c - mu z (j + 1))) := rfl
theorem acc_zero (z v : ℕ → C → EReal) : acc z v 0 = 0 := rfl
theorem acc_succ (z v : ℕ → C → EReal) (j : ℕ) :
    acc z v (j + 1) = Ideal.exp (mu z j - mu z (j + 1)) * acc z v j
      + (0 + ∑ c, Ideal.exp (z j c - mu z (j + 1)) * v j c) := rfl

section Real

variable [Nonempty C]

/-- A tile of real logits has a real largest logit. -/
theorem tileMax_coe (z : C → EReal) (zr : C → ℝ) (hz : ∀ c, z c = (zr c : EReal)) :
    tileMax z = ((rmax zr : ℝ) : EReal) := by
  rw [show z = fun c => (zr c : EReal) from funext hz]
  exact fold_max_coe zr

/-- The running shift over real logits is the running maximum of the tiles' largest logits. -/
theorem mu_eq (z : ℕ → C → EReal) (zr : ℕ → C → ℝ) (j : ℕ) (hz : ∀ t, t < j → ∀ c, z t c = (zr t c : EReal)) :
    mu z j = runMax (fun t => rmax (zr t)) j := by
  induction j with
  | zero => rfl
  | succ j ih =>
    rw [mu, runMax, ih fun t ht => hz t (Nat.lt_succ_of_lt ht), tileMax_coe (z j) (zr j) (hz j (Nat.lt_succ_self j))]

/-- The running denominator over real logits is the online-softmax running sum with unit weights. -/
theorem den_eq (z : ℕ → C → EReal) (zr : ℕ → C → ℝ) (j : ℕ) (hz : ∀ t, t < j → ∀ c, z t c = (zr t c : EReal)) :
    den z j = runSum (fun t => rmax (zr t)) zr (fun _ _ => 1) j := by
  induction j with
  | zero => rfl
  | succ j ih =>
    have hz' : ∀ t, t < j → ∀ c, z t c = (zr t c : EReal) := fun t ht => hz t (Nat.lt_succ_of_lt ht)
    rw [den, ih hz', runSum, mu_eq z zr j hz', mu_eq z zr (j + 1) hz, zero_add]
    congr 1
    refine Finset.sum_congr rfl fun c _ => ?_
    rw [hz j (Nat.lt_succ_self j) c, EReal.coe_one, mul_one]

/-- The running accumulator over real logits and weights is the online-softmax running sum with those weights. -/
theorem acc_eq (z v : ℕ → C → EReal) (zr vr : ℕ → C → ℝ) (j : ℕ)
    (hz : ∀ t, t < j → ∀ c, z t c = (zr t c : EReal)) (hv : ∀ t, t < j → ∀ c, v t c = (vr t c : EReal)) :
    acc z v j = runSum (fun t => rmax (zr t)) zr vr j := by
  induction j with
  | zero => rfl
  | succ j ih =>
    have hz' : ∀ t, t < j → ∀ c, z t c = (zr t c : EReal) := fun t ht => hz t (Nat.lt_succ_of_lt ht)
    have hv' : ∀ t, t < j → ∀ c, v t c = (vr t c : EReal) := fun t ht => hv t (Nat.lt_succ_of_lt ht)
    rw [acc, ih hz' hv', runSum, mu_eq z zr j hz', mu_eq z zr (j + 1) hz, zero_add]
    congr 1
    refine Finset.sum_congr rfl fun c _ => ?_
    rw [hz j (Nat.lt_succ_self j) c, hv j (Nat.lt_succ_self j) c]

/-- The largest logit met in the first j + 1 tiles. -/
def shift (zr : ℕ → C → ℝ) (j : ℕ) : ℝ := realMax (fun t => rmax (zr t)) j

theorem le_shift (zr : ℕ → C → ℝ) (j t : ℕ) (ht : t ≤ j) (c : C) : zr t c ≤ shift zr j :=
  (le_rmax (zr t) c).trans (le_realMax (fun t => rmax (zr t)) j t ht)

theorem shift_attained (zr : ℕ → C → ℝ) (j : ℕ) : ∃ t, t ≤ j ∧ ∃ c, shift zr j = zr t c := by
  obtain ⟨t, ht, e⟩ := realMax_attained (fun t => rmax (zr t)) j
  obtain ⟨c, hc⟩ := rmax_attained (zr t)
  exact ⟨t, ht, c, by rw [shift, e, hc]⟩

/-- After j + 1 tiles: the shift is the largest logit so far, a real number. -/
theorem mu_closed (z : ℕ → C → EReal) (zr : ℕ → C → ℝ) (j : ℕ)
    (hz : ∀ t, t < j + 1 → ∀ c, z t c = (zr t c : EReal)) : mu z (j + 1) = ((shift zr j : ℝ) : EReal) := by
  rw [mu_eq z zr (j + 1) hz, runMax_succ]; rfl

/-- After j + 1 tiles: the denominator is the whole sum at the final shift. -/
theorem den_closed (z : ℕ → C → EReal) (zr : ℕ → C → ℝ) (j : ℕ)
    (hz : ∀ t, t < j + 1 → ∀ c, z t c = (zr t c : EReal)) :
    den z (j + 1) = ((∑ t ∈ Finset.range (j + 1), ∑ c, Real.exp (zr t c - shift zr j) : ℝ) : EReal) := by
  rw [den_eq z zr (j + 1) hz, runSum_succ]
  simp only [mul_one]
  rfl

/-- After j + 1 tiles: the accumulator is the whole weighted sum at the final shift. -/
theorem acc_closed (z v : ℕ → C → EReal) (zr vr : ℕ → C → ℝ) (j : ℕ)
    (hz : ∀ t, t < j + 1 → ∀ c, z t c = (zr t c : EReal)) (hv : ∀ t, t < j + 1 → ∀ c, v t c = (vr t c : EReal)) :
    acc z v (j + 1)
      = ((∑ t ∈ Finset.range (j + 1), ∑ c, Real.exp (zr t c - shift zr j) * vr t c : ℝ) : EReal) := by
  rw [acc_eq z v zr vr (j + 1) hz hv, runSum_succ]
  rfl

end Real

/-- The recurrences with each tile's sum taken plainly (not accumulated into zero). -/
theorem den_succ' (z : ℕ → C → EReal) (j : ℕ) :
    den z (j + 1) = Ideal.exp (mu z j - mu z (j + 1)) * den z j + ∑ c, Ideal.exp (z j c - mu z (j + 1)) := by
  rw [den, zero_add]

theorem acc_succ' (z v : ℕ → C → EReal) (j : ℕ) :
    acc z v (j + 1) = Ideal.exp (mu z j - mu z (j + 1)) * acc z v j
      + ∑ c, Ideal.exp (z j c - mu z (j + 1)) * v j c := by
  rw [acc, zero_add]

/-! ## The whole row

The places of the row are in one-to-one correspondence with the pairs (tile, place inside the tile). -/

section Whole

variable [Nonempty C] [Nonempty ι] {T : ℕ}

/-- The row's real data, tile by tile (zero past the last tile). -/
def tiled (σ : Fin (T + 1) × C ≃ ι) (zz : ι → ℝ) : ℕ → C → ℝ :=
  fun t c => if h : t < T + 1 then zz (σ (⟨t, h⟩, c)) else 0

theorem tiled_val (σ : Fin (T + 1) × C ≃ ι) (zz : ι → ℝ) (t : Fin (T + 1)) (c : C) :
    tiled σ zz t.val c = zz (σ (t, c)) := by
  unfold tiled
  rw [dif_pos t.isLt]

theorem coe_tiled (σ : Fin (T + 1) × C ≃ ι) (zz : ι → ℝ) (z : ℕ → C → EReal)
    (hz : ∀ (t : Fin (T + 1)) (c : C), z t.val c = (zz (σ (t, c)) : EReal)) :
    ∀ t, t < T + 1 → ∀ c, z t c = (tiled σ zz t c : EReal) := fun t ht c => by
  rw [show tiled σ zz t c = zz (σ (⟨t, ht⟩, c)) from tiled_val σ zz ⟨t, ht⟩ c]
  exact hz ⟨t, ht⟩ c

/-- The final shift is the largest logit of the whole row. -/
theorem shift_whole (σ : Fin (T + 1) × C ≃ ι) (zz : ι → ℝ) : shift (tiled σ zz) T = rmax zz := by
  symm
  apply rmax_unique
  · intro m
    obtain ⟨⟨t, c⟩, rfl⟩ := σ.surjective m
    rw [← tiled_val σ zz t c]
    exact le_shift _ T t.val (Nat.lt_succ_iff.mp t.isLt) c
  · obtain ⟨t, ht, c, e⟩ := shift_attained (tiled σ zz) T
    exact ⟨σ (⟨t, Nat.lt_succ_of_le ht⟩, c), by rw [e, ← tiled_val σ zz ⟨t, Nat.lt_succ_of_le ht⟩ c]⟩

variable (σ : Fin (T + 1) × C ≃ ι) (zz vv : ι → ℝ) (z v : ℕ → C → EReal)

/-- After all the tiles the shift is the row's largest logit. -/
theorem mu_whole (hz : ∀ (t : Fin (T + 1)) (c : C), z t.val c = (zz (σ (t, c)) : EReal)) :
    mu z (T + 1) = ((rmax zz : ℝ) : EReal) := by
  rw [mu_closed z (tiled σ zz) T (coe_tiled σ zz z hz), shift_whole]

/-- After all the tiles the denominator is the row's sum of exponentials at the row's largest logit. -/
theorem den_whole (hz : ∀ (t : Fin (T + 1)) (c : C), z t.val c = (zz (σ (t, c)) : EReal)) :
    den z (T + 1) = ((∑ m, Real.exp (zz m - rmax zz) : ℝ) : EReal) := by
  rw [den_closed z (tiled σ zz) T (coe_tiled σ zz z hz), shift_whole,
    Cert.TileSum.sum_tiles σ (fun m => Real.exp (zz m - rmax zz)) (fun t c => Real.exp (tiled σ zz t c - rmax zz))
      fun t c => by rw [tiled_val]]

/-- After all the tiles the accumulator is the row's weighted sum of exponentials at the row's largest logit. -/
theorem acc_whole (hz : ∀ (t : Fin (T + 1)) (c : C), z t.val c = (zz (σ (t, c)) : EReal))
    (hv : ∀ (t : Fin (T + 1)) (c : C), v t.val c = (vv (σ (t, c)) : EReal)) :
    acc z v (T + 1) = ((∑ m, Real.exp (zz m - rmax zz) * vv m : ℝ) : EReal) := by
  rw [acc_closed z v (tiled σ zz) (tiled σ vv) T (coe_tiled σ zz z hz) (coe_tiled σ vv v hv), shift_whole,
    Cert.TileSum.sum_tiles σ (fun m => Real.exp (zz m - rmax zz) * vv m)
      (fun t c => Real.exp (tiled σ zz t c - rmax zz) * tiled σ vv t c) fun t c => by rw [tiled_val, tiled_val]]

omit [Fintype C] [Nonempty C] in
/-- The row's sum of exponentials is positive. -/
theorem sumExp_pos : 0 < ∑ m, Real.exp (zz m - rmax zz) :=
  Finset.sum_pos (fun m _ => Real.exp_pos _) Finset.univ_nonempty

/-- The accumulator over the denominator is the softmax of the row, contracted with the weights: a real number. -/
theorem div_whole (hz : ∀ (t : Fin (T + 1)) (c : C), z t.val c = (zz (σ (t, c)) : EReal))
    (hv : ∀ (t : Fin (T + 1)) (c : C), v t.val c = (vv (σ (t, c)) : EReal)) :
    Ideal.div (acc z v (T + 1)) (den z (T + 1))
      = ((∑ m, Real.exp (zz m - rmax zz) / (∑ m', Real.exp (zz m' - rmax zz)) * vv m : ℝ) : EReal) := by
  rw [acc_whole σ zz vv z v hz hv, den_whole σ zz z hz, div_coe_coe _ _ (sumExp_pos zz).ne', Finset.sum_div]
  congr 1
  exact Finset.sum_congr rfl fun m _ => by ring

omit [Fintype C] [Nonempty C] in
/-- The softmax of the whole row in the form shifted by a number R that is the row's largest logit, each
    exponential divided by the row's sum of exponentials, contracted with the weights: the same real number. -/
theorem softmax_whole (R : EReal) (hR : R = ((rmax zz : ℝ) : EReal)) :
    ∑ m, Ideal.div (Ideal.exp ((zz m : EReal) - R)) (∑ m', Ideal.exp ((zz m' : EReal) - R)) * (vv m : EReal)
      = ((∑ m, Real.exp (zz m - rmax zz) / (∑ m', Real.exp (zz m' - rmax zz)) * vv m : ℝ) : EReal) := by
  subst hR
  have hs : ∑ m', Ideal.exp ((zz m' : EReal) - ((rmax zz : ℝ) : EReal))
      = ((∑ m', Real.exp (zz m' - rmax zz) : ℝ) : EReal) := by
    rw [Cert.IdealReal.coe_sum]
    exact Finset.sum_congr rfl fun m _ => exp_sub_coe _ _
  rw [Cert.IdealReal.coe_sum, hs]
  apply Finset.sum_congr rfl
  intro m _
  rw [exp_sub_coe, div_coe_coe _ _ (sumExp_pos zz).ne', ← EReal.coe_mul]

/-- The blockwise computation of a row against the softmax of the whole row. -/
theorem flash_eq_softmax (hz : ∀ (t : Fin (T + 1)) (c : C), z t.val c = (zz (σ (t, c)) : EReal))
    (hv : ∀ (t : Fin (T + 1)) (c : C), v t.val c = (vv (σ (t, c)) : EReal))
    (R : EReal) (hR : R = ((rmax zz : ℝ) : EReal)) :
    Ideal.div (acc z v (T + 1)) (den z (T + 1))
      = ∑ m, Ideal.div (Ideal.exp ((zz m : EReal) - R)) (∑ m', Ideal.exp ((zz m' : EReal) - R)) * (vv m : EReal) := by
  rw [div_whole σ zz vv z v hz hv, softmax_whole zz vv R hR]

end Whole

end Cert.FlashRow

end
-- ==== Proof.KI.BrStage2.lean ====
/-
  The second stage of both arrangements over real data.

  The kernel goes through the 2048 keys of a query row in four tiles of 512, keeping a running shift, a running sum
  of exponentials and a running weighted sum of the value rows.  Its state after j tiles is the blockwise-softmax
  recurrence of the row's masked logits and of one column of the values, tile by tile; the masked logits and the
  values are real numbers, so after the four tiles the weighted sum over the plain sum is the softmax of the whole
  row contracted with the value column, which is the reference's context entry.
-/
import proofs.«152342_j15135464751210_2_alg».proof.Proof.KI.BrStage1
import proofs.«152342_j15135464751210_2_alg».proof.Proof.LibFlashRow

noncomputable section

namespace Cert.KernelIdeal.Bridge

open Idealize.ShloMosaic Idealize.ShloMosaic.ValueIdx Cert.ReferenceIdeal.RefValue Cert.KernelIdeal.KSpec Cert.IdealReal
  Cert.FlashRow

/-! ## One key tile, field by field, over any arrays -/

section Step

variable (qA kA vA : Arr3) (mask : SA.Idx → BitVec 32) (b : Fin 8) (n : Fin 2048) (s : Row) (j : Fin 4)

theorem rowStep_shift : (rowStep qA kA vA mask b n s j).shift = max s.shift (tileMaxA qA kA mask b n j) := rfl

theorem rowStep_total :
    (rowStep qA kA vA mask b n s j).total
      = Ideal.exp (s.shift - max s.shift (tileMaxA qA kA mask b n j)) * s.total
        + ∑ c : Fin 512, Ideal.exp (maskedA qA kA mask b n (rowOf j c) - max s.shift (tileMaxA qA kA mask b n j)) := rfl

theorem rowStep_mix (e : Fin 768) :
    (rowStep qA kA vA mask b n s j).mix e
      = Ideal.exp (s.shift - max s.shift (tileMaxA qA kA mask b n j)) * s.mix e
        + ∑ c : Fin 512, Ideal.exp (maskedA qA kA mask b n (rowOf j c) - max s.shift (tileMaxA qA kA mask b n j))
            * vA b (rowOf j c) e := rfl

theorem rowAfter_succ (t : ℕ) (h : t < 4) :
    rowAfter qA kA vA mask b n (t + 1) = rowStep qA kA vA mask b n (rowAfter qA kA vA mask b n t) ⟨t, h⟩ := by
  rw [rowAfter, dif_pos h]

end Step

/-! ## The kernel's rows over real data -/

variable (xr : SX.Idx → ℝ) (mask : SA.Idx → BitVec 32) (W1r : SW.Idx → ℝ) (b1r : SB.Idx → ℝ)
  (W2r : SW.Idx → ℝ) (b2r : SB.Idx → ℝ) (W3r : SW.Idx → ℝ) (b3r : SB.Idx → ℝ)

local notation "qE" => qK (up xr) (up W1r) (up b1r)
local notation "kE" => kK (up xr) (up W2r) (up b2r)
local notation "gE" => g1K (up xr) (up W1r) (up b1r) (up W2r) (up b2r) (up W3r) (up b3r)

/-- The masked logits of query row (b, n), tile by tile (zero past the fourth tile). -/
def zT (b : Fin 8) (n : Fin 2048) : ℕ → Fin 512 → EReal :=
  fun t c => if h : t < 4 then maskedA qE kE mask b n (rowOf ⟨t, h⟩ c) else 0

/-- Column e of the values, tile by tile (zero past the fourth tile). -/
def vT (b : Fin 8) (e : Fin 768) : ℕ → Fin 512 → EReal :=
  fun t c => if h : t < 4 then gE b (rowOf ⟨t, h⟩ c) e else 0

theorem zT_lt (b : Fin 8) (n : Fin 2048) (t : ℕ) (h : t < 4) (c : Fin 512) :
    zT xr mask W1r b1r W2r b2r b n t c = maskedA qE kE mask b n (rowOf ⟨t, h⟩ c) := dif_pos h

theorem vT_lt (b : Fin 8) (e : Fin 768) (t : ℕ) (h : t < 4) (c : Fin 512) :
    vT xr W1r b1r W2r b2r W3r b3r b e t c = gE b (rowOf ⟨t, h⟩ c) e := dif_pos h

/-- The largest masked logit of a tile, in the recurrence's terms. -/
theorem tileMaxA_eq (b : Fin 8) (n : Fin 2048) (t : ℕ) (h : t < 4) :
    tileMaxA qE kE mask b n ⟨t, h⟩ = tileMax (zT xr mask W1r b1r W2r b2r b n t) := by
  unfold tileMaxA tileMax
  rw [cNegInf_eq]
  exact congrArg (fun f => Finset.fold max ⊥ f Finset.univ)
    (funext fun c => (zT_lt xr mask W1r b1r W2r b2r b n t h c).symm)

/-- The kernel's state after j key tiles is the blockwise-softmax recurrence after j tiles. -/
theorem rowAfter_eq (b : Fin 8) (n : Fin 2048) (j : ℕ) (hj : j ≤ 4) :
    (rowAfter qE kE gE mask b n j).shift = mu (zT xr mask W1r b1r W2r b2r b n) j
      ∧ (rowAfter qE kE gE mask b n j).total = den (zT xr mask W1r b1r W2r b2r b n) j
      ∧ ∀ e, (rowAfter qE kE gE mask b n j).mix e
          = acc (zT xr mask W1r b1r W2r b2r b n) (vT xr W1r b1r W2r b2r W3r b3r b e) j := by
  induction j with
  | zero => exact ⟨cNegInf_eq, rfl, fun _ => rfl⟩
  | succ j ih =>
    have h : j < 4 := hj
    obtain ⟨i1, i2, i3⟩ := ih (Nat.le_of_lt h)
    rw [rowAfter_succ qE kE gE mask b n j h]
    refine ⟨?_, ?_, fun e => ?_⟩
    · rw [rowStep_shift, i1, tileMaxA_eq xr mask W1r b1r W2r b2r b n j h]
      rfl
    · rw [rowStep_total, i1, i2, tileMaxA_eq xr mask W1r b1r W2r b2r b n j h, den_succ', mu_succ]
      congr 1
      exact Finset.sum_congr rfl fun c _ => by rw [zT_lt xr mask W1r b1r W2r b2r b n j h c]
    · rw [rowStep_mix, i1, i3 e, tileMaxA_eq xr mask W1r b1r W2r b2r b n j h, acc_succ', mu_succ]
      congr 1
      exact Finset.sum_congr rfl fun c _ => by
        rw [zT_lt xr mask W1r b1r W2r b2r b n j h c, vT_lt xr W1r b1r W2r b2r W3r b3r b e j h c]

/-- The reference's row maximum is the largest masked logit of the row, a real number. -/
theorem rowMaxOf_up (b : Fin 8) (n : Fin 2048) :
    rowMaxOf (up xr) mask (up W1r) (up b1r) (up W2r) (up b2r) b n
      = ((rmax (fun m => maskedR xr mask W1r b1r W2r b2r b n m) : ℝ) : EReal) := by
  unfold rowMaxOf
  rw [cNegInf_eq]
  simp only [maskedOf_up]
  exact fold_max_coe fun m => maskedR xr mask W1r b1r W2r b2r b n m

/-- The masked logits of a tile are real numbers. -/
theorem zT_up (b : Fin 8) (n : Fin 2048) (t : Fin (3 + 1)) (c : Fin 512) :
    zT xr mask W1r b1r W2r b2r b n t.val c
      = ((maskedR xr mask W1r b1r W2r b2r b n (rowEquiv (t, c)) : ℝ) : EReal) := by
  rw [zT_lt xr mask W1r b1r W2r b2r b n t.val t.isLt c, maskedA_up, rowEquiv_apply]

/-- The values of a tile are real numbers. -/
theorem vT_up (b : Fin 8) (e : Fin 768) (t : Fin (3 + 1)) (c : Fin 512) :
    vT xr W1r b1r W2r b2r W3r b3r b e t.val c
      = ((g1R xr W1r b1r W2r b2r W3r b3r b (rowEquiv (t, c)) e : ℝ) : EReal) := by
  rw [vT_lt xr W1r b1r W2r b2r W3r b3r b e t.val t.isLt c, g1K_up, rowEquiv_apply]

/-- The blockwise computation of row (b, n) against the softmax of the whole row, column e of the values. -/
theorem flash_row (b : Fin 8) (n : Fin 2048) (e : Fin 768) :
    Ideal.div (acc (zT xr mask W1r b1r W2r b2r b n) (vT xr W1r b1r W2r b2r W3r b3r b e) (3 + 1))
        (den (zT xr mask W1r b1r W2r b2r b n) (3 + 1))
      = ∑ m : Fin 2048,
          Ideal.div (Ideal.exp (((maskedR xr mask W1r b1r W2r b2r b n m : ℝ) : EReal)
              - rowMaxOf (up xr) mask (up W1r) (up b1r) (up W2r) (up b2r) b n))
            (∑ m' : Fin 2048, Ideal.exp (((maskedR xr mask W1r b1r W2r b2r b n m' : ℝ) : EReal)
              - rowMaxOf (up xr) mask (up W1r) (up b1r) (up W2r) (up b2r) b n))
          * ((g1R xr W1r b1r W2r b2r W3r b3r b m e : ℝ) : EReal) :=
  flash_eq_softmax (T := 3) rowEquiv (fun m => maskedR xr mask W1r b1r W2r b2r b n m)
    (fun m => g1R xr W1r b1r W2r b2r W3r b3r b m e) (zT xr mask W1r b1r W2r b2r b n)
    (vT xr W1r b1r W2r b2r W3r b3r b e) (zT_up xr mask W1r b1r W2r b2r b n) (vT_up xr W1r b1r W2r b2r W3r b3r b e)
    _ (rowMaxOf_up xr mask W1r b1r W2r b2r b n)

/-- After the four key tiles, the weighted sum over the plain sum is the reference's context entry. -/
theorem ctx_eq (b : Fin 8) (n : Fin 2048) (e : Fin 768) :
    Ideal.div ((rowAfter qE kE gE mask b n 4).mix e) (rowAfter qE kE gE mask b n 4).total
      = ctxOf (up xr) mask (up W1r) (up b1r) (up W2r) (up b2r) (up W3r) (up b3r) b n e := by
  obtain ⟨-, h2, h3⟩ := rowAfter_eq xr mask W1r b1r W2r b2r W3r b3r b n (3 + 1) le_rfl
  have h2' : (rowAfter qE kE gE mask b n 4).total = den (zT xr mask W1r b1r W2r b2r b n) (3 + 1) := h2
  have h3' : (rowAfter qE kE gE mask b n 4).mix e
      = acc (zT xr mask W1r b1r W2r b2r b n) (vT xr W1r b1r W2r b2r W3r b3r b e) (3 + 1) := h3 e
  rw [h3', h2', flash_row]
  unfold ctxOf probOf rowSumOf expOf
  simp only [maskedOf_up, g1Of_up]

end Cert.KernelIdeal.Bridge

end
-- ==== Proof.KI.Bridge.lean ====
/-
  The kernel's arrangement and the reference's arrangement compute the same array when every float input is a real
  number: the first stages agree by exchanging two finite sums, the second stages because the blockwise softmax of a
  row is the softmax of the whole row.
-/
import proofs.«152342_j15135464751210_2_alg».proof.Proof.KI.BrStage2

noncomputable section

namespace Cert.KernelIdeal.Bridge

open Idealize.ShloMosaic Idealize.ShloMosaic.ValueIdx Cert.ReferenceIdeal.RefValue Cert.KernelIdeal.KSpec

/-- An array of extended reals all of whose entries are real numbers is the reading of a real array. -/
theorem exists_up {ι : Type*} (f : ι → EReal) (h : ∀ i, ∃ r : ℝ, f i = (r : EReal)) : ∃ g : ι → ℝ, f = up g := by
  choose g hg using h
  exact ⟨g, funext hg⟩

/-- The two results agree entry by entry over real data (the last linear map's weights may be any extended reals). -/
theorem outK_eq_outOf (xr : SX.Idx → ℝ) (mask : SA.Idx → BitVec 32) (W1r : SW.Idx → ℝ) (b1r : SB.Idx → ℝ)
    (W2r : SW.Idx → ℝ) (b2r : SB.Idx → ℝ) (W3r : SW.Idx → ℝ) (b3r : SB.Idx → ℝ) (W4 : SW.Idx → EReal) (b4 : SB.Idx → EReal)
    (b : Fin 8) (n : Fin 2048) (e : Fin 768) :
    outK (up xr) mask (up W1r) (up b1r) (up W2r) (up b2r) (up W3r) (up b3r) W4 b4 b n e
      = outOf (up xr) mask (up W1r) (up b1r) (up W2r) (up b2r) (up W3r) (up b3r) W4 b4 b n e := by
  unfold outK outA outOf g2Of
  simp only [ctx_eq, g1K_eq_g1Of]

/-- The kernel's arrangement equals the reference's arrangement on real inputs. -/
theorem kerOut_eq_refOut (x : SX.Idx → EReal) (mask : SA.Idx → BitVec 32) (W1 : SW.Idx → EReal) (b1 : SB.Idx → EReal)
    (W2 : SW.Idx → EReal) (b2 : SB.Idx → EReal) (W3 : SW.Idx → EReal) (b3 : SB.Idx → EReal) (W4 : SW.Idx → EReal)
    (b4 : SB.Idx → EReal)
    (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) (hW3 : ∀ i, ∃ r : ℝ, W3 i = (r : EReal))
    (hb3 : ∀ i, ∃ r : ℝ, b3 i = (r : EReal)) (_hW4 : ∀ i, ∃ r : ℝ, W4 i = (r : EReal))
    (_hb4 : ∀ i, ∃ r : ℝ, b4 i = (r : EReal)) :
    kerOut x mask W1 b1 W2 b2 W3 b3 W4 b4 = refOut x mask W1 b1 W2 b2 W3 b3 W4 b4 := by
  obtain ⟨xr, rfl⟩ := exists_up x hx
  obtain ⟨W1r, rfl⟩ := exists_up W1 hW1
  obtain ⟨b1r, rfl⟩ := exists_up b1 hb1
  obtain ⟨W2r, rfl⟩ := exists_up W2 hW2
  obtain ⟨b2r, rfl⟩ := exists_up b2 hb2
  obtain ⟨W3r, rfl⟩ := exists_up W3 hW3
  obtain ⟨b3r, rfl⟩ := exists_up b3 hb3
  funext i
  exact outK_eq_outOf xr mask W1r b1r W2r b2r W3r b3r W4 b4 (i 0) (i 1) (i 2)

end Cert.KernelIdeal.Bridge

end
-- ==== Proof.KI.Finite.lean ====
/-
  The precondition, decoded: every entry of the nine float argument arrays is a real number.

  The precondition is the conjunction, over the nine float arguments, of "every entry has absolute value below +∞":
  a comparison of |x| with the pattern of +∞, reduced by `and` over all axes from 1, and the nine results and-ed
  together. A conjunction that is 1 has both parts 1; a reduction by `and` over all axes that is 1 met only 1s; and an
  extended real whose absolute value max x (-x) is below ⊤ is neither ⊤ nor ⊥, so it is a real.
-/
import proofs.«152342_j15135464751210_2_alg».proof.Defs
import Idealize.ShloMosaic.Lib.ReduceAll
import Idealize.ShloMosaic.Lib.ValueIdx

noncomputable section

namespace Cert.KernelIdeal.Finite

open Idealize.ShloMosaic Idealize.ShloMosaic.TcCoe Idealize.SL.Sem

/-- The scalar shape has one index. -/
instance : Subsingleton Cert.Pre_finite_inputs.S_.Idx := ⟨fun a b => funext fun d => d.elim0⟩

/-- The pattern 0x7F800000 denotes +∞. -/
theorem ofBits_pos_inf : Ideal.ofBits .f32 0x7F800000#32 = (⊤ : EReal) := by simp [Ideal.ofBits, Ideal.ieee]

/-- An extended real whose absolute value compares below +∞ is a real. -/
theorem real_of_abs_lt (y : EReal) (e : Ideal.cmp .olt (max y (-y)) (Ideal.ofBits .f32 0x7F800000#32) = 1#1) :
    ∃ r : ℝ, y = (r : EReal) := by
  rw [ofBits_pos_inf] at e
  have hlt : max y (-y) < ⊤ := by
    by_contra hn
    have e3 : Ideal.cmp .olt (max y (-y)) ⊤ = 0#1 := by
      show BitVec.ofBool (decide (max y (-y) < ⊤)) = 0#1
      rw [decide_eq_false hn]; rfl
    rw [e3] at e
    exact absurd e (by decide)
  have h1 : y < ⊤ := lt_of_le_of_lt (le_max_left _ _) hlt
  have h2 : -y < ⊤ := lt_of_le_of_lt (le_max_right _ _) hlt
  have hb : y ≠ ⊥ := fun hbot => by
    rw [hbot, EReal.neg_bot] at h2
    exact lt_irrefl _ h2
  exact ⟨y.toReal, (EReal.coe_toReal h1.ne hb).symm⟩

/-- One array's part of the precondition: if "|x| < +∞ everywhere", reduced by `and` over all axes, is 1, every entry
    of x is a real. -/
theorem all_real {s : Shape} {axes : List (Fin s.rank)} (x : FVec Ideal s .f32)
    (dims : Fin Cert.Pre_finite_inputs.S_.rank → Fin s.rank) (hb : Cert.Pre_finite_inputs.S_.BroadcastsInDim s dims)
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x) (broadcastInDim s dims hb (constant Cert.Pre_finite_inputs.S_ .f32 0x7F800000#32)))
        (constantI Cert.Pre_finite_inputs.S_ 1 1#1) hr hu j = 1#1) (i : s.Idx) :
    ∃ r : ℝ, x i = (r : EReal) :=
  real_of_abs_lt (x i) (Host.reduce_andi_all _ _ hr hu j e i)

variable [Cert.Pre_finite_inputs.Facts]

/-- Under the precondition every entry of each of the nine float arguments is a real. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S8x2048x768.Idx, ∃ r : ℝ, (m ((c.tc : Thread Cert.KernelIdeal.nD Cert.KernelIdeal.τ).loc Cert.KernelIdeal.main_arg0)) i = (r : EReal))
    ∧ (∀ i : Cert.Pre_finite_inputs.S768x768.Idx, ∃ r : ℝ, (m ((c.tc : Thread Cert.KernelIdeal.nD Cert.KernelIdeal.τ).loc Cert.KernelIdeal.main_arg2)) i = (r : EReal))
    ∧ (∀ i : Cert.Pre_finite_inputs.S768.Idx, ∃ r : ℝ, (m ((c.tc : Thread Cert.KernelIdeal.nD Cert.KernelIdeal.τ).loc Cert.KernelIdeal.main_arg3)) i = (r : EReal))
    ∧ (∀ i : Cert.Pre_finite_inputs.S768x768.Idx, ∃ r : ℝ, (m ((c.tc : Thread Cert.KernelIdeal.nD Cert.KernelIdeal.τ).loc Cert.KernelIdeal.main_arg4)) i = (r : EReal))
    ∧ (∀ i : Cert.Pre_finite_inputs.S768.Idx, ∃ r : ℝ, (m ((c.tc : Thread Cert.KernelIdeal.nD Cert.KernelIdeal.τ).loc Cert.KernelIdeal.main_arg5)) i = (r : EReal))
    ∧ (∀ i : Cert.Pre_finite_inputs.S768x768.Idx, ∃ r : ℝ, (m ((c.tc : Thread Cert.KernelIdeal.nD Cert.KernelIdeal.τ).loc Cert.KernelIdeal.main_arg6)) i = (r : EReal))
    ∧ (∀ i : Cert.Pre_finite_inputs.S768.Idx, ∃ r : ℝ, (m ((c.tc : Thread Cert.KernelIdeal.nD Cert.KernelIdeal.τ).loc Cert.KernelIdeal.main_arg7)) i = (r : EReal))
    ∧ (∀ i : Cert.Pre_finite_inputs.S768x768.Idx, ∃ r : ℝ, (m ((c.tc : Thread Cert.KernelIdeal.nD Cert.KernelIdeal.τ).loc Cert.KernelIdeal.main_arg8)) i = (r : EReal))
    ∧ (∀ i : Cert.Pre_finite_inputs.S768.Idx, ∃ r : ℝ, (m ((c.tc : Thread Cert.KernelIdeal.nD Cert.KernelIdeal.τ).loc Cert.KernelIdeal.main_arg9)) i = (r : EReal)) := by
  have h0 := congrFun (h c) ValueIdx.ix0
  dsimp only [Cert.Pre_finite_inputs.fn, Cert.Pre_finite_inputs.fn_part1, Cert.Pre_finite_inputs.fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real _ _ _ _ _ _ e0, all_real _ _ _ _ _ _ e2, all_real _ _ _ _ _ _ e3, all_real _ _ _ _ _ _ e4,
    all_real _ _ _ _ _ _ e5, all_real _ _ _ _ _ _ e6, all_real _ _ _ _ _ _ e7, all_real _ _ _ _ _ _ e8,
    all_real _ _ _ _ _ _ e9⟩

/-- Every entry of argument 0 is a real. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.Pre_finite_inputs.S8x2048x768.Idx, ∃ r : ℝ, (m ((c.tc : Thread Cert.KernelIdeal.nD Cert.KernelIdeal.τ).loc Cert.KernelIdeal.main_arg0)) i = (r : EReal) :=
  (real_of_pre m h c).1

/-- Every entry of argument 2 is a real. -/
theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.Pre_finite_inputs.S768x768.Idx, ∃ r : ℝ, (m ((c.tc : Thread Cert.KernelIdeal.nD Cert.KernelIdeal.τ).loc Cert.KernelIdeal.main_arg2)) i = (r : EReal) :=
  (real_of_pre m h c).2.1

/-- Every entry of argument 3 is a real. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.Pre_finite_inputs.S768.Idx, ∃ r : ℝ, (m ((c.tc : Thread Cert.KernelIdeal.nD Cert.KernelIdeal.τ).loc Cert.KernelIdeal.main_arg3)) i = (r : EReal) :=
  (real_of_pre m h c).2.2.1

/-- Every entry of argument 4 is a real. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.Pre_finite_inputs.S768x768.Idx, ∃ r : ℝ, (m ((c.tc : Thread Cert.KernelIdeal.nD Cert.KernelIdeal.τ).loc Cert.KernelIdeal.main_arg4)) i = (r : EReal) :=
  (real_of_pre m h c).2.2.2.1

/-- Every entry of argument 5 is a real. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.Pre_finite_inputs.S768.Idx, ∃ r : ℝ, (m ((c.tc : Thread Cert.KernelIdeal.nD Cert.KernelIdeal.τ).loc Cert.KernelIdeal.main_arg5)) i = (r : EReal) :=
  (real_of_pre m h c).2.2.2.2.1

/-- Every entry of argument 6 is a real. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.Pre_finite_inputs.S768x768.Idx, ∃ r : ℝ, (m ((c.tc : Thread Cert.KernelIdeal.nD Cert.KernelIdeal.τ).loc Cert.KernelIdeal.main_arg6)) i = (r : EReal) :=
  (real_of_pre m h c).2.2.2.2.2.1

/-- Every entry of argument 7 is a real. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.Pre_finite_inputs.S768.Idx, ∃ r : ℝ, (m ((c.tc : Thread Cert.KernelIdeal.nD Cert.KernelIdeal.τ).loc Cert.KernelIdeal.main_arg7)) i = (r : EReal) :=
  (real_of_pre m h c).2.2.2.2.2.2.1

/-- Every entry of argument 8 is a real. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.Pre_finite_inputs.S768x768.Idx, ∃ r : ℝ, (m ((c.tc : Thread Cert.KernelIdeal.nD Cert.KernelIdeal.τ).loc Cert.KernelIdeal.main_arg8)) i = (r : EReal) :=
  (real_of_pre m h c).2.2.2.2.2.2.2.1

/-- Every entry of argument 9 is a real. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.Pre_finite_inputs.S768.Idx, ∃ r : ℝ, (m ((c.tc : Thread Cert.KernelIdeal.nD Cert.KernelIdeal.τ).loc Cert.KernelIdeal.main_arg9)) i = (r : EReal) :=
  (real_of_pre m h c).2.2.2.2.2.2.2.2

end Cert.KernelIdeal.Finite

end
-- ==== Proof.Ref.Value.lean ====
/-
  The reference's result, read at an index, is the index-by-index function `refOut` of the argument arrays.

  The generated reading of the reference gives, for every operation but the row maximum, the value it writes at an
  index in terms of its operands at indices. Here those readings are chained stage by stage — one lemma per named
  intermediate of the specification, each read at an index given by coordinates — and the row maximum, a reduction
  with a maximum body over the last axis, is read as the fold of max over the row.
-/
import proofs.«152342_j15135464751210_2_alg».proof.Proof.Gen.ReferenceIdeal.Read
import proofs.«152342_j15135464751210_2_alg».proof.Proof.Ref.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- An array of the shape of x, as the program's signature types it. -/
abbrev TX : Type := (⟨S8x2048x768, .f32⟩ : BufTy).Contents (Elt Ideal)
/-- The mask, as the program's signature types it. -/
abbrev TM : Type := (⟨S8x2048x2048, .i32⟩ : BufTy).Contents (Elt Ideal)
/-- A weight matrix, as the program's signature types it. -/
abbrev TW : Type := (⟨S768x768, .f32⟩ : BufTy).Contents (Elt Ideal)
/-- A bias, as the program's signature types it. -/
abbrev TB : Type := (⟨S768, .f32⟩ : BufTy).Contents (Elt Ideal)

/-! ## The composed index functions, by coordinates -/

section Indices
variable (b : Fin 8) (n m : Fin 2048) (e d : Fin 768)

theorem lidx_v0 (k : Fin 768) : lidx_main_v0 (ix3 b n e) k = ix3 b n k :=
  funext fun a => Fin.ext (by match a with | ⟨0, _⟩ => rfl | ⟨1, _⟩ => rfl | ⟨2, _⟩ => rfl)
theorem ridx_v0 (k : Fin 768) : ridx_main_v0 (ix3 b n e) k = ix2 e k :=
  funext fun a => Fin.ext (by match a with | ⟨0, _⟩ => rfl | ⟨1, _⟩ => rfl)
theorem idx_v2 : idx_main_v1 (idx_main_v2 (ix3 b n e)) = ix1 e :=
  funext fun a => Fin.ext (by match a with | ⟨0, _⟩ => rfl)
theorem lidx_v4 (k : Fin 768) : lidx_main_v4 (ix3 b n e) k = ix3 b n k :=
  funext fun a => Fin.ext (by match a with | ⟨0, _⟩ => rfl | ⟨1, _⟩ => rfl | ⟨2, _⟩ => rfl)
theorem ridx_v4 (k : Fin 768) : ridx_main_v4 (ix3 b n e) k = ix2 e k :=
  funext fun a => Fin.ext (by match a with | ⟨0, _⟩ => rfl | ⟨1, _⟩ => rfl)
theorem idx_v6 : idx_main_v5 (idx_main_v6 (ix3 b n e)) = ix1 e :=
  funext fun a => Fin.ext (by match a with | ⟨0, _⟩ => rfl)
theorem lidx_v8 (k : Fin 768) : lidx_main_v8 (ix3 b n m) k = ix3 b n k :=
  funext fun a => Fin.ext (by match a with | ⟨0, _⟩ => rfl | ⟨1, _⟩ => rfl | ⟨2, _⟩ => rfl)
theorem ridx_v8 (k : Fin 768) : ridx_main_v8 (ix3 b n m) k = ix3 b m k :=
  funext fun a => Fin.ext (by match a with | ⟨0, _⟩ => rfl | ⟨1, _⟩ => rfl | ⟨2, _⟩ => rfl)
theorem lidx_v11 (k : Fin 2048) : lidx_main_v11 (ix3 b n d) k = ix3 b n k :=
  funext fun a => Fin.ext (by match a with | ⟨0, _⟩ => rfl | ⟨1, _⟩ => rfl | ⟨2, _⟩ => rfl)
theorem ridx_v11 (k : Fin 2048) : ridx_main_v11 (ix3 b n d) k = ix3 b k d :=
  funext fun a => Fin.ext (by match a with | ⟨0, _⟩ => rfl | ⟨1, _⟩ => rfl | ⟨2, _⟩ => rfl)
theorem lidx_v12 (k : Fin 768) : lidx_main_v12 (ix3 b n e) k = ix3 b n k :=
  funext fun a => Fin.ext (by match a with | ⟨0, _⟩ => rfl | ⟨1, _⟩ => rfl | ⟨2, _⟩ => rfl)
theorem ridx_v12 (k : Fin 768) : ridx_main_v12 (ix3 b n e) k = ix2 e k :=
  funext fun a => Fin.ext (by match a with | ⟨0, _⟩ => rfl | ⟨1, _⟩ => rfl)
theorem idx_v14 : idx_main_v13 (idx_main_v14 (ix3 b n e)) = ix1 e :=
  funext fun a => Fin.ext (by match a with | ⟨0, _⟩ => rfl)
theorem idx_v23 : idx_main_v22 (idx_main_v23 (ix3 b n m)) = ix2 b n :=
  funext fun a => Fin.ext (by match a with | ⟨0, _⟩ => rfl | ⟨1, _⟩ => rfl)
theorem idx_v26 (k : Fin 2048) : idx_main_v26 (ix2 b n) k = ix3 b n k :=
  funext fun a => Fin.ext (by match a with | ⟨0, _⟩ => rfl | ⟨1, _⟩ => rfl | ⟨2, _⟩ => rfl)
theorem idx_v28 : idx_main_v27 (idx_main_v28 (ix3 b n m)) = ix2 b n :=
  funext fun a => Fin.ext (by match a with | ⟨0, _⟩ => rfl | ⟨1, _⟩ => rfl)
theorem lidx_v30 (k : Fin 2048) : lidx_main_v30 (ix3 b n e) k = ix3 b n k :=
  funext fun a => Fin.ext (by match a with | ⟨0, _⟩ => rfl | ⟨1, _⟩ => rfl | ⟨2, _⟩ => rfl)
theorem ridx_v30 (k : Fin 2048) : ridx_main_v30 (ix3 b n e) k = ix3 b k e :=
  funext fun a => Fin.ext (by match a with | ⟨0, _⟩ => rfl | ⟨1, _⟩ => rfl | ⟨2, _⟩ => rfl)
theorem lidx_v31 (k : Fin 768) : lidx_main_v31 (ix3 b n e) k = ix3 b n k :=
  funext fun a => Fin.ext (by match a with | ⟨0, _⟩ => rfl | ⟨1, _⟩ => rfl | ⟨2, _⟩ => rfl)
theorem ridx_v31 (k : Fin 768) : ridx_main_v31 (ix3 b n e) k = ix2 e k :=
  funext fun a => Fin.ext (by match a with | ⟨0, _⟩ => rfl | ⟨1, _⟩ => rfl)
theorem idx_v33 : idx_main_v32 (idx_main_v33 (ix3 b n e)) = ix1 e :=
  funext fun a => Fin.ext (by match a with | ⟨0, _⟩ => rfl)

end Indices

/-! ## The linear stages -/

section Stages
variable (x0 : TX) (x1 : TM) (x2 : TW) (x3 : TB) (x4 : TW) (x5 : TB) (x6 : TW) (x7 : TB) (x8 : TW) (x9 : TB)
variable (b : Fin 8) (n m : Fin 2048) (e d : Fin 768)

/-- q at (b, n, e). -/
theorem q_eq : val_main_v3 (F := Ideal) x0 x2 x3 (ix3 b n e) = qOf x0 x2 x3 b n e := by
  rw [val_main_v3_apply, val_main_v0_apply, val_main_v2_apply, val_main_v1_apply]
  simp only [lidx_v0, ridx_v0, idx_v2]
  rfl

/-- k at (b, n, e). -/
theorem k_eq : val_main_v7 (F := Ideal) x0 x4 x5 (ix3 b n e) = kOf x0 x4 x5 b n e := by
  rw [val_main_v7_apply, val_main_v4_apply, val_main_v6_apply, val_main_v5_apply]
  simp only [lidx_v4, ridx_v4, idx_v6]
  rfl

/-- The logit at (b, n, m). -/
theorem att_eq : val_main_v10 (F := Ideal) x0 x2 x3 x4 x5 (ix3 b n m) = attOf x0 x2 x3 x4 x5 b n m := by
  rw [val_main_v10_apply, val_main_v8_apply, val_main_v9_apply, val_main_cst_apply]
  simp only [lidx_v8, ridx_v8, q_eq, k_eq]
  rfl

/-- (att · x) at (b, n, d). -/
theorem agg_eq : val_main_v11 (F := Ideal) x0 x2 x3 x4 x5 (ix3 b n d) = aggOf x0 x2 x3 x4 x5 b n d := by
  rw [val_main_v11_apply]
  simp only [lidx_v11, ridx_v11, att_eq]
  rfl

/-- g1 at (b, n, e). -/
theorem g1_eq : val_main_v15 (F := Ideal) x0 x2 x3 x4 x5 x6 x7 (ix3 b n e) = g1Of x0 x2 x3 x4 x5 x6 x7 b n e := by
  rw [val_main_v15_apply, val_main_v12_apply, val_main_v14_apply, val_main_v13_apply]
  simp only [lidx_v12, ridx_v12, idx_v14, agg_eq]
  rfl

/-! ## The masked softmax -/

/-- The masked logit at (b, n, m). -/
theorem masked_eq : val_main_v18 (F := Ideal) x0 x1 x2 x3 x4 x5 (ix3 b n m) = maskedOf x0 x1 x2 x3 x4 x5 b n m := by
  rw [val_main_v18_apply, val_main_v17_apply, val_main_v16_apply, val_main_c_apply, val_main_call0_v0_apply,
    val_main_cst_0_apply, att_eq]
  rfl

/-- The reduced index (b, n) with the column k put back is (b, n, k). -/
theorem lift_row (h : S8x2048x2048.Reduces [2] S8x2048) (k : Fin (S8x2048x2048.size 2)) :
    h.lift (ix2 b n) k = ix3 b n (⟨k.val, k.isLt⟩ : Fin 2048) := by
  funext c; apply Fin.ext
  fin_cases c <;> rfl

/-- A fold of max that starts from `a` is at least `a`. -/
theorem max_fold_absorb {ι : Type} (s : Finset ι) (a : EReal) (f : ι → EReal) :
    max a (s.fold max a f) = s.fold max a f :=
  max_eq_right (Finset.le_fold_max a |>.2 (Or.inl le_rfl))

/-- The reduction with a maximum body over the last axis, at row (b, n): the fold of max over the row from -∞. -/
theorem rowReduce_eq : val_main_v19 (F := Ideal) x0 x1 x2 x3 x4 x5 (ix2 b n) = rowMaxOf x0 x1 x2 x3 x4 x5 b n := by
  have h : S8x2048x2048.Reduces [2] S8x2048 := by decide
  unfold val_main_v19
  refine (Host.reduce_eq_fold_single FloatOps.maximumf _ _ reducesTo_S8x2048x2048_S8x2048_d2 h h_S_ (ix2 b n)).trans ?_
  rw [val_main_cst_1_apply]
  have hf : (val_main_v18 (F := Ideal) x0 x1 x2 x3 x4 x5 ∘ h.lift (ix2 b n))
      = fun k : Fin 2048 => maskedOf x0 x1 x2 x3 x4 x5 b n k :=
    funext fun k => (congrArg (val_main_v18 (F := Ideal) x0 x1 x2 x3 x4 x5) (lift_row b n h k)).trans
      (masked_eq x0 x1 x2 x3 x4 x5 b n _)
  rw [hf]
  rfl

/-- The row maximum at (b, n). -/
theorem rowMax_eq : val_main_v21 (F := Ideal) x0 x1 x2 x3 x4 x5 (ix2 b n) = rowMaxOf x0 x1 x2 x3 x4 x5 b n := by
  rw [val_main_v21_apply, val_main_v20_apply, val_main_cst_2_apply, rowReduce_eq]
  unfold rowMaxOf
  exact max_fold_absorb _ _ _

/-- The exponential at (b, n, m). -/
theorem exp_eq : val_main_v25 (F := Ideal) x0 x1 x2 x3 x4 x5 (ix3 b n m) = expOf x0 x1 x2 x3 x4 x5 b n m := by
  rw [val_main_v25_apply, val_main_v24_apply, val_main_v23_apply, val_main_v22_apply, idx_v23, rowMax_eq, masked_eq]
  rfl

/-- The row's sum of exponentials at (b, n). -/
theorem rowSum_eq : val_main_v26 (F := Ideal) x0 x1 x2 x3 x4 x5 (ix2 b n) = rowSumOf x0 x1 x2 x3 x4 x5 b n := by
  rw [val_main_v26_apply, val_main_cst_3_apply]
  simp only [idx_v26, exp_eq]
  rw [Ideal.ofBits_def, Ideal.ofBits_zero_f32, zero_add]
  rfl

/-- The probability at (b, n, m). -/
theorem prob_eq : val_main_v29 (F := Ideal) x0 x1 x2 x3 x4 x5 (ix3 b n m) = probOf x0 x1 x2 x3 x4 x5 b n m := by
  rw [val_main_v29_apply, val_main_v28_apply, val_main_v27_apply, idx_v28, rowSum_eq, exp_eq]
  rfl

/-! ## The second aggregation and the result -/

/-- (p · g1) at (b, n, e). -/
theorem ctx_eq : val_main_v30 (F := Ideal) x0 x1 x2 x3 x4 x5 x6 x7 (ix3 b n e) = ctxOf x0 x1 x2 x3 x4 x5 x6 x7 b n e := by
  rw [val_main_v30_apply]
  simp only [lidx_v30, ridx_v30, prob_eq, g1_eq]
  rfl

/-- g2 at (b, n, e). -/
theorem g2_eq : val_main_v34 (F := Ideal) x0 x1 x2 x3 x4 x5 x6 x7 x8 x9 (ix3 b n e)
    = g2Of x0 x1 x2 x3 x4 x5 x6 x7 x8 x9 b n e := by
  rw [val_main_v34_apply, val_main_v31_apply, val_main_v33_apply, val_main_v32_apply]
  simp only [lidx_v31, ridx_v31, idx_v33, ctx_eq]
  rfl

/-- The result at (b, n, e). -/
theorem out_eq : val_main_v35 (F := Ideal) x0 x1 x2 x3 x4 x5 x6 x7 x8 x9 (ix3 b n e)
    = outOf x0 x1 x2 x3 x4 x5 x6 x7 x8 x9 b n e := by
  rw [val_main_v35_apply, g1_eq, g2_eq]
  rfl

/-- The reference's composed result is `refOut` of the argument arrays. -/
theorem val_is_spec : val_main_v35 (F := Ideal) x0 x1 x2 x3 x4 x5 x6 x7 x8 x9 = refOut x0 x1 x2 x3 x4 x5 x6 x7 x8 x9 := by
  funext i
  obtain ⟨b, n, e, rfl⟩ : ∃ (b : Fin 8) (n : Fin 2048) (e : Fin 768), i = ix3 b n e := ⟨i 0, i 1, i 2, eq_ix3 i⟩
  rw [out_eq]
  rfl

end Stages

/-! ## The run -/

/-- The run's result term is `refOut` of the launch contents of the ten arguments. -/
theorem ref_is_spec (m : (ℓ : Loc nD τ sig) → Buf (Elt Ideal) ℓ) (c : Dev nD) :
    Cert.ReferenceIdeal.Value.res_main_v35 (F := Ideal) m c
      = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9)) :=
  (val_main_v35_eq (F := Ideal) m c).trans (val_is_spec _ _ _ _ _ _ _ _ _ _)

/-- Every weakly fair execution of the reference ends with the result buffer at `refOut` of the arguments' launch
    contents, and with the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (ref_is_spec m c), (h c).2⟩)
    (Cert.ReferenceIdeal.Value.run (F := Ideal) m ρ)

end Cert.ReferenceIdeal.RefValue

end
-- ==== Proof.KI.Whole.lean ====
/-
  The whole idealized program's result. The result buffer ends at what the third region's write-backs leave; that is
  the third kernel's function of the arrays it finds; those arrays are what the first two regions left — q, k and the
  768 × 768 matrices from the first, stage 1's result (twice) from the second — each a function of the program's
  arguments, which no region changes. Composed, the result is the kernel's arrangement of the whole computation, and
  under finite inputs that is the reference's arrangement.
-/
import proofs.«152342_j15135464751210_2_alg».proof.Proof.KI.Run
import proofs.«152342_j15135464751210_2_alg».proof.Proof.KI.Val0
import proofs.«152342_j15135464751210_2_alg».proof.Proof.KI.Val1
import proofs.«152342_j15135464751210_2_alg».proof.Proof.KI.Val2.Final
import proofs.«152342_j15135464751210_2_alg».proof.Proof.KI.Bridge
import proofs.«152342_j15135464751210_2_alg».proof.Proof.KI.Finite
import proofs.«152342_j15135464751210_2_alg».proof.Proof.Ref.Value
import proofs.«152342_j15135464751210_2_alg».proof.Defs

set_option maxRecDepth 16384

noncomputable section

namespace Cert.KernelIdeal.Whole

open Cert.KernelIdeal Cert.KernelIdeal.Gen Cert.KernelIdeal.Rgn Cert.KernelIdeal.KSpec Cert.ReferenceIdeal.RefValue
open Idealize.ShloMosaic Idealize.ShloMosaic.TcCoe Idealize.ShloMosaic.ValueIdx Idealize.SL.Sem

variable (m : (ℓ : Loc nD τ sig) → Buf (Elt Ideal) ℓ) (c : Dev nD)

/-! ## What the first region leaves -/

theorem q_after0 : E1 m c main_call0_v0_0
    = fun i => qOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0) (i 1) (i 2) :=
  (B1_arr m c 5).trans (Cert.KernelIdeal.Val0.final0_q (E0 m) c)
theorem k_after0 : E1 m c main_call0_v0_1
    = fun i => kOf (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (i 0) (i 1) (i 2) :=
  (B1_arr m c 6).trans (Cert.KernelIdeal.Val0.final0_k (E0 m) c)
theorem m_after0 : E1 m c main_call0_v0_2
    = fun i => mA (m ((c.tc : Thread Cert.KernelIdeal.nD Cert.KernelIdeal.τ).loc Cert.KernelIdeal.main_arg0)) (fun b n e => kOf (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) b n e) (i 0) (i 1) (i 2) :=
  (B1_arr m c 7).trans (Cert.KernelIdeal.Val0.final0_m (E0 m) c)
theorem w3_after0 : E1 m c main_arg6 = m ((c.tc : Thread Cert.KernelIdeal.nD Cert.KernelIdeal.τ).loc Cert.KernelIdeal.main_arg6) := B1_of_ne m c main_arg6 (by decide)
theorem b3_after0 : E1 m c main_arg7 = m ((c.tc : Thread Cert.KernelIdeal.nD Cert.KernelIdeal.τ).loc Cert.KernelIdeal.main_arg7) := B1_of_ne m c main_arg7 (by decide)

/-! ## What the second region leaves, and what passes through it -/

theorem wide_after1 : E2 m c main_call0_v1_0
    = Cert.KernelIdeal.Val1.g1Arr (E1 m c main_call0_v0_0) (E1 m c main_call0_v0_2) (E1 m c main_arg6) (E1 m c main_arg7) :=
  (B2_arr m c 4).trans (Cert.KernelIdeal.Val1.final1_wide (E1 m) c)
theorem narrow_after1 : E2 m c main_call0_v1_1
    = Cert.KernelIdeal.Val1.g1Arr (E1 m c main_call0_v0_0) (E1 m c main_call0_v0_2) (E1 m c main_arg6) (E1 m c main_arg7) :=
  (B2_arr m c 5).trans (Cert.KernelIdeal.Val1.final1_narrow (E1 m) c)
theorem q_after1 : E2 m c main_call0_v0_0 = E1 m c main_call0_v0_0 := B2_in m c 0 rfl
theorem k_after1 : E2 m c main_call0_v0_1 = E1 m c main_call0_v0_1 := B2_of_ne m c main_call0_v0_1 (by decide)
theorem mask_after1 : E2 m c main_arg1 = m ((c.tc : Thread Cert.KernelIdeal.nD Cert.KernelIdeal.τ).loc Cert.KernelIdeal.main_arg1) :=
  (B2_of_ne m c main_arg1 (by decide)).trans (B1_of_ne m c main_arg1 (by decide))
theorem w4_after1 : E2 m c main_arg8 = m ((c.tc : Thread Cert.KernelIdeal.nD Cert.KernelIdeal.τ).loc Cert.KernelIdeal.main_arg8) :=
  (B2_of_ne m c main_arg8 (by decide)).trans (B1_of_ne m c main_arg8 (by decide))
theorem b4_after1 : E2 m c main_arg9 = m ((c.tc : Thread Cert.KernelIdeal.nD Cert.KernelIdeal.τ).loc Cert.KernelIdeal.main_arg9) :=
  (B2_of_ne m c main_arg9 (by decide)).trans (B1_of_ne m c main_arg9 (by decide))

/-! ## The result -/

/-- The result buffer ends holding the kernel's arrangement of the whole computation of the ten arguments. -/
theorem result_eq_kerOut : B3 m c (Proc.devRef .tc main_v0)
    = kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  rw [result_eq m c, Cert.KernelIdeal.Val2.final2 (E2 m) c]
  rw [q_after1, k_after1, wide_after1, narrow_after1, mask_after1, w4_after1, b4_after1, q_after0, k_after0, m_after0, w3_after0, b3_after0]
  rfl

/-- THE RUN, with the result named: under finite inputs every weakly fair execution terminates, nothing faulting, with
    the result buffer at the REFERENCE's function of the arguments and the ten arguments unchanged. -/
theorem run_value [Cert.Pre_finite_inputs.Facts] (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v0) = refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread nD τ).loc main_arg0) = m ((c.tc : Thread Cert.KernelIdeal.nD Cert.KernelIdeal.τ).loc Cert.KernelIdeal.main_arg0)
      ∧ r.2.mem ((c.tc : Thread nD τ).loc main_arg1) = m ((c.tc : Thread Cert.KernelIdeal.nD Cert.KernelIdeal.τ).loc Cert.KernelIdeal.main_arg1)
      ∧ r.2.mem ((c.tc : Thread nD τ).loc main_arg2) = m ((c.tc : Thread Cert.KernelIdeal.nD Cert.KernelIdeal.τ).loc Cert.KernelIdeal.main_arg2)
      ∧ r.2.mem ((c.tc : Thread nD τ).loc main_arg3) = m ((c.tc : Thread Cert.KernelIdeal.nD Cert.KernelIdeal.τ).loc Cert.KernelIdeal.main_arg3)
      ∧ r.2.mem ((c.tc : Thread nD τ).loc main_arg4) = m ((c.tc : Thread Cert.KernelIdeal.nD Cert.KernelIdeal.τ).loc Cert.KernelIdeal.main_arg4)
      ∧ r.2.mem ((c.tc : Thread nD τ).loc main_arg5) = m ((c.tc : Thread Cert.KernelIdeal.nD Cert.KernelIdeal.τ).loc Cert.KernelIdeal.main_arg5)
      ∧ r.2.mem ((c.tc : Thread nD τ).loc main_arg6) = m ((c.tc : Thread Cert.KernelIdeal.nD Cert.KernelIdeal.τ).loc Cert.KernelIdeal.main_arg6)
      ∧ r.2.mem ((c.tc : Thread nD τ).loc main_arg7) = m ((c.tc : Thread Cert.KernelIdeal.nD Cert.KernelIdeal.τ).loc Cert.KernelIdeal.main_arg7)
      ∧ r.2.mem ((c.tc : Thread nD τ).loc main_arg8) = m ((c.tc : Thread Cert.KernelIdeal.nD Cert.KernelIdeal.τ).loc Cert.KernelIdeal.main_arg8)
      ∧ r.2.mem ((c.tc : Thread nD τ).loc main_arg9) = m ((c.tc : Thread Cert.KernelIdeal.nD Cert.KernelIdeal.τ).loc Cert.KernelIdeal.main_arg9)) :=
  (θ_run defs _ _).mono (fun _ h c =>
    ⟨((h c _ (mem_uc main_v0 (by decide))).trans (result_eq_kerOut m c)).trans
        (Cert.KernelIdeal.Bridge.kerOut_eq_refOut _ _ _ _ _ _ _ _ _ _ (Cert.KernelIdeal.Finite.real_arg0 m hpre c) (Cert.KernelIdeal.Finite.real_arg2 m hpre c) (Cert.KernelIdeal.Finite.real_arg3 m hpre c) (Cert.KernelIdeal.Finite.real_arg4 m hpre c) (Cert.KernelIdeal.Finite.real_arg5 m hpre c) (Cert.KernelIdeal.Finite.real_arg6 m hpre c) (Cert.KernelIdeal.Finite.real_arg7 m hpre c) (Cert.KernelIdeal.Finite.real_arg8 m hpre c) (Cert.KernelIdeal.Finite.real_arg9 m hpre c)),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c),
     (h c _ (mem_uc main_arg5 (by decide))).trans (B3_main_arg5 m c),
     (h c _ (mem_uc main_arg6 (by decide))).trans (B3_main_arg6 m c),
     (h c _ (mem_uc main_arg7 (by decide))).trans (B3_main_arg7 m c),
     (h c _ (mem_uc main_arg8 (by decide))).trans (B3_main_arg8 m c),
     (h c _ (mem_uc main_arg9 (by decide))).trans (B3_main_arg9 m c)⟩) (run_main m ρ)

end Cert.KernelIdeal.Whole

end
-- ==== Proof.lean ====
/-
  The five claims. The kernel is three pipelined regions; its first and third carry scratch buffers from one grid
  point to the next, so each region's frame is proved from that kernel's own run (one run per case of its two
  conditionals) and the three are composed by the library's several-regions launch — once for the printed program at
  the word level, once for its idealization. The two named constants of the idealization are the ledger's two entries.
  At the ideal values the result buffer ends at the kernel's arrangement of the computation — (q·(kᵀx/28))·W3ᵀ + b3 in
  stage 1; a blockwise softmax with running shift, sum and weighted sum in stage 2 — which for finite inputs is the
  reference's arrangement — ((q·kᵀ/28)·x)·W3ᵀ + b3; exp(z − max z)/Σ exp(z − max z) — by moving the scale and the
  sums across one another (finite reals) and by the rescaling law exp(a)·exp(b) = exp(a + b) of the running sums.
-/
import proofs.«152342_j15135464751210_2_alg».proof.Defs
import proofs.«152342_j15135464751210_2_alg».proof.Proof.Gen.Kernel
import proofs.«152342_j15135464751210_2_alg».proof.Proof.Gen.KernelIdeal
import proofs.«152342_j15135464751210_2_alg».proof.Proof.Gen.ReferenceIdeal
import proofs.«152342_j15135464751210_2_alg».proof.Proof.Gen.Pre_finite_inputs
import proofs.«152342_j15135464751210_2_alg».proof.Proof.Gen.ReferenceIdeal.Run
import proofs.«152342_j15135464751210_2_alg».proof.Proof.K.Run
import proofs.«152342_j15135464751210_2_alg».proof.Proof.KI.Run
import proofs.«152342_j15135464751210_2_alg».proof.Proof.KI.Whole
import proofs.«152342_j15135464751210_2_alg».proof.Proof.Ref.Value
import Idealize.ShloMosaic.Adequacy
import Idealize.ShloMosaic.Init

noncomputable section

namespace Cert.Proof

open Idealize.ShloMosaic Idealize.SL.Sem

theorem frame_kernel : Cert.frame_Kernel := fun m ρ _ => Cert.Kernel.Rgn.frame (F := Bits) m ρ

theorem frame_kernelIdeal : Cert.frame_KernelIdeal := fun m ρ _ => Cert.KernelIdeal.Rgn.frame (F := Ideal) m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefValue.ref_run m ρ)

/-- The ledger's two entries: both sites spell 1/28, and the table gives the name that value. -/
theorem preserves : Cert.preserves_Kernel_KernelIdeal :=
  ⟨IdealRules.named_const.statement Cert.KernelIdeal.κ "inv_28" .f32 0x3D124925#32 ((1 / 28 : ℝ) : EReal) rfl,
   IdealRules.named_const.statement Cert.KernelIdeal.κ "inv_28" .f32 0x3D124925#32 ((1 / 28 : ℝ) : EReal) rfl⟩

/-- Both idealized programs, from memories agreeing on the arguments, end with the result at the reference's function
    of the arguments. -/
theorem algebraic : Cert.algebraic_KernelIdeal_ReferenceIdeal := by
  intro m ρ m' ρ' hpre hagree
  refine ⟨_, Cert.KernelIdeal.Whole.run_value m ρ hpre, ?_⟩
  refine (θ_run Cert.ReferenceIdeal.defs _ _).mono (fun _ h c => ⟨(h c).1.trans ?_, (h c).2⟩) (Cert.ReferenceIdeal.RefValue.ref_run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
